-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v136) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x8x1024 : Shape := ⟨3, ![4096, 8, 1024]⟩
abbrev S8192x256 : Shape := ⟨2, ![8192, 256]⟩
abbrev S256 : Shape := ⟨1, ![256]⟩
abbrev S256x256 : Shape := ⟨2, ![256, 256]⟩
abbrev S7168x256 : Shape := ⟨2, ![7168, 256]⟩
abbrev S6144x256 : Shape := ⟨2, ![6144, 256]⟩
abbrev S5120x256 : Shape := ⟨2, ![5120, 256]⟩
abbrev S4096x256 : Shape := ⟨2, ![4096, 256]⟩
abbrev S3072x256 : Shape := ⟨2, ![3072, 256]⟩
abbrev S2048x256 : Shape := ⟨2, ![2048, 256]⟩
abbrev S256x400 : Shape := ⟨2, ![256, 400]⟩
abbrev S400 : Shape := ⟨1, ![400]⟩
abbrev S_ : Shape := ⟨0, ![]⟩

class Facts : Prop where
  bcast_S_S4096x8x1024 : S_.BroadcastsInDim S4096x8x1024 (![] : Fin 0 → Fin S4096x8x1024.rank)
  reducesTo_S4096x8x1024_S_d0_1_2 : S4096x8x1024.ReducesTo [0, 1, 2] S_
  h_S_ : 0 < S_.numel
  bcast_S_S8192x256 : S_.BroadcastsInDim S8192x256 (![] : Fin 0 → Fin S8192x256.rank)
  reducesTo_S8192x256_S_d0_1 : S8192x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S7168x256 : S_.BroadcastsInDim S7168x256 (![] : Fin 0 → Fin S7168x256.rank)
  reducesTo_S7168x256_S_d0_1 : S7168x256.ReducesTo [0, 1] S_
  bcast_S_S6144x256 : S_.BroadcastsInDim S6144x256 (![] : Fin 0 → Fin S6144x256.rank)
  reducesTo_S6144x256_S_d0_1 : S6144x256.ReducesTo [0, 1] S_
  bcast_S_S5120x256 : S_.BroadcastsInDim S5120x256 (![] : Fin 0 → Fin S5120x256.rank)
  reducesTo_S5120x256_S_d0_1 : S5120x256.ReducesTo [0, 1] S_
  bcast_S_S4096x256 : S_.BroadcastsInDim S4096x256 (![] : Fin 0 → Fin S4096x256.rank)
  reducesTo_S4096x256_S_d0_1 : S4096x256.ReducesTo [0, 1] S_
  bcast_S_S3072x256 : S_.BroadcastsInDim S3072x256 (![] : Fin 0 → Fin S3072x256.rank)
  reducesTo_S3072x256_S_d0_1 : S3072x256.ReducesTo [0, 1] S_
  bcast_S_S2048x256 : S_.BroadcastsInDim S2048x256 (![] : Fin 0 → Fin S2048x256.rank)
  reducesTo_S2048x256_S_d0_1 : S2048x256.ReducesTo [0, 1] S_
  bcast_S_S256x400 : S_.BroadcastsInDim S256x400 (![] : Fin 0 → Fin S256x400.rank)
  reducesTo_S256x400_S_d0_1 : S256x400.ReducesTo [0, 1] S_
  bcast_S_S400 : S_.BroadcastsInDim S400 (![] : Fin 0 → Fin S400.rank)
  reducesTo_S400_S_d0 : S400.ReducesTo [0] S_

variable [Facts]

def fn_part8 {F : FTy → Type} [FloatOps F] (main_arg28 : FVec F S256 .f32) (main_arg29 : FVec F S256x400 .f32) (main_arg30 : FVec F S400 .f32) (main_v133 : IVec S_ 1) (main_v136 : IVec S256x256 1) : IVec S_ 1 :=
  let main_c_53 : IVec S_ 1 := constantI S_ 1 1#1
  let main_v137 : IVec S_ 1 := (fun x v => Host.reduce IntOp.andi x v reducesTo_S256x256_S_d0_1 h_S_) main_v136 main_c_53
  let main_v138 : IVec S_ 1 := andi main_v133 main_v137
  let main_v139 : FVec F S256 .f32 := Host.absf main_arg28
  let main_cst_54 : FVec F S_ .f32 := constant S_ .f32 0x7F800000#32
  let main_v140 : FVec F S256 .f32 := broadcastInDim S256 ![] bcast_S_S256 main_cst_54
  let main_v141 : IVec S256 1 := cmpf .olt main_v139 main_v140
  let main_c_55 : IVec S_ 1 := constantI S_ 1 1#1
  let main_v142 : IVec S_ 1 := (fun x v => Host.reduce IntOp.andi x v reducesTo_S256_S_d0 h_S_) main_v141 main_c_55
  let main_v143 : IVec S_ 1 := andi main_v138 main_v142
  let main_v144 : FVec F S256x400 .f32 := Host.absf main_arg29
  let main_cst_56 : FVec F S_ .f32 := constant S_ .f32 0x7F800000#32
  let main_v145 : FVec F S256x400 .f32 := broadcastInDim S256x400 ![] bcast_S_S256x400 main_cst_56
  let main_v146 : IVec S256x400 1 := cmpf .olt main_v144 main_v145
  let main_c_57 : IVec S_ 1 := constantI S_ 1 1#1
  let main_v147 : IVec S_ 1 := (fun x v => Host.reduce IntOp.andi x v reducesTo_S256x400_S_d0_1 h_S_) main_v146 main_c_57
  let main_v148 : IVec S_ 1 := andi main_v143 main_v147
  let main_v149 : FVec F S400 .f32 := Host.absf main_arg30
  let main_cst_58 : FVec F S_ .f32 := constant S_ .f32 0x7F800000#32
  let main_v150 : FVec F S400 .f32 := broadcastInDim S400 ![] bcast_S_S400 main_cst_58
  let main_v151 : IVec S400 1 := cmpf .olt main_v149 main_v150
  let main_c_59 : IVec S_ 1 := constantI S_ 1 1#1
  let main_v152 : IVec S_ 1 := (fun x v => Host.reduce IntOp.andi x v reducesTo_S400_S_d0 h_S_) main_v151 main_c_59
  let main_v153 : IVec S_ 1 := andi main_v148 main_v152
  main_v153

def fn_part7 {F : FTy → Type} [FloatOps F] (main_arg25 : FVec F S2048x256 .f32) (main_arg26 : FVec F S256 .f32) (main_arg27 : FVec F S256x256 .f32) (main_arg28 : FVec F S256 .f32) (main_arg29 : FVec F S256x400 .f32) (main_arg30 : FVec F S400 .f32) (main_v118 : IVec S_ 1) (main_v119 : FVec F S256 .f32) : IVec S_ 1 :=
  let main_cst_46 : FVec F S_ .f32 := constant S_ .f32 0x7F800000#32
  let main_v120 : FVec F S256 .f32 := broadcastInDim S256 ![] bcast_S_S256 main_cst_46
  let main_v121 : IVec S256 1 := cmpf .olt main_v119 main_v120
  let main_c_47 : IVec S_ 1 := constantI S_ 1 1#1
  let main_v122 : IVec S_ 1 := (fun x v => Host.reduce IntOp.andi x v reducesTo_S256_S_d0 h_S_) main_v121 main_c_47
  let main_v123 : IVec S_ 1 := andi main_v118 main_v122
  let main_v124 : FVec F S2048x256 .f32 := Host.absf main_arg25
  let main_cst_48 : FVec F S_ .f32 := constant S_ .f32 0x7F800000#32
  let main_v125 : FVec F S2048x256 .f32 := broadcastInDim S2048x256 ![] bcast_S_S2048x256 main_cst_48
  let main_v126 : IVec S2048x256 1 := cmpf .olt main_v124 main_v125
  let main_c_49 : IVec S_ 1 := constantI S_ 1 1#1
  let main_v127 : IVec S_ 1 := (fun x v => Host.reduce IntOp.andi x v reducesTo_S2048x256_S_d0_1 h_S_) main_v126 main_c_49
  let main_v128 : IVec S_ 1 := andi main_v123 main_v127
  let main_v129 : FVec F S256 .f32 := Host.absf main_arg26
  let main_cst_50 : FVec F S_ .f32 := constant S_ .f32 0x7F800000#32
  let main_v130 : FVec F S256 .f32 := broadcastInDim S256 ![] bcast_S_S256 main_cst_50
  let main_v131 : IVec S256 1 := cmpf .olt main_v129 main_v130
  let main_c_51 : IVec S_ 1 := constantI S_ 1 1#1
  let main_v132 : IVec S_ 1 := (fun x v => Host.reduce IntOp.andi x v reducesTo_S256_S_d0 h_S_) main_v131 main_c_51
  let main_v133 : IVec S_ 1 := andi main_v128 main_v132
  let main_v134 : FVec F S256x256 .f32 := Host.absf main_arg27
  let main_cst_52 : FVec F S_ .f32 := constant S_ .f32 0x7F800000#32
  let main_v135 : FVec F S256x256 .f32 := broadcastInDim S256x256 ![] bcast_S_S256x256 main_cst_52
  let main_v136 : IVec S256x256 1 := cmpf .olt main_v134 main_v135
  fn_part8 (F := F) main_arg28 main_arg29 main_arg30 main_v133 main_v136

def fn_part6 {F : FTy → Type} [FloatOps F] (main_arg21 : FVec F S3072x256 .f32) (main_arg22 : FVec F S256 .f32) (main_arg23 : FVec F S256x256 .f32) (main_arg24 : FVec F S256 .f32) (main_arg25 : FVec F S2048x256 .f32) (main_arg26 : FVec F S256 .f32) (main_arg27 : FVec F S256x256 .f32) (main_arg28 : FVec F S256 .f32) (main_arg29 : FVec F S256x400 .f32) (main_arg30 : FVec F S400 .f32) (main_v98 : IVec S_ 1) (main_v101 : IVec S256 1) (main_c_39 : IVec S_ 1) : IVec S_ 1 :=
  let main_v102 : IVec S_ 1 := (fun x v => Host.reduce IntOp.andi x v reducesTo_S256_S_d0 h_S_) main_v101 main_c_39
  let main_v103 : IVec S_ 1 := andi main_v98 main_v102
  let main_v104 : FVec F S3072x256 .f32 := Host.absf main_arg21
  let main_cst_40 : FVec F S_ .f32 := constant S_ .f32 0x7F800000#32
  let main_v105 : FVec F S3072x256 .f32 := broadcastInDim S3072x256 ![] bcast_S_S3072x256 main_cst_40
  let main_v106 : IVec S3072x256 1 := cmpf .olt main_v104 main_v105
  let main_c_41 : IVec S_ 1 := constantI S_ 1 1#1
  let main_v107 : IVec S_ 1 := (fun x v => Host.reduce IntOp.andi x v reducesTo_S3072x256_S_d0_1 h_S_) main_v106 main_c_41
  let main_v108 : IVec S_ 1 := andi main_v103 main_v107
  let main_v109 : FVec F S256 .f32 := Host.absf main_arg22
  let main_cst_42 : FVec F S_ .f32 := constant S_ .f32 0x7F800000#32
  let main_v110 : FVec F S256 .f32 := broadcastInDim S256 ![] bcast_S_S256 main_cst_42
  let main_v111 : IVec S256 1 := cmpf .olt main_v109 main_v110
  let main_c_43 : IVec S_ 1 := constantI S_ 1 1#1
  let main_v112 : IVec S_ 1 := (fun x v => Host.reduce IntOp.andi x v reducesTo_S256_S_d0 h_S_) main_v111 main_c_43
  let main_v113 : IVec S_ 1 := andi main_v108 main_v112
  let main_v114 : FVec F S256x256 .f32 := Host.absf main_arg23
  let main_cst_44 : FVec F S_ .f32 := constant S_ .f32 0x7F800000#32
  let main_v115 : FVec F S256x256 .f32 := broadcastInDim S256x256 ![] bcast_S_S256x256 main_cst_44
  let main_v116 : IVec S256x256 1 := cmpf .olt main_v114 main_v115
  let main_c_45 : IVec S_ 1 := constantI S_ 1 1#1
  let main_v117 : IVec S_ 1 := (fun x v => Host.reduce IntOp.andi x v reducesTo_S256x256_S_d0_1 h_S_) main_v116 main_c_45
  let main_v118 : IVec S_ 1 := andi main_v113 main_v117
  let main_v119 : FVec F S256 .f32 := Host.absf main_arg24
  fn_part7 (F := F) main_arg25 main_arg26 main_arg27 main_arg28 main_arg29 main_arg30 main_v118 main_v119

def fn_part5 {F : FTy → Type} [FloatOps F] (main_arg18 : FVec F S256 .f32) (main_arg19 : FVec F S256x256 .f32) (main_arg20 : FVec F S256 .f32) (main_arg21 : FVec F S3072x256 .f32) (main_arg22 : FVec F S256 .f32) (main_arg23 : FVec F S256x256 .f32) (main_arg24 : FVec F S256 .f32) (main_arg25 : FVec F S2048x256 .f32) (main_arg26 : FVec F S256 .f32) (main_arg27 : FVec F S256x256 .f32) (main_arg28 : FVec F S256 .f32) (main_arg29 : FVec F S256x400 .f32) (main_arg30 : FVec F S400 .f32) (main_v83 : IVec S_ 1) (main_v84 : FVec F S4096x256 .f32) (main_cst_32 : FVec F S_ .f32) : IVec S_ 1 :=
  let main_v85 : FVec F S4096x256 .f32 := broadcastInDim S4096x256 ![] bcast_S_S4096x256 main_cst_32
  let main_v86 : IVec S4096x256 1 := cmpf .olt main_v84 main_v85
  let main_c_33 : IVec S_ 1 := constantI S_ 1 1#1
  let main_v87 : IVec S_ 1 := (fun x v => Host.reduce IntOp.andi x v reducesTo_S4096x256_S_d0_1 h_S_) main_v86 main_c_33
  let main_v88 : IVec S_ 1 := andi main_v83 main_v87
  let main_v89 : FVec F S256 .f32 := Host.absf main_arg18
  let main_cst_34 : FVec F S_ .f32 := constant S_ .f32 0x7F800000#32
  let main_v90 : FVec F S256 .f32 := broadcastInDim S256 ![] bcast_S_S256 main_cst_34
  let main_v91 : IVec S256 1 := cmpf .olt main_v89 main_v90
  let main_c_35 : IVec S_ 1 := constantI S_ 1 1#1
  let main_v92 : IVec S_ 1 := (fun x v => Host.reduce IntOp.andi x v reducesTo_S256_S_d0 h_S_) main_v91 main_c_35
  let main_v93 : IVec S_ 1 := andi main_v88 main_v92
  let main_v94 : FVec F S256x256 .f32 := Host.absf main_arg19
  let main_cst_36 : FVec F S_ .f32 := constant S_ .f32 0x7F800000#32
  let main_v95 : FVec F S256x256 .f32 := broadcastInDim S256x256 ![] bcast_S_S256x256 main_cst_36
  let main_v96 : IVec S256x256 1 := cmpf .olt main_v94 main_v95
  let main_c_37 : IVec S_ 1 := constantI S_ 1 1#1
  let main_v97 : IVec S_ 1 := (fun x v => Host.reduce IntOp.andi x v reducesTo_S256x256_S_d0_1 h_S_) main_v96 main_c_37
  let main_v98 : IVec S_ 1 := andi main_v93 main_v97
  let main_v99 : FVec F S256 .f32 := Host.absf main_arg20
  let main_cst_38 : FVec F S_ .f32 := constant S_ .f32 0x7F800000#32
  let main_v100 : FVec F S256 .f32 := broadcastInDim S256 ![] bcast_S_S256 main_cst_38
  let main_v101 : IVec S256 1 := cmpf .olt main_v99 main_v100
  let main_c_39 : IVec S_ 1 := constantI S_ 1 1#1
  fn_part6 (F := F) main_arg21 main_arg22 main_arg23 main_arg24 main_arg25 main_arg26 main_arg27 main_arg28 main_arg29 main_arg30 main_v98 main_v101 main_c_39

def fn_part4 {F : FTy → Type} [FloatOps F] (main_arg14 : FVec F S256 .f32) (main_arg15 : FVec F S256x256 .f32) (main_arg16 : FVec F S256 .f32) (main_arg17 : FVec F S4096x256 .f32) (main_arg18 : FVec F S256 .f32) (main_arg19 : FVec F S256x256 .f32) (main_arg20 : FVec F S256 .f32) (main_arg21 : FVec F S3072x256 .f32) (main_arg22 : FVec F S256 .f32) (main_arg23 : FVec F S256x256 .f32) (main_arg24 : FVec F S256 .f32) (main_arg25 : FVec F S2048x256 .f32) (main_arg26 : FVec F S256 .f32) (main_arg27 : FVec F S256x256 .f32) (main_arg28 : FVec F S256 .f32) (main_arg29 : FVec F S256x400 .f32) (main_arg30 : FVec F S400 .f32) (main_v63 : IVec S_ 1) (main_v67 : IVec S_ 1) : IVec S_ 1 :=
  let main_v68 : IVec S_ 1 := andi main_v63 main_v67
  let main_v69 : FVec F S256 .f32 := Host.absf main_arg14
  let main_cst_26 : FVec F S_ .f32 := constant S_ .f32 0x7F800000#32
  let main_v70 : FVec F S256 .f32 := broadcastInDim S256 ![] bcast_S_S256 main_cst_26
  let main_v71 : IVec S256 1 := cmpf .olt main_v69 main_v70
  let main_c_27 : IVec S_ 1 := constantI S_ 1 1#1
  let main_v72 : IVec S_ 1 := (fun x v => Host.reduce IntOp.andi x v reducesTo_S256_S_d0 h_S_) main_v71 main_c_27
  let main_v73 : IVec S_ 1 := andi main_v68 main_v72
  let main_v74 : FVec F S256x256 .f32 := Host.absf main_arg15
  let main_cst_28 : FVec F S_ .f32 := constant S_ .f32 0x7F800000#32
  let main_v75 : FVec F S256x256 .f32 := broadcastInDim S256x256 ![] bcast_S_S256x256 main_cst_28
  let main_v76 : IVec S256x256 1 := cmpf .olt main_v74 main_v75
  let main_c_29 : IVec S_ 1 := constantI S_ 1 1#1
  let main_v77 : IVec S_ 1 := (fun x v => Host.reduce IntOp.andi x v reducesTo_S256x256_S_d0_1 h_S_) main_v76 main_c_29
  let main_v78 : IVec S_ 1 := andi main_v73 main_v77
  let main_v79 : FVec F S256 .f32 := Host.absf main_arg16
  let main_cst_30 : FVec F S_ .f32 := constant S_ .f32 0x7F800000#32
  let main_v80 : FVec F S256 .f32 := broadcastInDim S256 ![] bcast_S_S256 main_cst_30
  let main_v81 : IVec S256 1 := cmpf .olt main_v79 main_v80
  let main_c_31 : IVec S_ 1 := constantI S_ 1 1#1
  let main_v82 : IVec S_ 1 := (fun x v => Host.reduce IntOp.andi x v reducesTo_S256_S_d0 h_S_) main_v81 main_c_31
  let main_v83 : IVec S_ 1 := andi main_v78 main_v82
  let main_v84 : FVec F S4096x256 .f32 := Host.absf main_arg17
  let main_cst_32 : FVec F S_ .f32 := constant S_ .f32 0x7F800000#32
  fn_part5 (F := F) main_arg18 main_arg19 main_arg20 main_arg21 main_arg22 main_arg23 main_arg24 main_arg25 main_arg26 main_arg27 main_arg28 main_arg29 main_arg30 main_v83 main_v84 main_cst_32

def fn_part3 {F : FTy → Type} [FloatOps F] (main_arg11 : FVec F S256x256 .f32) (main_arg12 : FVec F S256 .f32) (main_arg13 : FVec F S5120x256 .f32) (main_arg14 : FVec F S256 .f32) (main_arg15 : FVec F S256x256 .f32) (main_arg16 : FVec F S256 .f32) (main_arg17 : FVec F S4096x256 .f32) (main_arg18 : FVec F S256 .f32) (main_arg19 : FVec F S256x256 .f32) (main_arg20 : FVec F S256 .f32) (main_arg21 : FVec F S3072x256 .f32) (main_arg22 : FVec F S256 .f32) (main_arg23 : FVec F S256x256 .f32) (main_arg24 : FVec F S256 .f32) (main_arg25 : FVec F S2048x256 .f32) (main_arg26 : FVec F S256 .f32) (main_arg27 : FVec F S256x256 .f32) (main_arg28 : FVec F S256 .f32) (main_arg29 : FVec F S256x400 .f32) (main_arg30 : FVec F S400 .f32) (main_v48 : IVec S_ 1) (main_v49 : FVec F S256 .f32) (main_v50 : FVec F S256 .f32) : IVec S_ 1 :=
  let main_v51 : IVec S256 1 := cmpf .olt main_v49 main_v50
  let main_c_19 : IVec S_ 1 := constantI S_ 1 1#1
  let main_v52 : IVec S_ 1 := (fun x v => Host.reduce IntOp.andi x v reducesTo_S256_S_d0 h_S_) main_v51 main_c_19
  let main_v53 : IVec S_ 1 := andi main_v48 main_v52
  let main_v54 : FVec F S256x256 .f32 := Host.absf main_arg11
  let main_cst_20 : FVec F S_ .f32 := constant S_ .f32 0x7F800000#32
  let main_v55 : FVec F S256x256 .f32 := broadcastInDim S256x256 ![] bcast_S_S256x256 main_cst_20
  let main_v56 : IVec S256x256 1 := cmpf .olt main_v54 main_v55
  let main_c_21 : IVec S_ 1 := constantI S_ 1 1#1
  let main_v57 : IVec S_ 1 := (fun x v => Host.reduce IntOp.andi x v reducesTo_S256x256_S_d0_1 h_S_) main_v56 main_c_21
  let main_v58 : IVec S_ 1 := andi main_v53 main_v57
  let main_v59 : FVec F S256 .f32 := Host.absf main_arg12
  let main_cst_22 : FVec F S_ .f32 := constant S_ .f32 0x7F800000#32
  let main_v60 : FVec F S256 .f32 := broadcastInDim S256 ![] bcast_S_S256 main_cst_22
  let main_v61 : IVec S256 1 := cmpf .olt main_v59 main_v60
  let main_c_23 : IVec S_ 1 := constantI S_ 1 1#1
  let main_v62 : IVec S_ 1 := (fun x v => Host.reduce IntOp.andi x v reducesTo_S256_S_d0 h_S_) main_v61 main_c_23
  let main_v63 : IVec S_ 1 := andi main_v58 main_v62
  let main_v64 : FVec F S5120x256 .f32 := Host.absf main_arg13
  let main_cst_24 : FVec F S_ .f32 := constant S_ .f32 0x7F800000#32
  let main_v65 : FVec F S5120x256 .f32 := broadcastInDim S5120x256 ![] bcast_S_S5120x256 main_cst_24
  let main_v66 : IVec S5120x256 1 := cmpf .olt main_v64 main_v65
  let main_c_25 : IVec S_ 1 := constantI S_ 1 1#1
  let main_v67 : IVec S_ 1 := (fun x v => Host.reduce IntOp.andi x v reducesTo_S5120x256_S_d0_1 h_S_) main_v66 main_c_25
  fn_part4 (F := F) main_arg14 main_arg15 main_arg16 main_arg17 main_arg18 main_arg19 main_arg20 main_arg21 main_arg22 main_arg23 main_arg24 main_arg25 main_arg26 main_arg27 main_arg28 main_arg29 main_arg30 main_v63 main_v67

def fn_part2 {F : FTy → Type} [FloatOps F] (main_arg7 : FVec F S256x256 .f32) (main_arg8 : FVec F S256 .f32) (main_arg9 : FVec F S6144x256 .f32) (main_arg10 : FVec F S256 .f32) (main_arg11 : FVec F S256x256 .f32) (main_arg12 : FVec F S256 .f32) (main_arg13 : FVec F S5120x256 .f32) (main_arg14 : FVec F S256 .f32) (main_arg15 : FVec F S256x256 .f32) (main_arg16 : FVec F S256 .f32) (main_arg17 : FVec F S4096x256 .f32) (main_arg18 : FVec F S256 .f32) (main_arg19 : FVec F S256x256 .f32) (main_arg20 : FVec F S256 .f32) (main_arg21 : FVec F S3072x256 .f32) (main_arg22 : FVec F S256 .f32) (main_arg23 : FVec F S256x256 .f32) (main_arg24 : FVec F S256 .f32) (main_arg25 : FVec F S2048x256 .f32) (main_arg26 : FVec F S256 .f32) (main_arg27 : FVec F S256x256 .f32) (main_arg28 : FVec F S256 .f32) (main_arg29 : FVec F S256x400 .f32) (main_arg30 : FVec F S400 .f32) (main_v33 : IVec S_ 1) : IVec S_ 1 :=
  let main_v34 : FVec F S256x256 .f32 := Host.absf main_arg7
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg8
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S6144x256 .f32 := Host.absf main_arg9
  let main_cst_16 : FVec F S_ .f32 := constant S_ .f32 0x7F800000#32
  let main_v45 : FVec F S6144x256 .f32 := broadcastInDim S6144x256 ![] bcast_S_S6144x256 main_cst_16
  let main_v46 : IVec S6144x256 1 := cmpf .olt main_v44 main_v45
  let main_c_17 : IVec S_ 1 := constantI S_ 1 1#1
  let main_v47 : IVec S_ 1 := (fun x v => Host.reduce IntOp.andi x v reducesTo_S6144x256_S_d0_1 h_S_) main_v46 main_c_17
  let main_v48 : IVec S_ 1 := andi main_v43 main_v47
  let main_v49 : FVec F S256 .f32 := Host.absf main_arg10
  let main_cst_18 : FVec F S_ .f32 := constant S_ .f32 0x7F800000#32
  let main_v50 : FVec F S256 .f32 := broadcastInDim S256 ![] bcast_S_S256 main_cst_18
  fn_part3 (F := F) main_arg11 main_arg12 main_arg13 main_arg14 main_arg15 main_arg16 main_arg17 main_arg18 main_arg19 main_arg20 main_arg21 main_arg22 main_arg23 main_arg24 main_arg25 main_arg26 main_arg27 main_arg28 main_arg29 main_arg30 main_v48 main_v49 main_v50

def fn_part1 {F : FTy → Type} [FloatOps F] (main_arg4 : FVec F S256 .f32) (main_arg5 : FVec F S7168x256 .f32) (main_arg6 : FVec F S256 .f32) (main_arg7 : FVec F S256x256 .f32) (main_arg8 : FVec F S256 .f32) (main_arg9 : FVec F S6144x256 .f32) (main_arg10 : FVec F S256 .f32) (main_arg11 : FVec F S256x256 .f32) (main_arg12 : FVec F S256 .f32) (main_arg13 : FVec F S5120x256 .f32) (main_arg14 : FVec F S256 .f32) (main_arg15 : FVec F S256x256 .f32) (main_arg16 : FVec F S256 .f32) (main_arg17 : FVec F S4096x256 .f32) (main_arg18 : FVec F S256 .f32) (main_arg19 : FVec F S256x256 .f32) (main_arg20 : FVec F S256 .f32) (main_arg21 : FVec F S3072x256 .f32) (main_arg22 : FVec F S256 .f32) (main_arg23 : FVec F S256x256 .f32) (main_arg24 : FVec F S256 .f32) (main_arg25 : FVec F S2048x256 .f32) (main_arg26 : FVec F S256 .f32) (main_arg27 : FVec F S256x256 .f32) (main_arg28 : FVec F S256 .f32) (main_arg29 : FVec F S256x400 .f32) (main_arg30 : FVec F S400 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S7168x256 .f32 := Host.absf main_arg5
  let main_cst_8 : FVec F S_ .f32 := constant S_ .f32 0x7F800000#32
  let main_v25 : FVec F S7168x256 .f32 := broadcastInDim S7168x256 ![] bcast_S_S7168x256 main_cst_8
  let main_v26 : IVec S7168x256 1 := cmpf .olt main_v24 main_v25
  let main_c_9 : IVec S_ 1 := constantI S_ 1 1#1
  let main_v27 : IVec S_ 1 := (fun x v => Host.reduce IntOp.andi x v reducesTo_S7168x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_v33

def fn {F : FTy → Type} [FloatOps F] (main_arg0 : FVec F S4096x8x1024 .f32) (main_arg1 : FVec F S8192x256 .f32) (main_arg2 : FVec F S256 .f32) (main_arg3 : FVec F S256x256 .f32) (main_arg4 : FVec F S256 .f32) (main_arg5 : FVec F S7168x256 .f32) (main_arg6 : FVec F S256 .f32) (main_arg7 : FVec F S256x256 .f32) (main_arg8 : FVec F S256 .f32) (main_arg9 : FVec F S6144x256 .f32) (main_arg10 : FVec F S256 .f32) (main_arg11 : FVec F S256x256 .f32) (main_arg12 : FVec F S256 .f32) (main_arg13 : FVec F S5120x256 .f32) (main_arg14 : FVec F S256 .f32) (main_arg15 : FVec F S256x256 .f32) (main_arg16 : FVec F S256 .f32) (main_arg17 : FVec F S4096x256 .f32) (main_arg18 : FVec F S256 .f32) (main_arg19 : FVec F S256x256 .f32) (main_arg20 : FVec F S256 .f32) (main_arg21 : FVec F S3072x256 .f32) (main_arg22 : FVec F S256 .f32) (main_arg23 : FVec F S256x256 .f32) (main_arg24 : FVec F S256 .f32) (main_arg25 : FVec F S2048x256 .f32) (main_arg26 : FVec F S256 .f32) (main_arg27 : FVec F S256x256 .f32) (main_arg28 : FVec F S256 .f32) (main_arg29 : FVec F S256x400 .f32) (main_arg30 : FVec F S400 .f32) : IVec S_ 1 :=
  let main_v0 : FVec F S4096x8x1024 .f32 := Host.absf main_arg0
  let main_cst : FVec F S_ .f32 := constant S_ .f32 0x7F800000#32
  let main_v1 : FVec F S4096x8x1024 .f32 := broadcastInDim S4096x8x1024 ![] bcast_S_S4096x8x1024 main_cst
  let main_v2 : IVec S4096x8x1024 1 := cmpf .olt main_v0 main_v1
  let main_c : IVec S_ 1 := constantI S_ 1 1#1
  let main_v3 : IVec S_ 1 := (fun x v => Host.reduce IntOp.andi x v reducesTo_S4096x8x1024_S_d0_1_2 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_v13 main_v16
-- ==== Kernel.lean ====
abbrev S4096x8x1024 : Shape := ⟨3, ![4096, 8, 1024]⟩
abbrev S8192x256 : Shape := ⟨2, ![8192, 256]⟩
abbrev S256 : Shape := ⟨1, ![256]⟩
abbrev S256x256 : Shape := ⟨2, ![256, 256]⟩
abbrev S7168x256 : Shape := ⟨2, ![7168, 256]⟩
abbrev S6144x256 : Shape := ⟨2, ![6144, 256]⟩
abbrev S5120x256 : Shape := ⟨2, ![5120, 256]⟩
abbrev S4096x256 : Shape := ⟨2, ![4096, 256]⟩
abbrev S3072x256 : Shape := ⟨2, ![3072, 256]⟩
abbrev S2048x256 : Shape := ⟨2, ![2048, 256]⟩
abbrev S256x400 : Shape := ⟨2, ![256, 400]⟩
abbrev S400 : Shape := ⟨1, ![400]⟩
abbrev S8x1024x256 : Shape := ⟨3, ![8, 1024, 256]⟩
abbrev S7x1024x256 : Shape := ⟨3, ![7, 1024, 256]⟩
abbrev S6x1024x256 : Shape := ⟨3, ![6, 1024, 256]⟩
abbrev S5x1024x256 : Shape := ⟨3, ![5, 1024, 256]⟩
abbrev S4x1024x256 : Shape := ⟨3, ![4, 1024, 256]⟩
abbrev S3x1024x256 : Shape := ⟨3, ![3, 1024, 256]⟩
abbrev S2x1024x256 : Shape := ⟨3, ![2, 1024, 256]⟩
abbrev S_ : Shape := ⟨0, ![]⟩
abbrev S256x512 : Shape := ⟨2, ![256, 512]⟩
abbrev S1 : Shape := ⟨1, ![1]⟩
abbrev S512 : Shape := ⟨1, ![512]⟩
abbrev S4096x512 : Shape := ⟨2, ![4096, 512]⟩
abbrev S128x8x1024 : Shape := ⟨3, ![128, 8, 1024]⟩
abbrev S128x512 : Shape := ⟨2, ![128, 512]⟩
abbrev S128x1x1024 : Shape := ⟨3, ![128, 1, 1024]⟩
abbrev S128x1024 : Shape := ⟨2, ![128, 1024]⟩
abbrev S128x256 : Shape := ⟨2, ![128, 256]⟩
abbrev S1x1024x256 : Shape := ⟨3, ![1, 1024, 256]⟩
abbrev S1024x256 : Shape := ⟨2, ![1024, 256]⟩
abbrev S1x256 : Shape := ⟨2, ![1, 256]⟩
abbrev S1x512 : Shape := ⟨2, ![1, 512]⟩
abbrev S4096x400 : Shape := ⟨2, ![4096, 400]⟩

abbrev nBuf : Space → Nat
  | .hbm => 65
  | .vmem => 34
  | .smem => 0
  | _ => 0

abbrev bufTy : (tb : Table) → Fin (tcTables nBuf tb) → BufTy
  | .hbm, ⟨0, _⟩ => ⟨S4096x8x1024, .f32⟩
  | .hbm, ⟨1, _⟩ => ⟨S8192x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S7168x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S6144x256, .f32⟩
  | .hbm, ⟨10, _⟩ => ⟨S256, .f32⟩
  | .hbm, ⟨11, _⟩ => ⟨S256x256, .f32⟩
  | .hbm, ⟨12, _⟩ => ⟨S256, .f32⟩
  | .hbm, ⟨13, _⟩ => ⟨S5120x256, .f32⟩
  | .hbm, ⟨14, _⟩ => ⟨S256, .f32⟩
  | .hbm, ⟨15, _⟩ => ⟨S256x256, .f32⟩
  | .hbm, ⟨16, _⟩ => ⟨S256, .f32⟩
  | .hbm, ⟨17, _⟩ => ⟨S4096x256, .f32⟩
  | .hbm, ⟨18, _⟩ => ⟨S256, .f32⟩
  | .hbm, ⟨19, _⟩ => ⟨S256x256, .f32⟩
  | .hbm, ⟨20, _⟩ => ⟨S256, .f32⟩
  | .hbm, ⟨21, _⟩ => ⟨S3072x256, .f32⟩
  | .hbm, ⟨22, _⟩ => ⟨S256, .f32⟩
  | .hbm, ⟨23, _⟩ => ⟨S256x256, .f32⟩
  | .hbm, ⟨24, _⟩ => ⟨S256, .f32⟩
  | .hbm, ⟨25, _⟩ => ⟨S2048x256, .f32⟩
  | .hbm, ⟨26, _⟩ => ⟨S256, .f32⟩
  | .hbm, ⟨27, _⟩ => ⟨S256x256, .f32⟩
  | .hbm, ⟨28, _⟩ => ⟨S256, .f32⟩
  | .hbm, ⟨29, _⟩ => ⟨S256x400, .f32⟩
  | .hbm, ⟨30, _⟩ => ⟨S400, .f32⟩
  | .hbm, ⟨31, _⟩ => ⟨S8x1024x256, .f32⟩
  | .hbm, ⟨32, _⟩ => ⟨S8x1024x256, .bf16⟩
  | .hbm, ⟨33, _⟩ => ⟨S7x1024x256, .f32⟩
  | .hbm, ⟨34, _⟩ => ⟨S7x1024x256, .bf16⟩
  | .hbm, ⟨35, _⟩ => ⟨S6x1024x256, .f32⟩
  | .hbm, ⟨36, _⟩ => ⟨S6x1024x256, .bf16⟩
  | .hbm, ⟨37, _⟩ => ⟨S5x1024x256, .f32⟩
  | .hbm, ⟨38, _⟩ => ⟨S5x1024x256, .bf16⟩
  | .hbm, ⟨39, _⟩ => ⟨S4x1024x256, .f32⟩
  | .hbm, ⟨40, _⟩ => ⟨S4x1024x256, .bf16⟩
  | .hbm, ⟨41, _⟩ => ⟨S3x1024x256, .f32⟩
  | .hbm, ⟨42, _⟩ => ⟨S3x1024x256, .bf16⟩
  | .hbm, ⟨43, _⟩ => ⟨S2x1024x256, .f32⟩
  | .hbm, ⟨44, _⟩ => ⟨S2x1024x256, .bf16⟩
  | .hbm, ⟨45, _⟩ => ⟨S256x256, .bf16⟩
  | .hbm, ⟨46, _⟩ => ⟨S256x256, .bf16⟩
  | .hbm, ⟨47, _⟩ => ⟨S256x256, .bf16⟩
  | .hbm, ⟨48, _⟩ => ⟨S256x256, .bf16⟩
  | .hbm, ⟨49, _⟩ => ⟨S256x256, .bf16⟩
  | .hbm, ⟨50, _⟩ => ⟨S256x256, .bf16⟩
  | .hbm, ⟨51, _⟩ => ⟨S256x256, .bf16⟩
  | .hbm, ⟨52, _⟩ => ⟨S_, .f32⟩
  | .hbm, ⟨53, _⟩ => ⟨S256x512, .f32⟩
  | .hbm, ⟨54, _⟩ => ⟨S_, .i32⟩
  | .hbm, ⟨55, _⟩ => ⟨S1, .i32⟩
  | .hbm, ⟨56, _⟩ => ⟨S256x512, .f32⟩
  | .hbm, ⟨57, _⟩ => ⟨S256x512, .bf16⟩
  | .hbm, ⟨58, _⟩ => ⟨S_, .f32⟩
  | .hbm, ⟨59, _⟩ => ⟨S512, .f32⟩
  | .hbm, ⟨60, _⟩ => ⟨S_, .i32⟩
  | .hbm, ⟨61, _⟩ => ⟨S1, .i32⟩
  | .hbm, ⟨62, _⟩ => ⟨S512, .f32⟩
  | .hbm, ⟨63, _⟩ => ⟨S4096x512, .f32⟩
  | .hbm, ⟨64, _⟩ => ⟨S4096x400, .f32⟩
  | .local _ .vmem, ⟨0, _⟩ => ⟨S128x8x1024, .f32⟩
  | .local _ .vmem, ⟨1, _⟩ => ⟨S128x8x1024, .f32⟩
  | .local _ .vmem, ⟨2, _⟩ => ⟨S8x1024x256, .bf16⟩
  | .local _ .vmem, ⟨3, _⟩ => ⟨S256, .f32⟩
  | .local _ .vmem, ⟨4, _⟩ => ⟨S256x256, .bf16⟩
  | .local _ .vmem, ⟨5, _⟩ => ⟨S256, .f32⟩
  | .local _ .vmem, ⟨6, _⟩ => ⟨S7x1024x256, .bf16⟩
  | .local _ .vmem, ⟨7, _⟩ => ⟨S256, .f32⟩
  | .local _ .vmem, ⟨8, _⟩ => ⟨S256x256, .bf16⟩
  | .local _ .vmem, ⟨9, _⟩ => ⟨S256, .f32⟩
  | .local _ .vmem, ⟨10, _⟩ => ⟨S6x1024x256, .bf16⟩
  | .local _ .vmem, ⟨11, _⟩ => ⟨S256, .f32⟩
  | .local _ .vmem, ⟨12, _⟩ => ⟨S256x256, .bf16⟩
  | .local _ .vmem, ⟨13, _⟩ => ⟨S256, .f32⟩
  | .local _ .vmem, ⟨14, _⟩ => ⟨S5x1024x256, .bf16⟩
  | .local _ .vmem, ⟨15, _⟩ => ⟨S256, .f32⟩
  | .local _ .vmem, ⟨16, _⟩ => ⟨S256x256, .bf16⟩
  | .local _ .vmem, ⟨17, _⟩ => ⟨S256, .f32⟩
  | .local _ .vmem, ⟨18, _⟩ => ⟨S4x1024x256, .bf16⟩
  | .local _ .vmem, ⟨19, _⟩ => ⟨S256, .f32⟩
  | .local _ .vmem, ⟨20, _⟩ => ⟨S256x256, .bf16⟩
  | .local _ .vmem, ⟨21, _⟩ => ⟨S256, .f32⟩
  | .local _ .vmem, ⟨22, _⟩ => ⟨S3x1024x256, .bf16⟩
  | .local _ .vmem, ⟨23, _⟩ => ⟨S256, .f32⟩
  | .local _ .vmem, ⟨24, _⟩ => ⟨S256x256, .bf16⟩
  | .local _ .vmem, ⟨25, _⟩ => ⟨S256, .f32⟩
  | .local _ .vmem, ⟨26, _⟩ => ⟨S2x1024x256, .bf16⟩
  | .local _ .vmem, ⟨27, _⟩ => ⟨S256, .f32⟩
  | .local _ .vmem, ⟨28, _⟩ => ⟨S256x256, .bf16⟩
  | .local _ .vmem, ⟨29, _⟩ => ⟨S256, .f32⟩
  | .local _ .vmem, ⟨30, _⟩ => ⟨S256x512, .bf16⟩
  | .local _ .vmem, ⟨31, _⟩ => ⟨S512, .f32⟩
  | .local _ .vmem, ⟨32, _⟩ => ⟨S128x512, .f32⟩
  | .local _ .vmem, ⟨33, _⟩ => ⟨S128x512, .f32⟩
  | _, _ => ⟨S4096x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_cst : Ref sig .tc := ⟨.hbm, 52, rfl⟩
abbrev main_v21 : Ref sig .tc := ⟨.hbm, 53, rfl⟩
abbrev main_c : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_cst_0 : Ref sig .tc := ⟨.hbm, 58, rfl⟩
abbrev main_v25 : Ref sig .tc := ⟨.hbm, 59, rfl⟩
abbrev main_c_1 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg16_0 : Ref sig .tc := ⟨.vmem, 17, rfl⟩
abbrev cc0_stg17_0 : Ref sig .tc := ⟨.vmem, 18, rfl⟩
abbrev cc0_stg18_0 : Ref sig .tc := ⟨.vmem, 19, rfl⟩
abbrev cc0_stg19_0 : Ref sig .tc := ⟨.vmem, 20, rfl⟩
abbrev cc0_stg20_0 : Ref sig .tc := ⟨.vmem, 21, rfl⟩
abbrev cc0_stg21_0 : Ref sig .tc := ⟨.vmem, 22, rfl⟩
abbrev cc0_stg22_0 : Ref sig .tc := ⟨.vmem, 23, rfl⟩
abbrev cc0_stg23_0 : Ref sig .tc := ⟨.vmem, 24, rfl⟩
abbrev cc0_stg24_0 : Ref sig .tc := ⟨.vmem, 25, rfl⟩
abbrev cc0_stg25_0 : Ref sig .tc := ⟨.vmem, 26, rfl⟩
abbrev cc0_stg26_0 : Ref sig .tc := ⟨.vmem, 27, rfl⟩
abbrev cc0_stg27_0 : Ref sig .tc := ⟨.vmem, 28, rfl⟩
abbrev cc0_stg28_0 : Ref sig .tc := ⟨.vmem, 29, rfl⟩
abbrev cc0_stg29_0 : Ref sig .tc := ⟨.vmem, 30, rfl⟩
abbrev cc0_stg30_0 : Ref sig .tc := ⟨.vmem, 31, rfl⟩
abbrev cc0_stg31_0 : Ref sig .tc := ⟨.vmem, 32, rfl⟩
abbrev cc0_stg31_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem16_0 : DmaSem sig := 17
abbrev cc0_sem17_0 : DmaSem sig := 18
abbrev cc0_sem18_0 : DmaSem sig := 19
abbrev cc0_sem19_0 : DmaSem sig := 20
abbrev cc0_sem20_0 : DmaSem sig := 21
abbrev cc0_sem21_0 : DmaSem sig := 22
abbrev cc0_sem22_0 : DmaSem sig := 23
abbrev cc0_sem23_0 : DmaSem sig := 24
abbrev cc0_sem24_0 : DmaSem sig := 25
abbrev cc0_sem25_0 : DmaSem sig := 26
abbrev cc0_sem26_0 : DmaSem sig := 27
abbrev cc0_sem27_0 : DmaSem sig := 28
abbrev cc0_sem28_0 : DmaSem sig := 29
abbrev cc0_sem29_0 : DmaSem sig := 30
abbrev cc0_sem30_0 : DmaSem sig := 31
abbrev cc0_sem31_0 : DmaSem sig := 32
abbrev cc0_sem31_1 : DmaSem sig := 33

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_18 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_20 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_22 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_25 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_26 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_27 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_28 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_29 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_30 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_31 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x8x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S7x1024x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S6x1024x256 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x256 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S5x1024x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S256x256 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S256 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S4x1024x256 .bf16 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S256 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S256x256 .bf16 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S256 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S3x1024x256 .bf16 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]

abbrev stage0_22 : Fin 1 → Memref sig .tc .vmem S256 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))
abbrev reads0_22 : Fin grid0.rank → Bool := ![false]

abbrev stage0_23 : Fin 1 → Memref sig .tc .vmem S256x256 .bf16 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 1 → Memref sig .tc .vmem S256 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))
abbrev reads0_24 : Fin grid0.rank → Bool := ![false]

abbrev stage0_25 : Fin 1 → Memref sig .tc .vmem S2x1024x256 .bf16 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S256 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 1 → Memref sig .tc .vmem S256x256 .bf16 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))
abbrev reads0_27 : Fin grid0.rank → Bool := ![false]

abbrev stage0_28 : Fin 1 → Memref sig .tc .vmem S256 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))
abbrev reads0_28 : Fin grid0.rank → Bool := ![false]

abbrev stage0_29 : Fin 1 → Memref sig .tc .vmem S256x512 .bf16 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))
abbrev reads0_29 : Fin grid0.rank → Bool := ![false]

abbrev stage0_30 : Fin 1 → Memref sig .tc .vmem S512 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))
abbrev reads0_30 : Fin grid0.rank → Bool := ![false]

abbrev stage0_31 : Fin 2 → Memref sig .tc .vmem S128x512 .f32 := fun | 0 => Memref.whole cc0_stg31_0 | 1 => Memref.whole cc0_stg31_1 | ⟨_ + 2, h⟩ => absurd h (Nat.not_lt.2 (Nat.le_add_left _ _))
abbrev sem0_31 : Fin 2 → DmaSem sig := fun | 0 => cc0_sem31_0 | 1 => cc0_sem31_1 | ⟨_ + 2, h⟩ => absurd h (Nat.not_lt.2 (Nat.le_add_left _ _))
abbrev reads0_31 : Fin grid0.rank → Bool := ![true]

class Facts₀ : Prop where
  shapeCasts_S8192x256_S8x1024x256 : S8192x256.ShapeCasts S8x1024x256
  bitsLt_bf16_f32 : FTy.bits .bf16 < FTy.bits .f32
  shapeCasts_S7168x256_S7x1024x256 : S7168x256.ShapeCasts S7x1024x256
  shapeCasts_S6144x256_S6x1024x256 : S6144x256.ShapeCasts S6x1024x256
  shapeCasts_S5120x256_S5x1024x256 : S5120x256.ShapeCasts S5x1024x256
  shapeCasts_S4096x256_S4x1024x256 : S4096x256.ShapeCasts S4x1024x256
  shapeCasts_S3072x256_S3x1024x256 : S3072x256.ShapeCasts S3x1024x256
  shapeCasts_S2048x256_S2x1024x256 : S2048x256.ShapeCasts S2x1024x256
  bcast_S_S256x512 : S_.BroadcastsInDim S256x512 (![] : Fin 0 → Fin S256x512.rank)
  bcast_S_S1 : S_.BroadcastsInDim S1 (![] : Fin 0 → Fin S1.rank)
  bcast_S_S512 : S_.BroadcastsInDim S512 (![] : Fin 0 → Fin S512.rank)
  inb_S128x8x1024_S128x1x1024_0_0_0 : ∀ a, (![0, 0, 0] : Fin 3 → Nat) a + S128x1x1024.size a ≤ S128x8x1024.size a
  h_S128x1x1024 : 0 < S128x1x1024.numel
  shapeCasts_S128x1x1024_S128x1024 : S128x1x1024.ShapeCasts S128x1024
  inb_S128x8x1024_S128x1x1024_0_1_0 : ∀ a, (![0, 1, 0] : Fin 3 → Nat) a + S128x1x1024.size a ≤ S128x8x1024.size a
  inb_S128x8x1024_S128x1x1024_0_2_0 : ∀ a, (![0, 2, 0] : Fin 3 → Nat) a + S128x1x1024.size a ≤ S128x8x1024.size a
  inb_S128x8x1024_S128x1x1024_0_3_0 : ∀ a, (![0, 3, 0] : Fin 3 → Nat) a + S128x1x1024.size a ≤ S128x8x1024.size a
  inb_S128x8x1024_S128x1x1024_0_4_0 : ∀ a, (![0, 4, 0] : Fin 3 → Nat) a + S128x1x1024.size a ≤ S128x8x1024.size a
  inb_S128x8x1024_S128x1x1024_0_5_0 : ∀ a, (![0, 5, 0] : Fin 3 → Nat) a + S128x1x1024.size a ≤ S128x8x1024.size a
  inb_S128x8x1024_S128x1x1024_0_6_0 : ∀ a, (![0, 6, 0] : Fin 3 → Nat) a + S128x1x1024.size a ≤ S128x8x1024.size a
  inb_S128x8x1024_S128x1x1024_0_7_0 : ∀ a, (![0, 7, 0] : Fin 3 → Nat) a + S128x1x1024.size a ≤ S128x8x1024.size a
  inb_S256_S256_0 : ∀ a, (![0] : Fin 1 → Nat) a + S256.size a ≤ S256.size a
  h_S256 : 0 < S256.numel
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S8x1024x256_S1x1024x256_0_0_0 : ∀ a, (![0, 0, 0] : Fin 3 → Nat) a + S1x1024x256.size a ≤ S8x1024x256.size a
  h_S1x1024x256 : 0 < S1x1024x256.numel
  shapeCasts_S1x1024x256_S1024x256 : S1x1024x256.ShapeCasts S1024x256
  inb_S8x1024x256_S1x1024x256_1_0_0 : ∀ a, (![1, 0, 0] : Fin 3 → Nat) a + S1x1024x256.size a ≤ S8x1024x256.size a
  inb_S8x1024x256_S1x1024x256_2_0_0 : ∀ a, (![2, 0, 0] : Fin 3 → Nat) a + S1x1024x256.size a ≤ S8x1024x256.size a
  inb_S8x1024x256_S1x1024x256_3_0_0 : ∀ a, (![3, 0, 0] : Fin 3 → Nat) a + S1x1024x256.size a ≤ S8x1024x256.size a
  inb_S8x1024x256_S1x1024x256_4_0_0 : ∀ a, (![4, 0, 0] : Fin 3 → Nat) a + S1x1024x256.size a ≤ S8x1024x256.size a
  inb_S8x1024x256_S1x1024x256_5_0_0 : ∀ a, (![5, 0, 0] : Fin 3 → Nat) a + S1x1024x256.size a ≤ S8x1024x256.size a
  inb_S8x1024x256_S1x1024x256_6_0_0 : ∀ a, (![6, 0, 0] : Fin 3 → Nat) a + S1x1024x256.size a ≤ S8x1024x256.size a
  inb_S8x1024x256_S1x1024x256_7_0_0 : ∀ a, (![7, 0, 0] : Fin 3 → Nat) a + S1x1024x256.size a ≤ S8x1024x256.size a
  shapeCasts_S256_S1x256 : S256.ShapeCasts S1x256
  broadcasts_S1x256_S128x256 : S1x256.Broadcasts S128x256
  inb_S7x1024x256_S1x1024x256_0_0_0 : ∀ a, (![0, 0, 0] : Fin 3 → Nat) a + S1x1024x256.size a ≤ S7x1024x256.size a
  inb_S7x1024x256_S1x1024x256_1_0_0 : ∀ a, (![1, 0, 0] : Fin 3 → Nat) a + S1x1024x256.size a ≤ S7x1024x256.size a
  inb_S7x1024x256_S1x1024x256_2_0_0 : ∀ a, (![2, 0, 0] : Fin 3 → Nat) a + S1x1024x256.size a ≤ S7x1024x256.size a
  inb_S7x1024x256_S1x1024x256_3_0_0 : ∀ a, (![3, 0, 0] : Fin 3 → Nat) a + S1x1024x256.size a ≤ S7x1024x256.size a
  inb_S7x1024x256_S1x1024x256_4_0_0 : ∀ a, (![4, 0, 0] : Fin 3 → Nat) a + S1x1024x256.size a ≤ S7x1024x256.size a
  inb_S7x1024x256_S1x1024x256_5_0_0 : ∀ a, (![5, 0, 0] : Fin 3 → Nat) a + S1x1024x256.size a ≤ S7x1024x256.size a
  inb_S7x1024x256_S1x1024x256_6_0_0 : ∀ a, (![6, 0, 0] : Fin 3 → Nat) a + S1x1024x256.size a ≤ S7x1024x256.size a
  inb_S6x1024x256_S1x1024x256_0_0_0 : ∀ a, (![0, 0, 0] : Fin 3 → Nat) a + S1x1024x256.size a ≤ S6x1024x256.size a
  inb_S6x1024x256_S1x1024x256_1_0_0 : ∀ a, (![1, 0, 0] : Fin 3 → Nat) a + S1x1024x256.size a ≤ S6x1024x256.size a
  inb_S6x1024x256_S1x1024x256_2_0_0 : ∀ a, (![2, 0, 0] : Fin 3 → Nat) a + S1x1024x256.size a ≤ S6x1024x256.size a
  inb_S6x1024x256_S1x1024x256_3_0_0 : ∀ a, (![3, 0, 0] : Fin 3 → Nat) a + S1x1024x256.size a ≤ S6x1024x256.size a
  inb_S6x1024x256_S1x1024x256_4_0_0 : ∀ a, (![4, 0, 0] : Fin 3 → Nat) a + S1x1024x256.size a ≤ S6x1024x256.size a
  inb_S6x1024x256_S1x1024x256_5_0_0 : ∀ a, (![5, 0, 0] : Fin 3 → Nat) a + S1x1024x256.size a ≤ S6x1024x256.size a
  inb_S5x1024x256_S1x1024x256_0_0_0 : ∀ a, (![0, 0, 0] : Fin 3 → Nat) a + S1x1024x256.size a ≤ S5x1024x256.size a
  inb_S5x1024x256_S1x1024x256_1_0_0 : ∀ a, (![1, 0, 0] : Fin 3 → Nat) a + S1x1024x256.size a ≤ S5x1024x256.size a
  inb_S5x1024x256_S1x1024x256_2_0_0 : ∀ a, (![2, 0, 0] : Fin 3 → Nat) a + S1x1024x256.size a ≤ S5x1024x256.size a
  inb_S5x1024x256_S1x1024x256_3_0_0 : ∀ a, (![3, 0, 0] : Fin 3 → Nat) a + S1x1024x256.size a ≤ S5x1024x256.size a
  inb_S5x1024x256_S1x1024x256_4_0_0 : ∀ a, (![4, 0, 0] : Fin 3 → Nat) a + S1x1024x256.size a ≤ S5x1024x256.size a
  inb_S4x1024x256_S1x1024x256_0_0_0 : ∀ a, (![0, 0, 0] : Fin 3 → Nat) a + S1x1024x256.size a ≤ S4x1024x256.size a
  inb_S4x1024x256_S1x1024x256_1_0_0 : ∀ a, (![1, 0, 0] : Fin 3 → Nat) a + S1x1024x256.size a ≤ S4x1024x256.size a
  inb_S4x1024x256_S1x1024x256_2_0_0 : ∀ a, (![2, 0, 0] : Fin 3 → Nat) a + S1x1024x256.size a ≤ S4x1024x256.size a
  inb_S4x1024x256_S1x1024x256_3_0_0 : ∀ a, (![3, 0, 0] : Fin 3 → Nat) a + S1x1024x256.size a ≤ S4x1024x256.size a
  inb_S3x1024x256_S1x1024x256_0_0_0 : ∀ a, (![0, 0, 0] : Fin 3 → Nat) a + S1x1024x256.size a ≤ S3x1024x256.size a
  inb_S3x1024x256_S1x1024x256_1_0_0 : ∀ a, (![1, 0, 0] : Fin 3 → Nat) a + S1x1024x256.size a ≤ S3x1024x256.size a
  inb_S3x1024x256_S1x1024x256_2_0_0 : ∀ a, (![2, 0, 0] : Fin 3 → Nat) a + S1x1024x256.size a ≤ S3x1024x256.size a
  inb_S2x1024x256_S1x1024x256_0_0_0 : ∀ a, (![0, 0, 0] : Fin 3 → Nat) a + S1x1024x256.size a ≤ S2x1024x256.size a
  inb_S2x1024x256_S1x1024x256_1_0_0 : ∀ a, (![1, 0, 0] : Fin 3 → Nat) a + S1x1024x256.size a ≤ S2x1024x256.size a
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S512_S512_0 : ∀ a, (![0] : Fin 1 → Nat) a + S512.size a ≤ S512.size a
  h_S512 : 0 < S512.numel
  shapeCasts_S512_S512 : S512.ShapeCasts S512
  shapeCasts_S512_S1x512 : S512.ShapeCasts S1x512
  broadcasts_S1x512_S128x512 : S1x512.Broadcasts S128x512
  inb_S128x512_S128x512_0_0 : ∀ a, (![0, 0] : Fin 2 → Nat) a + S128x512.size a ≤ S128x512.size a
  h_S128x512 : 0 < S128x512.numel
  slices_S4096x512_S4096x400_0_0 : S4096x512.Slices ![0, 0] S4096x400
  scatter_S256x512_S1_S256x400_01_n_1_0_wf : ScatterDims.WF S256x512 S1 S256x400 [0, 1] [] [1] 0
  scatter_S512_S1_S400_0_n_0_0_wf : ScatterDims.WF S512 S1 S400 [0] [] [0] 0
  dot_S128x1024_S1024x256_S128x256_1_0_0_1_n_n_wf : DotDims.WF S128x1024 S1024x256 S128x256 [1] [0] [0] [1] [] []
  dot_S128x256_S256x256_S128x256_1_0_0_1_n_n_wf : DotDims.WF S128x256 S256x256 S128x256 [1] [0] [0] [1] [] []
  dot_S128x256_S256x512_S128x512_1_0_0_1_n_n_wf : DotDims.WF S128x256 S256x512 S128x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x8x1024.size a ≤ S4096x8x1024.size a
  hwx0_0 : ∀ i : grid0.Coords, EltTy.bits .f32 = 32 ∨ (Rect.block (s := S4096x8x1024) S128x8x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x1024x256.size a ≤ S8x1024x256.size a
  hwx0_1 : ∀ i : grid0.Coords, EltTy.bits .bf16 = 32 ∨ (Rect.block (s := S8x1024x256) S8x1024x256.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256.size a ≤ S256.size a
  hwx0_2 : ∀ i : grid0.Coords, EltTy.bits .f32 = 32 ∨ (Rect.block (s := S256) S256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .bf16 = 32 ∨ (Rect.block (s := S256x256) S256x256.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S7x1024x256.size a ≤ S7x1024x256.size a
  hwx0_5 : ∀ i : grid0.Coords, EltTy.bits .bf16 = 32 ∨ (Rect.block (s := S7x1024x256) S7x1024x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256.size a ≤ S256.size a
  hwx0_6 : ∀ i : grid0.Coords, EltTy.bits .f32 = 32 ∨ (Rect.block (s := S256) S256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S256x256.size a ≤ S256x256.size a
  hwx0_7 : ∀ i : grid0.Coords, EltTy.bits .bf16 = 32 ∨ (Rect.block (s := S256x256) S256x256.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256.size a ≤ S256.size a
  hwx0_8 : ∀ i : grid0.Coords, EltTy.bits .f32 = 32 ∨ (Rect.block (s := S256) S256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S6x1024x256.size a ≤ S6x1024x256.size a
  hwx0_9 : ∀ i : grid0.Coords, EltTy.bits .bf16 = 32 ∨ (Rect.block (s := S6x1024x256) S6x1024x256.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256.size a ≤ S256.size a
  hwx0_10 : ∀ i : grid0.Coords, EltTy.bits .f32 = 32 ∨ (Rect.block (s := S256) S256.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S256x256.size a ≤ S256x256.size a
  hwx0_11 : ∀ i : grid0.Coords, EltTy.bits .bf16 = 32 ∨ (Rect.block (s := S256x256) S256x256.size (cc0_transform_11 i) (hinb0_11 i)).WholeWords (EltTy.packing .bf16)
  hstage0_12 : ∀ j, (stage0_12 j).IsWhole
  nbuf0_12 : grid0.bufCount reads0_12 true = 1
  hreads0_12 : ∀ i i' : grid0.Coords, (∀ a, reads0_12 a = true → i a = i' a) → cc0_transform_12 i = cc0_transform_12 i'
  hinb0_12 : ∀ (i : grid0.Coords) a, (cc0_transform_12 i a + 1) * S256.size a ≤ S256.size a
  hwx0_12 : ∀ i : grid0.Coords, EltTy.bits .f32 = 32 ∨ (Rect.block (s := S256) S256.size (cc0_transform_12 i) (hinb0_12 i)).WholeWords (EltTy.packing .f32)
  hstage0_13 : ∀ j, (stage0_13 j).IsWhole
  nbuf0_13 : grid0.bufCount reads0_13 true = 1
  hreads0_13 : ∀ i i' : grid0.Coords, (∀ a, reads0_13 a = true → i a = i' a) → cc0_transform_13 i = cc0_transform_13 i'
  hinb0_13 : ∀ (i : grid0.Coords) a, (cc0_transform_13 i a + 1) * S5x1024x256.size a ≤ S5x1024x256.size a
  hwx0_13 : ∀ i : grid0.Coords, EltTy.bits .bf16 = 32 ∨ (Rect.block (s := S5x1024x256) S5x1024x256.size (cc0_transform_13 i) (hinb0_13 i)).WholeWords (EltTy.packing .bf16)
  hstage0_14 : ∀ j, (stage0_14 j).IsWhole
  nbuf0_14 : grid0.bufCount reads0_14 true = 1
  hreads0_14 : ∀ i i' : grid0.Coords, (∀ a, reads0_14 a = true → i a = i' a) → cc0_transform_14 i = cc0_transform_14 i'
  hinb0_14 : ∀ (i : grid0.Coords) a, (cc0_transform_14 i a + 1) * S256.size a ≤ S256.size a
  hwx0_14 : ∀ i : grid0.Coords, EltTy.bits .f32 = 32 ∨ (Rect.block (s := S256) S256.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S256x256.size a ≤ S256x256.size a
  hwx0_15 : ∀ i : grid0.Coords, EltTy.bits .bf16 = 32 ∨ (Rect.block (s := S256x256) S256x256.size (cc0_transform_15 i) (hinb0_15 i)).WholeWords (EltTy.packing .bf16)
  hstage0_16 : ∀ j, (stage0_16 j).IsWhole
  nbuf0_16 : grid0.bufCount reads0_16 true = 1
  hreads0_16 : ∀ i i' : grid0.Coords, (∀ a, reads0_16 a = true → i a = i' a) → cc0_transform_16 i = cc0_transform_16 i'
  hinb0_16 : ∀ (i : grid0.Coords) a, (cc0_transform_16 i a + 1) * S256.size a ≤ S256.size a
  hwx0_16 : ∀ i : grid0.Coords, EltTy.bits .f32 = 32 ∨ (Rect.block (s := S256) S256.size (cc0_transform_16 i) (hinb0_16 i)).WholeWords (EltTy.packing .f32)
  hstage0_17 : ∀ j, (stage0_17 j).IsWhole
  nbuf0_17 : grid0.bufCount reads0_17 true = 1
  hreads0_17 : ∀ i i' : grid0.Coords, (∀ a, reads0_17 a = true → i a = i' a) → cc0_transform_17 i = cc0_transform_17 i'
  hinb0_17 : ∀ (i : grid0.Coords) a, (cc0_transform_17 i a + 1) * S4x1024x256.size a ≤ S4x1024x256.size a
  hwx0_17 : ∀ i : grid0.Coords, EltTy.bits .bf16 = 32 ∨ (Rect.block (s := S4x1024x256) S4x1024x256.size (cc0_transform_17 i) (hinb0_17 i)).WholeWords (EltTy.packing .bf16)
  hstage0_18 : ∀ j, (stage0_18 j).IsWhole
  nbuf0_18 : grid0.bufCount reads0_18 true = 1
  hreads0_18 : ∀ i i' : grid0.Coords, (∀ a, reads0_18 a = true → i a = i' a) → cc0_transform_18 i = cc0_transform_18 i'
  hinb0_18 : ∀ (i : grid0.Coords) a, (cc0_transform_18 i a + 1) * S256.size a ≤ S256.size a
  hwx0_18 : ∀ i : grid0.Coords, EltTy.bits .f32 = 32 ∨ (Rect.block (s := S256) S256.size (cc0_transform_18 i) (hinb0_18 i)).WholeWords (EltTy.packing .f32)
  hstage0_19 : ∀ j, (stage0_19 j).IsWhole
  nbuf0_19 : grid0.bufCount reads0_19 true = 1
  hreads0_19 : ∀ i i' : grid0.Coords, (∀ a, reads0_19 a = true → i a = i' a) → cc0_transform_19 i = cc0_transform_19 i'
  hinb0_19 : ∀ (i : grid0.Coords) a, (cc0_transform_19 i a + 1) * S256x256.size a ≤ S256x256.size a
  hwx0_19 : ∀ i : grid0.Coords, EltTy.bits .bf16 = 32 ∨ (Rect.block (s := S256x256) S256x256.size (cc0_transform_19 i) (hinb0_19 i)).WholeWords (EltTy.packing .bf16)
  hstage0_20 : ∀ j, (stage0_20 j).IsWhole
  nbuf0_20 : grid0.bufCount reads0_20 true = 1
  hreads0_20 : ∀ i i' : grid0.Coords, (∀ a, reads0_20 a = true → i a = i' a) → cc0_transform_20 i = cc0_transform_20 i'
  hinb0_20 : ∀ (i : grid0.Coords) a, (cc0_transform_20 i a + 1) * S256.size a ≤ S256.size a
  hwx0_20 : ∀ i : grid0.Coords, EltTy.bits .f32 = 32 ∨ (Rect.block (s := S256) S256.size (cc0_transform_20 i) (hinb0_20 i)).WholeWords (EltTy.packing .f32)
  hstage0_21 : ∀ j, (stage0_21 j).IsWhole
  nbuf0_21 : grid0.bufCount reads0_21 true = 1
  hreads0_21 : ∀ i i' : grid0.Coords, (∀ a, reads0_21 a = true → i a = i' a) → cc0_transform_21 i = cc0_transform_21 i'
  hinb0_21 : ∀ (i : grid0.Coords) a, (cc0_transform_21 i a + 1) * S3x1024x256.size a ≤ S3x1024x256.size a
  hwx0_21 : ∀ i : grid0.Coords, EltTy.bits .bf16 = 32 ∨ (Rect.block (s := S3x1024x256) S3x1024x256.size (cc0_transform_21 i) (hinb0_21 i)).WholeWords (EltTy.packing .bf16)
  hstage0_22 : ∀ j, (stage0_22 j).IsWhole
  nbuf0_22 : grid0.bufCount reads0_22 true = 1
  hreads0_22 : ∀ i i' : grid0.Coords, (∀ a, reads0_22 a = true → i a = i' a) → cc0_transform_22 i = cc0_transform_22 i'
  hinb0_22 : ∀ (i : grid0.Coords) a, (cc0_transform_22 i a + 1) * S256.size a ≤ S256.size a
  hwx0_22 : ∀ i : grid0.Coords, EltTy.bits .f32 = 32 ∨ (Rect.block (s := S256) S256.size (cc0_transform_22 i) (hinb0_22 i)).WholeWords (EltTy.packing .f32)
  hstage0_23 : ∀ j, (stage0_23 j).IsWhole
  nbuf0_23 : grid0.bufCount reads0_23 true = 1
  hreads0_23 : ∀ i i' : grid0.Coords, (∀ a, reads0_23 a = true → i a = i' a) → cc0_transform_23 i = cc0_transform_23 i'
  hinb0_23 : ∀ (i : grid0.Coords) a, (cc0_transform_23 i a + 1) * S256x256.size a ≤ S256x256.size a
  hwx0_23 : ∀ i : grid0.Coords, EltTy.bits .bf16 = 32 ∨ (Rect.block (s := S256x256) S256x256.size (cc0_transform_23 i) (hinb0_23 i)).WholeWords (EltTy.packing .bf16)
  hstage0_24 : ∀ j, (stage0_24 j).IsWhole
  nbuf0_24 : grid0.bufCount reads0_24 true = 1
  hreads0_24 : ∀ i i' : grid0.Coords, (∀ a, reads0_24 a = true → i a = i' a) → cc0_transform_24 i = cc0_transform_24 i'
  hinb0_24 : ∀ (i : grid0.Coords) a, (cc0_transform_24 i a + 1) * S256.size a ≤ S256.size a
  hwx0_24 : ∀ i : grid0.Coords, EltTy.bits .f32 = 32 ∨ (Rect.block (s := S256) S256.size (cc0_transform_24 i) (hinb0_24 i)).WholeWords (EltTy.packing .f32)
  hstage0_25 : ∀ j, (stage0_25 j).IsWhole
  nbuf0_25 : grid0.bufCount reads0_25 true = 1
  hreads0_25 : ∀ i i' : grid0.Coords, (∀ a, reads0_25 a = true → i a = i' a) → cc0_transform_25 i = cc0_transform_25 i'
  hinb0_25 : ∀ (i : grid0.Coords) a, (cc0_transform_25 i a + 1) * S2x1024x256.size a ≤ S2x1024x256.size a
  hwx0_25 : ∀ i : grid0.Coords, EltTy.bits .bf16 = 32 ∨ (Rect.block (s := S2x1024x256) S2x1024x256.size (cc0_transform_25 i) (hinb0_25 i)).WholeWords (EltTy.packing .bf16)
  hstage0_26 : ∀ j, (stage0_26 j).IsWhole
  nbuf0_26 : grid0.bufCount reads0_26 true = 1
  hreads0_26 : ∀ i i' : grid0.Coords, (∀ a, reads0_26 a = true → i a = i' a) → cc0_transform_26 i = cc0_transform_26 i'
  hinb0_26 : ∀ (i : grid0.Coords) a, (cc0_transform_26 i a + 1) * S256.size a ≤ S256.size a
  hwx0_26 : ∀ i : grid0.Coords, EltTy.bits .f32 = 32 ∨ (Rect.block (s := S256) S256.size (cc0_transform_26 i) (hinb0_26 i)).WholeWords (EltTy.packing .f32)
  hstage0_27 : ∀ j, (stage0_27 j).IsWhole
  nbuf0_27 : grid0.bufCount reads0_27 true = 1
  hreads0_27 : ∀ i i' : grid0.Coords, (∀ a, reads0_27 a = true → i a = i' a) → cc0_transform_27 i = cc0_transform_27 i'
  hinb0_27 : ∀ (i : grid0.Coords) a, (cc0_transform_27 i a + 1) * S256x256.size a ≤ S256x256.size a
  hwx0_27 : ∀ i : grid0.Coords, EltTy.bits .bf16 = 32 ∨ (Rect.block (s := S256x256) S256x256.size (cc0_transform_27 i) (hinb0_27 i)).WholeWords (EltTy.packing .bf16)
  hstage0_28 : ∀ j, (stage0_28 j).IsWhole
  nbuf0_28 : grid0.bufCount reads0_28 true = 1
  hreads0_28 : ∀ i i' : grid0.Coords, (∀ a, reads0_28 a = true → i a = i' a) → cc0_transform_28 i = cc0_transform_28 i'
  hinb0_28 : ∀ (i : grid0.Coords) a, (cc0_transform_28 i a + 1) * S256.size a ≤ S256.size a
  hwx0_28 : ∀ i : grid0.Coords, EltTy.bits .f32 = 32 ∨ (Rect.block (s := S256) S256.size (cc0_transform_28 i) (hinb0_28 i)).WholeWords (EltTy.packing .f32)
  hstage0_29 : ∀ j, (stage0_29 j).IsWhole
  nbuf0_29 : grid0.bufCount reads0_29 true = 1
  hreads0_29 : ∀ i i' : grid0.Coords, (∀ a, reads0_29 a = true → i a = i' a) → cc0_transform_29 i = cc0_transform_29 i'
  hinb0_29 : ∀ (i : grid0.Coords) a, (cc0_transform_29 i a + 1) * S256x512.size a ≤ S256x512.size a
  hwx0_29 : ∀ i : grid0.Coords, EltTy.bits .bf16 = 32 ∨ (Rect.block (s := S256x512) S256x512.size (cc0_transform_29 i) (hinb0_29 i)).WholeWords (EltTy.packing .bf16)
  hstage0_30 : ∀ j, (stage0_30 j).IsWhole
  nbuf0_30 : grid0.bufCount reads0_30 true = 1
  hreads0_30 : ∀ i i' : grid0.Coords, (∀ a, reads0_30 a = true → i a = i' a) → cc0_transform_30 i = cc0_transform_30 i'
  hinb0_30 : ∀ (i : grid0.Coords) a, (cc0_transform_30 i a + 1) * S512.size a ≤ S512.size a
  hwx0_30 : ∀ i : grid0.Coords, EltTy.bits .f32 = 32 ∨ (Rect.block (s := S512) S512.size (cc0_transform_30 i) (hinb0_30 i)).WholeWords (EltTy.packing .f32)
  hstage0_31 : ∀ j, (stage0_31 j).IsWhole
  nbuf0_31 : grid0.bufCount reads0_31 false = 2
  hreads0_31 : ∀ i i' : grid0.Coords, (∀ a, reads0_31 a = true → i a = i' a) → cc0_transform_31 i = cc0_transform_31 i'
  hinb0_31 : ∀ (i : grid0.Coords) a, (cc0_transform_31 i a + 1) * S128x512.size a ≤ S4096x512.size a
  hwx0_31 : ∀ i : grid0.Coords, EltTy.bits .f32 = 32 ∨ (Rect.block (s := S4096x512) S128x512.size (cc0_transform_31 i) (hinb0_31 i)).WholeWords (EltTy.packing .f32)

variable [Facts₀]

def scatter_S256x512_S1_S256x400_01_n_1_0 : ScatterDims S256x512 S1 S256x400 where
  updateWindowDims := [0, 1]
  insertedWindowDims := []
  scatterDimsToOperandDims := [1]
  indexVectorDim := 0
  wf := scatter_S256x512_S1_S256x400_01_n_1_0_wf
def scatter_S512_S1_S400_0_n_0_0 : ScatterDims S512 S1 S400 where
  updateWindowDims := [0]
  insertedWindowDims := []
  scatterDimsToOperandDims := [0]
  indexVectorDim := 0
  wf := scatter_S512_S1_S400_0_n_0_0_wf
def dot_S128x1024_S1024x256_S128x256_1_0_0_1_n_n : DotDims S128x1024 S1024x256 S128x256 where
  lhsContracting := [1]
  rhsContracting := [0]
  lhsNonContracting := [0]
  rhsNonContracting := [1]
  lhsBatch := []
  rhsBatch := []
  wf := dot_S128x1024_S1024x256_S128x256_1_0_0_1_n_n_wf
def dot_S128x256_S256x256_S128x256_1_0_0_1_n_n : DotDims S128x256 S256x256 S128x256 where
  lhsContracting := [1]
  rhsContracting := [0]
  lhsNonContracting := [0]
  rhsNonContracting := [1]
  lhsBatch := []
  rhsBatch := []
  wf := dot_S128x256_S256x256_S128x256_1_0_0_1_n_n_wf
def dot_S128x256_S256x512_S128x512_1_0_0_1_n_n : DotDims S128x256 S256x512 S128x512 where
  lhsContracting := [1]
  rhsContracting := [0]
  lhsNonContracting := [0]
  rhsNonContracting := [1]
  lhsBatch := []
  rhsBatch := []
  wf := dot_S128x256_S256x512_S128x512_1_0_0_1_n_n_wf

abbrev win0_0 : Pipeline.Window sig grid0 :=
  Pipeline.Window.ofSpec (Memref.whole main_arg0) S128x8x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x1024x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S7x1024x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v15) S256x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S6x1024x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S256.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v16) S256x256.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_arg12) S256.size cc0_transform_12 reads0_12 false true 1 stage0_12 sem0_12
    hrank0 hreads0_12 hinb0_12 nbuf0_12 (Memref.isWhole_whole _) hwx0_12 hstage0_12

abbrev win0_13 : Pipeline.Window sig grid0 :=
  Pipeline.Window.ofSpec (Memref.whole main_v7) S5x1024x256.size cc0_transform_13 reads0_13 false true 1 stage0_13 sem0_13
    hrank0 hreads0_13 hinb0_13 nbuf0_13 (Memref.isWhole_whole _) hwx0_13 hstage0_13

abbrev win0_14 : Pipeline.Window sig grid0 :=
  Pipeline.Window.ofSpec (Memref.whole main_arg14) S256.size cc0_transform_14 reads0_14 false true 1 stage0_14 sem0_14
    hrank0 hreads0_14 hinb0_14 nbuf0_14 (Memref.isWhole_whole _) hwx0_14 hstage0_14

abbrev win0_15 : Pipeline.Window sig grid0 :=
  Pipeline.Window.ofSpec (Memref.whole main_v17) S256x256.size cc0_transform_15 reads0_15 false true 1 stage0_15 sem0_15
    hrank0 hreads0_15 hinb0_15 nbuf0_15 (Memref.isWhole_whole _) hwx0_15 hstage0_15

abbrev win0_16 : Pipeline.Window sig grid0 :=
  Pipeline.Window.ofSpec (Memref.whole main_arg16) S256.size cc0_transform_16 reads0_16 false true 1 stage0_16 sem0_16
    hrank0 hreads0_16 hinb0_16 nbuf0_16 (Memref.isWhole_whole _) hwx0_16 hstage0_16

abbrev win0_17 : Pipeline.Window sig grid0 :=
  Pipeline.Window.ofSpec (Memref.whole main_v9) S4x1024x256.size cc0_transform_17 reads0_17 false true 1 stage0_17 sem0_17
    hrank0 hreads0_17 hinb0_17 nbuf0_17 (Memref.isWhole_whole _) hwx0_17 hstage0_17

abbrev win0_18 : Pipeline.Window sig grid0 :=
  Pipeline.Window.ofSpec (Memref.whole main_arg18) S256.size cc0_transform_18 reads0_18 false true 1 stage0_18 sem0_18
    hrank0 hreads0_18 hinb0_18 nbuf0_18 (Memref.isWhole_whole _) hwx0_18 hstage0_18

abbrev win0_19 : Pipeline.Window sig grid0 :=
  Pipeline.Window.ofSpec (Memref.whole main_v18) S256x256.size cc0_transform_19 reads0_19 false true 1 stage0_19 sem0_19
    hrank0 hreads0_19 hinb0_19 nbuf0_19 (Memref.isWhole_whole _) hwx0_19 hstage0_19

abbrev win0_20 : Pipeline.Window sig grid0 :=
  Pipeline.Window.ofSpec (Memref.whole main_arg20) S256.size cc0_transform_20 reads0_20 false true 1 stage0_20 sem0_20
    hrank0 hreads0_20 hinb0_20 nbuf0_20 (Memref.isWhole_whole _) hwx0_20 hstage0_20

abbrev win0_21 : Pipeline.Window sig grid0 :=
  Pipeline.Window.ofSpec (Memref.whole main_v11) S3x1024x256.size cc0_transform_21 reads0_21 false true 1 stage0_21 sem0_21
    hrank0 hreads0_21 hinb0_21 nbuf0_21 (Memref.isWhole_whole _) hwx0_21 hstage0_21

abbrev win0_22 : Pipeline.Window sig grid0 :=
  Pipeline.Window.ofSpec (Memref.whole main_arg22) S256.size cc0_transform_22 reads0_22 false true 1 stage0_22 sem0_22
    hrank0 hreads0_22 hinb0_22 nbuf0_22 (Memref.isWhole_whole _) hwx0_22 hstage0_22

abbrev win0_23 : Pipeline.Window sig grid0 :=
  Pipeline.Window.ofSpec (Memref.whole main_v19) S256x256.size cc0_transform_23 reads0_23 false true 1 stage0_23 sem0_23
    hrank0 hreads0_23 hinb0_23 nbuf0_23 (Memref.isWhole_whole _) hwx0_23 hstage0_23

abbrev win0_24 : Pipeline.Window sig grid0 :=
  Pipeline.Window.ofSpec (Memref.whole main_arg24) S256.size cc0_transform_24 reads0_24 false true 1 stage0_24 sem0_24
    hrank0 hreads0_24 hinb0_24 nbuf0_24 (Memref.isWhole_whole _) hwx0_24 hstage0_24

abbrev win0_25 : Pipeline.Window sig grid0 :=
  Pipeline.Window.ofSpec (Memref.whole main_v13) S2x1024x256.size cc0_transform_25 reads0_25 false true 1 stage0_25 sem0_25
    hrank0 hreads0_25 hinb0_25 nbuf0_25 (Memref.isWhole_whole _) hwx0_25 hstage0_25

abbrev win0_26 : Pipeline.Window sig grid0 :=
  Pipeline.Window.ofSpec (Memref.whole main_arg26) S256.size cc0_transform_26 reads0_26 false true 1 stage0_26 sem0_26
    hrank0 hreads0_26 hinb0_26 nbuf0_26 (Memref.isWhole_whole _) hwx0_26 hstage0_26

abbrev win0_27 : Pipeline.Window sig grid0 :=
  Pipeline.Window.ofSpec (Memref.whole main_v20) S256x256.size cc0_transform_27 reads0_27 false true 1 stage0_27 sem0_27
    hrank0 hreads0_27 hinb0_27 nbuf0_27 (Memref.isWhole_whole _) hwx0_27 hstage0_27

abbrev win0_28 : Pipeline.Window sig grid0 :=
  Pipeline.Window.ofSpec (Memref.whole main_arg28) S256.size cc0_transform_28 reads0_28 false true 1 stage0_28 sem0_28
    hrank0 hreads0_28 hinb0_28 nbuf0_28 (Memref.isWhole_whole _) hwx0_28 hstage0_28

abbrev win0_29 : Pipeline.Window sig grid0 :=
  Pipeline.Window.ofSpec (Memref.whole main_v24) S256x512.size cc0_transform_29 reads0_29 false true 1 stage0_29 sem0_29
    hrank0 hreads0_29 hinb0_29 nbuf0_29 (Memref.isWhole_whole _) hwx0_29 hstage0_29

abbrev win0_30 : Pipeline.Window sig grid0 :=
  Pipeline.Window.ofSpec (Memref.whole main_v27) S512.size cc0_transform_30 reads0_30 false true 1 stage0_30 sem0_30
    hrank0 hreads0_30 hinb0_30 nbuf0_30 (Memref.isWhole_whole _) hwx0_30 hstage0_30

abbrev win0_31 : Pipeline.Window sig grid0 :=
  Pipeline.Window.ofSpec (Memref.whole main_v28) S128x512.size cc0_transform_31 reads0_31 true false 2 stage0_31 sem0_31
    hrank0 hreads0_31 hinb0_31 nbuf0_31 (Memref.isWhole_whole _) hwx0_31 hstage0_31

abbrev win0 : Fin 32 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | 16 => win0_16 | 17 => win0_17 | 18 => win0_18 | 19 => win0_19 | 20 => win0_20 | 21 => win0_21 | 22 => win0_22 | 23 => win0_23 | 24 => win0_24 | 25 => win0_25 | 26 => win0_26 | 27 => win0_27 | 28 => win0_28 | 29 => win0_29 | 30 => win0_30 | 31 => win0_31 | ⟨_ + 32, h⟩ => absurd h (Nat.not_lt.2 (Nat.le_add_left _ _))
abbrev spec0 : Fin 32 → Pipeline.WinSpec sig grid0.rank := fun w => (win0 w).toWinSpec

class Facts : Prop extends Facts₀ where

variable [Facts]
-- ==== ReferenceIdeal.lean ====
abbrev S4096x8x1024 : Shape := ⟨3, ![4096, 8, 1024]⟩
abbrev S8192x256 : Shape := ⟨2, ![8192, 256]⟩
abbrev S256 : Shape := ⟨1, ![256]⟩
abbrev S256x256 : Shape := ⟨2, ![256, 256]⟩
abbrev S7168x256 : Shape := ⟨2, ![7168, 256]⟩
abbrev S6144x256 : Shape := ⟨2, ![6144, 256]⟩
abbrev S5120x256 : Shape := ⟨2, ![5120, 256]⟩
abbrev S4096x256 : Shape := ⟨2, ![4096, 256]⟩
abbrev S3072x256 : Shape := ⟨2, ![3072, 256]⟩
abbrev S2048x256 : Shape := ⟨2, ![2048, 256]⟩
abbrev S256x400 : Shape := ⟨2, ![256, 400]⟩
abbrev S400 : Shape := ⟨1, ![400]⟩
abbrev S1x8 : Shape := ⟨2, ![1, 8]⟩
abbrev S3x7 : Shape := ⟨2, ![3, 7]⟩
abbrev S3x6 : Shape := ⟨2, ![3, 6]⟩
abbrev S3x5 : Shape := ⟨2, ![3, 5]⟩
abbrev S3x4 : Shape := ⟨2, ![3, 4]⟩
abbrev S3x3 : Shape := ⟨2, ![3, 3]⟩
abbrev S3x2 : Shape := ⟨2, ![3, 2]⟩
abbrev S_ : Shape := ⟨0, ![]⟩
abbrev S1x8x1 : Shape := ⟨3, ![1, 8, 1]⟩
abbrev S4096x1x8x1024 : Shape := ⟨4, ![4096, 1, 8, 1024]⟩
abbrev S4096x1x8192 : Shape := ⟨3, ![4096, 1, 8192]⟩
abbrev S4096x1x256 : Shape := ⟨3, ![4096, 1, 256]⟩
abbrev S1x1x256 : Shape := ⟨3, ![1, 1, 256]⟩
abbrev S3x7x1 : Shape := ⟨3, ![3, 7, 1]⟩
abbrev S4096x3x7x1024 : Shape := ⟨4, ![4096, 3, 7, 1024]⟩
abbrev S4096x3x7168 : Shape := ⟨3, ![4096, 3, 7168]⟩
abbrev S4096x3x256 : Shape := ⟨3, ![4096, 3, 256]⟩
abbrev S3x6x1 : Shape := ⟨3, ![3, 6, 1]⟩
abbrev S4096x3x6x1024 : Shape := ⟨4, ![4096, 3, 6, 1024]⟩
abbrev S4096x3x6144 : Shape := ⟨3, ![4096, 3, 6144]⟩
abbrev S3x5x1 : Shape := ⟨3, ![3, 5, 1]⟩
abbrev S4096x3x5x1024 : Shape := ⟨4, ![4096, 3, 5, 1024]⟩
abbrev S4096x3x5120 : Shape := ⟨3, ![4096, 3, 5120]⟩
abbrev S3x4x1 : Shape := ⟨3, ![3, 4, 1]⟩
abbrev S4096x3x4x1024 : Shape := ⟨4, ![4096, 3, 4, 1024]⟩
abbrev S4096x3x4096 : Shape := ⟨3, ![4096, 3, 4096]⟩
abbrev S3x3x1 : Shape := ⟨3, ![3, 3, 1]⟩
abbrev S4096x3x3x1024 : Shape := ⟨4, ![4096, 3, 3, 1024]⟩
abbrev S4096x3x3072 : Shape := ⟨3, ![4096, 3, 3072]⟩
abbrev S3x2x1 : Shape := ⟨3, ![3, 2, 1]⟩
abbrev S4096x3x2x1024 : Shape := ⟨4, ![4096, 3, 2, 1024]⟩
abbrev S4096x3x2048 : Shape := ⟨3, ![4096, 3, 2048]⟩
abbrev S4096x400 : Shape := ⟨2, ![4096, 400]⟩
abbrev S1x400 : Shape := ⟨2, ![1, 400]⟩

abbrev nBuf : Space → Nat
  | .hbm => 240
  | .vmem => 0
  | .smem => 0
  | _ => 0

abbrev hbmTy0_0 (i : Nat) : BufTy := match i % 128 with
  | 0 => ⟨S4096x8x1024, .f32⟩
  | 1 => ⟨S8192x256, .f32⟩
  | 2 => ⟨S256, .f32⟩
  | 3 => ⟨S256x256, .f32⟩
  | 4 => ⟨S256, .f32⟩
  | 5 => ⟨S7168x256, .f32⟩
  | 6 => ⟨S256, .f32⟩
  | 7 => ⟨S256x256, .f32⟩
  | 8 => ⟨S256, .f32⟩
  | 9 => ⟨S6144x256, .f32⟩
  | 10 => ⟨S256, .f32⟩
  | 11 => ⟨S256x256, .f32⟩
  | 12 => ⟨S256, .f32⟩
  | 13 => ⟨S5120x256, .f32⟩
  | 14 => ⟨S256, .f32⟩
  | 15 => ⟨S256x256, .f32⟩
  | 16 => ⟨S256, .f32⟩
  | 17 => ⟨S4096x256, .f32⟩
  | 18 => ⟨S256, .f32⟩
  | 19 => ⟨S256x256, .f32⟩
  | 20 => ⟨S256, .f32⟩
  | 21 => ⟨S3072x256, .f32⟩
  | 22 => ⟨S256, .f32⟩
  | 23 => ⟨S256x256, .f32⟩
  | 24 => ⟨S256, .f32⟩
  | 25 => ⟨S2048x256, .f32⟩
  | 26 => ⟨S256, .f32⟩
  | 27 => ⟨S256x256, .f32⟩
  | 28 => ⟨S256, .f32⟩
  | 29 => ⟨S256x400, .f32⟩
  | 30 => ⟨S400, .f32⟩
  | 31 => ⟨S1x8, .i32⟩
  | 32 => ⟨S1x8, .i1⟩
  | 33 => ⟨S3x7, .i32⟩
  | 34 => ⟨S3x7, .i1⟩
  | 35 => ⟨S3x6, .i32⟩
  | 36 => ⟨S3x6, .i1⟩
  | 37 => ⟨S3x5, .i32⟩
  | 38 => ⟨S3x5, .i1⟩
  | 39 => ⟨S3x4, .i32⟩
  | 40 => ⟨S3x4, .i1⟩
  | 41 => ⟨S3x3, .i32⟩
  | 42 => ⟨S3x3, .i1⟩
  | 43 => ⟨S3x2, .i32⟩
  | 44 => ⟨S3x2, .i1⟩
  | 45 => ⟨S_, .i32⟩
  | 46 => ⟨S1x8, .i32⟩
  | 47 => ⟨S1x8, .i32⟩
  | 48 => ⟨S1x8, .i32⟩
  | 49 => ⟨S1x8x1, .i32⟩
  | 50 => ⟨S4096x1x8x1024, .f32⟩
  | 51 => ⟨S4096x1x8192, .f32⟩
  | 52 => ⟨S_, .f32⟩
  | 53 => ⟨S4096x1x8192, .f32⟩
  | 54 => ⟨S4096x1x8192, .f32⟩
  | 55 => ⟨S4096x1x256, .f32⟩
  | 56 => ⟨S1x1x256, .f32⟩
  | 57 => ⟨S4096x1x256, .f32⟩
  | 58 => ⟨S4096x1x256, .f32⟩
  | 59 => ⟨S_, .f32⟩
  | 60 => ⟨S4096x1x256, .f32⟩
  | 61 => ⟨S4096x1x256, .f32⟩
  | 62 => ⟨S4096x1x256, .f32⟩
  | 63 => ⟨S1x1x256, .f32⟩
  | 64 => ⟨S4096x1x256, .f32⟩
  | 65 => ⟨S4096x1x256, .f32⟩
  | 66 => ⟨S_, .f32⟩
  | 67 => ⟨S4096x1x256, .f32⟩
  | 68 => ⟨S4096x1x256, .f32⟩
  | 69 => ⟨S_, .f32⟩
  | 70 => ⟨S4096x256, .f32⟩
  | 71 => ⟨S_, .i32⟩
  | 72 => ⟨S3x7, .i32⟩
  | 73 => ⟨S3x7, .i32⟩
  | 74 => ⟨S3x7, .i32⟩
  | 75 => ⟨S3x7x1, .i32⟩
  | 76 => ⟨S4096x3x7x1024, .f32⟩
  | 77 => ⟨S4096x3x7168, .f32⟩
  | 78 => ⟨S_, .f32⟩
  | 79 => ⟨S4096x3x7168, .f32⟩
  | 80 => ⟨S4096x3x7168, .f32⟩
  | 81 => ⟨S4096x3x256, .f32⟩
  | 82 => ⟨S1x1x256, .f32⟩
  | 83 => ⟨S4096x3x256, .f32⟩
  | 84 => ⟨S4096x3x256, .f32⟩
  | 85 => ⟨S_, .f32⟩
  | 86 => ⟨S4096x3x256, .f32⟩
  | 87 => ⟨S4096x3x256, .f32⟩
  | 88 => ⟨S4096x3x256, .f32⟩
  | 89 => ⟨S1x1x256, .f32⟩
  | 90 => ⟨S4096x3x256, .f32⟩
  | 91 => ⟨S4096x3x256, .f32⟩
  | 92 => ⟨S_, .f32⟩
  | 93 => ⟨S4096x3x256, .f32⟩
  | 94 => ⟨S4096x3x256, .f32⟩
  | 95 => ⟨S_, .f32⟩
  | 96 => ⟨S4096x256, .f32⟩
  | 97 => ⟨S4096x256, .f32⟩
  | 98 => ⟨S_, .i32⟩
  | 99 => ⟨S3x6, .i32⟩
  | 100 => ⟨S3x6, .i32⟩
  | 101 => ⟨S3x6, .i32⟩
  | 102 => ⟨S3x6x1, .i32⟩
  | 103 => ⟨S4096x3x6x1024, .f32⟩
  | 104 => ⟨S4096x3x6144, .f32⟩
  | 105 => ⟨S_, .f32⟩
  | 106 => ⟨S4096x3x6144, .f32⟩
  | 107 => ⟨S4096x3x6144, .f32⟩
  | 108 => ⟨S4096x3x256, .f32⟩
  | 109 => ⟨S1x1x256, .f32⟩
  | 110 => ⟨S4096x3x256, .f32⟩
  | 111 => ⟨S4096x3x256, .f32⟩
  | 112 => ⟨S_, .f32⟩
  | 113 => ⟨S4096x3x256, .f32⟩
  | 114 => ⟨S4096x3x256, .f32⟩
  | 115 => ⟨S4096x3x256, .f32⟩
  | 116 => ⟨S1x1x256, .f32⟩
  | 117 => ⟨S4096x3x256, .f32⟩
  | 118 => ⟨S4096x3x256, .f32⟩
  | 119 => ⟨S_, .f32⟩
  | 120 => ⟨S4096x3x256, .f32⟩
  | 121 => ⟨S4096x3x256, .f32⟩
  | 122 => ⟨S_, .f32⟩
  | 123 => ⟨S4096x256, .f32⟩
  | 124 => ⟨S4096x256, .f32⟩
  | 125 => ⟨S_, .i32⟩
  | 126 => ⟨S3x5, .i32⟩
  | 127 => ⟨S3x5, .i32⟩
  | _ => ⟨S4096x8x1024, .f32⟩

abbrev hbmTy0_1 (i : Nat) : BufTy := match i % 128 with
  | 0 => ⟨S3x5, .i32⟩
  | 1 => ⟨S3x5x1, .i32⟩
  | 2 => ⟨S4096x3x5x1024, .f32⟩
  | 3 => ⟨S4096x3x5120, .f32⟩
  | 4 => ⟨S_, .f32⟩
  | 5 => ⟨S4096x3x5120, .f32⟩
  | 6 => ⟨S4096x3x5120, .f32⟩
  | 7 => ⟨S4096x3x256, .f32⟩
  | 8 => ⟨S1x1x256, .f32⟩
  | 9 => ⟨S4096x3x256, .f32⟩
  | 10 => ⟨S4096x3x256, .f32⟩
  | 11 => ⟨S_, .f32⟩
  | 12 => ⟨S4096x3x256, .f32⟩
  | 13 => ⟨S4096x3x256, .f32⟩
  | 14 => ⟨S4096x3x256, .f32⟩
  | 15 => ⟨S1x1x256, .f32⟩
  | 16 => ⟨S4096x3x256, .f32⟩
  | 17 => ⟨S4096x3x256, .f32⟩
  | 18 => ⟨S_, .f32⟩
  | 19 => ⟨S4096x3x256, .f32⟩
  | 20 => ⟨S4096x3x256, .f32⟩
  | 21 => ⟨S_, .f32⟩
  | 22 => ⟨S4096x256, .f32⟩
  | 23 => ⟨S4096x256, .f32⟩
  | 24 => ⟨S_, .i32⟩
  | 25 => ⟨S3x4, .i32⟩
  | 26 => ⟨S3x4, .i32⟩
  | 27 => ⟨S3x4, .i32⟩
  | 28 => ⟨S3x4x1, .i32⟩
  | 29 => ⟨S4096x3x4x1024, .f32⟩
  | 30 => ⟨S4096x3x4096, .f32⟩
  | 31 => ⟨S_, .f32⟩
  | 32 => ⟨S4096x3x4096, .f32⟩
  | 33 => ⟨S4096x3x4096, .f32⟩
  | 34 => ⟨S4096x3x256, .f32⟩
  | 35 => ⟨S1x1x256, .f32⟩
  | 36 => ⟨S4096x3x256, .f32⟩
  | 37 => ⟨S4096x3x256, .f32⟩
  | 38 => ⟨S_, .f32⟩
  | 39 => ⟨S4096x3x256, .f32⟩
  | 40 => ⟨S4096x3x256, .f32⟩
  | 41 => ⟨S4096x3x256, .f32⟩
  | 42 => ⟨S1x1x256, .f32⟩
  | 43 => ⟨S4096x3x256, .f32⟩
  | 44 => ⟨S4096x3x256, .f32⟩
  | 45 => ⟨S_, .f32⟩
  | 46 => ⟨S4096x3x256, .f32⟩
  | 47 => ⟨S4096x3x256, .f32⟩
  | 48 => ⟨S_, .f32⟩
  | 49 => ⟨S4096x256, .f32⟩
  | 50 => ⟨S4096x256, .f32⟩
  | 51 => ⟨S_, .i32⟩
  | 52 => ⟨S3x3, .i32⟩
  | 53 => ⟨S3x3, .i32⟩
  | 54 => ⟨S3x3, .i32⟩
  | 55 => ⟨S3x3x1, .i32⟩
  | 56 => ⟨S4096x3x3x1024, .f32⟩
  | 57 => ⟨S4096x3x3072, .f32⟩
  | 58 => ⟨S_, .f32⟩
  | 59 => ⟨S4096x3x3072, .f32⟩
  | 60 => ⟨S4096x3x3072, .f32⟩
  | 61 => ⟨S4096x3x256, .f32⟩
  | 62 => ⟨S1x1x256, .f32⟩
  | 63 => ⟨S4096x3x256, .f32⟩
  | 64 => ⟨S4096x3x256, .f32⟩
  | 65 => ⟨S_, .f32⟩
  | 66 => ⟨S4096x3x256, .f32⟩
  | 67 => ⟨S4096x3x256, .f32⟩
  | 68 => ⟨S4096x3x256, .f32⟩
  | 69 => ⟨S1x1x256, .f32⟩
  | 70 => ⟨S4096x3x256, .f32⟩
  | 71 => ⟨S4096x3x256, .f32⟩
  | 72 => ⟨S_, .f32⟩
  | 73 => ⟨S4096x3x256, .f32⟩
  | 74 => ⟨S4096x3x256, .f32⟩
  | 75 => ⟨S_, .f32⟩
  | 76 => ⟨S4096x256, .f32⟩
  | 77 => ⟨S4096x256, .f32⟩
  | 78 => ⟨S_, .i32⟩
  | 79 => ⟨S3x2, .i32⟩
  | 80 => ⟨S3x2, .i32⟩
  | 81 => ⟨S3x2, .i32⟩
  | 82 => ⟨S3x2x1, .i32⟩
  | 83 => ⟨S4096x3x2x1024, .f32⟩
  | 84 => ⟨S4096x3x2048, .f32⟩
  | 85 => ⟨S_, .f32⟩
  | 86 => ⟨S4096x3x2048, .f32⟩
  | 87 => ⟨S4096x3x2048, .f32⟩
  | 88 => ⟨S4096x3x256, .f32⟩
  | 89 => ⟨S1x1x256, .f32⟩
  | 90 => ⟨S4096x3x256, .f32⟩
  | 91 => ⟨S4096x3x256, .f32⟩
  | 92 => ⟨S_, .f32⟩
  | 93 => ⟨S4096x3x256, .f32⟩
  | 94 => ⟨S4096x3x256, .f32⟩
  | 95 => ⟨S4096x3x256, .f32⟩
  | 96 => ⟨S1x1x256, .f32⟩
  | 97 => ⟨S4096x3x256, .f32⟩
  | 98 => ⟨S4096x3x256, .f32⟩
  | 99 => ⟨S_, .f32⟩
  | 100 => ⟨S4096x3x256, .f32⟩
  | 101 => ⟨S4096x3x256, .f32⟩
  | 102 => ⟨S_, .f32⟩
  | 103 => ⟨S4096x256, .f32⟩
  | 104 => ⟨S4096x256, .f32⟩
  | 105 => ⟨S4096x400, .f32⟩
  | 106 => ⟨S1x400, .f32⟩
  | 107 => ⟨S4096x400, .f32⟩
  | 108 => ⟨S4096x400, .f32⟩
  | 109 => ⟨S_, .f32⟩
  | 110 => ⟨S4096x400, .f32⟩
  | 111 => ⟨S4096x400, .f32⟩
  | _ => ⟨S4096x8x1024, .f32⟩

abbrev hbmTy (i : Nat) : BufTy := match i / 128 with
  | 0 => hbmTy0_0 i
  | 1 => hbmTy0_1 i
  | _ => ⟨S4096x8x1024, .f32⟩

abbrev bufTy : (tb : Table) → Fin (tcTables nBuf tb) → BufTy
  | .hbm, ⟨i, _⟩ => hbmTy i
  | _, _ => ⟨S4096x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_c : Ref sig .tc := ⟨.hbm, 31, rfl⟩
abbrev main_c_0 : Ref sig .tc := ⟨.hbm, 32, rfl⟩
abbrev main_c_1 : Ref sig .tc := ⟨.hbm, 33, rfl⟩
abbrev main_c_2 : Ref sig .tc := ⟨.hbm, 34, rfl⟩
abbrev main_c_3 : Ref sig .tc := ⟨.hbm, 35, rfl⟩
abbrev main_c_4 : Ref sig .tc := ⟨.hbm, 36, rfl⟩
abbrev main_c_5 : Ref sig .tc := ⟨.hbm, 37, rfl⟩
abbrev main_c_6 : Ref sig .tc := ⟨.hbm, 38, rfl⟩
abbrev main_c_7 : Ref sig .tc := ⟨.hbm, 39, rfl⟩
abbrev main_c_8 : Ref sig .tc := ⟨.hbm, 40, rfl⟩
abbrev main_c_9 : Ref sig .tc := ⟨.hbm, 41, rfl⟩
abbrev main_c_10 : Ref sig .tc := ⟨.hbm, 42, rfl⟩
abbrev main_c_11 : Ref sig .tc := ⟨.hbm, 43, rfl⟩
abbrev main_c_12 : Ref sig .tc := ⟨.hbm, 44, rfl⟩
abbrev main_c_13 : Ref sig .tc := ⟨.hbm, 45, rfl⟩
abbrev main_v0 : Ref sig .tc := ⟨.hbm, 46, rfl⟩
abbrev main_v1 : Ref sig .tc := ⟨.hbm, 47, rfl⟩
abbrev main_v2 : Ref sig .tc := ⟨.hbm, 48, rfl⟩
abbrev main_v3 : Ref sig .tc := ⟨.hbm, 49, rfl⟩
abbrev main_v4 : Ref sig .tc := ⟨.hbm, 50, rfl⟩
abbrev main_v5 : Ref sig .tc := ⟨.hbm, 51, rfl⟩
abbrev main_call0_cst : Ref sig .tc := ⟨.hbm, 52, rfl⟩
abbrev main_call0_v0 : Ref sig .tc := ⟨.hbm, 53, rfl⟩
abbrev main_v6 : Ref sig .tc := ⟨.hbm, 54, rfl⟩
abbrev main_v7 : Ref sig .tc := ⟨.hbm, 55, rfl⟩
abbrev main_v8 : Ref sig .tc := ⟨.hbm, 56, rfl⟩
abbrev main_v9 : Ref sig .tc := ⟨.hbm, 57, rfl⟩
abbrev main_v10 : Ref sig .tc := ⟨.hbm, 58, rfl⟩
abbrev main_call1_cst : Ref sig .tc := ⟨.hbm, 59, rfl⟩
abbrev main_call1_v0 : Ref sig .tc := ⟨.hbm, 60, rfl⟩
abbrev main_v11 : Ref sig .tc := ⟨.hbm, 61, rfl⟩
abbrev main_v12 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_call2_cst : Ref sig .tc := ⟨.hbm, 66, rfl⟩
abbrev main_call2_v0 : Ref sig .tc := ⟨.hbm, 67, rfl⟩
abbrev main_v16 : Ref sig .tc := ⟨.hbm, 68, rfl⟩
abbrev main_cst : Ref sig .tc := ⟨.hbm, 69, rfl⟩
abbrev main_v17 : Ref sig .tc := ⟨.hbm, 70, rfl⟩
abbrev main_c_14 : Ref sig .tc := ⟨.hbm, 71, rfl⟩
abbrev main_v18 : Ref sig .tc := ⟨.hbm, 72, rfl⟩
abbrev main_v19 : Ref sig .tc := ⟨.hbm, 73, rfl⟩
abbrev main_v20 : Ref sig .tc := ⟨.hbm, 74, rfl⟩
abbrev main_v21 : Ref sig .tc := ⟨.hbm, 75, rfl⟩
abbrev main_v22 : Ref sig .tc := ⟨.hbm, 76, rfl⟩
abbrev main_v23 : Ref sig .tc := ⟨.hbm, 77, rfl⟩
abbrev main_call3_cst : Ref sig .tc := ⟨.hbm, 78, rfl⟩
abbrev main_call3_v0 : Ref sig .tc := ⟨.hbm, 79, rfl⟩
abbrev main_v24 : Ref sig .tc := ⟨.hbm, 80, rfl⟩
abbrev main_v25 : Ref sig .tc := ⟨.hbm, 81, rfl⟩
abbrev main_v26 : Ref sig .tc := ⟨.hbm, 82, rfl⟩
abbrev main_v27 : Ref sig .tc := ⟨.hbm, 83, rfl⟩
abbrev main_v28 : Ref sig .tc := ⟨.hbm, 84, rfl⟩
abbrev main_call4_cst : Ref sig .tc := ⟨.hbm, 85, rfl⟩
abbrev main_call4_v0 : Ref sig .tc := ⟨.hbm, 86, rfl⟩
abbrev main_v29 : Ref sig .tc := ⟨.hbm, 87, rfl⟩
abbrev main_v30 : Ref sig .tc := ⟨.hbm, 88, rfl⟩
abbrev main_v31 : Ref sig .tc := ⟨.hbm, 89, rfl⟩
abbrev main_v32 : Ref sig .tc := ⟨.hbm, 90, rfl⟩
abbrev main_v33 : Ref sig .tc := ⟨.hbm, 91, rfl⟩
abbrev main_call5_cst : Ref sig .tc := ⟨.hbm, 92, rfl⟩
abbrev main_call5_v0 : Ref sig .tc := ⟨.hbm, 93, rfl⟩
abbrev main_v34 : Ref sig .tc := ⟨.hbm, 94, rfl⟩
abbrev main_cst_15 : Ref sig .tc := ⟨.hbm, 95, rfl⟩
abbrev main_v35 : Ref sig .tc := ⟨.hbm, 96, rfl⟩
abbrev main_v36 : Ref sig .tc := ⟨.hbm, 97, rfl⟩
abbrev main_c_16 : Ref sig .tc := ⟨.hbm, 98, rfl⟩
abbrev main_v37 : Ref sig .tc := ⟨.hbm, 99, rfl⟩
abbrev main_v38 : Ref sig .tc := ⟨.hbm, 100, rfl⟩
abbrev main_v39 : Ref sig .tc := ⟨.hbm, 101, rfl⟩
abbrev main_v40 : Ref sig .tc := ⟨.hbm, 102, rfl⟩
abbrev main_v41 : Ref sig .tc := ⟨.hbm, 103, rfl⟩
abbrev main_v42 : Ref sig .tc := ⟨.hbm, 104, rfl⟩
abbrev main_call6_cst : Ref sig .tc := ⟨.hbm, 105, rfl⟩
abbrev main_call6_v0 : Ref sig .tc := ⟨.hbm, 106, rfl⟩
abbrev main_v43 : Ref sig .tc := ⟨.hbm, 107, rfl⟩
abbrev main_v44 : Ref sig .tc := ⟨.hbm, 108, rfl⟩
abbrev main_v45 : Ref sig .tc := ⟨.hbm, 109, rfl⟩
abbrev main_v46 : Ref sig .tc := ⟨.hbm, 110, rfl⟩
abbrev main_v47 : Ref sig .tc := ⟨.hbm, 111, rfl⟩
abbrev main_call7_cst : Ref sig .tc := ⟨.hbm, 112, rfl⟩
abbrev main_call7_v0 : Ref sig .tc := ⟨.hbm, 113, rfl⟩
abbrev main_v48 : Ref sig .tc := ⟨.hbm, 114, rfl⟩
abbrev main_v49 : Ref sig .tc := ⟨.hbm, 115, rfl⟩
abbrev main_v50 : Ref sig .tc := ⟨.hbm, 116, rfl⟩
abbrev main_v51 : Ref sig .tc := ⟨.hbm, 117, rfl⟩
abbrev main_v52 : Ref sig .tc := ⟨.hbm, 118, rfl⟩
abbrev main_call8_cst : Ref sig .tc := ⟨.hbm, 119, rfl⟩
abbrev main_call8_v0 : Ref sig .tc := ⟨.hbm, 120, rfl⟩
abbrev main_v53 : Ref sig .tc := ⟨.hbm, 121, rfl⟩
abbrev main_cst_17 : Ref sig .tc := ⟨.hbm, 122, rfl⟩
abbrev main_v54 : Ref sig .tc := ⟨.hbm, 123, rfl⟩
abbrev main_v55 : Ref sig .tc := ⟨.hbm, 124, rfl⟩
abbrev main_c_18 : Ref sig .tc := ⟨.hbm, 125, rfl⟩
abbrev main_v56 : Ref sig .tc := ⟨.hbm, 126, rfl⟩
abbrev main_v57 : Ref sig .tc := ⟨.hbm, 127, rfl⟩
abbrev main_v58 : Ref sig .tc := ⟨.hbm, 128, rfl⟩
abbrev main_v59 : Ref sig .tc := ⟨.hbm, 129, rfl⟩
abbrev main_v60 : Ref sig .tc := ⟨.hbm, 130, rfl⟩
abbrev main_v61 : Ref sig .tc := ⟨.hbm, 131, rfl⟩
abbrev main_call9_cst : Ref sig .tc := ⟨.hbm, 132, rfl⟩
abbrev main_call9_v0 : Ref sig .tc := ⟨.hbm, 133, rfl⟩
abbrev main_v62 : Ref sig .tc := ⟨.hbm, 134, rfl⟩
abbrev main_v63 : Ref sig .tc := ⟨.hbm, 135, rfl⟩
abbrev main_v64 : Ref sig .tc := ⟨.hbm, 136, rfl⟩
abbrev main_v65 : Ref sig .tc := ⟨.hbm, 137, rfl⟩
abbrev main_v66 : Ref sig .tc := ⟨.hbm, 138, rfl⟩
abbrev main_call10_cst : Ref sig .tc := ⟨.hbm, 139, rfl⟩
abbrev main_call10_v0 : Ref sig .tc := ⟨.hbm, 140, rfl⟩
abbrev main_v67 : Ref sig .tc := ⟨.hbm, 141, rfl⟩
abbrev main_v68 : Ref sig .tc := ⟨.hbm, 142, rfl⟩
abbrev main_v69 : Ref sig .tc := ⟨.hbm, 143, rfl⟩
abbrev main_v70 : Ref sig .tc := ⟨.hbm, 144, rfl⟩
abbrev main_v71 : Ref sig .tc := ⟨.hbm, 145, rfl⟩
abbrev main_call11_cst : Ref sig .tc := ⟨.hbm, 146, rfl⟩
abbrev main_call11_v0 : Ref sig .tc := ⟨.hbm, 147, rfl⟩
abbrev main_v72 : Ref sig .tc := ⟨.hbm, 148, rfl⟩
abbrev main_cst_19 : Ref sig .tc := ⟨.hbm, 149, rfl⟩
abbrev main_v73 : Ref sig .tc := ⟨.hbm, 150, rfl⟩
abbrev main_v74 : Ref sig .tc := ⟨.hbm, 151, rfl⟩
abbrev main_c_20 : Ref sig .tc := ⟨.hbm, 152, rfl⟩
abbrev main_v75 : Ref sig .tc := ⟨.hbm, 153, rfl⟩
abbrev main_v76 : Ref sig .tc := ⟨.hbm, 154, rfl⟩
abbrev main_v77 : Ref sig .tc := ⟨.hbm, 155, rfl⟩
abbrev main_v78 : Ref sig .tc := ⟨.hbm, 156, rfl⟩
abbrev main_v79 : Ref sig .tc := ⟨.hbm, 157, rfl⟩
abbrev main_v80 : Ref sig .tc := ⟨.hbm, 158, rfl⟩
abbrev main_call12_cst : Ref sig .tc := ⟨.hbm, 159, rfl⟩
abbrev main_call12_v0 : Ref sig .tc := ⟨.hbm, 160, rfl⟩
abbrev main_v81 : Ref sig .tc := ⟨.hbm, 161, rfl⟩
abbrev main_v82 : Ref sig .tc := ⟨.hbm, 162, rfl⟩
abbrev main_v83 : Ref sig .tc := ⟨.hbm, 163, rfl⟩
abbrev main_v84 : Ref sig .tc := ⟨.hbm, 164, rfl⟩
abbrev main_v85 : Ref sig .tc := ⟨.hbm, 165, rfl⟩
abbrev main_call13_cst : Ref sig .tc := ⟨.hbm, 166, rfl⟩
abbrev main_call13_v0 : Ref sig .tc := ⟨.hbm, 167, rfl⟩
abbrev main_v86 : Ref sig .tc := ⟨.hbm, 168, rfl⟩
abbrev main_v87 : Ref sig .tc := ⟨.hbm, 169, rfl⟩
abbrev main_v88 : Ref sig .tc := ⟨.hbm, 170, rfl⟩
abbrev main_v89 : Ref sig .tc := ⟨.hbm, 171, rfl⟩
abbrev main_v90 : Ref sig .tc := ⟨.hbm, 172, rfl⟩
abbrev main_call14_cst : Ref sig .tc := ⟨.hbm, 173, rfl⟩
abbrev main_call14_v0 : Ref sig .tc := ⟨.hbm, 174, rfl⟩
abbrev main_v91 : Ref sig .tc := ⟨.hbm, 175, rfl⟩
abbrev main_cst_21 : Ref sig .tc := ⟨.hbm, 176, rfl⟩
abbrev main_v92 : Ref sig .tc := ⟨.hbm, 177, rfl⟩
abbrev main_v93 : Ref sig .tc := ⟨.hbm, 178, rfl⟩
abbrev main_c_22 : Ref sig .tc := ⟨.hbm, 179, rfl⟩
abbrev main_v94 : Ref sig .tc := ⟨.hbm, 180, rfl⟩
abbrev main_v95 : Ref sig .tc := ⟨.hbm, 181, rfl⟩
abbrev main_v96 : Ref sig .tc := ⟨.hbm, 182, rfl⟩
abbrev main_v97 : Ref sig .tc := ⟨.hbm, 183, rfl⟩
abbrev main_v98 : Ref sig .tc := ⟨.hbm, 184, rfl⟩
abbrev main_v99 : Ref sig .tc := ⟨.hbm, 185, rfl⟩
abbrev main_call15_cst : Ref sig .tc := ⟨.hbm, 186, rfl⟩
abbrev main_call15_v0 : Ref sig .tc := ⟨.hbm, 187, rfl⟩
abbrev main_v100 : Ref sig .tc := ⟨.hbm, 188, rfl⟩
abbrev main_v101 : Ref sig .tc := ⟨.hbm, 189, rfl⟩
abbrev main_v102 : Ref sig .tc := ⟨.hbm, 190, rfl⟩
abbrev main_v103 : Ref sig .tc := ⟨.hbm, 191, rfl⟩
abbrev main_v104 : Ref sig .tc := ⟨.hbm, 192, rfl⟩
abbrev main_call16_cst : Ref sig .tc := ⟨.hbm, 193, rfl⟩
abbrev main_call16_v0 : Ref sig .tc := ⟨.hbm, 194, rfl⟩
abbrev main_v105 : Ref sig .tc := ⟨.hbm, 195, rfl⟩
abbrev main_v106 : Ref sig .tc := ⟨.hbm, 196, rfl⟩
abbrev main_v107 : Ref sig .tc := ⟨.hbm, 197, rfl⟩
abbrev main_v108 : Ref sig .tc := ⟨.hbm, 198, rfl⟩
abbrev main_v109 : Ref sig .tc := ⟨.hbm, 199, rfl⟩
abbrev main_call17_cst : Ref sig .tc := ⟨.hbm, 200, rfl⟩
abbrev main_call17_v0 : Ref sig .tc := ⟨.hbm, 201, rfl⟩
abbrev main_v110 : Ref sig .tc := ⟨.hbm, 202, rfl⟩
abbrev main_cst_23 : Ref sig .tc := ⟨.hbm, 203, rfl⟩
abbrev main_v111 : Ref sig .tc := ⟨.hbm, 204, rfl⟩
abbrev main_v112 : Ref sig .tc := ⟨.hbm, 205, rfl⟩
abbrev main_c_24 : Ref sig .tc := ⟨.hbm, 206, rfl⟩
abbrev main_v113 : Ref sig .tc := ⟨.hbm, 207, rfl⟩
abbrev main_v114 : Ref sig .tc := ⟨.hbm, 208, rfl⟩
abbrev main_v115 : Ref sig .tc := ⟨.hbm, 209, rfl⟩
abbrev main_v116 : Ref sig .tc := ⟨.hbm, 210, rfl⟩
abbrev main_v117 : Ref sig .tc := ⟨.hbm, 211, rfl⟩
abbrev main_v118 : Ref sig .tc := ⟨.hbm, 212, rfl⟩
abbrev main_call18_cst : Ref sig .tc := ⟨.hbm, 213, rfl⟩
abbrev main_call18_v0 : Ref sig .tc := ⟨.hbm, 214, rfl⟩
abbrev main_v119 : Ref sig .tc := ⟨.hbm, 215, rfl⟩
abbrev main_v120 : Ref sig .tc := ⟨.hbm, 216, rfl⟩
abbrev main_v121 : Ref sig .tc := ⟨.hbm, 217, rfl⟩
abbrev main_v122 : Ref sig .tc := ⟨.hbm, 218, rfl⟩
abbrev main_v123 : Ref sig .tc := ⟨.hbm, 219, rfl⟩
abbrev main_call19_cst : Ref sig .tc := ⟨.hbm, 220, rfl⟩
abbrev main_call19_v0 : Ref sig .tc := ⟨.hbm, 221, rfl⟩
abbrev main_v124 : Ref sig .tc := ⟨.hbm, 222, rfl⟩
abbrev main_v125 : Ref sig .tc := ⟨.hbm, 223, rfl⟩
abbrev main_v126 : Ref sig .tc := ⟨.hbm, 224, rfl⟩
abbrev main_v127 : Ref sig .tc := ⟨.hbm, 225, rfl⟩
abbrev main_v128 : Ref sig .tc := ⟨.hbm, 226, rfl⟩
abbrev main_call20_cst : Ref sig .tc := ⟨.hbm, 227, rfl⟩
abbrev main_call20_v0 : Ref sig .tc := ⟨.hbm, 228, rfl⟩
abbrev main_v129 : Ref sig .tc := ⟨.hbm, 229, rfl⟩
abbrev main_cst_25 : Ref sig .tc := ⟨.hbm, 230, rfl⟩
abbrev main_v130 : Ref sig .tc := ⟨.hbm, 231, rfl⟩
abbrev main_v131 : Ref sig .tc := ⟨.hbm, 232, rfl⟩
abbrev main_v132 : Ref sig .tc := ⟨.hbm, 233, rfl⟩
abbrev main_v133 : Ref sig .tc := ⟨.hbm, 234, rfl⟩
abbrev main_v134 : Ref sig .tc := ⟨.hbm, 235, rfl⟩
abbrev main_v135 : Ref sig .tc := ⟨.hbm, 236, rfl⟩
abbrev main_call21_cst : Ref sig .tc := ⟨.hbm, 237, rfl⟩
abbrev main_call21_v0 : Ref sig .tc := ⟨.hbm, 238, rfl⟩
abbrev main_v136 : Ref sig .tc := ⟨.hbm, 239, rfl⟩

abbrev nD : Nat := 1
abbrev τ : Topo := Topo.v7x

variable {F : FTy → Type} [FloatOps F]

class Facts₀ : Prop where
  bcast_S_S1x8 : S_.BroadcastsInDim S1x8 (![] : Fin 0 → Fin S1x8.rank)
  bcast_S1x8_S1x8x1_0_1 : S1x8.BroadcastsInDim S1x8x1 (![0, 1] : Fin 2 → Fin S1x8x1.rank)
  shapeCasts_S4096x1x8x1024_S4096x1x8192 : S4096x1x8x1024.ShapeCasts S4096x1x8192
  bcast_S_S4096x1x8192 : S_.BroadcastsInDim S4096x1x8192 (![] : Fin 0 → Fin S4096x1x8192.rank)
  bcast_S256_S1x1x256_2 : S256.BroadcastsInDim S1x1x256 (![2] : Fin 1 → Fin S1x1x256.rank)
  bcast_S1x1x256_S4096x1x256_0_1_2 : S1x1x256.BroadcastsInDim S4096x1x256 (![0, 1, 2] : Fin 3 → Fin S4096x1x256.rank)
  bcast_S_S4096x1x256 : S_.BroadcastsInDim S4096x1x256 (![] : Fin 0 → Fin S4096x1x256.rank)
  reducesTo_S4096x1x256_S4096x256_d1 : S4096x1x256.ReducesTo [1] S4096x256
  h_S_ : 0 < S_.numel
  bcast_S_S3x7 : S_.BroadcastsInDim S3x7 (![] : Fin 0 → Fin S3x7.rank)
  bcast_S3x7_S3x7x1_0_1 : S3x7.BroadcastsInDim S3x7x1 (![0, 1] : Fin 2 → Fin S3x7x1.rank)
  shapeCasts_S4096x3x7x1024_S4096x3x7168 : S4096x3x7x1024.ShapeCasts S4096x3x7168
  bcast_S_S4096x3x7168 : S_.BroadcastsInDim S4096x3x7168 (![] : Fin 0 → Fin S4096x3x7168.rank)
  bcast_S1x1x256_S4096x3x256_0_1_2 : S1x1x256.BroadcastsInDim S4096x3x256 (![0, 1, 2] : Fin 3 → Fin S4096x3x256.rank)
  bcast_S_S4096x3x256 : S_.BroadcastsInDim S4096x3x256 (![] : Fin 0 → Fin S4096x3x256.rank)
  reducesTo_S4096x3x256_S4096x256_d1 : S4096x3x256.ReducesTo [1] S4096x256
  bcast_S_S3x6 : S_.BroadcastsInDim S3x6 (![] : Fin 0 → Fin S3x6.rank)
  bcast_S3x6_S3x6x1_0_1 : S3x6.BroadcastsInDim S3x6x1 (![0, 1] : Fin 2 → Fin S3x6x1.rank)
  shapeCasts_S4096x3x6x1024_S4096x3x6144 : S4096x3x6x1024.ShapeCasts S4096x3x6144
  bcast_S_S4096x3x6144 : S_.BroadcastsInDim S4096x3x6144 (![] : Fin 0 → Fin S4096x3x6144.rank)
  bcast_S_S3x5 : S_.BroadcastsInDim S3x5 (![] : Fin 0 → Fin S3x5.rank)
  bcast_S3x5_S3x5x1_0_1 : S3x5.BroadcastsInDim S3x5x1 (![0, 1] : Fin 2 → Fin S3x5x1.rank)
  shapeCasts_S4096x3x5x1024_S4096x3x5120 : S4096x3x5x1024.ShapeCasts S4096x3x5120
  bcast_S_S4096x3x5120 : S_.BroadcastsInDim S4096x3x5120 (![] : Fin 0 → Fin S4096x3x5120.rank)
  bcast_S_S3x4 : S_.BroadcastsInDim S3x4 (![] : Fin 0 → Fin S3x4.rank)
  bcast_S3x4_S3x4x1_0_1 : S3x4.BroadcastsInDim S3x4x1 (![0, 1] : Fin 2 → Fin S3x4x1.rank)
  shapeCasts_S4096x3x4x1024_S4096x3x4096 : S4096x3x4x1024.ShapeCasts S4096x3x4096
  bcast_S_S4096x3x4096 : S_.BroadcastsInDim S4096x3x4096 (![] : Fin 0 → Fin S4096x3x4096.rank)
  bcast_S_S3x3 : S_.BroadcastsInDim S3x3 (![] : Fin 0 → Fin S3x3.rank)
  bcast_S3x3_S3x3x1_0_1 : S3x3.BroadcastsInDim S3x3x1 (![0, 1] : Fin 2 → Fin S3x3x1.rank)
  shapeCasts_S4096x3x3x1024_S4096x3x3072 : S4096x3x3x1024.ShapeCasts S4096x3x3072
  bcast_S_S4096x3x3072 : S_.BroadcastsInDim S4096x3x3072 (![] : Fin 0 → Fin S4096x3x3072.rank)
  bcast_S_S3x2 : S_.BroadcastsInDim S3x2 (![] : Fin 0 → Fin S3x2.rank)
  bcast_S3x2_S3x2x1_0_1 : S3x2.BroadcastsInDim S3x2x1 (![0, 1] : Fin 2 → Fin S3x2x1.rank)
  shapeCasts_S4096x3x2x1024_S4096x3x2048 : S4096x3x2x1024.ShapeCasts S4096x3x2048
  bcast_S_S4096x3x2048 : S_.BroadcastsInDim S4096x3x2048 (![] : Fin 0 → Fin S4096x3x2048.rank)
  bcast_S400_S1x400_1 : S400.BroadcastsInDim S1x400 (![1] : Fin 1 → Fin S1x400.rank)
  bcast_S1x400_S4096x400_0_1 : S1x400.BroadcastsInDim S4096x400 (![0, 1] : Fin 2 → Fin S4096x400.rank)
  bcast_S_S4096x400 : S_.BroadcastsInDim S4096x400 (![] : Fin 0 → Fin S4096x400.rank)
  gather_S4096x8x1024_S1x8x1_S4096x1x8x1024_03_1_n_n_1_2_409611024_wf : GatherDims.WF S4096x8x1024 S1x8x1 S4096x1x8x1024 [0, 3] [1] [] [1] [] 2 ![4096, 1, 1024]
  dot_S4096x1x8192_S8192x256_S4096x1x256_2_0_01_1_n_n_wf : DotDims.WF S4096x1x8192 S8192x256 S4096x1x256 [2] [0] [0, 1] [1] [] []
  dot_S4096x1x256_S256x256_S4096x1x256_2_0_01_1_n_n_wf : DotDims.WF S4096x1x256 S256x256 S4096x1x256 [2] [0] [0, 1] [1] [] []
  gather_S4096x8x1024_S3x7x1_S4096x3x7x1024_03_1_n_n_1_2_409611024_wf : GatherDims.WF S4096x8x1024 S3x7x1 S4096x3x7x1024 [0, 3] [1] [] [1] [] 2 ![4096, 1, 1024]
  dot_S4096x3x7168_S7168x256_S4096x3x256_2_0_01_1_n_n_wf : DotDims.WF S4096x3x7168 S7168x256 S4096x3x256 [2] [0] [0, 1] [1] [] []
  dot_S4096x3x256_S256x256_S4096x3x256_2_0_01_1_n_n_wf : DotDims.WF S4096x3x256 S256x256 S4096x3x256 [2] [0] [0, 1] [1] [] []
  gather_S4096x8x1024_S3x6x1_S4096x3x6x1024_03_1_n_n_1_2_409611024_wf : GatherDims.WF S4096x8x1024 S3x6x1 S4096x3x6x1024 [0, 3] [1] [] [1] [] 2 ![4096, 1, 1024]
  dot_S4096x3x6144_S6144x256_S4096x3x256_2_0_01_1_n_n_wf : DotDims.WF S4096x3x6144 S6144x256 S4096x3x256 [2] [0] [0, 1] [1] [] []
  gather_S4096x8x1024_S3x5x1_S4096x3x5x1024_03_1_n_n_1_2_409611024_wf : GatherDims.WF S4096x8x1024 S3x5x1 S4096x3x5x1024 [0, 3] [1] [] [1] [] 2 ![4096, 1, 1024]
  dot_S4096x3x5120_S5120x256_S4096x3x256_2_0_01_1_n_n_wf : DotDims.WF S4096x3x5120 S5120x256 S4096x3x256 [2] [0] [0, 1] [1] [] []
  gather_S4096x8x1024_S3x4x1_S4096x3x4x1024_03_1_n_n_1_2_409611024_wf : GatherDims.WF S4096x8x1024 S3x4x1 S4096x3x4x1024 [0, 3] [1] [] [1] [] 2 ![4096, 1, 1024]
  dot_S4096x3x4096_S4096x256_S4096x3x256_2_0_01_1_n_n_wf : DotDims.WF S4096x3x4096 S4096x256 S4096x3x256 [2] [0] [0, 1] [1] [] []
  gather_S4096x8x1024_S3x3x1_S4096x3x3x1024_03_1_n_n_1_2_409611024_wf : GatherDims.WF S4096x8x1024 S3x3x1 S4096x3x3x1024 [0, 3] [1] [] [1] [] 2 ![4096, 1, 1024]
  dot_S4096x3x3072_S3072x256_S4096x3x256_2_0_01_1_n_n_wf : DotDims.WF S4096x3x3072 S3072x256 S4096x3x256 [2] [0] [0, 1] [1] [] []
  gather_S4096x8x1024_S3x2x1_S4096x3x2x1024_03_1_n_n_1_2_409611024_wf : GatherDims.WF S4096x8x1024 S3x2x1 S4096x3x2x1024 [0, 3] [1] [] [1] [] 2 ![4096, 1, 1024]
  dot_S4096x3x2048_S2048x256_S4096x3x256_2_0_01_1_n_n_wf : DotDims.WF S4096x3x2048 S2048x256 S4096x3x256 [2] [0] [0, 1] [1] [] []
  dot_S4096x256_S256x400_S4096x400_1_0_0_1_n_n_wf : DotDims.WF S4096x256 S256x400 S4096x400 [1] [0] [0] [1] [] []

variable [Facts₀]

def gather_S4096x8x1024_S1x8x1_S4096x1x8x1024_03_1_n_n_1_2_409611024 : GatherDims S4096x8x1024 S1x8x1 S4096x1x8x1024 where
  offsetDims := [0, 3]
  collapsedSliceDims := [1]
  operandBatchingDims := []
  startIndicesBatchingDims := []
  startIndexMap := [1]
  indexVectorDim := 2
  sliceSizes := ![4096, 1, 1024]
  wf := gather_S4096x8x1024_S1x8x1_S4096x1x8x1024_03_1_n_n_1_2_409611024_wf
def dot_S4096x1x8192_S8192x256_S4096x1x256_2_0_01_1_n_n : DotDims S4096x1x8192 S8192x256 S4096x1x256 where
  lhsContracting := [2]
  rhsContracting := [0]
  lhsNonContracting := [0, 1]
  rhsNonContracting := [1]
  lhsBatch := []
  rhsBatch := []
  wf := dot_S4096x1x8192_S8192x256_S4096x1x256_2_0_01_1_n_n_wf
def dot_S4096x1x256_S256x256_S4096x1x256_2_0_01_1_n_n : DotDims S4096x1x256 S256x256 S4096x1x256 where
  lhsContracting := [2]
  rhsContracting := [0]
  lhsNonContracting := [0, 1]
  rhsNonContracting := [1]
  lhsBatch := []
  rhsBatch := []
  wf := dot_S4096x1x256_S256x256_S4096x1x256_2_0_01_1_n_n_wf
def gather_S4096x8x1024_S3x7x1_S4096x3x7x1024_03_1_n_n_1_2_409611024 : GatherDims S4096x8x1024 S3x7x1 S4096x3x7x1024 where
  offsetDims := [0, 3]
  collapsedSliceDims := [1]
  operandBatchingDims := []
  startIndicesBatchingDims := []
  startIndexMap := [1]
  indexVectorDim := 2
  sliceSizes := ![4096, 1, 1024]
  wf := gather_S4096x8x1024_S3x7x1_S4096x3x7x1024_03_1_n_n_1_2_409611024_wf
def dot_S4096x3x7168_S7168x256_S4096x3x256_2_0_01_1_n_n : DotDims S4096x3x7168 S7168x256 S4096x3x256 where
  lhsContracting := [2]
  rhsContracting := [0]
  lhsNonContracting := [0, 1]
  rhsNonContracting := [1]
  lhsBatch := []
  rhsBatch := []
  wf := dot_S4096x3x7168_S7168x256_S4096x3x256_2_0_01_1_n_n_wf
def dot_S4096x3x256_S256x256_S4096x3x256_2_0_01_1_n_n : DotDims S4096x3x256 S256x256 S4096x3x256 where
  lhsContracting := [2]
  rhsContracting := [0]
  lhsNonContracting := [0, 1]
  rhsNonContracting := [1]
  lhsBatch := []
  rhsBatch := []
  wf := dot_S4096x3x256_S256x256_S4096x3x256_2_0_01_1_n_n_wf
def gather_S4096x8x1024_S3x6x1_S4096x3x6x1024_03_1_n_n_1_2_409611024 : GatherDims S4096x8x1024 S3x6x1 S4096x3x6x1024 where
  offsetDims := [0, 3]
  collapsedSliceDims := [1]
  operandBatchingDims := []
  startIndicesBatchingDims := []
  startIndexMap := [1]
  indexVectorDim := 2
  sliceSizes := ![4096, 1, 1024]
  wf := gather_S4096x8x1024_S3x6x1_S4096x3x6x1024_03_1_n_n_1_2_409611024_wf
def dot_S4096x3x6144_S6144x256_S4096x3x256_2_0_01_1_n_n : DotDims S4096x3x6144 S6144x256 S4096x3x256 where
  lhsContracting := [2]
  rhsContracting := [0]
  lhsNonContracting := [0, 1]
  rhsNonContracting := [1]
  lhsBatch := []
  rhsBatch := []
  wf := dot_S4096x3x6144_S6144x256_S4096x3x256_2_0_01_1_n_n_wf
def gather_S4096x8x1024_S3x5x1_S4096x3x5x1024_03_1_n_n_1_2_409611024 : GatherDims S4096x8x1024 S3x5x1 S4096x3x5x1024 where
  offsetDims := [0, 3]
  collapsedSliceDims := [1]
  operandBatchingDims := []
  startIndicesBatchingDims := []
  startIndexMap := [1]
  indexVectorDim := 2
  sliceSizes := ![4096, 1, 1024]
  wf := gather_S4096x8x1024_S3x5x1_S4096x3x5x1024_03_1_n_n_1_2_409611024_wf
def dot_S4096x3x5120_S5120x256_S4096x3x256_2_0_01_1_n_n : DotDims S4096x3x5120 S5120x256 S4096x3x256 where
  lhsContracting := [2]
  rhsContracting := [0]
  lhsNonContracting := [0, 1]
  rhsNonContracting := [1]
  lhsBatch := []
  rhsBatch := []
  wf := dot_S4096x3x5120_S5120x256_S4096x3x256_2_0_01_1_n_n_wf
def gather_S4096x8x1024_S3x4x1_S4096x3x4x1024_03_1_n_n_1_2_409611024 : GatherDims S4096x8x1024 S3x4x1 S4096x3x4x1024 where
  offsetDims := [0, 3]
  collapsedSliceDims := [1]
  operandBatchingDims := []
  startIndicesBatchingDims := []
  startIndexMap := [1]
  indexVectorDim := 2
  sliceSizes := ![4096, 1, 1024]
  wf := gather_S4096x8x1024_S3x4x1_S4096x3x4x1024_03_1_n_n_1_2_409611024_wf
def dot_S4096x3x4096_S4096x256_S4096x3x256_2_0_01_1_n_n : DotDims S4096x3x4096 S4096x256 S4096x3x256 where
  lhsContracting := [2]
  rhsContracting := [0]
  lhsNonContracting := [0, 1]
  rhsNonContracting := [1]
  lhsBatch := []
  rhsBatch := []
  wf := dot_S4096x3x4096_S4096x256_S4096x3x256_2_0_01_1_n_n_wf
def gather_S4096x8x1024_S3x3x1_S4096x3x3x1024_03_1_n_n_1_2_409611024 : GatherDims S4096x8x1024 S3x3x1 S4096x3x3x1024 where
  offsetDims := [0, 3]
  collapsedSliceDims := [1]
  operandBatchingDims := []
  startIndicesBatchingDims := []
  startIndexMap := [1]
  indexVectorDim := 2
  sliceSizes := ![4096, 1, 1024]
  wf := gather_S4096x8x1024_S3x3x1_S4096x3x3x1024_03_1_n_n_1_2_409611024_wf
def dot_S4096x3x3072_S3072x256_S4096x3x256_2_0_01_1_n_n : DotDims S4096x3x3072 S3072x256 S4096x3x256 where
  lhsContracting := [2]
  rhsContracting := [0]
  lhsNonContracting := [0, 1]
  rhsNonContracting := [1]
  lhsBatch := []
  rhsBatch := []
  wf := dot_S4096x3x3072_S3072x256_S4096x3x256_2_0_01_1_n_n_wf
def gather_S4096x8x1024_S3x2x1_S4096x3x2x1024_03_1_n_n_1_2_409611024 : GatherDims S4096x8x1024 S3x2x1 S4096x3x2x1024 where
  offsetDims := [0, 3]
  collapsedSliceDims := [1]
  operandBatchingDims := []
  startIndicesBatchingDims := []
  startIndexMap := [1]
  indexVectorDim := 2
  sliceSizes := ![4096, 1, 1024]
  wf := gather_S4096x8x1024_S3x2x1_S4096x3x2x1024_03_1_n_n_1_2_409611024_wf
def dot_S4096x3x2048_S2048x256_S4096x3x256_2_0_01_1_n_n : DotDims S4096x3x2048 S2048x256 S4096x3x256 where
  lhsContracting := [2]
  rhsContracting := [0]
  lhsNonContracting := [0, 1]
  rhsNonContracting := [1]
  lhsBatch := []
  rhsBatch := []
  wf := dot_S4096x3x2048_S2048x256_S4096x3x256_2_0_01_1_n_n_wf
def dot_S4096x256_S256x400_S4096x400_1_0_0_1_n_n : DotDims S4096x256 S256x400 S4096x400 where
  lhsContracting := [1]
  rhsContracting := [0]
  lhsNonContracting := [0]
  rhsNonContracting := [1]
  lhsBatch := []
  rhsBatch := []
  wf := dot_S4096x256_S256x400_S4096x400_1_0_0_1_n_n_wf

class Facts : Prop extends Facts₀ where

variable [Facts]
-- ==== Proof.LibDot.lean ====
/-
  A plain matrix product read at an entry. For dimension numbers that contract the left operand's columns against the
  right operand's rows, with no batch axis, the contraction sum at row `a` and column `b` is the textbook
  sum over `k` of `l (a, k) * r (k, b)`, both for the accumulate-into-zero product of the matrix unit and for
  the host's general dot product, at the exact extended-real instance.
-/
import Idealize.ShloMosaic.Lib.ValueIdx
import Idealize.ShloMosaic.PureOps.Ideal.Laws

noncomputable section

open scoped BigOperators

namespace Cert.LibDot

open Idealize.ShloMosaic Idealize.ShloMosaic.ValueIdx

/-- The six axis lists of a rows-by-columns product. -/
structure IsPlain {M K N : Nat} (D : DotDims ⟨2, ![M, K]⟩ ⟨2, ![K, N]⟩ ⟨2, ![M, N]⟩) : Prop where
  lc : D.lhsContracting = [1]
  rc : D.rhsContracting = [0]
  ln : D.lhsNonContracting = [0]
  rn : D.rhsNonContracting = [1]
  lb : D.lhsBatch = []
  rb : D.rhsBatch = []

variable {M K N : Nat} (D : DotDims ⟨2, ![M, K]⟩ ⟨2, ![K, N]⟩ ⟨2, ![M, N]⟩) (hD : IsPlain D)

include hD in
theorem contr_rank : D.contr.rank = 1 := by rw [D.rank_contr, hD.lc]; rfl

include hD in
theorem contr_size : D.contr.size ⟨0, by rw [contr_rank D hD]; exact Nat.one_pos⟩ = K := by
  have h := D.size_contr 0 (by rw [hD.lc]; exact Nat.one_pos)
  rw [h]
  simp only [hD.lc]
  rfl

include hD in
/-- The left operand is read at row `a` of the result and at the contraction coordinate. -/
theorem lhs0 (j : (⟨2, ![M, N]⟩ : Shape).Idx) (q : D.contr.Idx) : (D.lhsIdx j q 0).val = (j 0).val := by
  unfold DotDims.lhsIdx
  rw [dif_neg (by rw [hD.lb]; exact List.not_mem_nil), dif_pos (by rw [hD.ln]; exact List.mem_singleton.mpr rfl)]
  simp only [Fin.val_cast]
  have key : ∀ (p p' : Nat) (hp : p < 2) (hp' : p' < 2), p = p' → (j ⟨p, hp⟩).val = (j ⟨p', hp'⟩).val :=
    fun p p' hp hp' h => by subst h; rfl
  exact key _ _ _ _ (by simp [hD.lb, hD.ln])

include hD in
theorem rhs1 (j : (⟨2, ![M, N]⟩ : Shape).Idx) (q : D.contr.Idx) : (D.rhsIdx j q 1).val = (j 1).val := by
  unfold DotDims.rhsIdx
  rw [dif_neg (by rw [hD.rb]; exact List.not_mem_nil), dif_pos (by rw [hD.rn]; exact List.mem_singleton.mpr rfl)]
  simp only [Fin.val_cast]
  have key : ∀ (p p' : Nat) (hp : p < 2) (hp' : p' < 2), p = p' → (j ⟨p, hp⟩).val = (j ⟨p', hp'⟩).val :=
    fun p p' hp hp' h => by subst h; rfl
  exact key _ _ _ _ (by simp [hD.lb, hD.ln, hD.rn])

include hD in
/-- The contraction sum at (a, b) is the sum over `k` of the row entry times the column entry. -/
theorem plain_sum (l : (⟨2, ![M, K]⟩ : Shape).Idx → EReal) (r : (⟨2, ![K, N]⟩ : Shape).Idx → EReal) (a : Fin M) (b : Fin N) :
    ∑ q : D.contr.Idx, l (D.lhsIdx (ix2 a b) q) * r (D.rhsIdx (ix2 a b) q) = ∑ k : Fin K, l (ix2 a k) * r (ix2 k b) := by
  rw [← Equiv.sum_comp (contrEquiv1 D K (contr_rank D hD) (contr_size D hD)).symm]
  refine Finset.sum_congr rfl fun k _ => ?_
  have hk := contrEquiv1_symm_val D K (contr_rank D hD) (contr_size D hD) k
  have el : D.lhsIdx (ix2 a b) ((contrEquiv1 D K (contr_rank D hD) (contr_size D hD)).symm k) = ix2 a k :=
    funext fun x => Fin.ext (by
      match x with
      | ⟨0, _⟩ => exact lhs0 D hD _ _
      | ⟨1, _⟩ => exact (D.lhsIdx_val_of_single hD.lc _ _).trans hk)
  have er : D.rhsIdx (ix2 a b) ((contrEquiv1 D K (contr_rank D hD) (contr_size D hD)).symm k) = ix2 k b :=
    funext fun x => Fin.ext (by
      match x with
      | ⟨0, _⟩ => exact (D.rhsIdx_val_of_single hD.rc _ _).trans hk
      | ⟨1, _⟩ => exact rhs1 D hD _ _)
  rw [el, er]

include hD in
/-- The matrix unit's product into a zero accumulator, at an entry. -/
theorem matmul_zero_apply {φ₁ φ₂ : FTy} (prec : Option ContractPrecision)
    (l : FVec Ideal ⟨2, ![M, K]⟩ φ₁) (r : FVec Ideal ⟨2, ![K, N]⟩ φ₂) (a : Fin M) (b : Fin N) :
    FloatOps.matmul D prec l r (constant ⟨2, ![M, N]⟩ .f32 0x00000000#32) (ix2 a b) = ∑ k : Fin K, l (ix2 a k) * r (ix2 k b) :=
  (Ideal.matmul_constant_zero_apply D prec l r (ix2 a b)).trans (plain_sum D hD l r a b)

include hD in
/-- The host's general dot product, at an entry. -/
theorem dotGeneral_apply {φ₁ φ₂ : FTy} (prec : Option ContractPrecision) (sched : HostSchedule)
    (l : FVec Ideal ⟨2, ![M, K]⟩ φ₁) (r : FVec Ideal ⟨2, ![K, N]⟩ φ₂) (a : Fin M) (b : Fin N) :
    FloatOps.dotGeneral D prec sched l r (ix2 a b) = ∑ k : Fin K, l (ix2 a k) * r (ix2 k b) :=
  (Ideal.dotGeneral_apply D prec sched l r (ix2 a b)).trans (plain_sum D hD l r a b)

end Cert.LibDot

end
-- ==== Proof.KerOps.lean ====
/-
  The kernel body's operations read at an entry, at the ideal instance.

  The body reads frame `f` of its input block [128, 8, 1024] through the rectangle [128, 1, 1024] at offset (0, f, 0) and drops the unit
  axis; it reads slab `j` of a first-layer weight block [s, 1024, 256] through [1, 1024, 256] at offset (j, 0, 0) and drops the unit axis; a bias
  [N] is laid out as one row [1, N] and repeated down the 128 rows; and its three kinds of matrix products (1024 → 256, 256 → 256,
  256 → 512) into a zero accumulator are plain rows-by-columns products, so an entry is the sum over the contracted coordinate.
-/
import proofs.«106977_j18717467476122_2_alg».proof.Proof.Gen.KernelIdeal.Skeleton
import proofs.«106977_j18717467476122_2_alg».proof.Proof.LibDot
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Body

open Idealize.ShloMosaic Idealize.ShloMosaic.ValueIdx Cert.KernelIdeal Cert.KernelIdeal.Gen

variable [Cert.KernelIdeal.Facts]

/-! ## The index maps of the loads' unit-stride rectangles -/

/-- Frame `o` of the input block: the rectangle of rows at offset (0, o, 0) sends (p, 0, d) to (p, o, d). -/
theorem idx_frame (o : ℕ) (ho : o < 8)
    (inb : ∀ a, (![0, o, 0] : Fin 3 → ℕ) a + S128x1x1024.size a ≤ S128x8x1024.size a) (p : Fin 128) (d : Fin 1024) :
    (Rect.unit (s := S128x8x1024) ![0, o, 0] S128x1x1024.size inb).idx (ix3 p (0 : Fin 1) d) = ix3 p ⟨o, ho⟩ d := by
  funext a
  apply Fin.ext
  match a with
  | ⟨0, _⟩ => show 0 + 1 * p.val = p.val; omega
  | ⟨1, _⟩ => show o + 1 * 0 = o; omega
  | ⟨2, _⟩ => show 0 + 1 * d.val = d.val; omega

/-- Slab `o` of a weight block [s, 1024, 256]: the rectangle at offset (o, 0, 0) sends (0, d, k) to (o, d, k). -/
theorem idx_slab {s : ℕ} (o : ℕ) (ho : o < s)
    (inb : ∀ a, (![o, 0, 0] : Fin 3 → ℕ) a + S1x1024x256.size a ≤ (⟨3, ![s, 1024, 256]⟩ : Shape).size a) (d : Fin 1024) (k : Fin 256) :
    (Rect.unit (s := ⟨3, ![s, 1024, 256]⟩) ![o, 0, 0] S1x1024x256.size inb).idx (ix3 (0 : Fin 1) d k) = ix3 ⟨o, ho⟩ d k := by
  funext a
  apply Fin.ext
  match a with
  | ⟨0, _⟩ => show o + 1 * 0 = o; omega
  | ⟨1, _⟩ => show 0 + 1 * d.val = d.val; omega
  | ⟨2, _⟩ => show 0 + 1 * k.val = k.val; omega

/-! ## Casts that drop a unit axis -/

/-- An [a, 1, b] array cast to [a, b] reads, at (p, d), the operand at (p, 0, d). -/
theorem shapeCast_a1b_ab_apply {α : Type} {a b : ℕ} (v : (⟨3, ![a, 1, b]⟩ : Shape).Idx → α)
    (h : (⟨3, ![a, 1, b]⟩ : Shape).ShapeCasts ⟨2, ![a, b]⟩) (p : Fin a) (d : Fin b) :
    shapeCast ⟨2, ![a, b]⟩ v h (ix2 p d) = v (ix3 p (0 : Fin 1) d) :=
  shapeCast_apply v h _ _ (by
    rw [Shape.rowMajor_val_three, Shape.rowMajor_val_two]
    show (p.val * 1 + 0) * b + d.val = p.val * b + d.val
    rw [Nat.mul_one, Nat.add_zero])

end Cert.KernelIdeal.Body

end
-- ==== Proof.Spec.lean ====
/-
  The function both programs compute, as plain mathematics on the extended reals.

  For one batch row, a frame `f` and a feature `d`, the rectified input is `max (x f d) 0`.  A *relation* of a scale `s` is an
  increasing choice of `s` of the 8 frames (`fr : Fin s → Fin 8`); its features are the rectified inputs of those frames laid side by
  side, `s · 1024` numbers.  Each scale has a two-layer perceptron (`Mlp s`): the first layer's weights are read in `s` consecutive
  slabs of 1024 rows, slab `j` meeting the frame at position `j`, so the first layer is a double sum over positions and features;
  both layers end in the maximum with zero.  The scale's contribution is the sum of its relations' outputs, the 256 activations are the
  sum over the seven scales, and the result is one more affine layer with 400 columns followed by the maximum with zero.
-/
import Idealize.ShloMosaic.PureOps.Ideal
import Idealize.ShloMosaic.Lib.ValueIdx
import Mathlib.Algebra.BigOperators.Fin

noncomputable section

namespace Cert.Relations

open Idealize.ShloMosaic Idealize.ShloMosaic.ValueIdx

/-! ## Which frames each relation reads (one table per scale: relation, position ↦ frame) -/

def rel0 : Fin 1 → Fin 8 → Fin 8 := ![![0, 1, 2, 3, 4, 5, 6, 7]]
def rel1 : Fin 3 → Fin 7 → Fin 8 := ![![0, 1, 2, 4, 5, 6, 7], ![1, 2, 3, 4, 5, 6, 7], ![0, 1, 3, 4, 5, 6, 7]]
def rel2 : Fin 3 → Fin 6 → Fin 8 := ![![0, 1, 2, 3, 4, 5], ![0, 1, 2, 3, 4, 7], ![0, 1, 2, 3, 4, 6]]
def rel3 : Fin 3 → Fin 5 → Fin 8 := ![![1, 2, 3, 4, 5], ![0, 2, 4, 6, 7], ![2, 3, 4, 5, 6]]
def rel4 : Fin 3 → Fin 4 → Fin 8 := ![![1, 3, 5, 7], ![1, 2, 3, 7], ![1, 2, 5, 7]]
def rel5 : Fin 3 → Fin 3 → Fin 8 := ![![2, 5, 7], ![2, 3, 5], ![0, 3, 7]]
def rel6 : Fin 3 → Fin 2 → Fin 8 := ![![4, 5], ![2, 4], ![0, 1]]

/-! ## One scale's perceptron -/

/-- The parameters of the perceptron of a scale `s`: first-layer weights by (position, feature, unit), first-layer bias,
    second-layer weights and bias. -/
structure Mlp (s : ℕ) where
  W1 : Fin s → Fin 1024 → Fin 256 → EReal
  b1 : Fin 256 → EReal
  W2 : Fin 256 → Fin 256 → EReal
  b2 : Fin 256 → EReal

/-- The rectified input of one batch row at frame `f`, feature `d`. -/
def feat (X : Fin 8 → Fin 1024 → EReal) (f : Fin 8) (d : Fin 1024) : EReal := max (X f d) 0

/-- First layer of one relation: over positions `j` and features `d`, the rectified input of frame `fr j` times slab `j` of the
    weights; plus the bias; rectified. -/
def hidden {s : ℕ} (X : Fin 8 → Fin 1024 → EReal) (fr : Fin s → Fin 8) (P : Mlp s) (k : Fin 256) : EReal :=
  max ((∑ j : Fin s, ∑ d : Fin 1024, feat X (fr j) d * P.W1 j d k) + P.b1 k) 0

/-- Second layer of one relation. -/
def bottleneck {s : ℕ} (X : Fin 8 → Fin 1024 → EReal) (fr : Fin s → Fin 8) (P : Mlp s) (k : Fin 256) : EReal :=
  max ((∑ j : Fin 256, hidden X fr P j * P.W2 j k) + P.b2 k) 0

/-- One scale: the sum over its relations. -/
def fuse {n s : ℕ} (X : Fin 8 → Fin 1024 → EReal) (rel : Fin n → Fin s → Fin 8) (P : Mlp s) (k : Fin 256) : EReal :=
  ∑ r : Fin n, bottleneck X (rel r) P k

/-- The seven scales' perceptrons. -/
structure Params where
  P0 : Mlp 8
  P1 : Mlp 7
  P2 : Mlp 6
  P3 : Mlp 5
  P4 : Mlp 4
  P5 : Mlp 3
  P6 : Mlp 2

/-- The 256 activations of one batch row: the seven scales added, largest scale first. -/
def act (X : Fin 8 → Fin 1024 → EReal) (Q : Params) (k : Fin 256) : EReal :=
  fuse X rel0 Q.P0 k + fuse X rel1 Q.P1 k + fuse X rel2 Q.P2 k + fuse X rel3 Q.P3 k + fuse X rel4 Q.P4 k
    + fuse X rel5 Q.P5 k + fuse X rel6 Q.P6 k

/-- The classifier on one batch row: an affine layer into `C` columns (400 in the result; the kernel computes 512, the last
    112 of them padding that is cut off), rectified. -/
def logits {C : ℕ} (X : Fin 8 → Fin 1024 → EReal) (Q : Params) (Wc : Fin 256 → Fin C → EReal) (bc : Fin C → EReal)
    (c : Fin C) : EReal :=
  max ((∑ k : Fin 256, act X Q k * Wc k c) + bc c) 0

/-! ## The same, of the argument arrays -/

/-- Row `j · 1024 + d` of a weight array with `s · 1024 = E` rows. -/
def slabRow {s E : ℕ} (h : s * 1024 = E) (j : Fin s) (d : Fin 1024) : Fin E :=
  ⟨j.val * 1024 + d.val, by
    have hj := j.isLt; have hd := d.isLt
    have : (j.val + 1) * 1024 ≤ s * 1024 := Nat.mul_le_mul_right _ hj
    omega⟩

/-- A scale's perceptron read off its four argument arrays. -/
def mlpOf {s E : ℕ} (h : s * 1024 = E) (w1 : (⟨2, ![E, 256]⟩ : Shape).Idx → EReal) (b1 : (⟨1, ![256]⟩ : Shape).Idx → EReal)
    (w2 : (⟨2, ![256, 256]⟩ : Shape).Idx → EReal) (b2 : (⟨1, ![256]⟩ : Shape).Idx → EReal) : Mlp s where
  W1 := fun j d k => w1 (ix2 (slabRow h j d) k)
  b1 := fun k => b1 (ix1 k)
  W2 := fun j k => w2 (ix2 j k)
  b2 := fun k => b2 (ix1 k)

/-- Batch row `b` of the input array. -/
def rowOf (x : (⟨3, ![4096, 8, 1024]⟩ : Shape).Idx → EReal) (b : Fin 4096) : Fin 8 → Fin 1024 → EReal :=
  fun f d => x (ix3 b f d)

/-- The result array as one function of the argument arrays, index by index. -/
def result (x : (⟨3, ![4096, 8, 1024]⟩ : Shape).Idx → EReal) (Q : Params)
    (wc : (⟨2, ![256, 400]⟩ : Shape).Idx → EReal) (bc : (⟨1, ![400]⟩ : Shape).Idx → EReal) :
    (⟨2, ![4096, 400]⟩ : Shape).Idx → EReal :=
  fun i => logits (rowOf x (i 0)) Q (fun k c => wc (ix2 k c)) (fun c => bc (ix1 c)) (i 1)

theorem result_ix2 (x : (⟨3, ![4096, 8, 1024]⟩ : Shape).Idx → EReal) (Q : Params)
    (wc : (⟨2, ![256, 400]⟩ : Shape).Idx → EReal) (bc : (⟨1, ![400]⟩ : Shape).Idx → EReal) (b : Fin 4096) (c : Fin 400) :
    result x Q wc bc (ix2 b c) = logits (rowOf x b) Q (fun k c => wc (ix2 k c)) (fun c => bc (ix1 c)) c := rfl

/-- The result array of the 31 argument arrays, in the programs' argument order: the input, then per scale (largest first)
    first-layer weights and bias, second-layer weights and bias, then the classifier's weights and bias. -/
def resultOf (a0 : (⟨3, ![4096, 8, 1024]⟩ : Shape).Idx → EReal)
    (a1 : (⟨2, ![8192, 256]⟩ : Shape).Idx → EReal) (a2 : (⟨1, ![256]⟩ : Shape).Idx → EReal)
    (a3 : (⟨2, ![256, 256]⟩ : Shape).Idx → EReal) (a4 : (⟨1, ![256]⟩ : Shape).Idx → EReal)
    (a5 : (⟨2, ![7168, 256]⟩ : Shape).Idx → EReal) (a6 : (⟨1, ![256]⟩ : Shape).Idx → EReal)
    (a7 : (⟨2, ![256, 256]⟩ : Shape).Idx → EReal) (a8 : (⟨1, ![256]⟩ : Shape).Idx → EReal)
    (a9 : (⟨2, ![6144, 256]⟩ : Shape).Idx → EReal) (a10 : (⟨1, ![256]⟩ : Shape).Idx → EReal)
    (a11 : (⟨2, ![256, 256]⟩ : Shape).Idx → EReal) (a12 : (⟨1, ![256]⟩ : Shape).Idx → EReal)
    (a13 : (⟨2, ![5120, 256]⟩ : Shape).Idx → EReal) (a14 : (⟨1, ![256]⟩ : Shape).Idx → EReal)
    (a15 : (⟨2, ![256, 256]⟩ : Shape).Idx → EReal) (a16 : (⟨1, ![256]⟩ : Shape).Idx → EReal)
    (a17 : (⟨2, ![4096, 256]⟩ : Shape).Idx → EReal) (a18 : (⟨1, ![256]⟩ : Shape).Idx → EReal)
    (a19 : (⟨2, ![256, 256]⟩ : Shape).Idx → EReal) (a20 : (⟨1, ![256]⟩ : Shape).Idx → EReal)
    (a21 : (⟨2, ![3072, 256]⟩ : Shape).Idx → EReal) (a22 : (⟨1, ![256]⟩ : Shape).Idx → EReal)
    (a23 : (⟨2, ![256, 256]⟩ : Shape).Idx → EReal) (a24 : (⟨1, ![256]⟩ : Shape).Idx → EReal)
    (a25 : (⟨2, ![2048, 256]⟩ : Shape).Idx → EReal) (a26 : (⟨1, ![256]⟩ : Shape).Idx → EReal)
    (a27 : (⟨2, ![256, 256]⟩ : Shape).Idx → EReal) (a28 : (⟨1, ![256]⟩ : Shape).Idx → EReal)
    (a29 : (⟨2, ![256, 400]⟩ : Shape).Idx → EReal) (a30 : (⟨1, ![400]⟩ : Shape).Idx → EReal) :
    (⟨2, ![4096, 400]⟩ : Shape).Idx → EReal :=
  result a0
    { P0 := mlpOf (s := 8) rfl a1 a2 a3 a4, P1 := mlpOf (s := 7) rfl a5 a6 a7 a8, P2 := mlpOf (s := 6) rfl a9 a10 a11 a12,
      P3 := mlpOf (s := 5) rfl a13 a14 a15 a16, P4 := mlpOf (s := 4) rfl a17 a18 a19 a20,
      P5 := mlpOf (s := 3) rfl a21 a22 a23 a24, P6 := mlpOf (s := 2) rfl a25 a26 a27 a28 }
    a29 a30

end Cert.Relations

end
-- ==== Proof.KerBody.lean ====
/-
  What the kernel body leaves in its output block, read at an entry.

  The body handles 128 batch rows at a time.  For row `p` of the block it rectifies each of the 8 frames once, forms for every
  (position, frame) pair a scale's relations use the product of the rectified frame with that position's slab of the first-layer
  weights, adds a relation's products up from zero in position order, and runs the rest of the perceptron; the 19 relation outputs are
  added up from zero, scale by scale, and the classifier (512 columns) follows.  Entry (p, q) of the block is therefore the
  specification's `logits` of row `p`, with the block's weight arrays as the perceptrons' parameters: the same sums, written with a
  leading zero and associated to the left.
-/
import proofs.«106977_j18717467476122_2_alg».proof.Proof.FrameIdeal
import proofs.«106977_j18717467476122_2_alg».proof.Proof.KerOps
import proofs.«106977_j18717467476122_2_alg».proof.Proof.Spec

set_option maxRecDepth 16384

noncomputable section

namespace Cert.Relations

/-! ## The tables' entries -/
theorem rel0_0_0 : rel0 0 0 = 0 := rfl
theorem rel0_0_1 : rel0 0 1 = 1 := rfl
theorem rel0_0_2 : rel0 0 2 = 2 := rfl
theorem rel0_0_3 : rel0 0 3 = 3 := rfl
theorem rel0_0_4 : rel0 0 4 = 4 := rfl
theorem rel0_0_5 : rel0 0 5 = 5 := rfl
theorem rel0_0_6 : rel0 0 6 = 6 := rfl
theorem rel0_0_7 : rel0 0 7 = 7 := rfl
theorem rel1_0_0 : rel1 0 0 = 0 := rfl
theorem rel1_0_1 : rel1 0 1 = 1 := rfl
theorem rel1_0_2 : rel1 0 2 = 2 := rfl
theorem rel1_0_3 : rel1 0 3 = 4 := rfl
theorem rel1_0_4 : rel1 0 4 = 5 := rfl
theorem rel1_0_5 : rel1 0 5 = 6 := rfl
theorem rel1_0_6 : rel1 0 6 = 7 := rfl
theorem rel1_1_0 : rel1 1 0 = 1 := rfl
theorem rel1_1_1 : rel1 1 1 = 2 := rfl
theorem rel1_1_2 : rel1 1 2 = 3 := rfl
theorem rel1_1_3 : rel1 1 3 = 4 := rfl
theorem rel1_1_4 : rel1 1 4 = 5 := rfl
theorem rel1_1_5 : rel1 1 5 = 6 := rfl
theorem rel1_1_6 : rel1 1 6 = 7 := rfl
theorem rel1_2_0 : rel1 2 0 = 0 := rfl
theorem rel1_2_1 : rel1 2 1 = 1 := rfl
theorem rel1_2_2 : rel1 2 2 = 3 := rfl
theorem rel1_2_3 : rel1 2 3 = 4 := rfl
theorem rel1_2_4 : rel1 2 4 = 5 := rfl
theorem rel1_2_5 : rel1 2 5 = 6 := rfl
theorem rel1_2_6 : rel1 2 6 = 7 := rfl
theorem rel2_0_0 : rel2 0 0 = 0 := rfl
theorem rel2_0_1 : rel2 0 1 = 1 := rfl
theorem rel2_0_2 : rel2 0 2 = 2 := rfl
theorem rel2_0_3 : rel2 0 3 = 3 := rfl
theorem rel2_0_4 : rel2 0 4 = 4 := rfl
theorem rel2_0_5 : rel2 0 5 = 5 := rfl
theorem rel2_1_0 : rel2 1 0 = 0 := rfl
theorem rel2_1_1 : rel2 1 1 = 1 := rfl
theorem rel2_1_2 : rel2 1 2 = 2 := rfl
theorem rel2_1_3 : rel2 1 3 = 3 := rfl
theorem rel2_1_4 : rel2 1 4 = 4 := rfl
theorem rel2_1_5 : rel2 1 5 = 7 := rfl
theorem rel2_2_0 : rel2 2 0 = 0 := rfl
theorem rel2_2_1 : rel2 2 1 = 1 := rfl
theorem rel2_2_2 : rel2 2 2 = 2 := rfl
theorem rel2_2_3 : rel2 2 3 = 3 := rfl
theorem rel2_2_4 : rel2 2 4 = 4 := rfl
theorem rel2_2_5 : rel2 2 5 = 6 := rfl
theorem rel3_0_0 : rel3 0 0 = 1 := rfl
theorem rel3_0_1 : rel3 0 1 = 2 := rfl
theorem rel3_0_2 : rel3 0 2 = 3 := rfl
theorem rel3_0_3 : rel3 0 3 = 4 := rfl
theorem rel3_0_4 : rel3 0 4 = 5 := rfl
theorem rel3_1_0 : rel3 1 0 = 0 := rfl
theorem rel3_1_1 : rel3 1 1 = 2 := rfl
theorem rel3_1_2 : rel3 1 2 = 4 := rfl
theorem rel3_1_3 : rel3 1 3 = 6 := rfl
theorem rel3_1_4 : rel3 1 4 = 7 := rfl
theorem rel3_2_0 : rel3 2 0 = 2 := rfl
theorem rel3_2_1 : rel3 2 1 = 3 := rfl
theorem rel3_2_2 : rel3 2 2 = 4 := rfl
theorem rel3_2_3 : rel3 2 3 = 5 := rfl
theorem rel3_2_4 : rel3 2 4 = 6 := rfl
theorem rel4_0_0 : rel4 0 0 = 1 := rfl
theorem rel4_0_1 : rel4 0 1 = 3 := rfl
theorem rel4_0_2 : rel4 0 2 = 5 := rfl
theorem rel4_0_3 : rel4 0 3 = 7 := rfl
theorem rel4_1_0 : rel4 1 0 = 1 := rfl
theorem rel4_1_1 : rel4 1 1 = 2 := rfl
theorem rel4_1_2 : rel4 1 2 = 3 := rfl
theorem rel4_1_3 : rel4 1 3 = 7 := rfl
theorem rel4_2_0 : rel4 2 0 = 1 := rfl
theorem rel4_2_1 : rel4 2 1 = 2 := rfl
theorem rel4_2_2 : rel4 2 2 = 5 := rfl
theorem rel4_2_3 : rel4 2 3 = 7 := rfl
theorem rel5_0_0 : rel5 0 0 = 2 := rfl
theorem rel5_0_1 : rel5 0 1 = 5 := rfl
theorem rel5_0_2 : rel5 0 2 = 7 := rfl
theorem rel5_1_0 : rel5 1 0 = 2 := rfl
theorem rel5_1_1 : rel5 1 1 = 3 := rfl
theorem rel5_1_2 : rel5 1 2 = 5 := rfl
theorem rel5_2_0 : rel5 2 0 = 0 := rfl
theorem rel5_2_1 : rel5 2 1 = 3 := rfl
theorem rel5_2_2 : rel5 2 2 = 7 := rfl
theorem rel6_0_0 : rel6 0 0 = 4 := rfl
theorem rel6_0_1 : rel6 0 1 = 5 := rfl
theorem rel6_1_0 : rel6 1 0 = 2 := rfl
theorem rel6_1_1 : rel6 1 1 = 4 := rfl
theorem rel6_2_0 : rel6 2 0 = 0 := rfl
theorem rel6_2_1 : rel6 2 1 = 1 := rfl

end Cert.Relations

namespace Cert.KernelIdeal.Body

open Idealize.ShloMosaic Idealize.ShloMosaic.ValueIdx Cert.KernelIdeal Cert.KernelIdeal.Gen Cert.KernelIdeal.GenP Cert.Relations

variable [Cert.KernelIdeal.Facts]

/-! ## The body's loads: where the rectangle of frame `f` of the input block, and of slab `j` of a weight block, sends an index -/
theorem idx_frame0 (p : Fin 128) (d : Fin 1024) : r0_0.idx (ix3 p (0 : Fin 1) d) = ix3 p (0 : Fin 8) d := idx_frame 0 (by omega) _ p d
theorem idx_frame1 (p : Fin 128) (d : Fin 1024) : r0_1.idx (ix3 p (0 : Fin 1) d) = ix3 p (1 : Fin 8) d := idx_frame 1 (by omega) _ p d
theorem idx_frame2 (p : Fin 128) (d : Fin 1024) : r0_2.idx (ix3 p (0 : Fin 1) d) = ix3 p (2 : Fin 8) d := idx_frame 2 (by omega) _ p d
theorem idx_frame3 (p : Fin 128) (d : Fin 1024) : r0_3.idx (ix3 p (0 : Fin 1) d) = ix3 p (3 : Fin 8) d := idx_frame 3 (by omega) _ p d
theorem idx_frame4 (p : Fin 128) (d : Fin 1024) : r0_4.idx (ix3 p (0 : Fin 1) d) = ix3 p (4 : Fin 8) d := idx_frame 4 (by omega) _ p d
theorem idx_frame5 (p : Fin 128) (d : Fin 1024) : r0_5.idx (ix3 p (0 : Fin 1) d) = ix3 p (5 : Fin 8) d := idx_frame 5 (by omega) _ p d
theorem idx_frame6 (p : Fin 128) (d : Fin 1024) : r0_6.idx (ix3 p (0 : Fin 1) d) = ix3 p (6 : Fin 8) d := idx_frame 6 (by omega) _ p d
theorem idx_frame7 (p : Fin 128) (d : Fin 1024) : r0_7.idx (ix3 p (0 : Fin 1) d) = ix3 p (7 : Fin 8) d := idx_frame 7 (by omega) _ p d
theorem idx_slab8_0 (d : Fin 1024) (k : Fin 256) : r0_10.idx (ix3 (0 : Fin 1) d k) = ix3 (0 : Fin 8) d k := idx_slab 0 (by omega) _ d k
theorem idx_slab8_1 (d : Fin 1024) (k : Fin 256) : r0_11.idx (ix3 (0 : Fin 1) d k) = ix3 (1 : Fin 8) d k := idx_slab 1 (by omega) _ d k
theorem idx_slab8_2 (d : Fin 1024) (k : Fin 256) : r0_12.idx (ix3 (0 : Fin 1) d k) = ix3 (2 : Fin 8) d k := idx_slab 2 (by omega) _ d k
theorem idx_slab8_3 (d : Fin 1024) (k : Fin 256) : r0_13.idx (ix3 (0 : Fin 1) d k) = ix3 (3 : Fin 8) d k := idx_slab 3 (by omega) _ d k
theorem idx_slab8_4 (d : Fin 1024) (k : Fin 256) : r0_14.idx (ix3 (0 : Fin 1) d k) = ix3 (4 : Fin 8) d k := idx_slab 4 (by omega) _ d k
theorem idx_slab8_5 (d : Fin 1024) (k : Fin 256) : r0_15.idx (ix3 (0 : Fin 1) d k) = ix3 (5 : Fin 8) d k := idx_slab 5 (by omega) _ d k
theorem idx_slab8_6 (d : Fin 1024) (k : Fin 256) : r0_16.idx (ix3 (0 : Fin 1) d k) = ix3 (6 : Fin 8) d k := idx_slab 6 (by omega) _ d k
theorem idx_slab8_7 (d : Fin 1024) (k : Fin 256) : r0_17.idx (ix3 (0 : Fin 1) d k) = ix3 (7 : Fin 8) d k := idx_slab 7 (by omega) _ d k
theorem idx_slab7_0 (d : Fin 1024) (k : Fin 256) : r0_18.idx (ix3 (0 : Fin 1) d k) = ix3 (0 : Fin 7) d k := idx_slab 0 (by omega) _ d k
theorem idx_slab7_1 (d : Fin 1024) (k : Fin 256) : r0_19.idx (ix3 (0 : Fin 1) d k) = ix3 (1 : Fin 7) d k := idx_slab 1 (by omega) _ d k
theorem idx_slab7_2 (d : Fin 1024) (k : Fin 256) : r0_20.idx (ix3 (0 : Fin 1) d k) = ix3 (2 : Fin 7) d k := idx_slab 2 (by omega) _ d k
theorem idx_slab7_3 (d : Fin 1024) (k : Fin 256) : r0_21.idx (ix3 (0 : Fin 1) d k) = ix3 (3 : Fin 7) d k := idx_slab 3 (by omega) _ d k
theorem idx_slab7_4 (d : Fin 1024) (k : Fin 256) : r0_22.idx (ix3 (0 : Fin 1) d k) = ix3 (4 : Fin 7) d k := idx_slab 4 (by omega) _ d k
theorem idx_slab7_5 (d : Fin 1024) (k : Fin 256) : r0_23.idx (ix3 (0 : Fin 1) d k) = ix3 (5 : Fin 7) d k := idx_slab 5 (by omega) _ d k
theorem idx_slab7_6 (d : Fin 1024) (k : Fin 256) : r0_24.idx (ix3 (0 : Fin 1) d k) = ix3 (6 : Fin 7) d k := idx_slab 6 (by omega) _ d k
theorem idx_slab6_0 (d : Fin 1024) (k : Fin 256) : r0_25.idx (ix3 (0 : Fin 1) d k) = ix3 (0 : Fin 6) d k := idx_slab 0 (by omega) _ d k
theorem idx_slab6_1 (d : Fin 1024) (k : Fin 256) : r0_26.idx (ix3 (0 : Fin 1) d k) = ix3 (1 : Fin 6) d k := idx_slab 1 (by omega) _ d k
theorem idx_slab6_2 (d : Fin 1024) (k : Fin 256) : r0_27.idx (ix3 (0 : Fin 1) d k) = ix3 (2 : Fin 6) d k := idx_slab 2 (by omega) _ d k
theorem idx_slab6_3 (d : Fin 1024) (k : Fin 256) : r0_28.idx (ix3 (0 : Fin 1) d k) = ix3 (3 : Fin 6) d k := idx_slab 3 (by omega) _ d k
theorem idx_slab6_4 (d : Fin 1024) (k : Fin 256) : r0_29.idx (ix3 (0 : Fin 1) d k) = ix3 (4 : Fin 6) d k := idx_slab 4 (by omega) _ d k
theorem idx_slab6_5 (d : Fin 1024) (k : Fin 256) : r0_30.idx (ix3 (0 : Fin 1) d k) = ix3 (5 : Fin 6) d k := idx_slab 5 (by omega) _ d k
theorem idx_slab5_0 (d : Fin 1024) (k : Fin 256) : r0_31.idx (ix3 (0 : Fin 1) d k) = ix3 (0 : Fin 5) d k := idx_slab 0 (by omega) _ d k
theorem idx_slab5_1 (d : Fin 1024) (k : Fin 256) : r0_32.idx (ix3 (0 : Fin 1) d k) = ix3 (1 : Fin 5) d k := idx_slab 1 (by omega) _ d k
theorem idx_slab5_2 (d : Fin 1024) (k : Fin 256) : r0_33.idx (ix3 (0 : Fin 1) d k) = ix3 (2 : Fin 5) d k := idx_slab 2 (by omega) _ d k
theorem idx_slab5_3 (d : Fin 1024) (k : Fin 256) : r0_34.idx (ix3 (0 : Fin 1) d k) = ix3 (3 : Fin 5) d k := idx_slab 3 (by omega) _ d k
theorem idx_slab5_4 (d : Fin 1024) (k : Fin 256) : r0_35.idx (ix3 (0 : Fin 1) d k) = ix3 (4 : Fin 5) d k := idx_slab 4 (by omega) _ d k
theorem idx_slab4_0 (d : Fin 1024) (k : Fin 256) : r0_36.idx (ix3 (0 : Fin 1) d k) = ix3 (0 : Fin 4) d k := idx_slab 0 (by omega) _ d k
theorem idx_slab4_1 (d : Fin 1024) (k : Fin 256) : r0_37.idx (ix3 (0 : Fin 1) d k) = ix3 (1 : Fin 4) d k := idx_slab 1 (by omega) _ d k
theorem idx_slab4_2 (d : Fin 1024) (k : Fin 256) : r0_38.idx (ix3 (0 : Fin 1) d k) = ix3 (2 : Fin 4) d k := idx_slab 2 (by omega) _ d k
theorem idx_slab4_3 (d : Fin 1024) (k : Fin 256) : r0_39.idx (ix3 (0 : Fin 1) d k) = ix3 (3 : Fin 4) d k := idx_slab 3 (by omega) _ d k
theorem idx_slab3_0 (d : Fin 1024) (k : Fin 256) : r0_40.idx (ix3 (0 : Fin 1) d k) = ix3 (0 : Fin 3) d k := idx_slab 0 (by omega) _ d k
theorem idx_slab3_1 (d : Fin 1024) (k : Fin 256) : r0_41.idx (ix3 (0 : Fin 1) d k) = ix3 (1 : Fin 3) d k := idx_slab 1 (by omega) _ d k
theorem idx_slab3_2 (d : Fin 1024) (k : Fin 256) : r0_42.idx (ix3 (0 : Fin 1) d k) = ix3 (2 : Fin 3) d k := idx_slab 2 (by omega) _ d k
theorem idx_slab2_0 (d : Fin 1024) (k : Fin 256) : r0_43.idx (ix3 (0 : Fin 1) d k) = ix3 (0 : Fin 2) d k := idx_slab 0 (by omega) _ d k
theorem idx_slab2_1 (d : Fin 1024) (k : Fin 256) : r0_44.idx (ix3 (0 : Fin 1) d k) = ix3 (1 : Fin 2) d k := idx_slab 1 (by omega) _ d k

/-! ## The body's three matrix products at an entry -/

theorem mm1024 (l : FVec Ideal S128x1024 .bf16) (r : FVec Ideal S1024x256 .bf16) (a : Fin 128) (b : Fin 256) :
    FloatOps.matmul dot_S128x1024_S1024x256_S128x256_1_0_0_1_n_n none l r (constant S128x256 .f32 0x00000000#32) (ix2 a b) = ∑ k : Fin 1024, l (ix2 a k) * r (ix2 k b) :=
  Cert.LibDot.matmul_zero_apply dot_S128x1024_S1024x256_S128x256_1_0_0_1_n_n ⟨rfl, rfl, rfl, rfl, rfl, rfl⟩ none l r a b
theorem mm256 (l : FVec Ideal S128x256 .bf16) (r : FVec Ideal S256x256 .bf16) (a : Fin 128) (b : Fin 256) :
    FloatOps.matmul dot_S128x256_S256x256_S128x256_1_0_0_1_n_n none l r (constant S128x256 .f32 0x00000000#32) (ix2 a b) = ∑ k : Fin 256, l (ix2 a k) * r (ix2 k b) :=
  Cert.LibDot.matmul_zero_apply dot_S128x256_S256x256_S128x256_1_0_0_1_n_n ⟨rfl, rfl, rfl, rfl, rfl, rfl⟩ none l r a b
theorem mm512 (l : FVec Ideal S128x256 .bf16) (r : FVec Ideal S256x512 .bf16) (a : Fin 128) (b : Fin 512) :
    FloatOps.matmul dot_S128x256_S256x512_S128x512_1_0_0_1_n_n none l r (constant S128x512 .f32 0x00000000#32) (ix2 a b) = ∑ k : Fin 256, l (ix2 a k) * r (ix2 k b) :=
  Cert.LibDot.matmul_zero_apply dot_S128x256_S256x512_S128x512_1_0_0_1_n_n ⟨rfl, rfl, rfl, rfl, rfl, rfl⟩ none l r a b

theorem hz1 : (![0] : Fin 1 → Nat) = fun _ => 0 := funext fun a => by fin_cases a <;> rfl
theorem hz2 : (![0, 0] : Fin 2 → Nat) = fun _ => 0 := funext fun a => by fin_cases a <;> rfl

/-! ## The block's arrays as the specification's parameters -/

/-- A scale's perceptron read off the block's four arrays: the first-layer weights by (slab, feature, unit). -/
def blkMlp {s : ℕ} (w1 : Vec Ideal (⟨3, ![s, 1024, 256]⟩ : Shape) .bf16) (b1 : Vec Ideal S256 .f32)
    (w2 : Vec Ideal S256x256 .bf16) (b2 : Vec Ideal S256 .f32) : Mlp s where
  W1 := fun j d k => w1 (ix3 j d k)
  b1 := fun k => b1 (ix1 k)
  W2 := fun j k => w2 (ix2 j k)
  b2 := fun k => b2 (ix1 k)

/-- Entry (p, q) of the block the body stores: the specification's last layer (512 columns) of row `p` of the input block. -/
theorem out_apply (x0 : Vec Ideal S128x8x1024 .f32) (x1 : Vec Ideal S8x1024x256 .bf16) (x2 : Vec Ideal S256 .f32) (x3 : Vec Ideal S256x256 .bf16) (x4 : Vec Ideal S256 .f32) (x5 : Vec Ideal S7x1024x256 .bf16) (x6 : Vec Ideal S256 .f32) (x7 : Vec Ideal S256x256 .bf16) (x8 : Vec Ideal S256 .f32) (x9 : Vec Ideal S6x1024x256 .bf16) (x10 : Vec Ideal S256 .f32) (x11 : Vec Ideal S256x256 .bf16) (x12 : Vec Ideal S256 .f32) (x13 : Vec Ideal S5x1024x256 .bf16) (x14 : Vec Ideal S256 .f32) (x15 : Vec Ideal S256x256 .bf16) (x16 : Vec Ideal S256 .f32) (x17 : Vec Ideal S4x1024x256 .bf16) (x18 : Vec Ideal S256 .f32) (x19 : Vec Ideal S256x256 .bf16) (x20 : Vec Ideal S256 .f32) (x21 : Vec Ideal S3x1024x256 .bf16) (x22 : Vec Ideal S256 .f32) (x23 : Vec Ideal S256x256 .bf16) (x24 : Vec Ideal S256 .f32) (x25 : Vec Ideal S2x1024x256 .bf16) (x26 : Vec Ideal S256 .f32) (x27 : Vec Ideal S256x256 .bf16) (x28 : Vec Ideal S256 .f32) (x29 : Vec Ideal S256x512 .bf16) (x30 : Vec Ideal S512 .f32) (p : Fin 128) (q : Fin 512) :
    out0_31 (F := Ideal) x0 x1 x2 x3 x4 x5 x6 x7 x8 x9 x10 x11 x12 x13 x14 x15 x16 x17 x18 x19 x20 x21 x22 x23 x24 x25 x26 x27 x28 x29 x30 (ix2 p q)
      = logits (fun f d => x0 (ix3 p f d))
          { P0 := blkMlp x1 x2 x3 x4, P1 := blkMlp x5 x6 x7 x8, P2 := blkMlp x9 x10 x11 x12, P3 := blkMlp x13 x14 x15 x16,
            P4 := blkMlp x17 x18 x19 x20, P5 := blkMlp x21 x22 x23 x24, P6 := blkMlp x25 x26 x27 x28 }
          (fun k c => x29 (ix2 k c)) (fun c => x30 (ix1 c)) q := by
  unfold out0_31
  rw [View.canon_unit_zero hz2]
  simp only [k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, matmul,
    truncf_apply, maximumf_apply, addf_apply, broadcast_apply, constant_apply, Scalar.ofBits, Ideal.ofBits_def, Ideal.ofBits_zero_f32,
    mm1024, mm256, mm512, shapeCast_1ab_ab_apply, shapeCast_a1b_ab_apply, shapeCast_self, shapeCast_a_1a_apply, broadcastTo_1b_ab_apply,
    View.ld_unit_zero (S := S256) hz1, View.ld_unit_zero (S := S512) hz1, View.ld_unit_zero (S := S256x256) hz2, View.ld_unit_zero (S := S256x512) hz2, View.ld, idx_frame0, idx_frame1, idx_frame2, idx_frame3, idx_frame4, idx_frame5, idx_frame6, idx_frame7, idx_slab8_0, idx_slab8_1, idx_slab8_2, idx_slab8_3, idx_slab8_4, idx_slab8_5, idx_slab8_6, idx_slab8_7, idx_slab7_0, idx_slab7_1, idx_slab7_2, idx_slab7_3, idx_slab7_4, idx_slab7_5, idx_slab7_6, idx_slab6_0, idx_slab6_1, idx_slab6_2, idx_slab6_3, idx_slab6_4, idx_slab6_5, idx_slab5_0, idx_slab5_1, idx_slab5_2, idx_slab5_3, idx_slab5_4, idx_slab4_0, idx_slab4_1, idx_slab4_2, idx_slab4_3, idx_slab3_0, idx_slab3_1, idx_slab3_2, idx_slab2_0, idx_slab2_1]
  simp only [logits, act, fuse, bottleneck, Cert.Relations.hidden, feat, blkMlp, Fin.sum_univ_one, Fin.sum_univ_two, Fin.sum_univ_three, Fin.sum_univ_four,
    Fin.sum_univ_five, Fin.sum_univ_six, Fin.sum_univ_seven, Fin.sum_univ_eight,
    Cert.Relations.rel0_0_0, Cert.Relations.rel0_0_1, Cert.Relations.rel0_0_2, Cert.Relations.rel0_0_3, Cert.Relations.rel0_0_4, Cert.Relations.rel0_0_5, Cert.Relations.rel0_0_6, Cert.Relations.rel0_0_7, Cert.Relations.rel1_0_0, Cert.Relations.rel1_0_1, Cert.Relations.rel1_0_2, Cert.Relations.rel1_0_3, Cert.Relations.rel1_0_4, Cert.Relations.rel1_0_5, Cert.Relations.rel1_0_6, Cert.Relations.rel1_1_0, Cert.Relations.rel1_1_1, Cert.Relations.rel1_1_2, Cert.Relations.rel1_1_3, Cert.Relations.rel1_1_4, Cert.Relations.rel1_1_5, Cert.Relations.rel1_1_6, Cert.Relations.rel1_2_0, Cert.Relations.rel1_2_1, Cert.Relations.rel1_2_2, Cert.Relations.rel1_2_3, Cert.Relations.rel1_2_4, Cert.Relations.rel1_2_5, Cert.Relations.rel1_2_6, Cert.Relations.rel2_0_0, Cert.Relations.rel2_0_1, Cert.Relations.rel2_0_2, Cert.Relations.rel2_0_3, Cert.Relations.rel2_0_4, Cert.Relations.rel2_0_5, Cert.Relations.rel2_1_0, Cert.Relations.rel2_1_1, Cert.Relations.rel2_1_2, Cert.Relations.rel2_1_3, Cert.Relations.rel2_1_4, Cert.Relations.rel2_1_5, Cert.Relations.rel2_2_0, Cert.Relations.rel2_2_1, Cert.Relations.rel2_2_2, Cert.Relations.rel2_2_3, Cert.Relations.rel2_2_4, Cert.Relations.rel2_2_5, Cert.Relations.rel3_0_0, Cert.Relations.rel3_0_1, Cert.Relations.rel3_0_2, Cert.Relations.rel3_0_3, Cert.Relations.rel3_0_4, Cert.Relations.rel3_1_0, Cert.Relations.rel3_1_1, Cert.Relations.rel3_1_2, Cert.Relations.rel3_1_3, Cert.Relations.rel3_1_4, Cert.Relations.rel3_2_0, Cert.Relations.rel3_2_1, Cert.Relations.rel3_2_2, Cert.Relations.rel3_2_3, Cert.Relations.rel3_2_4, Cert.Relations.rel4_0_0, Cert.Relations.rel4_0_1, Cert.Relations.rel4_0_2, Cert.Relations.rel4_0_3, Cert.Relations.rel4_1_0, Cert.Relations.rel4_1_1, Cert.Relations.rel4_1_2, Cert.Relations.rel4_1_3, Cert.Relations.rel4_2_0, Cert.Relations.rel4_2_1, Cert.Relations.rel4_2_2, Cert.Relations.rel4_2_3, Cert.Relations.rel5_0_0, Cert.Relations.rel5_0_1, Cert.Relations.rel5_0_2, Cert.Relations.rel5_1_0, Cert.Relations.rel5_1_1, Cert.Relations.rel5_1_2, Cert.Relations.rel5_2_0, Cert.Relations.rel5_2_1, Cert.Relations.rel5_2_2, Cert.Relations.rel6_0_0, Cert.Relations.rel6_0_1, Cert.Relations.rel6_1_0, Cert.Relations.rel6_1_1, Cert.Relations.rel6_2_0, Cert.Relations.rel6_2_1]
  simp only [zero_add, add_assoc]

end Cert.KernelIdeal.Body

end
-- ==== Proof.KerArray1.lean ====
/-
  The kernel's grid of 32 points and its windows, read at an index. Point t's block of the input array holds batch rows
  128 t … 128 t + 127; its block of the output array is rows 128 t … 128 t + 127 of [4096, 512], and the 32 blocks cover that
  array; windows 1 to 10 stage their arrays whole, so their block at every point is the array.
-/
import proofs.«106977_j18717467476122_2_alg».proof.Proof.FrameIdeal
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Array

open Cert.KernelIdeal Cert.KernelIdeal.Gen Cert.KernelIdeal.GenP

variable (m : (ℓ : Loc nD τ sig) → Buf (Elt Ideal) ℓ)

theorem idx0 : ∀ t : Fin cfg0.N, win0_0.index t (0 : Fin 3) = t.val ∧ win0_0.index t (1 : Fin 3) = 0 ∧ win0_0.index t (2 : Fin 3) = 0 :=
  (by decide +kernel : ∀ t : Fin grid0.N, _)

theorem idx31 : ∀ t : Fin cfg0.N, win0_31.index t (0 : Fin 2) = t.val ∧ win0_31.index t (1 : Fin 2) = 0 :=
  (by decide +kernel : ∀ t : Fin grid0.N, _)

/-- Row p of block t is row 128 t + p of the array, one of its 4096. -/
theorem row_lt (t : Fin cfg0.N) (p : Fin 128) : t.val * 128 + p.val < 4096 := by
  have ht : t.val < 32 := Nat.lt_of_lt_of_eq t.isLt N_0
  have hp := p.isLt
  omega

/-- Window 0's block at point t holds batch rows 128 t … 128 t + 127 of the input array. -/
theorem blk0_apply (c : Dev nD) (t : Fin cfg0.N) (p : Fin 128) (f : Fin 8) (d : Fin 1024) :
    (iblk m c 0 t : Vec Ideal S128x8x1024 .f32) (ix3 p f d)
      = (V m c main_arg0 : Vec Ideal S4096x8x1024 .f32) (ix3 ⟨t.val * 128 + p.val, row_lt t p⟩ f d) := by
  have e := idx0 t
  unfold iblk
  rw [View.read_apply]
  show V m c main_arg0 _ = V m c main_arg0 _
  congr 1
  funext a
  apply Fin.ext
  match a with
  | ⟨0, _⟩ => show win0_0.index t (0 : Fin 3) * 128 + 1 * p.val = t.val * 128 + p.val; rw [e.1]; omega
  | ⟨1, _⟩ => show win0_0.index t (1 : Fin 3) * 8 + 1 * f.val = f.val; rw [e.2.1]; omega
  | ⟨2, _⟩ => show win0_0.index t (2 : Fin 3) * 1024 + 1 * d.val = d.val; rw [e.2.2]; omega

/-- Entry (p, q) of the output window's block at point t is entry (128 t + p, q) of the output array. -/
theorem emb31 (t : Fin cfg0.N) (p : Fin 128) (q : Fin 512) :
    ((cfg0.win 31).blk t).view.emb (ix2 p q) = (ix2 ⟨t.val * 128 + p.val, row_lt t p⟩ q : S4096x512.Idx) := by
  have e := idx31 t
  funext a
  apply Fin.ext
  match a with
  | ⟨0, _⟩ => show win0_31.index t (0 : Fin 2) * 128 + 1 * p.val = t.val * 128 + p.val; rw [e.1]; omega
  | ⟨1, _⟩ => show win0_31.index t (1 : Fin 2) * 512 + 1 * q.val = q.val; rw [e.2]; omega

/-- An index of the output array is in point t's block iff each coordinate is in the block's range on its axis. -/
theorem mem_blk (t : Fin cfg0.N) (i : S4096x512.Idx) :
    i ∈ ((cfg0.win 31).blk t).view.set ↔ ∀ a : Fin 2, win0_31.index t a * S128x512.size a ≤ (i a).val ∧ (i a).val < win0_31.index t a * S128x512.size a + S128x512.size a := by
  show i ∈ ((View.whole main_v28).slice (win0_31.rect t)).set ↔ _
  rw [View.set_slice_whole, Rect.mem_set_unit]
  exact Iff.rfl

/-- Every index of the output array is in the block of the point its row belongs to: row r is in block r / 128. -/
theorem cover (i : S4096x512.Idx) :
    ∃ t : Fin cfg0.N, (cfg0.win 31).flush t = true ∧ i ∈ ((cfg0.win 31).blk t).view.set := by
  have hi0 : (i 0).val < 4096 := (i 0).isLt
  have hi1 : (i 1).val < 512 := (i 1).isLt
  have hN : cfg0.N = 32 := N_0
  have ht : (i 0).val / 128 < cfg0.N := by rw [hN]; omega
  refine ⟨⟨(i 0).val / 128, ht⟩, flush0_31 _, ?_⟩
  rw [mem_blk]
  have e := idx31 ⟨(i 0).val / 128, ht⟩
  intro a
  match a with
  | ⟨0, _⟩ =>
    show win0_31.index ⟨(i 0).val / 128, ht⟩ (0 : Fin 2) * 128 ≤ (i 0).val ∧ (i 0).val < win0_31.index ⟨(i 0).val / 128, ht⟩ (0 : Fin 2) * 128 + 128
    rw [e.1]
    show (i 0).val / 128 * 128 ≤ (i 0).val ∧ (i 0).val < (i 0).val / 128 * 128 + 128
    omega
  | ⟨1, _⟩ =>
    show win0_31.index ⟨(i 0).val / 128, ht⟩ (1 : Fin 2) * 512 ≤ (i 1).val ∧ (i 1).val < win0_31.index ⟨(i 0).val / 128, ht⟩ (1 : Fin 2) * 512 + 512
    rw [e.2]
    omega

/-! ## Windows 1 to 10 stage an array whole -/

theorem idx1 : ∀ t : Fin cfg0.N, win0_1.index t (0 : Fin 3) = 0 ∧ win0_1.index t (1 : Fin 3) = 0 ∧ win0_1.index t (2 : Fin 3) = 0 :=
  (by decide +kernel : ∀ t : Fin grid0.N, _)

/-- Window 1 stages its array whole: its block at every point is the array. -/
theorem blk1 (c : Dev nD) (t : Fin cfg0.N) : (iblk m c 1 t : Vec Ideal S8x1024x256 .bf16) = (V m c main_v1 : Vec Ideal S8x1024x256 .bf16) := by
  have e := idx1 t
  funext y
  unfold iblk
  rw [View.read_apply]
  show V m c main_v1 _ = V m c main_v1 y
  congr 1
  funext a
  apply Fin.ext
  match a with
    | ⟨0, _⟩ => show win0_1.index t (0 : Fin 3) * 8 + 1 * (y 0).val = (y 0).val; rw [e.1]; omega
    | ⟨1, _⟩ => show win0_1.index t (1 : Fin 3) * 1024 + 1 * (y 1).val = (y 1).val; rw [e.2.1]; omega
    | ⟨2, _⟩ => show win0_1.index t (2 : Fin 3) * 256 + 1 * (y 2).val = (y 2).val; rw [e.2.2]; omega

theorem idx2 : ∀ t : Fin cfg0.N, win0_2.index t (0 : Fin 1) = 0 :=
  (by decide +kernel : ∀ t : Fin grid0.N, _)

/-- Window 2 stages its array whole: its block at every point is the array. -/
theorem blk2 (c : Dev nD) (t : Fin cfg0.N) : (iblk m c 2 t : Vec Ideal S256 .f32) = (V m c main_arg2 : Vec Ideal S256 .f32) := by
  have e := idx2 t
  funext y
  unfold iblk
  rw [View.read_apply]
  show V m c main_arg2 _ = V m c main_arg2 y
  congr 1
  funext a
  apply Fin.ext
  match a with
    | ⟨0, _⟩ => show win0_2.index t (0 : Fin 1) * 256 + 1 * (y 0).val = (y 0).val; rw [e]; omega

theorem idx3 : ∀ t : Fin cfg0.N, win0_3.index t (0 : Fin 2) = 0 ∧ win0_3.index t (1 : Fin 2) = 0 :=
  (by decide +kernel : ∀ t : Fin grid0.N, _)

/-- Window 3 stages its array whole: its block at every point is the array. -/
theorem blk3 (c : Dev nD) (t : Fin cfg0.N) : (iblk m c 3 t : Vec Ideal S256x256 .bf16) = (V m c main_v14 : Vec Ideal S256x256 .bf16) := by
  have e := idx3 t
  funext y
  unfold iblk
  rw [View.read_apply]
  show V m c main_v14 _ = V m c main_v14 y
  congr 1
  funext a
  apply Fin.ext
  match a with
    | ⟨0, _⟩ => show win0_3.index t (0 : Fin 2) * 256 + 1 * (y 0).val = (y 0).val; rw [e.1]; omega
    | ⟨1, _⟩ => show win0_3.index t (1 : Fin 2) * 256 + 1 * (y 1).val = (y 1).val; rw [e.2]; omega

theorem idx4 : ∀ t : Fin cfg0.N, win0_4.index t (0 : Fin 1) = 0 :=
  (by decide +kernel : ∀ t : Fin grid0.N, _)

/-- Window 4 stages its array whole: its block at every point is the array. -/
theorem blk4 (c : Dev nD) (t : Fin cfg0.N) : (iblk m c 4 t : Vec Ideal S256 .f32) = (V m c main_arg4 : Vec Ideal S256 .f32) := by
  have e := idx4 t
  funext y
  unfold iblk
  rw [View.read_apply]
  show V m c main_arg4 _ = V m c main_arg4 y
  congr 1
  funext a
  apply Fin.ext
  match a with
    | ⟨0, _⟩ => show win0_4.index t (0 : Fin 1) * 256 + 1 * (y 0).val = (y 0).val; rw [e]; omega

theorem idx5 : ∀ t : Fin cfg0.N, win0_5.index t (0 : Fin 3) = 0 ∧ win0_5.index t (1 : Fin 3) = 0 ∧ win0_5.index t (2 : Fin 3) = 0 :=
  (by decide +kernel : ∀ t : Fin grid0.N, _)

/-- Window 5 stages its array whole: its block at every point is the array. -/
theorem blk5 (c : Dev nD) (t : Fin cfg0.N) : (iblk m c 5 t : Vec Ideal S7x1024x256 .bf16) = (V m c main_v3 : Vec Ideal S7x1024x256 .bf16) := by
  have e := idx5 t
  funext y
  unfold iblk
  rw [View.read_apply]
  show V m c main_v3 _ = V m c main_v3 y
  congr 1
  funext a
  apply Fin.ext
  match a with
    | ⟨0, _⟩ => show win0_5.index t (0 : Fin 3) * 7 + 1 * (y 0).val = (y 0).val; rw [e.1]; omega
    | ⟨1, _⟩ => show win0_5.index t (1 : Fin 3) * 1024 + 1 * (y 1).val = (y 1).val; rw [e.2.1]; omega
    | ⟨2, _⟩ => show win0_5.index t (2 : Fin 3) * 256 + 1 * (y 2).val = (y 2).val; rw [e.2.2]; omega

theorem idx6 : ∀ t : Fin cfg0.N, win0_6.index t (0 : Fin 1) = 0 :=
  (by decide +kernel : ∀ t : Fin grid0.N, _)

/-- Window 6 stages its array whole: its block at every point is the array. -/
theorem blk6 (c : Dev nD) (t : Fin cfg0.N) : (iblk m c 6 t : Vec Ideal S256 .f32) = (V m c main_arg6 : Vec Ideal S256 .f32) := by
  have e := idx6 t
  funext y
  unfold iblk
  rw [View.read_apply]
  show V m c main_arg6 _ = V m c main_arg6 y
  congr 1
  funext a
  apply Fin.ext
  match a with
    | ⟨0, _⟩ => show win0_6.index t (0 : Fin 1) * 256 + 1 * (y 0).val = (y 0).val; rw [e]; omega

theorem idx7 : ∀ t : Fin cfg0.N, win0_7.index t (0 : Fin 2) = 0 ∧ win0_7.index t (1 : Fin 2) = 0 :=
  (by decide +kernel : ∀ t : Fin grid0.N, _)

/-- Window 7 stages its array whole: its block at every point is the array. -/
theorem blk7 (c : Dev nD) (t : Fin cfg0.N) : (iblk m c 7 t : Vec Ideal S256x256 .bf16) = (V m c main_v15 : Vec Ideal S256x256 .bf16) := by
  have e := idx7 t
  funext y
  unfold iblk
  rw [View.read_apply]
  show V m c main_v15 _ = V m c main_v15 y
  congr 1
  funext a
  apply Fin.ext
  match a with
    | ⟨0, _⟩ => show win0_7.index t (0 : Fin 2) * 256 + 1 * (y 0).val = (y 0).val; rw [e.1]; omega
    | ⟨1, _⟩ => show win0_7.index t (1 : Fin 2) * 256 + 1 * (y 1).val = (y 1).val; rw [e.2]; omega

theorem idx8 : ∀ t : Fin cfg0.N, win0_8.index t (0 : Fin 1) = 0 :=
  (by decide +kernel : ∀ t : Fin grid0.N, _)

/-- Window 8 stages its array whole: its block at every point is the array. -/
theorem blk8 (c : Dev nD) (t : Fin cfg0.N) : (iblk m c 8 t : Vec Ideal S256 .f32) = (V m c main_arg8 : Vec Ideal S256 .f32) := by
  have e := idx8 t
  funext y
  unfold iblk
  rw [View.read_apply]
  show V m c main_arg8 _ = V m c main_arg8 y
  congr 1
  funext a
  apply Fin.ext
  match a with
    | ⟨0, _⟩ => show win0_8.index t (0 : Fin 1) * 256 + 1 * (y 0).val = (y 0).val; rw [e]; omega

theorem idx9 : ∀ t : Fin cfg0.N, win0_9.index t (0 : Fin 3) = 0 ∧ win0_9.index t (1 : Fin 3) = 0 ∧ win0_9.index t (2 : Fin 3) = 0 :=
  (by decide +kernel : ∀ t : Fin grid0.N, _)

/-- Window 9 stages its array whole: its block at every point is the array. -/
theorem blk9 (c : Dev nD) (t : Fin cfg0.N) : (iblk m c 9 t : Vec Ideal S6x1024x256 .bf16) = (V m c main_v5 : Vec Ideal S6x1024x256 .bf16) := by
  have e := idx9 t
  funext y
  unfold iblk
  rw [View.read_apply]
  show V m c main_v5 _ = V m c main_v5 y
  congr 1
  funext a
  apply Fin.ext
  match a with
    | ⟨0, _⟩ => show win0_9.index t (0 : Fin 3) * 6 + 1 * (y 0).val = (y 0).val; rw [e.1]; omega
    | ⟨1, _⟩ => show win0_9.index t (1 : Fin 3) * 1024 + 1 * (y 1).val = (y 1).val; rw [e.2.1]; omega
    | ⟨2, _⟩ => show win0_9.index t (2 : Fin 3) * 256 + 1 * (y 2).val = (y 2).val; rw [e.2.2]; omega

theorem idx10 : ∀ t : Fin cfg0.N, win0_10.index t (0 : Fin 1) = 0 :=
  (by decide +kernel : ∀ t : Fin grid0.N, _)

/-- Window 10 stages its array whole: its block at every point is the array. -/
theorem blk10 (c : Dev nD) (t : Fin cfg0.N) : (iblk m c 10 t : Vec Ideal S256 .f32) = (V m c main_arg10 : Vec Ideal S256 .f32) := by
  have e := idx10 t
  funext y
  unfold iblk
  rw [View.read_apply]
  show V m c main_arg10 _ = V m c main_arg10 y
  congr 1
  funext a
  apply Fin.ext
  match a with
    | ⟨0, _⟩ => show win0_10.index t (0 : Fin 1) * 256 + 1 * (y 0).val = (y 0).val; rw [e]; omega

end Cert.KernelIdeal.Array

end
-- ==== Proof.KerArray2.lean ====
/-
  Windows 11 to 20 of the kernel stage their arrays whole: the block at every grid point is the array.
-/
import proofs.«106977_j18717467476122_2_alg».proof.Proof.FrameIdeal
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Array

open Cert.KernelIdeal Cert.KernelIdeal.Gen Cert.KernelIdeal.GenP

variable (m : (ℓ : Loc nD τ sig) → Buf (Elt Ideal) ℓ)

theorem idx11 : ∀ t : Fin cfg0.N, win0_11.index t (0 : Fin 2) = 0 ∧ win0_11.index t (1 : Fin 2) = 0 :=
  (by decide +kernel : ∀ t : Fin grid0.N, _)

/-- Window 11 stages its array whole: its block at every point is the array. -/
theorem blk11 (c : Dev nD) (t : Fin cfg0.N) : (iblk m c 11 t : Vec Ideal S256x256 .bf16) = (V m c main_v16 : Vec Ideal S256x256 .bf16) := by
  have e := idx11 t
  funext y
  unfold iblk
  rw [View.read_apply]
  show V m c main_v16 _ = V m c main_v16 y
  congr 1
  funext a
  apply Fin.ext
  match a with
    | ⟨0, _⟩ => show win0_11.index t (0 : Fin 2) * 256 + 1 * (y 0).val = (y 0).val; rw [e.1]; omega
    | ⟨1, _⟩ => show win0_11.index t (1 : Fin 2) * 256 + 1 * (y 1).val = (y 1).val; rw [e.2]; omega

theorem idx12 : ∀ t : Fin cfg0.N, win0_12.index t (0 : Fin 1) = 0 :=
  (by decide +kernel : ∀ t : Fin grid0.N, _)

/-- Window 12 stages its array whole: its block at every point is the array. -/
theorem blk12 (c : Dev nD) (t : Fin cfg0.N) : (iblk m c 12 t : Vec Ideal S256 .f32) = (V m c main_arg12 : Vec Ideal S256 .f32) := by
  have e := idx12 t
  funext y
  unfold iblk
  rw [View.read_apply]
  show V m c main_arg12 _ = V m c main_arg12 y
  congr 1
  funext a
  apply Fin.ext
  match a with
    | ⟨0, _⟩ => show win0_12.index t (0 : Fin 1) * 256 + 1 * (y 0).val = (y 0).val; rw [e]; omega

theorem idx13 : ∀ t : Fin cfg0.N, win0_13.index t (0 : Fin 3) = 0 ∧ win0_13.index t (1 : Fin 3) = 0 ∧ win0_13.index t (2 : Fin 3) = 0 :=
  (by decide +kernel : ∀ t : Fin grid0.N, _)

/-- Window 13 stages its array whole: its block at every point is the array. -/
theorem blk13 (c : Dev nD) (t : Fin cfg0.N) : (iblk m c 13 t : Vec Ideal S5x1024x256 .bf16) = (V m c main_v7 : Vec Ideal S5x1024x256 .bf16) := by
  have e := idx13 t
  funext y
  unfold iblk
  rw [View.read_apply]
  show V m c main_v7 _ = V m c main_v7 y
  congr 1
  funext a
  apply Fin.ext
  match a with
    | ⟨0, _⟩ => show win0_13.index t (0 : Fin 3) * 5 + 1 * (y 0).val = (y 0).val; rw [e.1]; omega
    | ⟨1, _⟩ => show win0_13.index t (1 : Fin 3) * 1024 + 1 * (y 1).val = (y 1).val; rw [e.2.1]; omega
    | ⟨2, _⟩ => show win0_13.index t (2 : Fin 3) * 256 + 1 * (y 2).val = (y 2).val; rw [e.2.2]; omega

theorem idx14 : ∀ t : Fin cfg0.N, win0_14.index t (0 : Fin 1) = 0 :=
  (by decide +kernel : ∀ t : Fin grid0.N, _)

/-- Window 14 stages its array whole: its block at every point is the array. -/
theorem blk14 (c : Dev nD) (t : Fin cfg0.N) : (iblk m c 14 t : Vec Ideal S256 .f32) = (V m c main_arg14 : Vec Ideal S256 .f32) := by
  have e := idx14 t
  funext y
  unfold iblk
  rw [View.read_apply]
  show V m c main_arg14 _ = V m c main_arg14 y
  congr 1
  funext a
  apply Fin.ext
  match a with
    | ⟨0, _⟩ => show win0_14.index t (0 : Fin 1) * 256 + 1 * (y 0).val = (y 0).val; rw [e]; omega

theorem idx15 : ∀ t : Fin cfg0.N, win0_15.index t (0 : Fin 2) = 0 ∧ win0_15.index t (1 : Fin 2) = 0 :=
  (by decide +kernel : ∀ t : Fin grid0.N, _)

/-- Window 15 stages its array whole: its block at every point is the array. -/
theorem blk15 (c : Dev nD) (t : Fin cfg0.N) : (iblk m c 15 t : Vec Ideal S256x256 .bf16) = (V m c main_v17 : Vec Ideal S256x256 .bf16) := by
  have e := idx15 t
  funext y
  unfold iblk
  rw [View.read_apply]
  show V m c main_v17 _ = V m c main_v17 y
  congr 1
  funext a
  apply Fin.ext
  match a with
    | ⟨0, _⟩ => show win0_15.index t (0 : Fin 2) * 256 + 1 * (y 0).val = (y 0).val; rw [e.1]; omega
    | ⟨1, _⟩ => show win0_15.index t (1 : Fin 2) * 256 + 1 * (y 1).val = (y 1).val; rw [e.2]; omega

theorem idx16 : ∀ t : Fin cfg0.N, win0_16.index t (0 : Fin 1) = 0 :=
  (by decide +kernel : ∀ t : Fin grid0.N, _)

/-- Window 16 stages its array whole: its block at every point is the array. -/
theorem blk16 (c : Dev nD) (t : Fin cfg0.N) : (iblk m c 16 t : Vec Ideal S256 .f32) = (V m c main_arg16 : Vec Ideal S256 .f32) := by
  have e := idx16 t
  funext y
  unfold iblk
  rw [View.read_apply]
  show V m c main_arg16 _ = V m c main_arg16 y
  congr 1
  funext a
  apply Fin.ext
  match a with
    | ⟨0, _⟩ => show win0_16.index t (0 : Fin 1) * 256 + 1 * (y 0).val = (y 0).val; rw [e]; omega

theorem idx17 : ∀ t : Fin cfg0.N, win0_17.index t (0 : Fin 3) = 0 ∧ win0_17.index t (1 : Fin 3) = 0 ∧ win0_17.index t (2 : Fin 3) = 0 :=
  (by decide +kernel : ∀ t : Fin grid0.N, _)

/-- Window 17 stages its array whole: its block at every point is the array. -/
theorem blk17 (c : Dev nD) (t : Fin cfg0.N) : (iblk m c 17 t : Vec Ideal S4x1024x256 .bf16) = (V m c main_v9 : Vec Ideal S4x1024x256 .bf16) := by
  have e := idx17 t
  funext y
  unfold iblk
  rw [View.read_apply]
  show V m c main_v9 _ = V m c main_v9 y
  congr 1
  funext a
  apply Fin.ext
  match a with
    | ⟨0, _⟩ => show win0_17.index t (0 : Fin 3) * 4 + 1 * (y 0).val = (y 0).val; rw [e.1]; omega
    | ⟨1, _⟩ => show win0_17.index t (1 : Fin 3) * 1024 + 1 * (y 1).val = (y 1).val; rw [e.2.1]; omega
    | ⟨2, _⟩ => show win0_17.index t (2 : Fin 3) * 256 + 1 * (y 2).val = (y 2).val; rw [e.2.2]; omega

theorem idx18 : ∀ t : Fin cfg0.N, win0_18.index t (0 : Fin 1) = 0 :=
  (by decide +kernel : ∀ t : Fin grid0.N, _)

/-- Window 18 stages its array whole: its block at every point is the array. -/
theorem blk18 (c : Dev nD) (t : Fin cfg0.N) : (iblk m c 18 t : Vec Ideal S256 .f32) = (V m c main_arg18 : Vec Ideal S256 .f32) := by
  have e := idx18 t
  funext y
  unfold iblk
  rw [View.read_apply]
  show V m c main_arg18 _ = V m c main_arg18 y
  congr 1
  funext a
  apply Fin.ext
  match a with
    | ⟨0, _⟩ => show win0_18.index t (0 : Fin 1) * 256 + 1 * (y 0).val = (y 0).val; rw [e]; omega

theorem idx19 : ∀ t : Fin cfg0.N, win0_19.index t (0 : Fin 2) = 0 ∧ win0_19.index t (1 : Fin 2) = 0 :=
  (by decide +kernel : ∀ t : Fin grid0.N, _)

/-- Window 19 stages its array whole: its block at every point is the array. -/
theorem blk19 (c : Dev nD) (t : Fin cfg0.N) : (iblk m c 19 t : Vec Ideal S256x256 .bf16) = (V m c main_v18 : Vec Ideal S256x256 .bf16) := by
  have e := idx19 t
  funext y
  unfold iblk
  rw [View.read_apply]
  show V m c main_v18 _ = V m c main_v18 y
  congr 1
  funext a
  apply Fin.ext
  match a with
    | ⟨0, _⟩ => show win0_19.index t (0 : Fin 2) * 256 + 1 * (y 0).val = (y 0).val; rw [e.1]; omega
    | ⟨1, _⟩ => show win0_19.index t (1 : Fin 2) * 256 + 1 * (y 1).val = (y 1).val; rw [e.2]; omega

theorem idx20 : ∀ t : Fin cfg0.N, win0_20.index t (0 : Fin 1) = 0 :=
  (by decide +kernel : ∀ t : Fin grid0.N, _)

/-- Window 20 stages its array whole: its block at every point is the array. -/
theorem blk20 (c : Dev nD) (t : Fin cfg0.N) : (iblk m c 20 t : Vec Ideal S256 .f32) = (V m c main_arg20 : Vec Ideal S256 .f32) := by
  have e := idx20 t
  funext y
  unfold iblk
  rw [View.read_apply]
  show V m c main_arg20 _ = V m c main_arg20 y
  congr 1
  funext a
  apply Fin.ext
  match a with
    | ⟨0, _⟩ => show win0_20.index t (0 : Fin 1) * 256 + 1 * (y 0).val = (y 0).val; rw [e]; omega

end Cert.KernelIdeal.Array

end
-- ==== Proof.KerArray3.lean ====
/-
  Windows 21 to 30 of the kernel stage their arrays whole: the block at every grid point is the array.
-/
import proofs.«106977_j18717467476122_2_alg».proof.Proof.FrameIdeal
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Array

open Cert.KernelIdeal Cert.KernelIdeal.Gen Cert.KernelIdeal.GenP

variable (m : (ℓ : Loc nD τ sig) → Buf (Elt Ideal) ℓ)

theorem idx21 : ∀ t : Fin cfg0.N, win0_21.index t (0 : Fin 3) = 0 ∧ win0_21.index t (1 : Fin 3) = 0 ∧ win0_21.index t (2 : Fin 3) = 0 :=
  (by decide +kernel : ∀ t : Fin grid0.N, _)

/-- Window 21 stages its array whole: its block at every point is the array. -/
theorem blk21 (c : Dev nD) (t : Fin cfg0.N) : (iblk m c 21 t : Vec Ideal S3x1024x256 .bf16) = (V m c main_v11 : Vec Ideal S3x1024x256 .bf16) := by
  have e := idx21 t
  funext y
  unfold iblk
  rw [View.read_apply]
  show V m c main_v11 _ = V m c main_v11 y
  congr 1
  funext a
  apply Fin.ext
  match a with
    | ⟨0, _⟩ => show win0_21.index t (0 : Fin 3) * 3 + 1 * (y 0).val = (y 0).val; rw [e.1]; omega
    | ⟨1, _⟩ => show win0_21.index t (1 : Fin 3) * 1024 + 1 * (y 1).val = (y 1).val; rw [e.2.1]; omega
    | ⟨2, _⟩ => show win0_21.index t (2 : Fin 3) * 256 + 1 * (y 2).val = (y 2).val; rw [e.2.2]; omega

theorem idx22 : ∀ t : Fin cfg0.N, win0_22.index t (0 : Fin 1) = 0 :=
  (by decide +kernel : ∀ t : Fin grid0.N, _)

/-- Window 22 stages its array whole: its block at every point is the array. -/
theorem blk22 (c : Dev nD) (t : Fin cfg0.N) : (iblk m c 22 t : Vec Ideal S256 .f32) = (V m c main_arg22 : Vec Ideal S256 .f32) := by
  have e := idx22 t
  funext y
  unfold iblk
  rw [View.read_apply]
  show V m c main_arg22 _ = V m c main_arg22 y
  congr 1
  funext a
  apply Fin.ext
  match a with
    | ⟨0, _⟩ => show win0_22.index t (0 : Fin 1) * 256 + 1 * (y 0).val = (y 0).val; rw [e]; omega

theorem idx23 : ∀ t : Fin cfg0.N, win0_23.index t (0 : Fin 2) = 0 ∧ win0_23.index t (1 : Fin 2) = 0 :=
  (by decide +kernel : ∀ t : Fin grid0.N, _)

/-- Window 23 stages its array whole: its block at every point is the array. -/
theorem blk23 (c : Dev nD) (t : Fin cfg0.N) : (iblk m c 23 t : Vec Ideal S256x256 .bf16) = (V m c main_v19 : Vec Ideal S256x256 .bf16) := by
  have e := idx23 t
  funext y
  unfold iblk
  rw [View.read_apply]
  show V m c main_v19 _ = V m c main_v19 y
  congr 1
  funext a
  apply Fin.ext
  match a with
    | ⟨0, _⟩ => show win0_23.index t (0 : Fin 2) * 256 + 1 * (y 0).val = (y 0).val; rw [e.1]; omega
    | ⟨1, _⟩ => show win0_23.index t (1 : Fin 2) * 256 + 1 * (y 1).val = (y 1).val; rw [e.2]; omega

theorem idx24 : ∀ t : Fin cfg0.N, win0_24.index t (0 : Fin 1) = 0 :=
  (by decide +kernel : ∀ t : Fin grid0.N, _)

/-- Window 24 stages its array whole: its block at every point is the array. -/
theorem blk24 (c : Dev nD) (t : Fin cfg0.N) : (iblk m c 24 t : Vec Ideal S256 .f32) = (V m c main_arg24 : Vec Ideal S256 .f32) := by
  have e := idx24 t
  funext y
  unfold iblk
  rw [View.read_apply]
  show V m c main_arg24 _ = V m c main_arg24 y
  congr 1
  funext a
  apply Fin.ext
  match a with
    | ⟨0, _⟩ => show win0_24.index t (0 : Fin 1) * 256 + 1 * (y 0).val = (y 0).val; rw [e]; omega

theorem idx25 : ∀ t : Fin cfg0.N, win0_25.index t (0 : Fin 3) = 0 ∧ win0_25.index t (1 : Fin 3) = 0 ∧ win0_25.index t (2 : Fin 3) = 0 :=
  (by decide +kernel : ∀ t : Fin grid0.N, _)

/-- Window 25 stages its array whole: its block at every point is the array. -/
theorem blk25 (c : Dev nD) (t : Fin cfg0.N) : (iblk m c 25 t : Vec Ideal S2x1024x256 .bf16) = (V m c main_v13 : Vec Ideal S2x1024x256 .bf16) := by
  have e := idx25 t
  funext y
  unfold iblk
  rw [View.read_apply]
  show V m c main_v13 _ = V m c main_v13 y
  congr 1
  funext a
  apply Fin.ext
  match a with
    | ⟨0, _⟩ => show win0_25.index t (0 : Fin 3) * 2 + 1 * (y 0).val = (y 0).val; rw [e.1]; omega
    | ⟨1, _⟩ => show win0_25.index t (1 : Fin 3) * 1024 + 1 * (y 1).val = (y 1).val; rw [e.2.1]; omega
    | ⟨2, _⟩ => show win0_25.index t (2 : Fin 3) * 256 + 1 * (y 2).val = (y 2).val; rw [e.2.2]; omega

theorem idx26 : ∀ t : Fin cfg0.N, win0_26.index t (0 : Fin 1) = 0 :=
  (by decide +kernel : ∀ t : Fin grid0.N, _)

/-- Window 26 stages its array whole: its block at every point is the array. -/
theorem blk26 (c : Dev nD) (t : Fin cfg0.N) : (iblk m c 26 t : Vec Ideal S256 .f32) = (V m c main_arg26 : Vec Ideal S256 .f32) := by
  have e := idx26 t
  funext y
  unfold iblk
  rw [View.read_apply]
  show V m c main_arg26 _ = V m c main_arg26 y
  congr 1
  funext a
  apply Fin.ext
  match a with
    | ⟨0, _⟩ => show win0_26.index t (0 : Fin 1) * 256 + 1 * (y 0).val = (y 0).val; rw [e]; omega

theorem idx27 : ∀ t : Fin cfg0.N, win0_27.index t (0 : Fin 2) = 0 ∧ win0_27.index t (1 : Fin 2) = 0 :=
  (by decide +kernel : ∀ t : Fin grid0.N, _)

/-- Window 27 stages its array whole: its block at every point is the array. -/
theorem blk27 (c : Dev nD) (t : Fin cfg0.N) : (iblk m c 27 t : Vec Ideal S256x256 .bf16) = (V m c main_v20 : Vec Ideal S256x256 .bf16) := by
  have e := idx27 t
  funext y
  unfold iblk
  rw [View.read_apply]
  show V m c main_v20 _ = V m c main_v20 y
  congr 1
  funext a
  apply Fin.ext
  match a with
    | ⟨0, _⟩ => show win0_27.index t (0 : Fin 2) * 256 + 1 * (y 0).val = (y 0).val; rw [e.1]; omega
    | ⟨1, _⟩ => show win0_27.index t (1 : Fin 2) * 256 + 1 * (y 1).val = (y 1).val; rw [e.2]; omega

theorem idx28 : ∀ t : Fin cfg0.N, win0_28.index t (0 : Fin 1) = 0 :=
  (by decide +kernel : ∀ t : Fin grid0.N, _)

/-- Window 28 stages its array whole: its block at every point is the array. -/
theorem blk28 (c : Dev nD) (t : Fin cfg0.N) : (iblk m c 28 t : Vec Ideal S256 .f32) = (V m c main_arg28 : Vec Ideal S256 .f32) := by
  have e := idx28 t
  funext y
  unfold iblk
  rw [View.read_apply]
  show V m c main_arg28 _ = V m c main_arg28 y
  congr 1
  funext a
  apply Fin.ext
  match a with
    | ⟨0, _⟩ => show win0_28.index t (0 : Fin 1) * 256 + 1 * (y 0).val = (y 0).val; rw [e]; omega

theorem idx29 : ∀ t : Fin cfg0.N, win0_29.index t (0 : Fin 2) = 0 ∧ win0_29.index t (1 : Fin 2) = 0 :=
  (by decide +kernel : ∀ t : Fin grid0.N, _)

/-- Window 29 stages its array whole: its block at every point is the array. -/
theorem blk29 (c : Dev nD) (t : Fin cfg0.N) : (iblk m c 29 t : Vec Ideal S256x512 .bf16) = (V m c main_v24 : Vec Ideal S256x512 .bf16) := by
  have e := idx29 t
  funext y
  unfold iblk
  rw [View.read_apply]
  show V m c main_v24 _ = V m c main_v24 y
  congr 1
  funext a
  apply Fin.ext
  match a with
    | ⟨0, _⟩ => show win0_29.index t (0 : Fin 2) * 256 + 1 * (y 0).val = (y 0).val; rw [e.1]; omega
    | ⟨1, _⟩ => show win0_29.index t (1 : Fin 2) * 512 + 1 * (y 1).val = (y 1).val; rw [e.2]; omega

theorem idx30 : ∀ t : Fin cfg0.N, win0_30.index t (0 : Fin 1) = 0 :=
  (by decide +kernel : ∀ t : Fin grid0.N, _)

/-- Window 30 stages its array whole: its block at every point is the array. -/
theorem blk30 (c : Dev nD) (t : Fin cfg0.N) : (iblk m c 30 t : Vec Ideal S512 .f32) = (V m c main_v27 : Vec Ideal S512 .f32) := by
  have e := idx30 t
  funext y
  unfold iblk
  rw [View.read_apply]
  show V m c main_v27 _ = V m c main_v27 y
  congr 1
  funext a
  apply Fin.ext
  match a with
    | ⟨0, _⟩ => show win0_30.index t (0 : Fin 1) * 512 + 1 * (y 0).val = (y 0).val; rw [e]; omega

end Cert.KernelIdeal.Array

end
-- ==== Proof.KerArray.lean ====
/-
  From the kernel's blocks to its output array. The grid has 32 points; point t reads batch rows 128 t … 128 t + 127 of the
  input array and every weight and bias array whole, and writes rows 128 t … 128 t + 127 of the [4096, 512] output array.
  Since each block entry is the specification's last layer of its own row, the array the region leaves is, entry by entry,
  that layer of the row of the input array — one function of the arrays as the region finds them.
-/
import proofs.«106977_j18717467476122_2_alg».proof.Proof.FrameIdeal
import proofs.«106977_j18717467476122_2_alg».proof.Proof.KerBody
import proofs.«106977_j18717467476122_2_alg».proof.Proof.Spec
import proofs.«106977_j18717467476122_2_alg».proof.Proof.KerArray1
import proofs.«106977_j18717467476122_2_alg».proof.Proof.KerArray2
import proofs.«106977_j18717467476122_2_alg».proof.Proof.KerArray3
import Idealize.ShloMosaic.Lib.Pipeline.Value
import Idealize.ShloMosaic.Lib.ValueIdx

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Array

open Cert.KernelIdeal Cert.KernelIdeal.Gen Cert.KernelIdeal.GenP

variable (m : (ℓ : Loc nD τ sig) → Buf (Elt Ideal) ℓ)

/-! ## The array the region leaves -/

/-- Entry (r, q) of the output array: the specification's last layer (512 columns) of batch row r of the input array, the
    perceptrons' parameters and the last layer's read off the weight and bias arrays as the region finds them. -/
def padded (c : Dev nD) : S4096x512.Idx → EReal := fun i =>
  Cert.Relations.logits (Cert.Relations.rowOf (V m c main_arg0) (i 0))
    { P0 := Body.blkMlp (s := 8) (V m c main_v1) (V m c main_arg2) (V m c main_v14) (V m c main_arg4),
      P1 := Body.blkMlp (s := 7) (V m c main_v3) (V m c main_arg6) (V m c main_v15) (V m c main_arg8),
      P2 := Body.blkMlp (s := 6) (V m c main_v5) (V m c main_arg10) (V m c main_v16) (V m c main_arg12),
      P3 := Body.blkMlp (s := 5) (V m c main_v7) (V m c main_arg14) (V m c main_v17) (V m c main_arg16),
      P4 := Body.blkMlp (s := 4) (V m c main_v9) (V m c main_arg18) (V m c main_v18) (V m c main_arg20),
      P5 := Body.blkMlp (s := 3) (V m c main_v11) (V m c main_arg22) (V m c main_v19) (V m c main_arg24),
      P6 := Body.blkMlp (s := 2) (V m c main_v13) (V m c main_arg26) (V m c main_v20) (V m c main_arg28) }
    (fun k q => (V m c main_v24 : Vec Ideal S256x512 .bf16) (ix2 k q)) (fun q => (V m c main_v27 : Vec Ideal S512 .f32) (ix1 q)) (i 1)

/-- What point t writes back is block t of that array. -/
theorem flushed_eq (c : Dev nD) (t : Fin cfg0.N) :
    (dats m 0 c).flushed 31 t = ((cfg0.win 31).blk t).view.read (Elt Ideal) (padded m c) := by
  show (cfg0.win 31).cut (grid0.coords t) ((dats m 0 c).after 31 t) = _
  rw [after0_31]
  funext j
  obtain ⟨p, q, rfl⟩ : ∃ (p : Fin 128) (q : Fin 512), j = (ix2 p q : S128x512.Idx) := ⟨j 0, j 1, eq_ix2 j⟩
  rw [View.read_apply, emb31]
  refine (Body.out_apply (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) p q).trans ?_
  have h0 : (fun f d => (iblk m c 0 t : Vec Ideal S128x8x1024 .f32) (ix3 p f d))
      = Cert.Relations.rowOf (V m c main_arg0) ⟨t.val * 128 + p.val, row_lt t p⟩ :=
    funext fun f => funext fun d => blk0_apply m c t p f d
  rw [h0, blk1 m c t, blk2 m c t, blk3 m c t, blk4 m c t, blk5 m c t, blk6 m c t, blk7 m c t, blk8 m c t, blk9 m c t, blk10 m c t, blk11 m c t, blk12 m c t, blk13 m c t, blk14 m c t, blk15 m c t, blk16 m c t, blk17 m c t, blk18 m c t, blk19 m c t, blk20 m c t, blk21 m c t, blk22 m c t, blk23 m c t, blk24 m c t, blk25 m c t, blk26 m c t, blk27 m c t, blk28 m c t, blk29 m c t, blk30 m c t]
  rfl

/-- The output array after the region. -/
theorem final (c : Dev nD) : (dats m 0 c).arrAt 31 cfg0.N = padded m c :=
  (dats m 0 c).arrAt_eq_of_cover 31 (padded m c) (fun t _ => flushed_eq m c t) cover

end Cert.KernelIdeal.Array

end
-- ==== Proof.LibScatter.lean ====
/-
  The host scatter read at an index.

  "stablehlo.scatter" with one operand is a left fold over the update's indices in row-major order: each step replaces the
  result's element at that update index's result index by the body applied to the element there and the update's element, and
  leaves every other element alone.  When exactly one update index lands at a given operand index, the result there is the body
  applied to the OPERAND's element and that update's element: the steps before it and after it do not touch that index.

  The result index of an update index is "start plus window coordinate" on every axis.  For a whole update written at the
  start index 0 (a rank-2 update [R, C] into an operand [R, C'] with C ≤ C', the start index naming the column axis; a rank-1
  update [C] into an operand [C']), the result index of an update index is that index itself, so at an index inside the
  window the result is the body applied to the operand's and the update's elements at that index.
-/
import Idealize.ShloMosaic.PureOps.ShapeOps
import Idealize.ShloMosaic.Lib.ValueIdx

namespace Idealize.ShloMosaic.ScatterRead

open Idealize.ShloMosaic Idealize.ShloMosaic.ValueIdx

/-! ## The fold -/

section Fold
variable {N : ℕ} {ι α : Type}

/-- A fold leaves alone an index none of its steps changes. -/
theorem foldl_untouched (step : (ι → α) → Fin N → ι → α) (l : List (Fin N)) (x : ι → α) (i : ι)
    (h : ∀ n ∈ l, ∀ r, step r n i = r i) : l.foldl step x i = x i := by
  induction l generalizing x with
  | nil => rfl
  | cons n l ih =>
    rw [List.foldl_cons, ih _ (fun m hm => h m (List.mem_cons_of_mem _ hm)), h n List.mem_cons_self]

/-- A fold over a list without repeats, at an index exactly one step changes (the step `n₀`, from `a` to `F a`): `F` of the
    starting element there. -/
theorem foldl_hit (step : (ι → α) → Fin N → ι → α) (F : α → α) (l : List (Fin N)) (x : ι → α) (i : ι) (n₀ : Fin N)
    (hl : l.Nodup) (hmem : n₀ ∈ l) (h₀ : ∀ r, step r n₀ i = F (r i)) (hmiss : ∀ n ∈ l, n ≠ n₀ → ∀ r, step r n i = r i) :
    l.foldl step x i = F (x i) := by
  induction l generalizing x with
  | nil => exact absurd hmem List.not_mem_nil
  | cons n l ih =>
    rw [List.foldl_cons]
    have hnd := List.nodup_cons.mp hl
    by_cases hn : n = n₀
    · subst hn
      rw [foldl_untouched step l _ i (fun m hm => hmiss m (List.mem_cons_of_mem _ hm) (fun e => hnd.1 (e ▸ hm))), h₀]
    · have hmem' : n₀ ∈ l := (List.mem_cons.mp hmem).resolve_left (fun e => hn e.symm)
      rw [ih _ hnd.2 hmem' (fun m hm => hmiss m (List.mem_cons_of_mem _ hm)), hmiss n List.mem_cons_self hn]

end Fold

/-! ## The scatter at an index one update index lands at -/

section Scatter
variable {s si u : Shape} {α : Type} {w : ℕ}

/-- The scatter at an operand index `i` that exactly one update index `j` lands at: the body applied to the operand's element
    at `i` and the update's element at `j`. -/
theorem scatter_apply_of_unique (d : ScatterDims s si u) (f : α → α → α) (x : s.Idx → α) (idx : IVec si w) (upd : u.Idx → α)
    (j : u.Idx) (i : s.Idx) (hj : d.resultIdx? j idx = some i) (huniq : ∀ j', d.resultIdx? j' idx = some i → j' = j) :
    Host.scatter d f x idx upd i = f (x i) (upd j) := by
  unfold Host.scatter
  refine (foldl_hit _ (fun a => f a (upd j)) (List.finRange u.numel) x i (u.rowMajor j) (List.nodup_finRange _)
    (List.mem_finRange _) ?_ ?_)
  · intro r
    show (match d.resultIdx? (u.rowMajor.symm (u.rowMajor j)) idx with
      | some k => fun i' => if i' = k then f (r k) (upd (u.rowMajor.symm (u.rowMajor j))) else r i'
      | none => r) i = _
    rw [Equiv.symm_apply_apply, hj]
    exact if_pos rfl
  · intro n _ hn r
    show (match d.resultIdx? (u.rowMajor.symm n) idx with
      | some k => fun i' => if i' = k then f (r k) (upd (u.rowMajor.symm n)) else r i'
      | none => r) i = _
    cases hk : d.resultIdx? (u.rowMajor.symm n) idx with
    | none => rfl
    | some k =>
      refine if_neg (fun e => hn ?_)
      have := huniq _ (by rw [hk, e])
      rw [← this, Equiv.apply_symm_apply]

/-- An update index lands at `i` exactly when start plus window coordinate is the coordinate of `i` on every axis. -/
theorem resultIdx?_eq_some_iff (d : ScatterDims s si u) (j : u.Idx) (idx : IVec si w) (i : s.Idx) :
    d.resultIdx? j idx = some i ↔ ∀ a, d.start j idx a + (d.window j a : Int) = ((i a).val : Int) := by
  unfold ScatterDims.resultIdx?
  split_ifs with h
  · constructor
    · intro e a
      have := congrFun (Option.some.inj e) a
      rw [← this]
      have := (h a).1
      simp only [Int.toNat_of_nonneg this]
    · intro e
      congr 1
      funext a
      refine Fin.ext ?_
      show (d.start j idx a + (d.window j a : Int)).toNat = (i a).val
      rw [e a]; rfl
  · constructor
    · intro e; exact absurd e (by simp)
    · intro e
      exfalso
      refine h (fun a => ?_)
      have := (i a).isLt
      rw [e a]
      constructor <;> omega

end Scatter

/-! ## A whole update written at start index 0 -/

section Whole
variable {α : Type} {w : ℕ}

/-- The dimension numbers of a rank-2 update [R, C] written into an operand [R, C'] at ONE start index that names the column
    axis: both update axes are window axes, no operand axis is inserted; their conditions `wf` are decided on a program's literal
    shapes. -/
abbrev colsDims (R C C' : ℕ) (wf : ScatterDims.WF ⟨2, ![R, C']⟩ ⟨1, ![1]⟩ ⟨2, ![R, C]⟩ [0, 1] [] [1] 0) :
    ScatterDims ⟨2, ![R, C']⟩ ⟨1, ![1]⟩ ⟨2, ![R, C]⟩ where
  updateWindowDims := [0, 1]
  insertedWindowDims := []
  scatterDimsToOperandDims := [1]
  indexVectorDim := 0
  wf := wf

/-- The dimension numbers of a rank-1 update [C] written into an operand [C'] at ONE start index. -/
abbrev vecDims (C C' : ℕ) (wf : ScatterDims.WF ⟨1, ![C']⟩ ⟨1, ![1]⟩ ⟨1, ![C]⟩ [0] [] [0] 0) :
    ScatterDims ⟨1, ![C']⟩ ⟨1, ![1]⟩ ⟨1, ![C]⟩ where
  updateWindowDims := [0]
  insertedWindowDims := []
  scatterDimsToOperandDims := [0]
  indexVectorDim := 0
  wf := wf

theorem start_eq_zero {s si u : Shape} (d : ScatterDims s si u) (j : u.Idx) (idx : IVec si w) (h0 : ∀ k, (idx k).toInt = 0)
    (a : Fin s.rank) : d.start j idx a = 0 := by
  unfold ScatterDims.start
  split_ifs
  · exact h0 _
  · rfl

theorem colsDims_window {R C C' : ℕ} (wf : ScatterDims.WF ⟨2, ![R, C']⟩ ⟨1, ![1]⟩ ⟨2, ![R, C]⟩ [0, 1] [] [1] 0)
    (j : (⟨2, ![R, C]⟩ : Shape).Idx) : (colsDims R C C' wf).window j 0 = (j 0).val ∧ (colsDims R C C' wf).window j 1 = (j 1).val :=
  ⟨rfl, rfl⟩

theorem vecDims_window {C C' : ℕ} (wf : ScatterDims.WF ⟨1, ![C']⟩ ⟨1, ![1]⟩ ⟨1, ![C]⟩ [0] [] [0] 0)
    (j : (⟨1, ![C]⟩ : Shape).Idx) : (vecDims C C' wf).window j 0 = (j 0).val := rfl

/-- THE RANK-2 SCATTER INSIDE THE WINDOW: a whole update [R, C] written at column start 0 of an operand [R, C'], `C ≤ C'`,
    read at row `r` and a column `c` below `C`: the body applied to the operand's element there and the update's element at
    `(r, c)`. -/
theorem scatter_cols_apply {R C C' : ℕ} (hC : C ≤ C')
    (wf : ScatterDims.WF ⟨2, ![R, C']⟩ ⟨1, ![1]⟩ ⟨2, ![R, C]⟩ [0, 1] [] [1] 0) (f : α → α → α)
    (x : (⟨2, ![R, C']⟩ : Shape).Idx → α) (idx : IVec ⟨1, ![1]⟩ w) (h0 : ∀ k, (idx k).toInt = 0)
    (upd : (⟨2, ![R, C]⟩ : Shape).Idx → α) (r : Fin R) (c : Fin C) :
    Host.scatter (colsDims R C C' wf) f x idx upd (ix2 r ⟨c.val, lt_of_lt_of_le c.isLt hC⟩)
      = f (x (ix2 r ⟨c.val, lt_of_lt_of_le c.isLt hC⟩)) (upd (ix2 r c)) := by
  refine scatter_apply_of_unique _ f x idx upd (ix2 r c) _ ?_ ?_
  · rw [resultIdx?_eq_some_iff]
    intro a
    rw [start_eq_zero _ _ _ h0]
    match a with
    | ⟨0, _⟩ => rw [show (⟨0, _⟩ : Fin 2) = 0 from rfl, (colsDims_window wf _).1, zero_add]; rfl
    | ⟨1, _⟩ => rw [show (⟨1, _⟩ : Fin 2) = 1 from rfl, (colsDims_window wf _).2, zero_add]; rfl
  · intro j' e
    rw [resultIdx?_eq_some_iff] at e
    have e0 := e 0
    have e1 := e 1
    rw [start_eq_zero _ _ _ h0, (colsDims_window wf _).1, zero_add] at e0
    rw [start_eq_zero _ _ _ h0, (colsDims_window wf _).2, zero_add] at e1
    have h0' : j' 0 = r := Fin.ext (by
      have : ((j' 0).val : Int) = (r.val : Int) := e0
      exact_mod_cast this)
    have h1' : j' 1 = c := Fin.ext (by
      have : ((j' 1).val : Int) = (c.val : Int) := e1
      exact_mod_cast this)
    exact (eq_ix2 j').trans (congrArg₂ ix2 h0' h1')

/-- THE RANK-1 SCATTER INSIDE THE WINDOW: a whole update [C] written at start 0 of an operand [C'], `C ≤ C'`, read at an index
    `c` below `C`. -/
theorem scatter_vec_apply {C C' : ℕ} (hC : C ≤ C')
    (wf : ScatterDims.WF ⟨1, ![C']⟩ ⟨1, ![1]⟩ ⟨1, ![C]⟩ [0] [] [0] 0) (f : α → α → α)
    (x : (⟨1, ![C']⟩ : Shape).Idx → α) (idx : IVec ⟨1, ![1]⟩ w) (h0 : ∀ k, (idx k).toInt = 0)
    (upd : (⟨1, ![C]⟩ : Shape).Idx → α) (c : Fin C) :
    Host.scatter (vecDims C C' wf) f x idx upd (ix1 ⟨c.val, lt_of_lt_of_le c.isLt hC⟩)
      = f (x (ix1 ⟨c.val, lt_of_lt_of_le c.isLt hC⟩)) (upd (ix1 c)) := by
  refine scatter_apply_of_unique _ f x idx upd (ix1 c) _ ?_ ?_
  · rw [resultIdx?_eq_some_iff]
    intro a
    rw [start_eq_zero _ _ _ h0]
    match a with
    | ⟨0, _⟩ => rw [show (⟨0, _⟩ : Fin 1) = 0 from rfl, vecDims_window wf _, zero_add]; rfl
  · intro j' e
    rw [resultIdx?_eq_some_iff] at e
    have e0 := e 0
    rw [start_eq_zero _ _ _ h0, vecDims_window wf _, zero_add] at e0
    have h0' : j' 0 = c := Fin.ext (by
      have : ((j' 0).val : Int) = (c.val : Int) := e0
      exact_mod_cast this)
    exact (eq_ix1 j').trans (congrArg ix1 h0')

end Whole

end Idealize.ShloMosaic.ScatterRead
-- ==== Proof.KerHost.lean ====
/-
  The values the host lines of the kernel program give around its one region.

  Before the region the program reshapes each scale's first-layer weights from [s·1024, 256] to [s, 1024, 256] (entry (j, d, k)
  of the result is entry (j·1024 + d, k) of the argument), converts them and the second-layer weights to a narrower float format
  (the identity on the extended reals), and pads the classifier from 400 to 512 columns: the weights [256, 400] and the bias
  [400] are each written whole, at start 0, into an array of zeros, so that at a column below 400 the padded array is the
  argument.  After the region the result is the first 400 columns of the region's output.
-/
import proofs.«106977_j18717467476122_2_alg».proof.Proof.FrameIdeal
import proofs.«106977_j18717467476122_2_alg».proof.Proof.Spec
import proofs.«106977_j18717467476122_2_alg».proof.Proof.LibScatter
import Idealize.ShloMosaic.Lib.ValueLayout
import Idealize.ShloMosaic.Lib.Pipeline.Value

noncomputable section

namespace Cert.KernelIdeal.HostValue

open Cert.KernelIdeal Cert.KernelIdeal.Gen Cert.KernelIdeal.GenP
open Idealize.ShloMosaic Idealize.ShloMosaic.TcCoe Idealize.ShloMosaic.ValueIdx

/-! ## The operations at an index, over variables -/

/-- The reshape [s·1024, 256] → [s, 1024, 256] at (j, d, k): the argument at row j·1024 + d, column k. -/
theorem slab_read {s E : ℕ} (h : s * 1024 = E) (x : (⟨2, ![E, 256]⟩ : Shape).Idx → EReal)
    (hc : (⟨2, ![E, 256]⟩ : Shape).ShapeCasts ⟨3, ![s, 1024, 256]⟩) (j : Fin s) (d : Fin 1024) (k : Fin 256) :
    shapeCast ⟨3, ![s, 1024, 256]⟩ x hc (ix3 j d k) = x (ix2 (Cert.Relations.slabRow h j d) k) := by
  refine shapeCast_apply x hc _ _ ?_
  rw [Shape.rowMajor_val_two, Shape.rowMajor_val_three]
  rfl

/-- The first 400 of 512 columns. -/
theorem slice_cols (y : FVec Ideal S4096x512 .f32) (b : Fin 4096) (q : Fin 400) :
    extractStridedSlice S4096x400 ![0, 0] y slices_S4096x512_S4096x400_0_0 (ix2 b q)
      = y (ix2 b ⟨q.val, lt_of_lt_of_le q.isLt (by decide)⟩) :=
  slice2_axis1_apply 0 y _ b q _ (Nat.zero_add _).symm

variable (m : (ℓ : Loc nD τ sig) → Buf (Elt Ideal) ℓ)

/-! ## The first-layer weights: reshaped, then converted -/

theorem V_main_v1 (c : Dev nD) (j : Fin 8) (d : Fin 1024) (k : Fin 256) :
    (V m c main_v1 : S8x1024x256.Idx → EReal) (ix3 j d k)
      = (m ((c : Thread nD τ).loc main_arg1) : S8192x256.Idx → EReal) (ix2 (Cert.Relations.slabRow (s := 8) (E := 8192) rfl j d) k) := by
  have e : @Eq (S8x1024x256.Idx → EReal) (V m c main_v1)
      (shapeCast S8x1024x256 (m ((c : Thread nD τ).loc main_arg1) : S8192x256.Idx → EReal) shapeCasts_S8192x256_S8x1024x256) := by
    show StableHlo.after hostOps0 (fun b => m (c, b)) (Proc.devRef .tc main_v1) = _
    after_results; rfl
  rw [e]
  exact slab_read (s := 8) (E := 8192) rfl _ _ j d k

theorem V_main_v3 (c : Dev nD) (j : Fin 7) (d : Fin 1024) (k : Fin 256) :
    (V m c main_v3 : S7x1024x256.Idx → EReal) (ix3 j d k)
      = (m ((c : Thread nD τ).loc main_arg5) : S7168x256.Idx → EReal) (ix2 (Cert.Relations.slabRow (s := 7) (E := 7168) rfl j d) k) := by
  have e : @Eq (S7x1024x256.Idx → EReal) (V m c main_v3)
      (shapeCast S7x1024x256 (m ((c : Thread nD τ).loc main_arg5) : S7168x256.Idx → EReal) shapeCasts_S7168x256_S7x1024x256) := by
    show StableHlo.after hostOps0 (fun b => m (c, b)) (Proc.devRef .tc main_v3) = _
    after_results; rfl
  rw [e]
  exact slab_read (s := 7) (E := 7168) rfl _ _ j d k

theorem V_main_v5 (c : Dev nD) (j : Fin 6) (d : Fin 1024) (k : Fin 256) :
    (V m c main_v5 : S6x1024x256.Idx → EReal) (ix3 j d k)
      = (m ((c : Thread nD τ).loc main_arg9) : S6144x256.Idx → EReal) (ix2 (Cert.Relations.slabRow (s := 6) (E := 6144) rfl j d) k) := by
  have e : @Eq (S6x1024x256.Idx → EReal) (V m c main_v5)
      (shapeCast S6x1024x256 (m ((c : Thread nD τ).loc main_arg9) : S6144x256.Idx → EReal) shapeCasts_S6144x256_S6x1024x256) := by
    show StableHlo.after hostOps0 (fun b => m (c, b)) (Proc.devRef .tc main_v5) = _
    after_results; rfl
  rw [e]
  exact slab_read (s := 6) (E := 6144) rfl _ _ j d k

theorem V_main_v7 (c : Dev nD) (j : Fin 5) (d : Fin 1024) (k : Fin 256) :
    (V m c main_v7 : S5x1024x256.Idx → EReal) (ix3 j d k)
      = (m ((c : Thread nD τ).loc main_arg13) : S5120x256.Idx → EReal) (ix2 (Cert.Relations.slabRow (s := 5) (E := 5120) rfl j d) k) := by
  have e : @Eq (S5x1024x256.Idx → EReal) (V m c main_v7)
      (shapeCast S5x1024x256 (m ((c : Thread nD τ).loc main_arg13) : S5120x256.Idx → EReal) shapeCasts_S5120x256_S5x1024x256) := by
    show StableHlo.after hostOps0 (fun b => m (c, b)) (Proc.devRef .tc main_v7) = _
    after_results; rfl
  rw [e]
  exact slab_read (s := 5) (E := 5120) rfl _ _ j d k

theorem V_main_v9 (c : Dev nD) (j : Fin 4) (d : Fin 1024) (k : Fin 256) :
    (V m c main_v9 : S4x1024x256.Idx → EReal) (ix3 j d k)
      = (m ((c : Thread nD τ).loc main_arg17) : S4096x256.Idx → EReal) (ix2 (Cert.Relations.slabRow (s := 4) (E := 4096) rfl j d) k) := by
  have e : @Eq (S4x1024x256.Idx → EReal) (V m c main_v9)
      (shapeCast S4x1024x256 (m ((c : Thread nD τ).loc main_arg17) : S4096x256.Idx → EReal) shapeCasts_S4096x256_S4x1024x256) := by
    show StableHlo.after hostOps0 (fun b => m (c, b)) (Proc.devRef .tc main_v9) = _
    after_results; rfl
  rw [e]
  exact slab_read (s := 4) (E := 4096) rfl _ _ j d k

theorem V_main_v11 (c : Dev nD) (j : Fin 3) (d : Fin 1024) (k : Fin 256) :
    (V m c main_v11 : S3x1024x256.Idx → EReal) (ix3 j d k)
      = (m ((c : Thread nD τ).loc main_arg21) : S3072x256.Idx → EReal) (ix2 (Cert.Relations.slabRow (s := 3) (E := 3072) rfl j d) k) := by
  have e : @Eq (S3x1024x256.Idx → EReal) (V m c main_v11)
      (shapeCast S3x1024x256 (m ((c : Thread nD τ).loc main_arg21) : S3072x256.Idx → EReal) shapeCasts_S3072x256_S3x1024x256) := by
    show StableHlo.after hostOps0 (fun b => m (c, b)) (Proc.devRef .tc main_v11) = _
    after_results; rfl
  rw [e]
  exact slab_read (s := 3) (E := 3072) rfl _ _ j d k

theorem V_main_v13 (c : Dev nD) (j : Fin 2) (d : Fin 1024) (k : Fin 256) :
    (V m c main_v13 : S2x1024x256.Idx → EReal) (ix3 j d k)
      = (m ((c : Thread nD τ).loc main_arg25) : S2048x256.Idx → EReal) (ix2 (Cert.Relations.slabRow (s := 2) (E := 2048) rfl j d) k) := by
  have e : @Eq (S2x1024x256.Idx → EReal) (V m c main_v13)
      (shapeCast S2x1024x256 (m ((c : Thread nD τ).loc main_arg25) : S2048x256.Idx → EReal) shapeCasts_S2048x256_S2x1024x256) := by
    show StableHlo.after hostOps0 (fun b => m (c, b)) (Proc.devRef .tc main_v13) = _
    after_results; rfl
  rw [e]
  exact slab_read (s := 2) (E := 2048) rfl _ _ j d k

/-! ## The second-layer weights: converted -/

theorem V_main_v14 (c : Dev nD) :
    (V m c main_v14 : S256x256.Idx → EReal) = (m ((c : Thread nD τ).loc main_arg3) : S256x256.Idx → EReal) := by
  show StableHlo.after hostOps0 (fun b => m (c, b)) (Proc.devRef .tc main_v14) = _
  after_results; rfl

theorem V_main_v15 (c : Dev nD) :
    (V m c main_v15 : S256x256.Idx → EReal) = (m ((c : Thread nD τ).loc main_arg7) : S256x256.Idx → EReal) := by
  show StableHlo.after hostOps0 (fun b => m (c, b)) (Proc.devRef .tc main_v15) = _
  after_results; rfl

theorem V_main_v16 (c : Dev nD) :
    (V m c main_v16 : S256x256.Idx → EReal) = (m ((c : Thread nD τ).loc main_arg11) : S256x256.Idx → EReal) := by
  show StableHlo.after hostOps0 (fun b => m (c, b)) (Proc.devRef .tc main_v16) = _
  after_results; rfl

theorem V_main_v17 (c : Dev nD) :
    (V m c main_v17 : S256x256.Idx → EReal) = (m ((c : Thread nD τ).loc main_arg15) : S256x256.Idx → EReal) := by
  show StableHlo.after hostOps0 (fun b => m (c, b)) (Proc.devRef .tc main_v17) = _
  after_results; rfl

theorem V_main_v18 (c : Dev nD) :
    (V m c main_v18 : S256x256.Idx → EReal) = (m ((c : Thread nD τ).loc main_arg19) : S256x256.Idx → EReal) := by
  show StableHlo.after hostOps0 (fun b => m (c, b)) (Proc.devRef .tc main_v18) = _
  after_results; rfl

theorem V_main_v19 (c : Dev nD) :
    (V m c main_v19 : S256x256.Idx → EReal) = (m ((c : Thread nD τ).loc main_arg23) : S256x256.Idx → EReal) := by
  show StableHlo.after hostOps0 (fun b => m (c, b)) (Proc.devRef .tc main_v19) = _
  after_results; rfl

theorem V_main_v20 (c : Dev nD) :
    (V m c main_v20 : S256x256.Idx → EReal) = (m ((c : Thread nD τ).loc main_arg27) : S256x256.Idx → EReal) := by
  show StableHlo.after hostOps0 (fun b => m (c, b)) (Proc.devRef .tc main_v20) = _
  after_results; rfl

/-! ## The classifier: written whole at start 0 into zeros, then (the weights) converted -/

/-- The start index array of both writes: the one word 0. -/
abbrev startIdx : IVec S1 32 := broadcastInDim S1 ![] bcast_S_S1 (constantI S_ 32 0#32)

theorem startIdx_toInt (k : S1.Idx) : (startIdx k).toInt = 0 := rfl

theorem V_main_v24 (c : Dev nD) (k : Fin 256) (q : Fin 400) :
    (V m c main_v24 : S256x512.Idx → EReal) (ix2 k ⟨q.val, lt_of_lt_of_le q.isLt (by decide)⟩)
      = (m ((c : Thread nD τ).loc main_arg29) : S256x400.Idx → EReal) (ix2 k q) := by
  have e : @Eq (S256x512.Idx → EReal) (V m c main_v24)
      (truncf (F := Ideal) .bf16
        (Host.scatter (ScatterRead.colsDims 256 400 512 scatter_S256x512_S1_S256x400_01_n_1_0_wf) (fun _ b => b)
          (broadcastInDim S256x512 ![] bcast_S_S256x512 (constant (F := Ideal) S_ .f32 0x00000000#32))
          startIdx (m ((c : Thread nD τ).loc main_arg29) : S256x400.Idx → EReal))
        bitsLt_bf16_f32) := by
    show StableHlo.after hostOps0 (fun b => m (c, b)) (Proc.devRef .tc main_v24) = _
    after_results; rfl
  exact (congrFun e _).trans ((truncf_apply (ψ := .bf16) _ bitsLt_bf16_f32 _).trans
    (ScatterRead.scatter_cols_apply (α := EReal) (by decide) _ (fun _ b => b) _ startIdx startIdx_toInt _ k q))

theorem V_main_v27 (c : Dev nD) (q : Fin 400) :
    (V m c main_v27 : S512.Idx → EReal) (ix1 ⟨q.val, lt_of_lt_of_le q.isLt (by decide)⟩)
      = (m ((c : Thread nD τ).loc main_arg30) : S400.Idx → EReal) (ix1 q) := by
  have e : @Eq (S512.Idx → EReal) (V m c main_v27)
      (Host.scatter (ScatterRead.vecDims 400 512 scatter_S512_S1_S400_0_n_0_0_wf) (fun _ b => b)
        (broadcastInDim S512 ![] bcast_S_S512 (constant (F := Ideal) S_ .f32 0x00000000#32))
        startIdx (m ((c : Thread nD τ).loc main_arg30) : S400.Idx → EReal)) := by
    show StableHlo.after hostOps0 (fun b => m (c, b)) (Proc.devRef .tc main_v27) = _
    after_results; rfl
  exact (congrFun e _).trans
    (ScatterRead.scatter_vec_apply (α := EReal) (by decide) _ (fun _ b => b) _ startIdx startIdx_toInt _ q)

end Cert.KernelIdeal.HostValue

end
-- ==== Proof.KerPost.lean ====
/-
  What the kernel program's run leaves in memory, read off the frame run's post.

  The region's output array [4096, 512] is what the grid points flushed; the program's result [4096, 400] is its first 400 columns
  (the one host operation after the region).  Every argument array ends as launched: an array a window stages is never written
  back, and an array no window stages is not touched by the operations after the region.
-/
import proofs.«106977_j18717467476122_2_alg».proof.Proof.FrameIdeal
import Idealize.ShloMosaic.Lib.StableHlo.Run
import Idealize.ShloMosaic.PureOps.Ideal

noncomputable section

namespace Cert.KernelIdeal.Value

open Idealize.ShloMosaic Idealize.ShloMosaic.TcCoe Idealize.SL.Sem Idealize.ShloMosaic.StableHlo
open Cert.KernelIdeal Cert.KernelIdeal.Gen Cert.KernelIdeal.GenP
open Idealize.ShloMosaic.Pipeline (Dat Cfg Window)

variable (m : (ℓ : Loc nD τ sig) → Buf (Elt Ideal) ℓ) (ρ : Dev nD → PrngReg)

/-- The frame run's post: every staged array at what the points flushed, every other buffer as the operation after the region
    leaves it. -/
abbrev Post (r : PUnit × MemSt nD τ sig (Elt Ideal)) : Prop :=
  Pipeline.FramePost cfgs (dats m) 0 (Pipeline.afterTail₀ cfgs (dats m) 0 (V0 m) [hostOps1]) r

/-- The result is the first 400 columns of the region's output array. -/
theorem post_result (r : PUnit × MemSt nD τ sig (Elt Ideal)) (h : Post m r) (c : Dev nD) :
    r.2.mem ((c : Thread nD τ).loc main_v29)
      = extractStridedSlice S4096x400 ![0, 0] ((dats m 0 c).arrAt 31 cfg0.N) slices_S4096x512_S4096x400_0_0 := by
  refine ((h c).2 main_v29 (Pipeline.mem_restRefs_of main_v29 (by decide) (by decide))).trans ?_
  unfold Pipeline.afterTail₀
  show StableHlo.after hostOps1 _ (Proc.devRef .tc main_v29) = _
  after_results
  rw [Pipeline.withArrays_arr spec0 launch0.win.arr_inj c _ _ 31]

/-! ## The arguments end as launched -/

theorem kept_main_arg0 (r : PUnit × MemSt nD τ sig (Elt Ideal)) (h : Post m r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))
theorem kept_main_arg1 (r : PUnit × MemSt nD τ sig (Elt Ideal)) (h : Post m r) (c : Dev nD) :
    r.2.mem ((c : Thread nD τ).loc main_arg1) = m ((c : Thread nD τ).loc main_arg1) :=
  ((h c).2 main_arg1 (Pipeline.mem_restRefs_of main_arg1 (by decide) (by decide))).trans (W_main_arg1 m (dats m) c)
theorem kept_main_arg2 (r : PUnit × MemSt nD τ sig (Elt Ideal)) (h : Post m r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))
theorem kept_main_arg3 (r : PUnit × MemSt nD τ sig (Elt Ideal)) (h : Post m r) (c : Dev nD) :
    r.2.mem ((c : Thread nD τ).loc main_arg3) = m ((c : Thread nD τ).loc main_arg3) :=
  ((h c).2 main_arg3 (Pipeline.mem_restRefs_of main_arg3 (by decide) (by decide))).trans (W_main_arg3 m (dats m) c)
theorem kept_main_arg4 (r : PUnit × MemSt nD τ sig (Elt Ideal)) (h : Post m r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))
theorem kept_main_arg5 (r : PUnit × MemSt nD τ sig (Elt Ideal)) (h : Post m r) (c : Dev nD) :
    r.2.mem ((c : Thread nD τ).loc main_arg5) = m ((c : Thread nD τ).loc main_arg5) :=
  ((h c).2 main_arg5 (Pipeline.mem_restRefs_of main_arg5 (by decide) (by decide))).trans (W_main_arg5 m (dats m) c)
theorem kept_main_arg6 (r : PUnit × MemSt nD τ sig (Elt Ideal)) (h : Post m r) (c : Dev nD) :
    r.2.mem ((c : Thread nD τ).loc main_arg6) = m ((c : Thread nD τ).loc main_arg6) :=
  ((h c).1 6).trans (((dats m 0 c).arrAt_in 6 rfl _).trans ((A_eq m c 6).trans (V_main_arg6 m c)))
theorem kept_main_arg7 (r : PUnit × MemSt nD τ sig (Elt Ideal)) (h : Post m r) (c : Dev nD) :
    r.2.mem ((c : Thread nD τ).loc main_arg7) = m ((c : Thread nD τ).loc main_arg7) :=
  ((h c).2 main_arg7 (Pipeline.mem_restRefs_of main_arg7 (by decide) (by decide))).trans (W_main_arg7 m (dats m) c)
theorem kept_main_arg8 (r : PUnit × MemSt nD τ sig (Elt Ideal)) (h : Post m r) (c : Dev nD) :
    r.2.mem ((c : Thread nD τ).loc main_arg8) = m ((c : Thread nD τ).loc main_arg8) :=
  ((h c).1 8).trans (((dats m 0 c).arrAt_in 8 rfl _).trans ((A_eq m c 8).trans (V_main_arg8 m c)))
theorem kept_main_arg9 (r : PUnit × MemSt nD τ sig (Elt Ideal)) (h : Post m r) (c : Dev nD) :
    r.2.mem ((c : Thread nD τ).loc main_arg9) = m ((c : Thread nD τ).loc main_arg9) :=
  ((h c).2 main_arg9 (Pipeline.mem_restRefs_of main_arg9 (by decide) (by decide))).trans (W_main_arg9 m (dats m) c)
theorem kept_main_arg10 (r : PUnit × MemSt nD τ sig (Elt Ideal)) (h : Post m r) (c : Dev nD) :
    r.2.mem ((c : Thread nD τ).loc main_arg10) = m ((c : Thread nD τ).loc main_arg10) :=
  ((h c).1 10).trans (((dats m 0 c).arrAt_in 10 rfl _).trans ((A_eq m c 10).trans (V_main_arg10 m c)))
theorem kept_main_arg11 (r : PUnit × MemSt nD τ sig (Elt Ideal)) (h : Post m r) (c : Dev nD) :
    r.2.mem ((c : Thread nD τ).loc main_arg11) = m ((c : Thread nD τ).loc main_arg11) :=
  ((h c).2 main_arg11 (Pipeline.mem_restRefs_of main_arg11 (by decide) (by decide))).trans (W_main_arg11 m (dats m) c)
theorem kept_main_arg12 (r : PUnit × MemSt nD τ sig (Elt Ideal)) (h : Post m r) (c : Dev nD) :
    r.2.mem ((c : Thread nD τ).loc main_arg12) = m ((c : Thread nD τ).loc main_arg12) :=
  ((h c).1 12).trans (((dats m 0 c).arrAt_in 12 rfl _).trans ((A_eq m c 12).trans (V_main_arg12 m c)))
theorem kept_main_arg13 (r : PUnit × MemSt nD τ sig (Elt Ideal)) (h : Post m r) (c : Dev nD) :
    r.2.mem ((c : Thread nD τ).loc main_arg13) = m ((c : Thread nD τ).loc main_arg13) :=
  ((h c).2 main_arg13 (Pipeline.mem_restRefs_of main_arg13 (by decide) (by decide))).trans (W_main_arg13 m (dats m) c)
theorem kept_main_arg14 (r : PUnit × MemSt nD τ sig (Elt Ideal)) (h : Post m r) (c : Dev nD) :
    r.2.mem ((c : Thread nD τ).loc main_arg14) = m ((c : Thread nD τ).loc main_arg14) :=
  ((h c).1 14).trans (((dats m 0 c).arrAt_in 14 rfl _).trans ((A_eq m c 14).trans (V_main_arg14 m c)))
theorem kept_main_arg15 (r : PUnit × MemSt nD τ sig (Elt Ideal)) (h : Post m r) (c : Dev nD) :
    r.2.mem ((c : Thread nD τ).loc main_arg15) = m ((c : Thread nD τ).loc main_arg15) :=
  ((h c).2 main_arg15 (Pipeline.mem_restRefs_of main_arg15 (by decide) (by decide))).trans (W_main_arg15 m (dats m) c)
theorem kept_main_arg16 (r : PUnit × MemSt nD τ sig (Elt Ideal)) (h : Post m r) (c : Dev nD) :
    r.2.mem ((c : Thread nD τ).loc main_arg16) = m ((c : Thread nD τ).loc main_arg16) :=
  ((h c).1 16).trans (((dats m 0 c).arrAt_in 16 rfl _).trans ((A_eq m c 16).trans (V_main_arg16 m c)))
theorem kept_main_arg17 (r : PUnit × MemSt nD τ sig (Elt Ideal)) (h : Post m r) (c : Dev nD) :
    r.2.mem ((c : Thread nD τ).loc main_arg17) = m ((c : Thread nD τ).loc main_arg17) :=
  ((h c).2 main_arg17 (Pipeline.mem_restRefs_of main_arg17 (by decide) (by decide))).trans (W_main_arg17 m (dats m) c)
theorem kept_main_arg18 (r : PUnit × MemSt nD τ sig (Elt Ideal)) (h : Post m r) (c : Dev nD) :
    r.2.mem ((c : Thread nD τ).loc main_arg18) = m ((c : Thread nD τ).loc main_arg18) :=
  ((h c).1 18).trans (((dats m 0 c).arrAt_in 18 rfl _).trans ((A_eq m c 18).trans (V_main_arg18 m c)))
theorem kept_main_arg19 (r : PUnit × MemSt nD τ sig (Elt Ideal)) (h : Post m r) (c : Dev nD) :
    r.2.mem ((c : Thread nD τ).loc main_arg19) = m ((c : Thread nD τ).loc main_arg19) :=
  ((h c).2 main_arg19 (Pipeline.mem_restRefs_of main_arg19 (by decide) (by decide))).trans (W_main_arg19 m (dats m) c)
theorem kept_main_arg20 (r : PUnit × MemSt nD τ sig (Elt Ideal)) (h : Post m r) (c : Dev nD) :
    r.2.mem ((c : Thread nD τ).loc main_arg20) = m ((c : Thread nD τ).loc main_arg20) :=
  ((h c).1 20).trans (((dats m 0 c).arrAt_in 20 rfl _).trans ((A_eq m c 20).trans (V_main_arg20 m c)))
theorem kept_main_arg21 (r : PUnit × MemSt nD τ sig (Elt Ideal)) (h : Post m r) (c : Dev nD) :
    r.2.mem ((c : Thread nD τ).loc main_arg21) = m ((c : Thread nD τ).loc main_arg21) :=
  ((h c).2 main_arg21 (Pipeline.mem_restRefs_of main_arg21 (by decide) (by decide))).trans (W_main_arg21 m (dats m) c)
theorem kept_main_arg22 (r : PUnit × MemSt nD τ sig (Elt Ideal)) (h : Post m r) (c : Dev nD) :
    r.2.mem ((c : Thread nD τ).loc main_arg22) = m ((c : Thread nD τ).loc main_arg22) :=
  ((h c).1 22).trans (((dats m 0 c).arrAt_in 22 rfl _).trans ((A_eq m c 22).trans (V_main_arg22 m c)))
theorem kept_main_arg23 (r : PUnit × MemSt nD τ sig (Elt Ideal)) (h : Post m r) (c : Dev nD) :
    r.2.mem ((c : Thread nD τ).loc main_arg23) = m ((c : Thread nD τ).loc main_arg23) :=
  ((h c).2 main_arg23 (Pipeline.mem_restRefs_of main_arg23 (by decide) (by decide))).trans (W_main_arg23 m (dats m) c)
theorem kept_main_arg24 (r : PUnit × MemSt nD τ sig (Elt Ideal)) (h : Post m r) (c : Dev nD) :
    r.2.mem ((c : Thread nD τ).loc main_arg24) = m ((c : Thread nD τ).loc main_arg24) :=
  ((h c).1 24).trans (((dats m 0 c).arrAt_in 24 rfl _).trans ((A_eq m c 24).trans (V_main_arg24 m c)))
theorem kept_main_arg25 (r : PUnit × MemSt nD τ sig (Elt Ideal)) (h : Post m r) (c : Dev nD) :
    r.2.mem ((c : Thread nD τ).loc main_arg25) = m ((c : Thread nD τ).loc main_arg25) :=
  ((h c).2 main_arg25 (Pipeline.mem_restRefs_of main_arg25 (by decide) (by decide))).trans (W_main_arg25 m (dats m) c)
theorem kept_main_arg26 (r : PUnit × MemSt nD τ sig (Elt Ideal)) (h : Post m r) (c : Dev nD) :
    r.2.mem ((c : Thread nD τ).loc main_arg26) = m ((c : Thread nD τ).loc main_arg26) :=
  ((h c).1 26).trans (((dats m 0 c).arrAt_in 26 rfl _).trans ((A_eq m c 26).trans (V_main_arg26 m c)))
theorem kept_main_arg27 (r : PUnit × MemSt nD τ sig (Elt Ideal)) (h : Post m r) (c : Dev nD) :
    r.2.mem ((c : Thread nD τ).loc main_arg27) = m ((c : Thread nD τ).loc main_arg27) :=
  ((h c).2 main_arg27 (Pipeline.mem_restRefs_of main_arg27 (by decide) (by decide))).trans (W_main_arg27 m (dats m) c)
theorem kept_main_arg28 (r : PUnit × MemSt nD τ sig (Elt Ideal)) (h : Post m r) (c : Dev nD) :
    r.2.mem ((c : Thread nD τ).loc main_arg28) = m ((c : Thread nD τ).loc main_arg28) :=
  ((h c).1 28).trans (((dats m 0 c).arrAt_in 28 rfl _).trans ((A_eq m c 28).trans (V_main_arg28 m c)))
theorem kept_main_arg29 (r : PUnit × MemSt nD τ sig (Elt Ideal)) (h : Post m r) (c : Dev nD) :
    r.2.mem ((c : Thread nD τ).loc main_arg29) = m ((c : Thread nD τ).loc main_arg29) :=
  ((h c).2 main_arg29 (Pipeline.mem_restRefs_of main_arg29 (by decide) (by decide))).trans (W_main_arg29 m (dats m) c)
theorem kept_main_arg30 (r : PUnit × MemSt nD τ sig (Elt Ideal)) (h : Post m r) (c : Dev nD) :
    r.2.mem ((c : Thread nD τ).loc main_arg30) = m ((c : Thread nD τ).loc main_arg30) :=
  ((h c).2 main_arg30 (Pipeline.mem_restRefs_of main_arg30 (by decide) (by decide))).trans (W_main_arg30 m (dats m) c)

end Cert.KernelIdeal.Value

end
-- ==== Proof.KerValue.lean ====
/-
  The kernel program's result as one function of its argument arrays.

  The region leaves in its output array [4096, 512] the specification's last layer with 512 columns, its parameters read off the
  arrays the host operations before the region prepared: each first-layer weight array [s·1024, 256] re-laid as [s, 1024, 256]
  (slab j, row d is row j·1024 + d), the second-layer weights unchanged, and the classifier's weights [256, 400] and bias [400]
  written into zero arrays of 512 columns from column 0.  The result keeps the first 400 columns, where the padded classifier is the
  classifier itself: so the result is the specification's result of the argument arrays.
-/
import proofs.«106977_j18717467476122_2_alg».proof.Proof.KerArray
import proofs.«106977_j18717467476122_2_alg».proof.Proof.KerHost
import proofs.«106977_j18717467476122_2_alg».proof.Proof.KerPost

noncomputable section

namespace Cert.KernelIdeal.Value

open Idealize.ShloMosaic Idealize.ShloMosaic.TcCoe Idealize.SL.Sem Idealize.ShloMosaic.ValueIdx
open Cert.KernelIdeal Cert.KernelIdeal.Gen Cert.KernelIdeal.GenP Cert.KernelIdeal.Body Cert.Relations

variable (m : (ℓ : Loc nD τ sig) → Buf (Elt Ideal) ℓ) (ρ : Dev nD → PrngReg)

/-- A scale's perceptron read off the block layout [s, 1024, 256] is the one read off the argument layout [s·1024, 256], when
    slab j, row d of the former is row j·1024 + d of the latter and the other three arrays agree. -/
theorem blkMlp_eq {s E : ℕ} (h : s * 1024 = E) (w1v : Vec Ideal (⟨3, ![s, 1024, 256]⟩ : Shape) .bf16) (b1v : Vec Ideal S256 .f32)
    (w2v : Vec Ideal S256x256 .bf16) (b2v : Vec Ideal S256 .f32)
    (w1 : (⟨2, ![E, 256]⟩ : Shape).Idx → EReal) (b1 : (⟨1, ![256]⟩ : Shape).Idx → EReal)
    (w2 : (⟨2, ![256, 256]⟩ : Shape).Idx → EReal) (b2 : (⟨1, ![256]⟩ : Shape).Idx → EReal)
    (h1 : ∀ (j : Fin s) (d : Fin 1024) (k : Fin 256), w1v (ix3 j d k) = w1 (ix2 (slabRow h j d) k))
    (hb1 : (b1v : S256.Idx → EReal) = b1) (h2 : (w2v : S256x256.Idx → EReal) = w2) (hb2 : (b2v : S256.Idx → EReal) = b2) :
    blkMlp w1v b1v w2v b2v = mlpOf h w1 b1 w2 b2 := by
  subst hb1 h2 hb2
  unfold blkMlp mlpOf
  congr 1
  funext j d k
  exact h1 j d k

/-- The region's output array at (b, q), by coordinates. -/
theorem padded_ix2 (c : Dev nD) (b : Fin 4096) (q : Fin 512) :
    Array.padded m c (ix2 b q)
      = logits (rowOf (V m c main_arg0) b)
        { P0 := blkMlp (s := 8) (V m c main_v1) (V m c main_arg2) (V m c main_v14) (V m c main_arg4),
          P1 := blkMlp (s := 7) (V m c main_v3) (V m c main_arg6) (V m c main_v15) (V m c main_arg8),
          P2 := blkMlp (s := 6) (V m c main_v5) (V m c main_arg10) (V m c main_v16) (V m c main_arg12),
          P3 := blkMlp (s := 5) (V m c main_v7) (V m c main_arg14) (V m c main_v17) (V m c main_arg16),
          P4 := blkMlp (s := 4) (V m c main_v9) (V m c main_arg18) (V m c main_v18) (V m c main_arg20),
          P5 := blkMlp (s := 3) (V m c main_v11) (V m c main_arg22) (V m c main_v19) (V m c main_arg24),
          P6 := blkMlp (s := 2) (V m c main_v13) (V m c main_arg26) (V m c main_v20) (V m c main_arg28) }
        (fun k q => (V m c main_v24 : Vec Ideal S256x512 .bf16) (ix2 k q)) (fun q => (V m c main_v27 : Vec Ideal S512 .f32) (ix1 q)) q := rfl

set_option maxHeartbeats 1600000 in
/-- The first 400 columns of the region's output array are the specification's result of the argument arrays. -/
theorem result_eq (c : Dev nD) :
    extractStridedSlice S4096x400 ![0, 0] (Array.padded m c) slices_S4096x512_S4096x400_0_0
      = resultOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) := by
  funext i
  obtain ⟨b, q, rfl⟩ : ∃ (b : Fin 4096) (q : Fin 400), i = (ix2 b q : S4096x400.Idx) := ⟨i 0, i 1, eq_ix2 i⟩
  rw [HostValue.slice_cols, padded_ix2]
  have h24 : ∀ (k : Fin 256) (q : Fin 400),
      (V m c main_v24 : Vec Ideal S256x512 .bf16) (ix2 k ⟨q.val, lt_of_lt_of_le q.isLt (by decide)⟩)
        = (m ((c : Thread nD τ).loc main_arg29) : S256x400.Idx → EReal) (ix2 k q) := fun k q => HostValue.V_main_v24 m c k q
  have h27 : ∀ q : Fin 400,
      (V m c main_v27 : Vec Ideal S512 .f32) (ix1 ⟨q.val, lt_of_lt_of_le q.isLt (by decide)⟩)
        = (m ((c : Thread nD τ).loc main_arg30) : S400.Idx → EReal) (ix1 q) := fun q => HostValue.V_main_v27 m c q
  generalize (V m c main_v24 : Vec Ideal S256x512 .bf16) = W24 at h24 ⊢
  generalize (V m c main_v27 : Vec Ideal S512 .f32) = W27 at h27 ⊢
  unfold resultOf
  rw [result_ix2]
  rw [
    (blkMlp_eq (s := 8) (E := 8192) rfl _ _ _ _ _ _ _ _ (HostValue.V_main_v1 m c) (V_main_arg2 m c) (HostValue.V_main_v14 m c) (V_main_arg4 m c)),
    (blkMlp_eq (s := 7) (E := 7168) rfl _ _ _ _ _ _ _ _ (HostValue.V_main_v3 m c) (V_main_arg6 m c) (HostValue.V_main_v15 m c) (V_main_arg8 m c)),
    (blkMlp_eq (s := 6) (E := 6144) rfl _ _ _ _ _ _ _ _ (HostValue.V_main_v5 m c) (V_main_arg10 m c) (HostValue.V_main_v16 m c) (V_main_arg12 m c)),
    (blkMlp_eq (s := 5) (E := 5120) rfl _ _ _ _ _ _ _ _ (HostValue.V_main_v7 m c) (V_main_arg14 m c) (HostValue.V_main_v17 m c) (V_main_arg16 m c)),
    (blkMlp_eq (s := 4) (E := 4096) rfl _ _ _ _ _ _ _ _ (HostValue.V_main_v9 m c) (V_main_arg18 m c) (HostValue.V_main_v18 m c) (V_main_arg20 m c)),
    (blkMlp_eq (s := 3) (E := 3072) rfl _ _ _ _ _ _ _ _ (HostValue.V_main_v11 m c) (V_main_arg22 m c) (HostValue.V_main_v19 m c) (V_main_arg24 m c)),
    (blkMlp_eq (s := 2) (E := 2048) rfl _ _ _ _ _ _ _ _ (HostValue.V_main_v13 m c) (V_main_arg26 m c) (HostValue.V_main_v20 m c) (V_main_arg28 m c)),
    V_main_arg0 m c]
  simp only [logits, h24, h27]

/-- After the run the result buffer holds the specification's result of the launch contents of the arguments. -/
theorem result_of_post (r : PUnit × MemSt nD τ sig (Elt Ideal)) (h : Post m r) (c : Dev nD) :
    r.2.mem ((c : Thread nD τ).loc main_v29) = resultOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30)) := by
  rw [post_result m r h c, Array.final m c]
  exact result_eq m c

set_option maxHeartbeats 1600000 in
/-- Every weakly fair execution of the kernel program terminates with the result at the specification's result of the launch
    contents of the arguments, and the arguments unchanged. -/
theorem run : θ_run defs (onTc (τ := τ) (main (F := Ideal))) ⟨m, fun _ => 0, ρ⟩ fun r => ∀ c : Dev nD,
      r.2.mem ((c : Thread nD τ).loc main_v29) = resultOf (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18)) (m ((c : Thread nD τ).loc main_arg19)) (m ((c : Thread nD τ).loc main_arg20)) (m ((c : Thread nD τ).loc main_arg21)) (m ((c : Thread nD τ).loc main_arg22)) (m ((c : Thread nD τ).loc main_arg23)) (m ((c : Thread nD τ).loc main_arg24)) (m ((c : Thread nD τ).loc main_arg25)) (m ((c : Thread nD τ).loc main_arg26)) (m ((c : Thread nD τ).loc main_arg27)) (m ((c : Thread nD τ).loc main_arg28)) (m ((c : Thread nD τ).loc main_arg29)) (m ((c : Thread nD τ).loc main_arg30))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23)
      ∧ r.2.mem ((c : Thread nD τ).loc main_arg24) = m ((c : Thread nD τ).loc main_arg24)
      ∧ r.2.mem ((c : Thread nD τ).loc main_arg25) = m ((c : Thread nD τ).loc main_arg25)
      ∧ r.2.mem ((c : Thread nD τ).loc main_arg26) = m ((c : Thread nD τ).loc main_arg26)
      ∧ r.2.mem ((c : Thread nD τ).loc main_arg27) = m ((c : Thread nD τ).loc main_arg27)
      ∧ r.2.mem ((c : Thread nD τ).loc main_arg28) = m ((c : Thread nD τ).loc main_arg28)
      ∧ r.2.mem ((c : Thread nD τ).loc main_arg29) = m ((c : Thread nD τ).loc main_arg29)
      ∧ r.2.mem ((c : Thread nD τ).loc main_arg30) = m ((c : Thread nD τ).loc main_arg30) :=
  (θ_run defs _ _).mono (fun r h c => ⟨result_of_post m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c,
      kept_main_arg11 m r h c,
      kept_main_arg12 m r h c,
      kept_main_arg13 m r h c,
      kept_main_arg14 m r h c,
      kept_main_arg15 m r h c,
      kept_main_arg16 m r h c,
      kept_main_arg17 m r h c,
      kept_main_arg18 m r h c,
      kept_main_arg19 m r h c,
      kept_main_arg20 m r h c,
      kept_main_arg21 m r h c,
      kept_main_arg22 m r h c,
      kept_main_arg23 m r h c,
      kept_main_arg24 m r h c,
      kept_main_arg25 m r h c,
      kept_main_arg26 m r h c,
      kept_main_arg27 m r h c,
      kept_main_arg28 m r h c,
      kept_main_arg29 m r h c,
      kept_main_arg30 m r h c⟩)
    (run_main m ρ)

end Cert.KernelIdeal.Value

end
-- ==== Proof.RefRun.lean ====
/- The reference program's @main as a list of its host operations, and its run read back: the three
   windows of @main are straight lines of operations (each call of an outlined rectifier stands as the three
   operations of its body over the call's own buffers), so every weakly fair execution terminates with each
   buffer at the fold of the operations' results over the launch contents; no operation writes an argument. -/
import proofs.«106977_j18717467476122_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of @main's window 0 (numbers 1 … 72 of 209), in order. -/
abbrev ops0 : List (HloOp τ sig (Elt F)) :=
  [ StableHlo.nullary main_c (fun i => lit0 (S1x8.rowMajor i)),
    StableHlo.nullary main_c_0 (constantI S1x8 1 0#1),
    StableHlo.nullary main_c_1 (fun i => lit1 (S3x7.rowMajor i)),
    StableHlo.nullary main_c_2 (constantI S3x7 1 0#1),
    StableHlo.nullary main_c_3 (fun i => lit2 (S3x6.rowMajor i)),
    StableHlo.nullary main_c_4 (constantI S3x6 1 0#1),
    StableHlo.nullary main_c_5 (fun i => lit3 (S3x5.rowMajor i)),
    StableHlo.nullary main_c_6 (constantI S3x5 1 0#1),
    StableHlo.nullary main_c_7 (fun i => lit4 (S3x4.rowMajor i)),
    StableHlo.nullary main_c_8 (constantI S3x4 1 0#1),
    StableHlo.nullary main_c_9 (fun i => lit5 (S3x3.rowMajor i)),
    StableHlo.nullary main_c_10 (constantI S3x3 1 0#1),
    StableHlo.nullary main_c_11 (fun i => lit6 (S3x2.rowMajor i)),
    StableHlo.nullary main_c_12 (constantI S3x2 1 0#1),
    StableHlo.nullary main_c_13 (constantI S_ 32 8#32),
    StableHlo.unary main_c_13 main_v0 (broadcastInDim S1x8 ![] bcast_S_S1x8 : (⟨S_, .i32⟩ : BufTy).Contents (Elt F) → (⟨S1x8, .i32⟩ : BufTy).Contents (Elt F)),
    StableHlo.binary main_c main_v0 main_v1 (addi : (⟨S1x8, .i32⟩ : BufTy).Contents (Elt F) → (⟨S1x8, .i32⟩ : BufTy).Contents (Elt F) → (⟨S1x8, .i32⟩ : BufTy).Contents (Elt F)),
    StableHlo.ternary main_c_0 main_v1 main_c main_v2 (select : (⟨S1x8, .i1⟩ : BufTy).Contents (Elt F) → (⟨S1x8, .i32⟩ : BufTy).Contents (Elt F) → (⟨S1x8, .i32⟩ : BufTy).Contents (Elt F) → (⟨S1x8, .i32⟩ : BufTy).Contents (Elt F)),
    StableHlo.unary main_v2 main_v3 (broadcastInDim S1x8x1 ![0, 1] bcast_S1x8_S1x8x1_0_1 : (⟨S1x8, .i32⟩ : BufTy).Contents (Elt F) → (⟨S1x8x1, .i32⟩ : BufTy).Contents (Elt F)),
    StableHlo.binary main_arg0 main_v3 main_v4 ((fun x i => Host.gather gather_S4096x8x1024_S1x8x1_S4096x1x8x1024_03_1_n_n_1_2_409611024 x i) : (⟨S4096x8x1024, .f32⟩ : BufTy).Contents (Elt F) → (⟨S1x8x1, .i32⟩ : BufTy).Contents (Elt F) → (⟨S4096x1x8x1024, .f32⟩ : BufTy).Contents (Elt F)),
    StableHlo.reshape main_v4 main_v5 rfl shapeCasts_S4096x1x8x1024_S4096x1x8192,
    StableHlo.TRef.nullary main_call0.cst (constant S_ .f32 0x00000000#32),
    StableHlo.TRef.unary main_call0.cst main_call0.v0 (broadcastInDim S4096x1x8192 ![] bcast_S_S4096x1x8192),
    StableHlo.TRef.binary (.of main_v5) main_call0.v0 main_call0.v1 maximumf,
    StableHlo.binary main_v6 main_arg1 main_v7 ((fun l r => Host.dotGeneral dot_S4096x1x8192_S8192x256_S4096x1x256_2_0_01_1_n_n none l r) : (⟨S4096x1x8192, .f32⟩ : BufTy).Contents (Elt F) → (⟨S8192x256, .f32⟩ : BufTy).Contents (Elt F) → (⟨S4096x1x256, .f32⟩ : BufTy).Contents (Elt F)),
    StableHlo.unary main_arg2 main_v8 (broadcastInDim S1x1x256 ![2] bcast_S256_S1x1x256_2 : (⟨S256, .f32⟩ : BufTy).Contents (Elt F) → (⟨S1x1x256, .f32⟩ : BufTy).Contents (Elt F)),
    StableHlo.unary main_v8 main_v9 (broadcastInDim S4096x1x256 ![0, 1, 2] bcast_S1x1x256_S4096x1x256_0_1_2 : (⟨S1x1x256, .f32⟩ : BufTy).Contents (Elt F) → (⟨S4096x1x256, .f32⟩ : BufTy).Contents (Elt F)),
    StableHlo.binary main_v7 main_v9 main_v10 (addf : (⟨S4096x1x256, .f32⟩ : BufTy).Contents (Elt F) → (⟨S4096x1x256, .f32⟩ : BufTy).Contents (Elt F) → (⟨S4096x1x256, .f32⟩ : BufTy).Contents (Elt F)),
    StableHlo.TRef.nullary main_call1.cst (constant S_ .f32 0x00000000#32),
    StableHlo.TRef.unary main_call1.cst main_call1.v0 (broadcastInDim S4096x1x256 ![] bcast_S_S4096x1x256),
    StableHlo.TRef.binary (.of main_v10) main_call1.v0 main_call1.v1 maximumf,
    StableHlo.binary main_v11 main_arg3 main_v12 ((fun l r => Host.dotGeneral dot_S4096x1x256_S256x256_S4096x1x256_2_0_01_1_n_n none l r) : (⟨S4096x1x256, .f32⟩ : BufTy).Contents (Elt F) → (⟨S256x256, .f32⟩ : BufTy).Contents (Elt F) → (⟨S4096x1x256, .f32⟩ : BufTy).Contents (Elt F)),
    StableHlo.unary main_arg4 main_v13 (broadcastInDim S1x1x256 ![2] bcast_S256_S1x1x256_2 : (⟨S256, .f32⟩ : BufTy).Contents (Elt F) → (⟨S1x1x256, .f32⟩ : BufTy).Contents (Elt F)),
    StableHlo.unary main_v13 main_v14 (broadcastInDim S4096x1x256 ![0, 1, 2] bcast_S1x1x256_S4096x1x256_0_1_2 : (⟨S1x1x256, .f32⟩ : BufTy).Contents (Elt F) → (⟨S4096x1x256, .f32⟩ : BufTy).Contents (Elt F)),
    StableHlo.binary main_v12 main_v14 main_v15 (addf : (⟨S4096x1x256, .f32⟩ : BufTy).Contents (Elt F) → (⟨S4096x1x256, .f32⟩ : BufTy).Contents (Elt F) → (⟨S4096x1x256, .f32⟩ : BufTy).Contents (Elt F)),
    StableHlo.TRef.nullary main_call2.cst (constant S_ .f32 0x00000000#32),
    StableHlo.TRef.unary main_call2.cst main_call2.v0 (broadcastInDim S4096x1x256 ![] bcast_S_S4096x1x256),
    StableHlo.TRef.binary (.of main_v15) main_call2.v0 main_call2.v1 maximumf,
    StableHlo.nullary main_cst (constant S_ .f32 0x00000000#32),
    StableHlo.binary main_v16 main_cst main_v17 ((fun x v => Host.reduceAdd x v reducesTo_S4096x1x256_S4096x256_d1 h_S_) : (⟨S4096x1x256, .f32⟩ : BufTy).Contents (Elt F) → (⟨S_, .f32⟩ : BufTy).Contents (Elt F) → (⟨S4096x256, .f32⟩ : BufTy).Contents (Elt F)),
    StableHlo.nullary main_c_14 (constantI S_ 32 8#32),
    StableHlo.unary main_c_14 main_v18 (broadcastInDim S3x7 ![] bcast_S_S3x7 : (⟨S_, .i32⟩ : BufTy).Contents (Elt F) → (⟨S3x7, .i32⟩ : BufTy).Contents (Elt F)),
    StableHlo.binary main_c_1 main_v18 main_v19 (addi : (⟨S3x7, .i32⟩ : BufTy).Contents (Elt F) → (⟨S3x7, .i32⟩ : BufTy).Contents (Elt F) → (⟨S3x7, .i32⟩ : BufTy).Contents (Elt F)),
    StableHlo.ternary main_c_2 main_v19 main_c_1 main_v20 (select : (⟨S3x7, .i1⟩ : BufTy).Contents (Elt F) → (⟨S3x7, .i32⟩ : BufTy).Contents (Elt F) → (⟨S3x7, .i32⟩ : BufTy).Contents (Elt F) → (⟨S3x7, .i32⟩ : BufTy).Contents (Elt F)),
    StableHlo.unary main_v20 main_v21 (broadcastInDim S3x7x1 ![0, 1] bcast_S3x7_S3x7x1_0_1 : (⟨S3x7, .i32⟩ : BufTy).Contents (Elt F) → (⟨S3x7x1, .i32⟩ : BufTy).Contents (Elt F)),
    StableHlo.binary main_arg0 main_v21 main_v22 ((fun x i => Host.gather gather_S4096x8x1024_S3x7x1_S4096x3x7x1024_03_1_n_n_1_2_409611024 x i) : (⟨S4096x8x1024, .f32⟩ : BufTy).Contents (Elt F) → (⟨S3x7x1, .i32⟩ : BufTy).Contents (Elt F) → (⟨S4096x3x7x1024, .f32⟩ : BufTy).Contents (Elt F)),
    StableHlo.reshape main_v22 main_v23 rfl shapeCasts_S4096x3x7x1024_S4096x3x7168,
    StableHlo.TRef.nullary main_call3.cst (constant S_ .f32 0x00000000#32),
    StableHlo.TRef.unary main_call3.cst main_call3.v0 (broadcastInDim S4096x3x7168 ![] bcast_S_S4096x3x7168),
    StableHlo.TRef.binary (.of main_v23) main_call3.v0 main_call3.v1 maximumf,
    StableHlo.binary main_v24 main_arg5 main_v25 ((fun l r => Host.dotGeneral dot_S4096x3x7168_S7168x256_S4096x3x256_2_0_01_1_n_n none l r) : (⟨S4096x3x7168, .f32⟩ : BufTy).Contents (Elt F) → (⟨S7168x256, .f32⟩ : BufTy).Contents (Elt F) → (⟨S4096x3x256, .f32⟩ : BufTy).Contents (Elt F)),
    StableHlo.unary main_arg6 main_v26 (broadcastInDim S1x1x256 ![2] bcast_S256_S1x1x256_2 : (⟨S256, .f32⟩ : BufTy).Contents (Elt F) → (⟨S1x1x256, .f32⟩ : BufTy).Contents (Elt F)),
    StableHlo.unary main_v26 main_v27 (broadcastInDim S4096x3x256 ![0, 1, 2] bcast_S1x1x256_S4096x3x256_0_1_2 : (⟨S1x1x256, .f32⟩ : BufTy).Contents (Elt F) → (⟨S4096x3x256, .f32⟩ : BufTy).Contents (Elt F)),
    StableHlo.binary main_v25 main_v27 main_v28 (addf : (⟨S4096x3x256, .f32⟩ : BufTy).Contents (Elt F) → (⟨S4096x3x256, .f32⟩ : BufTy).Contents (Elt F) → (⟨S4096x3x256, .f32⟩ : BufTy).Contents (Elt F)),
    StableHlo.TRef.nullary main_call4.cst (constant S_ .f32 0x00000000#32),
    StableHlo.TRef.unary main_call4.cst main_call4.v0 (broadcastInDim S4096x3x256 ![] bcast_S_S4096x3x256),
    StableHlo.TRef.binary (.of main_v28) main_call4.v0 main_call4.v1 maximumf,
    StableHlo.binary main_v29 main_arg7 main_v30 ((fun l r => Host.dotGeneral dot_S4096x3x256_S256x256_S4096x3x256_2_0_01_1_n_n none l r) : (⟨S4096x3x256, .f32⟩ : BufTy).Contents (Elt F) → (⟨S256x256, .f32⟩ : BufTy).Contents (Elt F) → (⟨S4096x3x256, .f32⟩ : BufTy).Contents (Elt F)),
    StableHlo.unary main_arg8 main_v31 (broadcastInDim S1x1x256 ![2] bcast_S256_S1x1x256_2 : (⟨S256, .f32⟩ : BufTy).Contents (Elt F) → (⟨S1x1x256, .f32⟩ : BufTy).Contents (Elt F)),
    StableHlo.unary main_v31 main_v32 (broadcastInDim S4096x3x256 ![0, 1, 2] bcast_S1x1x256_S4096x3x256_0_1_2 : (⟨S1x1x256, .f32⟩ : BufTy).Contents (Elt F) → (⟨S4096x3x256, .f32⟩ : BufTy).Contents (Elt F)),
    StableHlo.binary main_v30 main_v32 main_v33 (addf : (⟨S4096x3x256, .f32⟩ : BufTy).Contents (Elt F) → (⟨S4096x3x256, .f32⟩ : BufTy).Contents (Elt F) → (⟨S4096x3x256, .f32⟩ : BufTy).Contents (Elt F)),
    StableHlo.TRef.nullary main_call5.cst (constant S_ .f32 0x00000000#32),
    StableHlo.TRef.unary main_call5.cst main_call5.v0 (broadcastInDim S4096x3x256 ![] bcast_S_S4096x3x256),
    StableHlo.TRef.binary (.of main_v33) main_call5.v0 main_call5.v1 maximumf,
    StableHlo.nullary main_cst_15 (constant S_ .f32 0x00000000#32),
    StableHlo.binary main_v34 main_cst_15 main_v35 ((fun x v => Host.reduceAdd x v reducesTo_S4096x3x256_S4096x256_d1 h_S_) : (⟨S4096x3x256, .f32⟩ : BufTy).Contents (Elt F) → (⟨S_, .f32⟩ : BufTy).Contents (Elt F) → (⟨S4096x256, .f32⟩ : BufTy).Contents (Elt F)),
    StableHlo.binary main_v17 main_v35 main_v36 (addf : (⟨S4096x256, .f32⟩ : BufTy).Contents (Elt F) → (⟨S4096x256, .f32⟩ : BufTy).Contents (Elt F) → (⟨S4096x256, .f32⟩ : BufTy).Contents (Elt F)),
    StableHlo.nullary main_c_16 (constantI S_ 32 8#32),
    StableHlo.unary main_c_16 main_v37 (broadcastInDim S3x6 ![] bcast_S_S3x6 : (⟨S_, .i32⟩ : BufTy).Contents (Elt F) → (⟨S3x6, .i32⟩ : BufTy).Contents (Elt F)),
    StableHlo.binary main_c_3 main_v37 main_v38 (addi : (⟨S3x6, .i32⟩ : BufTy).Contents (Elt F) → (⟨S3x6, .i32⟩ : BufTy).Contents (Elt F) → (⟨S3x6, .i32⟩ : BufTy).Contents (Elt F)),
    StableHlo.ternary main_c_4 main_v38 main_c_3 main_v39 (select : (⟨S3x6, .i1⟩ : BufTy).Contents (Elt F) → (⟨S3x6, .i32⟩ : BufTy).Contents (Elt F) → (⟨S3x6, .i32⟩ : BufTy).Contents (Elt F) → (⟨S3x6, .i32⟩ : BufTy).Contents (Elt F)),
    StableHlo.unary main_v39 main_v40 (broadcastInDim S3x6x1 ![0, 1] bcast_S3x6_S3x6x1_0_1 : (⟨S3x6, .i32⟩ : BufTy).Contents (Elt F) → (⟨S3x6x1, .i32⟩ : BufTy).Contents (Elt F)) ]

/-- The operations of @main's window 1 (numbers 73 … 150 of 209), in order. -/
abbrev ops1 : List (HloOp τ sig (Elt F)) :=
  [ StableHlo.binary main_arg0 main_v40 main_v41 ((fun x i => Host.gather gather_S4096x8x1024_S3x6x1_S4096x3x6x1024_03_1_n_n_1_2_409611024 x i) : (⟨S4096x8x1024, .f32⟩ : BufTy).Contents (Elt F) → (⟨S3x6x1, .i32⟩ : BufTy).Contents (Elt F) → (⟨S4096x3x6x1024, .f32⟩ : BufTy).Contents (Elt F)),
    StableHlo.reshape main_v41 main_v42 rfl shapeCasts_S4096x3x6x1024_S4096x3x6144,
    StableHlo.TRef.nullary main_call6.cst (constant S_ .f32 0x00000000#32),
    StableHlo.TRef.unary main_call6.cst main_call6.v0 (broadcastInDim S4096x3x6144 ![] bcast_S_S4096x3x6144),
    StableHlo.TRef.binary (.of main_v42) main_call6.v0 main_call6.v1 maximumf,
    StableHlo.binary main_v43 main_arg9 main_v44 ((fun l r => Host.dotGeneral dot_S4096x3x6144_S6144x256_S4096x3x256_2_0_01_1_n_n none l r) : (⟨S4096x3x6144, .f32⟩ : BufTy).Contents (Elt F) → (⟨S6144x256, .f32⟩ : BufTy).Contents (Elt F) → (⟨S4096x3x256, .f32⟩ : BufTy).Contents (Elt F)),
    StableHlo.unary main_arg10 main_v45 (broadcastInDim S1x1x256 ![2] bcast_S256_S1x1x256_2 : (⟨S256, .f32⟩ : BufTy).Contents (Elt F) → (⟨S1x1x256, .f32⟩ : BufTy).Contents (Elt F)),
    StableHlo.unary main_v45 main_v46 (broadcastInDim S4096x3x256 ![0, 1, 2] bcast_S1x1x256_S4096x3x256_0_1_2 : (⟨S1x1x256, .f32⟩ : BufTy).Contents (Elt F) → (⟨S4096x3x256, .f32⟩ : BufTy).Contents (Elt F)),
    StableHlo.binary main_v44 main_v46 main_v47 (addf : (⟨S4096x3x256, .f32⟩ : BufTy).Contents (Elt F) → (⟨S4096x3x256, .f32⟩ : BufTy).Contents (Elt F) → (⟨S4096x3x256, .f32⟩ : BufTy).Contents (Elt F)),
    StableHlo.TRef.nullary main_call7.cst (constant S_ .f32 0x00000000#32),
    StableHlo.TRef.unary main_call7.cst main_call7.v0 (broadcastInDim S4096x3x256 ![] bcast_S_S4096x3x256),
    StableHlo.TRef.binary (.of main_v47) main_call7.v0 main_call7.v1 maximumf,
    StableHlo.binary main_v48 main_arg11 main_v49 ((fun l r => Host.dotGeneral dot_S4096x3x256_S256x256_S4096x3x256_2_0_01_1_n_n none l r) : (⟨S4096x3x256, .f32⟩ : BufTy).Contents (Elt F) → (⟨S256x256, .f32⟩ : BufTy).Contents (Elt F) → (⟨S4096x3x256, .f32⟩ : BufTy).Contents (Elt F)),
    StableHlo.unary main_arg12 main_v50 (broadcastInDim S1x1x256 ![2] bcast_S256_S1x1x256_2 : (⟨S256, .f32⟩ : BufTy).Contents (Elt F) → (⟨S1x1x256, .f32⟩ : BufTy).Contents (Elt F)),
    StableHlo.unary main_v50 main_v51 (broadcastInDim S4096x3x256 ![0, 1, 2] bcast_S1x1x256_S4096x3x256_0_1_2 : (⟨S1x1x256, .f32⟩ : BufTy).Contents (Elt F) → (⟨S4096x3x256, .f32⟩ : BufTy).Contents (Elt F)),
    StableHlo.binary main_v49 main_v51 main_v52 (addf : (⟨S4096x3x256, .f32⟩ : BufTy).Contents (Elt F) → (⟨S4096x3x256, .f32⟩ : BufTy).Contents (Elt F) → (⟨S4096x3x256, .f32⟩ : BufTy).Contents (Elt F)),
    StableHlo.TRef.nullary main_call8.cst (constant S_ .f32 0x00000000#32),
    StableHlo.TRef.unary main_call8.cst main_call8.v0 (broadcastInDim S4096x3x256 ![] bcast_S_S4096x3x256),
    StableHlo.TRef.binary (.of main_v52) main_call8.v0 main_call8.v1 maximumf,
    StableHlo.nullary main_cst_17 (constant S_ .f32 0x00000000#32),
    StableHlo.binary main_v53 main_cst_17 main_v54 ((fun x v => Host.reduceAdd x v reducesTo_S4096x3x256_S4096x256_d1 h_S_) : (⟨S4096x3x256, .f32⟩ : BufTy).Contents (Elt F) → (⟨S_, .f32⟩ : BufTy).Contents (Elt F) → (⟨S4096x256, .f32⟩ : BufTy).Contents (Elt F)),
    StableHlo.binary main_v36 main_v54 main_v55 (addf : (⟨S4096x256, .f32⟩ : BufTy).Contents (Elt F) → (⟨S4096x256, .f32⟩ : BufTy).Contents (Elt F) → (⟨S4096x256, .f32⟩ : BufTy).Contents (Elt F)),
    StableHlo.nullary main_c_18 (constantI S_ 32 8#32),
    StableHlo.unary main_c_18 main_v56 (broadcastInDim S3x5 ![] bcast_S_S3x5 : (⟨S_, .i32⟩ : BufTy).Contents (Elt F) → (⟨S3x5, .i32⟩ : BufTy).Contents (Elt F)),
    StableHlo.binary main_c_5 main_v56 main_v57 (addi : (⟨S3x5, .i32⟩ : BufTy).Contents (Elt F) → (⟨S3x5, .i32⟩ : BufTy).Contents (Elt F) → (⟨S3x5, .i32⟩ : BufTy).Contents (Elt F)),
    StableHlo.ternary main_c_6 main_v57 main_c_5 main_v58 (select : (⟨S3x5, .i1⟩ : BufTy).Contents (Elt F) → (⟨S3x5, .i32⟩ : BufTy).Contents (Elt F) → (⟨S3x5, .i32⟩ : BufTy).Contents (Elt F) → (⟨S3x5, .i32⟩ : BufTy).Contents (Elt F)),
    StableHlo.unary main_v58 main_v59 (broadcastInDim S3x5x1 ![0, 1] bcast_S3x5_S3x5x1_0_1 : (⟨S3x5, .i32⟩ : BufTy).Contents (Elt F) → (⟨S3x5x1, .i32⟩ : BufTy).Contents (Elt F)),
    StableHlo.binary main_arg0 main_v59 main_v60 ((fun x i => Host.gather gather_S4096x8x1024_S3x5x1_S4096x3x5x1024_03_1_n_n_1_2_409611024 x i) : (⟨S4096x8x1024, .f32⟩ : BufTy).Contents (Elt F) → (⟨S3x5x1, .i32⟩ : BufTy).Contents (Elt F) → (⟨S4096x3x5x1024, .f32⟩ : BufTy).Contents (Elt F)),
    StableHlo.reshape main_v60 main_v61 rfl shapeCasts_S4096x3x5x1024_S4096x3x5120,
    StableHlo.TRef.nullary main_call9.cst (constant S_ .f32 0x00000000#32),
    StableHlo.TRef.unary main_call9.cst main_call9.v0 (broadcastInDim S4096x3x5120 ![] bcast_S_S4096x3x5120),
    StableHlo.TRef.binary (.of main_v61) main_call9.v0 main_call9.v1 maximumf,
    StableHlo.binary main_v62 main_arg13 main_v63 ((fun l r => Host.dotGeneral dot_S4096x3x5120_S5120x256_S4096x3x256_2_0_01_1_n_n none l r) : (⟨S4096x3x5120, .f32⟩ : BufTy).Contents (Elt F) → (⟨S5120x256, .f32⟩ : BufTy).Contents (Elt F) → (⟨S4096x3x256, .f32⟩ : BufTy).Contents (Elt F)),
    StableHlo.unary main_arg14 main_v64 (broadcastInDim S1x1x256 ![2] bcast_S256_S1x1x256_2 : (⟨S256, .f32⟩ : BufTy).Contents (Elt F) → (⟨S1x1x256, .f32⟩ : BufTy).Contents (Elt F)),
    StableHlo.unary main_v64 main_v65 (broadcastInDim S4096x3x256 ![0, 1, 2] bcast_S1x1x256_S4096x3x256_0_1_2 : (⟨S1x1x256, .f32⟩ : BufTy).Contents (Elt F) → (⟨S4096x3x256, .f32⟩ : BufTy).Contents (Elt F)),
    StableHlo.binary main_v63 main_v65 main_v66 (addf : (⟨S4096x3x256, .f32⟩ : BufTy).Contents (Elt F) → (⟨S4096x3x256, .f32⟩ : BufTy).Contents (Elt F) → (⟨S4096x3x256, .f32⟩ : BufTy).Contents (Elt F)),
    StableHlo.TRef.nullary main_call10.cst (constant S_ .f32 0x00000000#32),
    StableHlo.TRef.unary main_call10.cst main_call10.v0 (broadcastInDim S4096x3x256 ![] bcast_S_S4096x3x256),
    StableHlo.TRef.binary (.of main_v66) main_call10.v0 main_call10.v1 maximumf,
    StableHlo.binary main_v67 main_arg15 main_v68 ((fun l r => Host.dotGeneral dot_S4096x3x256_S256x256_S4096x3x256_2_0_01_1_n_n none l r) : (⟨S4096x3x256, .f32⟩ : BufTy).Contents (Elt F) → (⟨S256x256, .f32⟩ : BufTy).Contents (Elt F) → (⟨S4096x3x256, .f32⟩ : BufTy).Contents (Elt F)),
    StableHlo.unary main_arg16 main_v69 (broadcastInDim S1x1x256 ![2] bcast_S256_S1x1x256_2 : (⟨S256, .f32⟩ : BufTy).Contents (Elt F) → (⟨S1x1x256, .f32⟩ : BufTy).Contents (Elt F)),
    StableHlo.unary main_v69 main_v70 (broadcastInDim S4096x3x256 ![0, 1, 2] bcast_S1x1x256_S4096x3x256_0_1_2 : (⟨S1x1x256, .f32⟩ : BufTy).Contents (Elt F) → (⟨S4096x3x256, .f32⟩ : BufTy).Contents (Elt F)),
    StableHlo.binary main_v68 main_v70 main_v71 (addf : (⟨S4096x3x256, .f32⟩ : BufTy).Contents (Elt F) → (⟨S4096x3x256, .f32⟩ : BufTy).Contents (Elt F) → (⟨S4096x3x256, .f32⟩ : BufTy).Contents (Elt F)),
    StableHlo.TRef.nullary main_call11.cst (constant S_ .f32 0x00000000#32),
    StableHlo.TRef.unary main_call11.cst main_call11.v0 (broadcastInDim S4096x3x256 ![] bcast_S_S4096x3x256),
    StableHlo.TRef.binary (.of main_v71) main_call11.v0 main_call11.v1 maximumf,
    StableHlo.nullary main_cst_19 (constant S_ .f32 0x00000000#32),
    StableHlo.binary main_v72 main_cst_19 main_v73 ((fun x v => Host.reduceAdd x v reducesTo_S4096x3x256_S4096x256_d1 h_S_) : (⟨S4096x3x256, .f32⟩ : BufTy).Contents (Elt F) → (⟨S_, .f32⟩ : BufTy).Contents (Elt F) → (⟨S4096x256, .f32⟩ : BufTy).Contents (Elt F)),
    StableHlo.binary main_v55 main_v73 main_v74 (addf : (⟨S4096x256, .f32⟩ : BufTy).Contents (Elt F) → (⟨S4096x256, .f32⟩ : BufTy).Contents (Elt F) → (⟨S4096x256, .f32⟩ : BufTy).Contents (Elt F)),
    StableHlo.nullary main_c_20 (constantI S_ 32 8#32),
    StableHlo.unary main_c_20 main_v75 (broadcastInDim S3x4 ![] bcast_S_S3x4 : (⟨S_, .i32⟩ : BufTy).Contents (Elt F) → (⟨S3x4, .i32⟩ : BufTy).Contents (Elt F)),
    StableHlo.binary main_c_7 main_v75 main_v76 (addi : (⟨S3x4, .i32⟩ : BufTy).Contents (Elt F) → (⟨S3x4, .i32⟩ : BufTy).Contents (Elt F) → (⟨S3x4, .i32⟩ : BufTy).Contents (Elt F)),
    StableHlo.ternary main_c_8 main_v76 main_c_7 main_v77 (select : (⟨S3x4, .i1⟩ : BufTy).Contents (Elt F) → (⟨S3x4, .i32⟩ : BufTy).Contents (Elt F) → (⟨S3x4, .i32⟩ : BufTy).Contents (Elt F) → (⟨S3x4, .i32⟩ : BufTy).Contents (Elt F)),
    StableHlo.unary main_v77 main_v78 (broadcastInDim S3x4x1 ![0, 1] bcast_S3x4_S3x4x1_0_1 : (⟨S3x4, .i32⟩ : BufTy).Contents (Elt F) → (⟨S3x4x1, .i32⟩ : BufTy).Contents (Elt F)),
    StableHlo.binary main_arg0 main_v78 main_v79 ((fun x i => Host.gather gather_S4096x8x1024_S3x4x1_S4096x3x4x1024_03_1_n_n_1_2_409611024 x i) : (⟨S4096x8x1024, .f32⟩ : BufTy).Contents (Elt F) → (⟨S3x4x1, .i32⟩ : BufTy).Contents (Elt F) → (⟨S4096x3x4x1024, .f32⟩ : BufTy).Contents (Elt F)),
    StableHlo.reshape main_v79 main_v80 rfl shapeCasts_S4096x3x4x1024_S4096x3x4096,
    StableHlo.TRef.nullary main_call12.cst (constant S_ .f32 0x00000000#32),
    StableHlo.TRef.unary main_call12.cst main_call12.v0 (broadcastInDim S4096x3x4096 ![] bcast_S_S4096x3x4096),
    StableHlo.TRef.binary (.of main_v80) main_call12.v0 main_call12.v1 maximumf,
    StableHlo.binary main_v81 main_arg17 main_v82 ((fun l r => Host.dotGeneral dot_S4096x3x4096_S4096x256_S4096x3x256_2_0_01_1_n_n none l r) : (⟨S4096x3x4096, .f32⟩ : BufTy).Contents (Elt F) → (⟨S4096x256, .f32⟩ : BufTy).Contents (Elt F) → (⟨S4096x3x256, .f32⟩ : BufTy).Contents (Elt F)),
    StableHlo.unary main_arg18 main_v83 (broadcastInDim S1x1x256 ![2] bcast_S256_S1x1x256_2 : (⟨S256, .f32⟩ : BufTy).Contents (Elt F) → (⟨S1x1x256, .f32⟩ : BufTy).Contents (Elt F)),
    StableHlo.unary main_v83 main_v84 (broadcastInDim S4096x3x256 ![0, 1, 2] bcast_S1x1x256_S4096x3x256_0_1_2 : (⟨S1x1x256, .f32⟩ : BufTy).Contents (Elt F) → (⟨S4096x3x256, .f32⟩ : BufTy).Contents (Elt F)),
    StableHlo.binary main_v82 main_v84 main_v85 (addf : (⟨S4096x3x256, .f32⟩ : BufTy).Contents (Elt F) → (⟨S4096x3x256, .f32⟩ : BufTy).Contents (Elt F) → (⟨S4096x3x256, .f32⟩ : BufTy).Contents (Elt F)),
    StableHlo.TRef.nullary main_call13.cst (constant S_ .f32 0x00000000#32),
    StableHlo.TRef.unary main_call13.cst main_call13.v0 (broadcastInDim S4096x3x256 ![] bcast_S_S4096x3x256),
    StableHlo.TRef.binary (.of main_v85) main_call13.v0 main_call13.v1 maximumf,
    StableHlo.binary main_v86 main_arg19 main_v87 ((fun l r => Host.dotGeneral dot_S4096x3x256_S256x256_S4096x3x256_2_0_01_1_n_n none l r) : (⟨S4096x3x256, .f32⟩ : BufTy).Contents (Elt F) → (⟨S256x256, .f32⟩ : BufTy).Contents (Elt F) → (⟨S4096x3x256, .f32⟩ : BufTy).Contents (Elt F)),
    StableHlo.unary main_arg20 main_v88 (broadcastInDim S1x1x256 ![2] bcast_S256_S1x1x256_2 : (⟨S256, .f32⟩ : BufTy).Contents (Elt F) → (⟨S1x1x256, .f32⟩ : BufTy).Contents (Elt F)),
    StableHlo.unary main_v88 main_v89 (broadcastInDim S4096x3x256 ![0, 1, 2] bcast_S1x1x256_S4096x3x256_0_1_2 : (⟨S1x1x256, .f32⟩ : BufTy).Contents (Elt F) → (⟨S4096x3x256, .f32⟩ : BufTy).Contents (Elt F)),
    StableHlo.binary main_v87 main_v89 main_v90 (addf : (⟨S4096x3x256, .f32⟩ : BufTy).Contents (Elt F) → (⟨S4096x3x256, .f32⟩ : BufTy).Contents (Elt F) → (⟨S4096x3x256, .f32⟩ : BufTy).Contents (Elt F)),
    StableHlo.TRef.nullary main_call14.cst (constant S_ .f32 0x00000000#32),
    StableHlo.TRef.unary main_call14.cst main_call14.v0 (broadcastInDim S4096x3x256 ![] bcast_S_S4096x3x256),
    StableHlo.TRef.binary (.of main_v90) main_call14.v0 main_call14.v1 maximumf,
    StableHlo.nullary main_cst_21 (constant S_ .f32 0x00000000#32),
    StableHlo.binary main_v91 main_cst_21 main_v92 ((fun x v => Host.reduceAdd x v reducesTo_S4096x3x256_S4096x256_d1 h_S_) : (⟨S4096x3x256, .f32⟩ : BufTy).Contents (Elt F) → (⟨S_, .f32⟩ : BufTy).Contents (Elt F) → (⟨S4096x256, .f32⟩ : BufTy).Contents (Elt F)),
    StableHlo.binary main_v74 main_v92 main_v93 (addf : (⟨S4096x256, .f32⟩ : BufTy).Contents (Elt F) → (⟨S4096x256, .f32⟩ : BufTy).Contents (Elt F) → (⟨S4096x256, .f32⟩ : BufTy).Contents (Elt F)),
    StableHlo.nullary main_c_22 (constantI S_ 32 8#32),
    StableHlo.unary main_c_22 main_v94 (broadcastInDim S3x3 ![] bcast_S_S3x3 : (⟨S_, .i32⟩ : BufTy).Contents (Elt F) → (⟨S3x3, .i32⟩ : BufTy).Contents (Elt F)) ]

/-- The operations of @main's window 2 (numbers 151 … 209 of 209), in order. -/
abbrev ops2 : List (HloOp τ sig (Elt F)) :=
  [ StableHlo.binary main_c_9 main_v94 main_v95 (addi : (⟨S3x3, .i32⟩ : BufTy).Contents (Elt F) → (⟨S3x3, .i32⟩ : BufTy).Contents (Elt F) → (⟨S3x3, .i32⟩ : BufTy).Contents (Elt F)),
    StableHlo.ternary main_c_10 main_v95 main_c_9 main_v96 (select : (⟨S3x3, .i1⟩ : BufTy).Contents (Elt F) → (⟨S3x3, .i32⟩ : BufTy).Contents (Elt F) → (⟨S3x3, .i32⟩ : BufTy).Contents (Elt F) → (⟨S3x3, .i32⟩ : BufTy).Contents (Elt F)),
    StableHlo.unary main_v96 main_v97 (broadcastInDim S3x3x1 ![0, 1] bcast_S3x3_S3x3x1_0_1 : (⟨S3x3, .i32⟩ : BufTy).Contents (Elt F) → (⟨S3x3x1, .i32⟩ : BufTy).Contents (Elt F)),
    StableHlo.binary main_arg0 main_v97 main_v98 ((fun x i => Host.gather gather_S4096x8x1024_S3x3x1_S4096x3x3x1024_03_1_n_n_1_2_409611024 x i) : (⟨S4096x8x1024, .f32⟩ : BufTy).Contents (Elt F) → (⟨S3x3x1, .i32⟩ : BufTy).Contents (Elt F) → (⟨S4096x3x3x1024, .f32⟩ : BufTy).Contents (Elt F)),
    StableHlo.reshape main_v98 main_v99 rfl shapeCasts_S4096x3x3x1024_S4096x3x3072,
    StableHlo.TRef.nullary main_call15.cst (constant S_ .f32 0x00000000#32),
    StableHlo.TRef.unary main_call15.cst main_call15.v0 (broadcastInDim S4096x3x3072 ![] bcast_S_S4096x3x3072),
    StableHlo.TRef.binary (.of main_v99) main_call15.v0 main_call15.v1 maximumf,
    StableHlo.binary main_v100 main_arg21 main_v101 ((fun l r => Host.dotGeneral dot_S4096x3x3072_S3072x256_S4096x3x256_2_0_01_1_n_n none l r) : (⟨S4096x3x3072, .f32⟩ : BufTy).Contents (Elt F) → (⟨S3072x256, .f32⟩ : BufTy).Contents (Elt F) → (⟨S4096x3x256, .f32⟩ : BufTy).Contents (Elt F)),
    StableHlo.unary main_arg22 main_v102 (broadcastInDim S1x1x256 ![2] bcast_S256_S1x1x256_2 : (⟨S256, .f32⟩ : BufTy).Contents (Elt F) → (⟨S1x1x256, .f32⟩ : BufTy).Contents (Elt F)),
    StableHlo.unary main_v102 main_v103 (broadcastInDim S4096x3x256 ![0, 1, 2] bcast_S1x1x256_S4096x3x256_0_1_2 : (⟨S1x1x256, .f32⟩ : BufTy).Contents (Elt F) → (⟨S4096x3x256, .f32⟩ : BufTy).Contents (Elt F)),
    StableHlo.binary main_v101 main_v103 main_v104 (addf : (⟨S4096x3x256, .f32⟩ : BufTy).Contents (Elt F) → (⟨S4096x3x256, .f32⟩ : BufTy).Contents (Elt F) → (⟨S4096x3x256, .f32⟩ : BufTy).Contents (Elt F)),
    StableHlo.TRef.nullary main_call16.cst (constant S_ .f32 0x00000000#32),
    StableHlo.TRef.unary main_call16.cst main_call16.v0 (broadcastInDim S4096x3x256 ![] bcast_S_S4096x3x256),
    StableHlo.TRef.binary (.of main_v104) main_call16.v0 main_call16.v1 maximumf,
    StableHlo.binary main_v105 main_arg23 main_v106 ((fun l r => Host.dotGeneral dot_S4096x3x256_S256x256_S4096x3x256_2_0_01_1_n_n none l r) : (⟨S4096x3x256, .f32⟩ : BufTy).Contents (Elt F) → (⟨S256x256, .f32⟩ : BufTy).Contents (Elt F) → (⟨S4096x3x256, .f32⟩ : BufTy).Contents (Elt F)),
    StableHlo.unary main_arg24 main_v107 (broadcastInDim S1x1x256 ![2] bcast_S256_S1x1x256_2 : (⟨S256, .f32⟩ : BufTy).Contents (Elt F) → (⟨S1x1x256, .f32⟩ : BufTy).Contents (Elt F)),
    StableHlo.unary main_v107 main_v108 (broadcastInDim S4096x3x256 ![0, 1, 2] bcast_S1x1x256_S4096x3x256_0_1_2 : (⟨S1x1x256, .f32⟩ : BufTy).Contents (Elt F) → (⟨S4096x3x256, .f32⟩ : BufTy).Contents (Elt F)),
    StableHlo.binary main_v106 main_v108 main_v109 (addf : (⟨S4096x3x256, .f32⟩ : BufTy).Contents (Elt F) → (⟨S4096x3x256, .f32⟩ : BufTy).Contents (Elt F) → (⟨S4096x3x256, .f32⟩ : BufTy).Contents (Elt F)),
    StableHlo.TRef.nullary main_call17.cst (constant S_ .f32 0x00000000#32),
    StableHlo.TRef.unary main_call17.cst main_call17.v0 (broadcastInDim S4096x3x256 ![] bcast_S_S4096x3x256),
    StableHlo.TRef.binary (.of main_v109) main_call17.v0 main_call17.v1 maximumf,
    StableHlo.nullary main_cst_23 (constant S_ .f32 0x00000000#32),
    StableHlo.binary main_v110 main_cst_23 main_v111 ((fun x v => Host.reduceAdd x v reducesTo_S4096x3x256_S4096x256_d1 h_S_) : (⟨S4096x3x256, .f32⟩ : BufTy).Contents (Elt F) → (⟨S_, .f32⟩ : BufTy).Contents (Elt F) → (⟨S4096x256, .f32⟩ : BufTy).Contents (Elt F)),
    StableHlo.binary main_v93 main_v111 main_v112 (addf : (⟨S4096x256, .f32⟩ : BufTy).Contents (Elt F) → (⟨S4096x256, .f32⟩ : BufTy).Contents (Elt F) → (⟨S4096x256, .f32⟩ : BufTy).Contents (Elt F)),
    StableHlo.nullary main_c_24 (constantI S_ 32 8#32),
    StableHlo.unary main_c_24 main_v113 (broadcastInDim S3x2 ![] bcast_S_S3x2 : (⟨S_, .i32⟩ : BufTy).Contents (Elt F) → (⟨S3x2, .i32⟩ : BufTy).Contents (Elt F)),
    StableHlo.binary main_c_11 main_v113 main_v114 (addi : (⟨S3x2, .i32⟩ : BufTy).Contents (Elt F) → (⟨S3x2, .i32⟩ : BufTy).Contents (Elt F) → (⟨S3x2, .i32⟩ : BufTy).Contents (Elt F)),
    StableHlo.ternary main_c_12 main_v114 main_c_11 main_v115 (select : (⟨S3x2, .i1⟩ : BufTy).Contents (Elt F) → (⟨S3x2, .i32⟩ : BufTy).Contents (Elt F) → (⟨S3x2, .i32⟩ : BufTy).Contents (Elt F) → (⟨S3x2, .i32⟩ : BufTy).Contents (Elt F)),
    StableHlo.unary main_v115 main_v116 (broadcastInDim S3x2x1 ![0, 1] bcast_S3x2_S3x2x1_0_1 : (⟨S3x2, .i32⟩ : BufTy).Contents (Elt F) → (⟨S3x2x1, .i32⟩ : BufTy).Contents (Elt F)),
    StableHlo.binary main_arg0 main_v116 main_v117 ((fun x i => Host.gather gather_S4096x8x1024_S3x2x1_S4096x3x2x1024_03_1_n_n_1_2_409611024 x i) : (⟨S4096x8x1024, .f32⟩ : BufTy).Contents (Elt F) → (⟨S3x2x1, .i32⟩ : BufTy).Contents (Elt F) → (⟨S4096x3x2x1024, .f32⟩ : BufTy).Contents (Elt F)),
    StableHlo.reshape main_v117 main_v118 rfl shapeCasts_S4096x3x2x1024_S4096x3x2048,
    StableHlo.TRef.nullary main_call18.cst (constant S_ .f32 0x00000000#32),
    StableHlo.TRef.unary main_call18.cst main_call18.v0 (broadcastInDim S4096x3x2048 ![] bcast_S_S4096x3x2048),
    StableHlo.TRef.binary (.of main_v118) main_call18.v0 main_call18.v1 maximumf,
    StableHlo.binary main_v119 main_arg25 main_v120 ((fun l r => Host.dotGeneral dot_S4096x3x2048_S2048x256_S4096x3x256_2_0_01_1_n_n none l r) : (⟨S4096x3x2048, .f32⟩ : BufTy).Contents (Elt F) → (⟨S2048x256, .f32⟩ : BufTy).Contents (Elt F) → (⟨S4096x3x256, .f32⟩ : BufTy).Contents (Elt F)),
    StableHlo.unary main_arg26 main_v121 (broadcastInDim S1x1x256 ![2] bcast_S256_S1x1x256_2 : (⟨S256, .f32⟩ : BufTy).Contents (Elt F) → (⟨S1x1x256, .f32⟩ : BufTy).Contents (Elt F)),
    StableHlo.unary main_v121 main_v122 (broadcastInDim S4096x3x256 ![0, 1, 2] bcast_S1x1x256_S4096x3x256_0_1_2 : (⟨S1x1x256, .f32⟩ : BufTy).Contents (Elt F) → (⟨S4096x3x256, .f32⟩ : BufTy).Contents (Elt F)),
    StableHlo.binary main_v120 main_v122 main_v123 (addf : (⟨S4096x3x256, .f32⟩ : BufTy).Contents (Elt F) → (⟨S4096x3x256, .f32⟩ : BufTy).Contents (Elt F) → (⟨S4096x3x256, .f32⟩ : BufTy).Contents (Elt F)),
    StableHlo.TRef.nullary main_call19.cst (constant S_ .f32 0x00000000#32),
    StableHlo.TRef.unary main_call19.cst main_call19.v0 (broadcastInDim S4096x3x256 ![] bcast_S_S4096x3x256),
    StableHlo.TRef.binary (.of main_v123) main_call19.v0 main_call19.v1 maximumf,
    StableHlo.binary main_v124 main_arg27 main_v125 ((fun l r => Host.dotGeneral dot_S4096x3x256_S256x256_S4096x3x256_2_0_01_1_n_n none l r) : (⟨S4096x3x256, .f32⟩ : BufTy).Contents (Elt F) → (⟨S256x256, .f32⟩ : BufTy).Contents (Elt F) → (⟨S4096x3x256, .f32⟩ : BufTy).Contents (Elt F)),
    StableHlo.unary main_arg28 main_v126 (broadcastInDim S1x1x256 ![2] bcast_S256_S1x1x256_2 : (⟨S256, .f32⟩ : BufTy).Contents (Elt F) → (⟨S1x1x256, .f32⟩ : BufTy).Contents (Elt F)),
    StableHlo.unary main_v126 main_v127 (broadcastInDim S4096x3x256 ![0, 1, 2] bcast_S1x1x256_S4096x3x256_0_1_2 : (⟨S1x1x256, .f32⟩ : BufTy).Contents (Elt F) → (⟨S4096x3x256, .f32⟩ : BufTy).Contents (Elt F)),
    StableHlo.binary main_v125 main_v127 main_v128 (addf : (⟨S4096x3x256, .f32⟩ : BufTy).Contents (Elt F) → (⟨S4096x3x256, .f32⟩ : BufTy).Contents (Elt F) → (⟨S4096x3x256, .f32⟩ : BufTy).Contents (Elt F)),
    StableHlo.TRef.nullary main_call20.cst (constant S_ .f32 0x00000000#32),
    StableHlo.TRef.unary main_call20.cst main_call20.v0 (broadcastInDim S4096x3x256 ![] bcast_S_S4096x3x256),
    StableHlo.TRef.binary (.of main_v128) main_call20.v0 main_call20.v1 maximumf,
    StableHlo.nullary main_cst_25 (constant S_ .f32 0x00000000#32),
    StableHlo.binary main_v129 main_cst_25 main_v130 ((fun x v => Host.reduceAdd x v reducesTo_S4096x3x256_S4096x256_d1 h_S_) : (⟨S4096x3x256, .f32⟩ : BufTy).Contents (Elt F) → (⟨S_, .f32⟩ : BufTy).Contents (Elt F) → (⟨S4096x256, .f32⟩ : BufTy).Contents (Elt F)),
    StableHlo.binary main_v112 main_v130 main_v131 (addf : (⟨S4096x256, .f32⟩ : BufTy).Contents (Elt F) → (⟨S4096x256, .f32⟩ : BufTy).Contents (Elt F) → (⟨S4096x256, .f32⟩ : BufTy).Contents (Elt F)),
    StableHlo.binary main_v131 main_arg29 main_v132 ((fun l r => Host.dotGeneral dot_S4096x256_S256x400_S4096x400_1_0_0_1_n_n none l r) : (⟨S4096x256, .f32⟩ : BufTy).Contents (Elt F) → (⟨S256x400, .f32⟩ : BufTy).Contents (Elt F) → (⟨S4096x400, .f32⟩ : BufTy).Contents (Elt F)),
    StableHlo.unary main_arg30 main_v133 (broadcastInDim S1x400 ![1] bcast_S400_S1x400_1 : (⟨S400, .f32⟩ : BufTy).Contents (Elt F) → (⟨S1x400, .f32⟩ : BufTy).Contents (Elt F)),
    StableHlo.unary main_v133 main_v134 (broadcastInDim S4096x400 ![0, 1] bcast_S1x400_S4096x400_0_1 : (⟨S1x400, .f32⟩ : BufTy).Contents (Elt F) → (⟨S4096x400, .f32⟩ : BufTy).Contents (Elt F)),
    StableHlo.binary main_v132 main_v134 main_v135 (addf : (⟨S4096x400, .f32⟩ : BufTy).Contents (Elt F) → (⟨S4096x400, .f32⟩ : BufTy).Contents (Elt F) → (⟨S4096x400, .f32⟩ : BufTy).Contents (Elt F)),
    StableHlo.TRef.nullary main_call21.cst (constant S_ .f32 0x00000000#32),
    StableHlo.TRef.unary main_call21.cst main_call21.v0 (broadcastInDim S4096x400 ![] bcast_S_S4096x400),
    StableHlo.TRef.binary (.of main_v135) main_call21.v0 main_call21.v1 maximumf ]

/-- @main's 209 operations, in order. -/
abbrev ops : List (HloOp τ sig (Elt F)) := ops0 ++ (ops1 ++ ops2)

set_option maxRecDepth 8192 in
set_option maxHeartbeats 4000000 in
/-- Window 0 is that straight line: the calls unfold to their bodies over the calls' buffers. -/
theorem main_part0_eq (c : Dev nD) : main_part0 (F := F) c = seq ops0 := rfl

set_option maxRecDepth 8192 in
set_option maxHeartbeats 4000000 in
/-- Window 1 is that straight line: the calls unfold to their bodies over the calls' buffers. -/
theorem main_part1_eq (c : Dev nD) : main_part1 (F := F) c = seq ops1 := rfl

set_option maxRecDepth 8192 in
set_option maxHeartbeats 4000000 in
/-- Window 2 is that straight line: the calls unfold to their bodies over the calls' buffers. -/
theorem main_part2_eq (c : Dev nD) : main_part2 (F := F) c = seq ops2 := rfl

/-- @main runs its three windows in order, and a concatenation runs its parts in order. -/
theorem main_eq (c : Dev nD) : main (F := F) c = seq ops := by
  simp only [ops, seq_append, ← main_part0_eq c, ← main_part1_eq c, ← main_part2_eq c]
  rfl

theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
theorem ops0_sub : (ops0 : List (HloOp τ sig (Elt F))).Forall fun op => op.bufs ⊆ tcRefs τ sig :=
  ⟨nullary_bufs_sub .., nullary_bufs_sub .., nullary_bufs_sub .., nullary_bufs_sub .., nullary_bufs_sub .., nullary_bufs_sub ..,
    nullary_bufs_sub .., nullary_bufs_sub .., nullary_bufs_sub .., nullary_bufs_sub .., nullary_bufs_sub .., nullary_bufs_sub ..,
    nullary_bufs_sub .., nullary_bufs_sub .., nullary_bufs_sub .., unary_bufs_sub .., binary_bufs_sub .., ternary_bufs_sub ..,
    unary_bufs_sub .., binary_bufs_sub .., reshape_bufs_sub .., nullary_bufs_sub .., unary_bufs_sub .., binary_bufs_sub ..,
    binary_bufs_sub .., unary_bufs_sub .., unary_bufs_sub .., binary_bufs_sub .., nullary_bufs_sub .., unary_bufs_sub ..,
    binary_bufs_sub .., binary_bufs_sub .., unary_bufs_sub .., unary_bufs_sub .., binary_bufs_sub .., nullary_bufs_sub ..,
    unary_bufs_sub .., binary_bufs_sub .., nullary_bufs_sub .., binary_bufs_sub .., nullary_bufs_sub .., unary_bufs_sub ..,
    binary_bufs_sub .., ternary_bufs_sub .., unary_bufs_sub .., binary_bufs_sub .., reshape_bufs_sub .., nullary_bufs_sub ..,
    unary_bufs_sub .., binary_bufs_sub .., binary_bufs_sub .., unary_bufs_sub .., unary_bufs_sub .., binary_bufs_sub ..,
    nullary_bufs_sub .., unary_bufs_sub .., binary_bufs_sub .., binary_bufs_sub .., unary_bufs_sub .., unary_bufs_sub ..,
    binary_bufs_sub .., nullary_bufs_sub .., unary_bufs_sub .., binary_bufs_sub .., nullary_bufs_sub .., binary_bufs_sub ..,
    binary_bufs_sub .., nullary_bufs_sub .., unary_bufs_sub .., binary_bufs_sub .., ternary_bufs_sub .., unary_bufs_sub ..⟩

set_option maxRecDepth 8192 in
theorem ops1_sub : (ops1 : List (HloOp τ sig (Elt F))).Forall fun op => op.bufs ⊆ tcRefs τ sig :=
  ⟨binary_bufs_sub .., reshape_bufs_sub .., nullary_bufs_sub .., unary_bufs_sub .., binary_bufs_sub .., binary_bufs_sub ..,
    unary_bufs_sub .., unary_bufs_sub .., binary_bufs_sub .., nullary_bufs_sub .., unary_bufs_sub .., binary_bufs_sub ..,
    binary_bufs_sub .., unary_bufs_sub .., unary_bufs_sub .., binary_bufs_sub .., nullary_bufs_sub .., unary_bufs_sub ..,
    binary_bufs_sub .., nullary_bufs_sub .., binary_bufs_sub .., binary_bufs_sub .., nullary_bufs_sub .., unary_bufs_sub ..,
    binary_bufs_sub .., ternary_bufs_sub .., unary_bufs_sub .., binary_bufs_sub .., reshape_bufs_sub .., nullary_bufs_sub ..,
    unary_bufs_sub .., binary_bufs_sub .., binary_bufs_sub .., unary_bufs_sub .., unary_bufs_sub .., binary_bufs_sub ..,
    nullary_bufs_sub .., unary_bufs_sub .., binary_bufs_sub .., binary_bufs_sub .., unary_bufs_sub .., unary_bufs_sub ..,
    binary_bufs_sub .., nullary_bufs_sub .., unary_bufs_sub .., binary_bufs_sub .., nullary_bufs_sub .., binary_bufs_sub ..,
    binary_bufs_sub .., nullary_bufs_sub .., unary_bufs_sub .., binary_bufs_sub .., ternary_bufs_sub .., unary_bufs_sub ..,
    binary_bufs_sub .., reshape_bufs_sub .., nullary_bufs_sub .., unary_bufs_sub .., binary_bufs_sub .., binary_bufs_sub ..,
    unary_bufs_sub .., unary_bufs_sub .., binary_bufs_sub .., nullary_bufs_sub .., unary_bufs_sub .., binary_bufs_sub ..,
    binary_bufs_sub .., unary_bufs_sub .., unary_bufs_sub .., binary_bufs_sub .., nullary_bufs_sub .., unary_bufs_sub ..,
    binary_bufs_sub .., nullary_bufs_sub .., binary_bufs_sub .., binary_bufs_sub .., nullary_bufs_sub .., unary_bufs_sub ..⟩

set_option maxRecDepth 8192 in
theorem ops2_sub : (ops2 : List (HloOp τ sig (Elt F))).Forall fun op => op.bufs ⊆ tcRefs τ sig :=
  ⟨binary_bufs_sub .., ternary_bufs_sub .., unary_bufs_sub .., binary_bufs_sub .., reshape_bufs_sub .., nullary_bufs_sub ..,
    unary_bufs_sub .., binary_bufs_sub .., binary_bufs_sub .., unary_bufs_sub .., unary_bufs_sub .., binary_bufs_sub ..,
    nullary_bufs_sub .., unary_bufs_sub .., binary_bufs_sub .., binary_bufs_sub .., unary_bufs_sub .., unary_bufs_sub ..,
    binary_bufs_sub .., nullary_bufs_sub .., unary_bufs_sub .., binary_bufs_sub .., nullary_bufs_sub .., binary_bufs_sub ..,
    binary_bufs_sub .., nullary_bufs_sub .., unary_bufs_sub .., binary_bufs_sub .., ternary_bufs_sub .., unary_bufs_sub ..,
    binary_bufs_sub .., reshape_bufs_sub .., nullary_bufs_sub .., unary_bufs_sub .., binary_bufs_sub .., binary_bufs_sub ..,
    unary_bufs_sub .., unary_bufs_sub .., binary_bufs_sub .., nullary_bufs_sub .., unary_bufs_sub .., binary_bufs_sub ..,
    binary_bufs_sub .., unary_bufs_sub .., unary_bufs_sub .., binary_bufs_sub .., nullary_bufs_sub .., unary_bufs_sub ..,
    binary_bufs_sub .., nullary_bufs_sub .., binary_bufs_sub .., binary_bufs_sub .., binary_bufs_sub .., unary_bufs_sub ..,
    unary_bufs_sub .., binary_bufs_sub .., nullary_bufs_sub .., unary_bufs_sub .., binary_bufs_sub ..⟩

theorem ops_sub : (ops : List (HloOp τ sig (Elt F))).Forall fun op => op.bufs ⊆ tcRefs τ sig :=
  List.forall_iff_forall_mem.mpr fun op h => by
    simp only [ops, List.mem_append] at h
    rcases h with h | h | h
    exacts [List.forall_iff_forall_mem.mp ops0_sub op h, List.forall_iff_forall_mem.mp ops1_sub op h, List.forall_iff_forall_mem.mp ops2_sub op h]

/-- On every device, for any float values, from any memory with zero counters: every weakly fair execution of
    @main terminates, and every final state has each buffer at the fold of the operations' results over the
    launch contents. -/
theorem run_raw (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ
    (by
      intro _ op h
      simp only [ops, List.mem_append] at h
      rcases h with h | h | h
      all_goals ((repeat (cases h with | head => rfl | tail _ h => ?_)); exact nomatch h))

/-- The fold over a concatenation is the fold over its second part from the fold over its first. -/
theorem after_app : ∀ (l₁ l₂ : List (HloOp τ sig (Elt F))) (V : Valuation τ sig (Elt F)), after (l₁ ++ l₂) V = after l₂ (after l₁ V)
  | [], _, _ => rfl
  | op :: l₁, l₂, V => by rw [List.cons_append, after_cons, after_cons, after_app l₁ l₂]

/-- The buffers that window 0's operations write. -/
abbrev ops0_W : List (Ref sig .tc) := [main_c, main_c_0, main_c_1, main_c_2, main_c_3, main_c_4, main_c_5, main_c_6, main_c_7, main_c_8, main_c_9, main_c_10, main_c_11, main_c_12, main_c_13, main_v0, main_v1, main_v2, main_v3, main_v4, main_v5, main_call0_cst, main_call0_v0, main_v6, main_v7, main_v8, main_v9, main_v10, main_call1_cst, main_call1_v0, main_v11, main_v12, main_v13, main_v14, main_v15, main_call2_cst, main_call2_v0, main_v16, main_cst, main_v17, main_c_14, main_v18, main_v19, main_v20, main_v21, main_v22, main_v23, main_call3_cst, main_call3_v0, main_v24, main_v25, main_v26, main_v27, main_v28, main_call4_cst, main_call4_v0, main_v29, main_v30, main_v31, main_v32, main_v33, main_call5_cst, main_call5_v0, main_v34, main_cst_15, main_v35, main_v36, main_c_16, main_v37, main_v38, main_v39, main_v40]
set_option maxRecDepth 8192 in
theorem ops0_writes : (ops0 : List (HloOp τ sig (Elt F))).Forall fun op => op.writes ⊆ (ops0_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- The buffers that window 1's operations write. -/
abbrev ops1_W : List (Ref sig .tc) := [main_v41, main_v42, main_call6_cst, main_call6_v0, main_v43, main_v44, main_v45, main_v46, main_v47, main_call7_cst, main_call7_v0, main_v48, main_v49, main_v50, main_v51, main_v52, main_call8_cst, main_call8_v0, main_v53, main_cst_17, main_v54, main_v55, main_c_18, main_v56, main_v57, main_v58, main_v59, main_v60, main_v61, main_call9_cst, main_call9_v0, main_v62, main_v63, main_v64, main_v65, main_v66, main_call10_cst, main_call10_v0, main_v67, main_v68, main_v69, main_v70, main_v71, main_call11_cst, main_call11_v0, main_v72, main_cst_19, main_v73, main_v74, main_c_20, main_v75, main_v76, main_v77, main_v78, main_v79, main_v80, main_call12_cst, main_call12_v0, main_v81, main_v82, main_v83, main_v84, main_v85, main_call13_cst, main_call13_v0, main_v86, main_v87, main_v88, main_v89, main_v90, main_call14_cst, main_call14_v0, main_v91, main_cst_21, main_v92, main_v93, main_c_22, main_v94]
set_option maxRecDepth 8192 in
theorem ops1_writes : (ops1 : List (HloOp τ sig (Elt F))).Forall fun op => op.writes ⊆ (ops1_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- The buffers that window 2's operations write. -/
abbrev ops2_W : List (Ref sig .tc) := [main_v95, main_v96, main_v97, main_v98, main_v99, main_call15_cst, main_call15_v0, main_v100, main_v101, main_v102, main_v103, main_v104, main_call16_cst, main_call16_v0, main_v105, main_v106, main_v107, main_v108, main_v109, main_call17_cst, main_call17_v0, main_v110, main_cst_23, main_v111, main_v112, main_c_24, main_v113, main_v114, main_v115, main_v116, main_v117, main_v118, main_call18_cst, main_call18_v0, main_v119, main_v120, main_v121, main_v122, main_v123, main_call19_cst, main_call19_v0, main_v124, main_v125, main_v126, main_v127, main_v128, main_call20_cst, main_call20_v0, main_v129, main_cst_25, main_v130, main_v131, main_v132, main_v133, main_v134, main_v135, main_call21_cst, main_call21_v0, main_v136]
set_option maxRecDepth 8192 in
theorem ops2_writes : (ops2 : List (HloOp τ sig (Elt F))).Forall fun op => op.writes ⊆ (ops2_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- A buffer that no window writes keeps its launch contents through @main. -/
theorem kept (V : Valuation τ sig (Elt F)) (r : Ref sig .tc) (h0 : r ∉ ops0_W) (h1 : r ∉ ops1_W) (h2 : r ∉ ops2_W) :
    after ops V (Proc.devRef .tc r) = V (Proc.devRef .tc r) := by
  rw [show (ops : List (HloOp τ sig (Elt F))) = ops0 ++ (ops1 ++ ops2) from rfl, after_app, after_app,
    after_of_writes_sub ops2 _ ops2_writes h2, after_of_writes_sub ops1 _ ops1_writes h1,
    after_of_writes_sub ops0 _ ops0_writes h0]

theorem kept_main_arg0 (V : Valuation τ sig (Elt F)) :
    after ops V (main_arg0 : DevRef τ sig) = V (main_arg0 : DevRef τ sig) :=
  kept V main_arg0 (by decide) (by decide) (by decide)
theorem kept_main_arg1 (V : Valuation τ sig (Elt F)) :
    after ops V (main_arg1 : DevRef τ sig) = V (main_arg1 : DevRef τ sig) :=
  kept V main_arg1 (by decide) (by decide) (by decide)
theorem kept_main_arg2 (V : Valuation τ sig (Elt F)) :
    after ops V (main_arg2 : DevRef τ sig) = V (main_arg2 : DevRef τ sig) :=
  kept V main_arg2 (by decide) (by decide) (by decide)
theorem kept_main_arg3 (V : Valuation τ sig (Elt F)) :
    after ops V (main_arg3 : DevRef τ sig) = V (main_arg3 : DevRef τ sig) :=
  kept V main_arg3 (by decide) (by decide) (by decide)
theorem kept_main_arg4 (V : Valuation τ sig (Elt F)) :
    after ops V (main_arg4 : DevRef τ sig) = V (main_arg4 : DevRef τ sig) :=
  kept V main_arg4 (by decide) (by decide) (by decide)
theorem kept_main_arg5 (V : Valuation τ sig (Elt F)) :
    after ops V (main_arg5 : DevRef τ sig) = V (main_arg5 : DevRef τ sig) :=
  kept V main_arg5 (by decide) (by decide) (by decide)
theorem kept_main_arg6 (V : Valuation τ sig (Elt F)) :
    after ops V (main_arg6 : DevRef τ sig) = V (main_arg6 : DevRef τ sig) :=
  kept V main_arg6 (by decide) (by decide) (by decide)
theorem kept_main_arg7 (V : Valuation τ sig (Elt F)) :
    after ops V (main_arg7 : DevRef τ sig) = V (main_arg7 : DevRef τ sig) :=
  kept V main_arg7 (by decide) (by decide) (by decide)
theorem kept_main_arg8 (V : Valuation τ sig (Elt F)) :
    after ops V (main_arg8 : DevRef τ sig) = V (main_arg8 : DevRef τ sig) :=
  kept V main_arg8 (by decide) (by decide) (by decide)
theorem kept_main_arg9 (V : Valuation τ sig (Elt F)) :
    after ops V (main_arg9 : DevRef τ sig) = V (main_arg9 : DevRef τ sig) :=
  kept V main_arg9 (by decide) (by decide) (by decide)
theorem kept_main_arg10 (V : Valuation τ sig (Elt F)) :
    after ops V (main_arg10 : DevRef τ sig) = V (main_arg10 : DevRef τ sig) :=
  kept V main_arg10 (by decide) (by decide) (by decide)
theorem kept_main_arg11 (V : Valuation τ sig (Elt F)) :
    after ops V (main_arg11 : DevRef τ sig) = V (main_arg11 : DevRef τ sig) :=
  kept V main_arg11 (by decide) (by decide) (by decide)
theorem kept_main_arg12 (V : Valuation τ sig (Elt F)) :
    after ops V (main_arg12 : DevRef τ sig) = V (main_arg12 : DevRef τ sig) :=
  kept V main_arg12 (by decide) (by decide) (by decide)
theorem kept_main_arg13 (V : Valuation τ sig (Elt F)) :
    after ops V (main_arg13 : DevRef τ sig) = V (main_arg13 : DevRef τ sig) :=
  kept V main_arg13 (by decide) (by decide) (by decide)
theorem kept_main_arg14 (V : Valuation τ sig (Elt F)) :
    after ops V (main_arg14 : DevRef τ sig) = V (main_arg14 : DevRef τ sig) :=
  kept V main_arg14 (by decide) (by decide) (by decide)
theorem kept_main_arg15 (V : Valuation τ sig (Elt F)) :
    after ops V (main_arg15 : DevRef τ sig) = V (main_arg15 : DevRef τ sig) :=
  kept V main_arg15 (by decide) (by decide) (by decide)
theorem kept_main_arg16 (V : Valuation τ sig (Elt F)) :
    after ops V (main_arg16 : DevRef τ sig) = V (main_arg16 : DevRef τ sig) :=
  kept V main_arg16 (by decide) (by decide) (by decide)
theorem kept_main_arg17 (V : Valuation τ sig (Elt F)) :
    after ops V (main_arg17 : DevRef τ sig) = V (main_arg17 : DevRef τ sig) :=
  kept V main_arg17 (by decide) (by decide) (by decide)
theorem kept_main_arg18 (V : Valuation τ sig (Elt F)) :
    after ops V (main_arg18 : DevRef τ sig) = V (main_arg18 : DevRef τ sig) :=
  kept V main_arg18 (by decide) (by decide) (by decide)
theorem kept_main_arg19 (V : Valuation τ sig (Elt F)) :
    after ops V (main_arg19 : DevRef τ sig) = V (main_arg19 : DevRef τ sig) :=
  kept V main_arg19 (by decide) (by decide) (by decide)
theorem kept_main_arg20 (V : Valuation τ sig (Elt F)) :
    after ops V (main_arg20 : DevRef τ sig) = V (main_arg20 : DevRef τ sig) :=
  kept V main_arg20 (by decide) (by decide) (by decide)
theorem kept_main_arg21 (V : Valuation τ sig (Elt F)) :
    after ops V (main_arg21 : DevRef τ sig) = V (main_arg21 : DevRef τ sig) :=
  kept V main_arg21 (by decide) (by decide) (by decide)
theorem kept_main_arg22 (V : Valuation τ sig (Elt F)) :
    after ops V (main_arg22 : DevRef τ sig) = V (main_arg22 : DevRef τ sig) :=
  kept V main_arg22 (by decide) (by decide) (by decide)
theorem kept_main_arg23 (V : Valuation τ sig (Elt F)) :
    after ops V (main_arg23 : DevRef τ sig) = V (main_arg23 : DevRef τ sig) :=
  kept V main_arg23 (by decide) (by decide) (by decide)
theorem kept_main_arg24 (V : Valuation τ sig (Elt F)) :
    after ops V (main_arg24 : DevRef τ sig) = V (main_arg24 : DevRef τ sig) :=
  kept V main_arg24 (by decide) (by decide) (by decide)
theorem kept_main_arg25 (V : Valuation τ sig (Elt F)) :
    after ops V (main_arg25 : DevRef τ sig) = V (main_arg25 : DevRef τ sig) :=
  kept V main_arg25 (by decide) (by decide) (by decide)
theorem kept_main_arg26 (V : Valuation τ sig (Elt F)) :
    after ops V (main_arg26 : DevRef τ sig) = V (main_arg26 : DevRef τ sig) :=
  kept V main_arg26 (by decide) (by decide) (by decide)
theorem kept_main_arg27 (V : Valuation τ sig (Elt F)) :
    after ops V (main_arg27 : DevRef τ sig) = V (main_arg27 : DevRef τ sig) :=
  kept V main_arg27 (by decide) (by decide) (by decide)
theorem kept_main_arg28 (V : Valuation τ sig (Elt F)) :
    after ops V (main_arg28 : DevRef τ sig) = V (main_arg28 : DevRef τ sig) :=
  kept V main_arg28 (by decide) (by decide) (by decide)
theorem kept_main_arg29 (V : Valuation τ sig (Elt F)) :
    after ops V (main_arg29 : DevRef τ sig) = V (main_arg29 : DevRef τ sig) :=
  kept V main_arg29 (by decide) (by decide) (by decide)
theorem kept_main_arg30 (V : Valuation τ sig (Elt F)) :
    after ops V (main_arg30 : DevRef τ sig) = V (main_arg30 : DevRef τ sig) :=
  kept V main_arg30 (by decide) (by decide) (by decide)

end Cert.ReferenceIdeal.RefRun

end
-- ==== Proof.RefTerm.lean ====
/-
  The reference function as one composed term. Each definition below applies, in the program's order, the pure
  operations the reference's statements name, to the same dimension records: per scale the frame-index table, the
  chain from the gathered frames down to the sum over the scale's relations, and the whole result as a function of
  the 31 argument arrays.
-/
import proofs.«106977_j18717467476122_2_alg».proof.ReferenceIdeal

noncomputable section

namespace Cert.ReferenceIdeal.RefTerm

open Idealize.ShloMosaic Idealize.SL.Sem
open Cert.ReferenceIdeal Cert.ReferenceIdeal.Facts₀ Cert.ReferenceIdeal.Facts

variable {F : FTy → Type} [FloatOps F] [Facts]

/-- Scale 0: the table of frame indices (relation, position), as the reference builds it: the literal table, the
    table shifted by 8 where the (all-false) mask holds, with a trailing unit axis. -/
def tab0 : IVec S1x8x1 32 :=
  broadcastInDim S1x8x1 ![0, 1] bcast_S1x8_S1x8x1_0_1
    (select (constantI S1x8 1 0#1)
      (addi (fun i => lit0 (S1x8.rowMajor i)) (broadcastInDim S1x8 ![] bcast_S_S1x8 (constantI S_ 32 8#32)))
      (fun i => lit0 (S1x8.rowMajor i)))

/-- Scale 1: the table of frame indices (relation, position), as the reference builds it: the literal table, the
    table shifted by 8 where the (all-false) mask holds, with a trailing unit axis. -/
def tab1 : IVec S3x7x1 32 :=
  broadcastInDim S3x7x1 ![0, 1] bcast_S3x7_S3x7x1_0_1
    (select (constantI S3x7 1 0#1)
      (addi (fun i => lit1 (S3x7.rowMajor i)) (broadcastInDim S3x7 ![] bcast_S_S3x7 (constantI S_ 32 8#32)))
      (fun i => lit1 (S3x7.rowMajor i)))

/-- Scale 2: the table of frame indices (relation, position), as the reference builds it: the literal table, the
    table shifted by 8 where the (all-false) mask holds, with a trailing unit axis. -/
def tab2 : IVec S3x6x1 32 :=
  broadcastInDim S3x6x1 ![0, 1] bcast_S3x6_S3x6x1_0_1
    (select (constantI S3x6 1 0#1)
      (addi (fun i => lit2 (S3x6.rowMajor i)) (broadcastInDim S3x6 ![] bcast_S_S3x6 (constantI S_ 32 8#32)))
      (fun i => lit2 (S3x6.rowMajor i)))

/-- Scale 3: the table of frame indices (relation, position), as the reference builds it: the literal table, the
    table shifted by 8 where the (all-false) mask holds, with a trailing unit axis. -/
def tab3 : IVec S3x5x1 32 :=
  broadcastInDim S3x5x1 ![0, 1] bcast_S3x5_S3x5x1_0_1
    (select (constantI S3x5 1 0#1)
      (addi (fun i => lit3 (S3x5.rowMajor i)) (broadcastInDim S3x5 ![] bcast_S_S3x5 (constantI S_ 32 8#32)))
      (fun i => lit3 (S3x5.rowMajor i)))

/-- Scale 4: the table of frame indices (relation, position), as the reference builds it: the literal table, the
    table shifted by 8 where the (all-false) mask holds, with a trailing unit axis. -/
def tab4 : IVec S3x4x1 32 :=
  broadcastInDim S3x4x1 ![0, 1] bcast_S3x4_S3x4x1_0_1
    (select (constantI S3x4 1 0#1)
      (addi (fun i => lit4 (S3x4.rowMajor i)) (broadcastInDim S3x4 ![] bcast_S_S3x4 (constantI S_ 32 8#32)))
      (fun i => lit4 (S3x4.rowMajor i)))

/-- Scale 5: the table of frame indices (relation, position), as the reference builds it: the literal table, the
    table shifted by 8 where the (all-false) mask holds, with a trailing unit axis. -/
def tab5 : IVec S3x3x1 32 :=
  broadcastInDim S3x3x1 ![0, 1] bcast_S3x3_S3x3x1_0_1
    (select (constantI S3x3 1 0#1)
      (addi (fun i => lit5 (S3x3.rowMajor i)) (broadcastInDim S3x3 ![] bcast_S_S3x3 (constantI S_ 32 8#32)))
      (fun i => lit5 (S3x3.rowMajor i)))

/-- Scale 6: the table of frame indices (relation, position), as the reference builds it: the literal table, the
    table shifted by 8 where the (all-false) mask holds, with a trailing unit axis. -/
def tab6 : IVec S3x2x1 32 :=
  broadcastInDim S3x2x1 ![0, 1] bcast_S3x2_S3x2x1_0_1
    (select (constantI S3x2 1 0#1)
      (addi (fun i => lit6 (S3x2.rowMajor i)) (broadcastInDim S3x2 ![] bcast_S_S3x2 (constantI S_ 32 8#32)))
      (fun i => lit6 (S3x2.rowMajor i)))

/-- Scale 0: gather the frames of each relation, lay them side by side, rectify, two affine layers each followed by
    rectification, and the sum over the relations. -/
def fuse0 (x : (⟨S4096x8x1024, .f32⟩ : BufTy).Contents (Elt F)) (w1 : (⟨S8192x256, .f32⟩ : BufTy).Contents (Elt F)) (b1 : (⟨S256, .f32⟩ : BufTy).Contents (Elt F))
    (w2 : (⟨S256x256, .f32⟩ : BufTy).Contents (Elt F)) (b2 : (⟨S256, .f32⟩ : BufTy).Contents (Elt F)) : (⟨S4096x256, .f32⟩ : BufTy).Contents (Elt F) :=
  Host.reduceAdd
    (maximumf
      (addf
        (Host.dotGeneral dot_S4096x1x256_S256x256_S4096x1x256_2_0_01_1_n_n none
          (maximumf
            (addf
              (Host.dotGeneral dot_S4096x1x8192_S8192x256_S4096x1x256_2_0_01_1_n_n none
                (maximumf
                  (shapeCast S4096x1x8192 (Host.gather gather_S4096x8x1024_S1x8x1_S4096x1x8x1024_03_1_n_n_1_2_409611024 x tab0)
                    shapeCasts_S4096x1x8x1024_S4096x1x8192)
                  (broadcastInDim S4096x1x8192 ![] bcast_S_S4096x1x8192 (constant S_ .f32 0x00000000#32)))
                w1)
              (broadcastInDim S4096x1x256 ![0, 1, 2] bcast_S1x1x256_S4096x1x256_0_1_2 (broadcastInDim S1x1x256 ![2] bcast_S256_S1x1x256_2 b1)))
            (broadcastInDim S4096x1x256 ![] bcast_S_S4096x1x256 (constant S_ .f32 0x00000000#32)))
          w2)
        (broadcastInDim S4096x1x256 ![0, 1, 2] bcast_S1x1x256_S4096x1x256_0_1_2 (broadcastInDim S1x1x256 ![2] bcast_S256_S1x1x256_2 b2)))
      (broadcastInDim S4096x1x256 ![] bcast_S_S4096x1x256 (constant S_ .f32 0x00000000#32)))
    (constant S_ .f32 0x00000000#32) reducesTo_S4096x1x256_S4096x256_d1 h_S_

/-- Scale 1: gather the frames of each relation, lay them side by side, rectify, two affine layers each followed by
    rectification, and the sum over the relations. -/
def fuse1 (x : (⟨S4096x8x1024, .f32⟩ : BufTy).Contents (Elt F)) (w1 : (⟨S7168x256, .f32⟩ : BufTy).Contents (Elt F)) (b1 : (⟨S256, .f32⟩ : BufTy).Contents (Elt F))
    (w2 : (⟨S256x256, .f32⟩ : BufTy).Contents (Elt F)) (b2 : (⟨S256, .f32⟩ : BufTy).Contents (Elt F)) : (⟨S4096x256, .f32⟩ : BufTy).Contents (Elt F) :=
  Host.reduceAdd
    (maximumf
      (addf
        (Host.dotGeneral dot_S4096x3x256_S256x256_S4096x3x256_2_0_01_1_n_n none
          (maximumf
            (addf
              (Host.dotGeneral dot_S4096x3x7168_S7168x256_S4096x3x256_2_0_01_1_n_n none
                (maximumf
                  (shapeCast S4096x3x7168 (Host.gather gather_S4096x8x1024_S3x7x1_S4096x3x7x1024_03_1_n_n_1_2_409611024 x tab1)
                    shapeCasts_S4096x3x7x1024_S4096x3x7168)
                  (broadcastInDim S4096x3x7168 ![] bcast_S_S4096x3x7168 (constant S_ .f32 0x00000000#32)))
                w1)
              (broadcastInDim S4096x3x256 ![0, 1, 2] bcast_S1x1x256_S4096x3x256_0_1_2 (broadcastInDim S1x1x256 ![2] bcast_S256_S1x1x256_2 b1)))
            (broadcastInDim S4096x3x256 ![] bcast_S_S4096x3x256 (constant S_ .f32 0x00000000#32)))
          w2)
        (broadcastInDim S4096x3x256 ![0, 1, 2] bcast_S1x1x256_S4096x3x256_0_1_2 (broadcastInDim S1x1x256 ![2] bcast_S256_S1x1x256_2 b2)))
      (broadcastInDim S4096x3x256 ![] bcast_S_S4096x3x256 (constant S_ .f32 0x00000000#32)))
    (constant S_ .f32 0x00000000#32) reducesTo_S4096x3x256_S4096x256_d1 h_S_

/-- Scale 2: gather the frames of each relation, lay them side by side, rectify, two affine layers each followed by
    rectification, and the sum over the relations. -/
def fuse2 (x : (⟨S4096x8x1024, .f32⟩ : BufTy).Contents (Elt F)) (w1 : (⟨S6144x256, .f32⟩ : BufTy).Contents (Elt F)) (b1 : (⟨S256, .f32⟩ : BufTy).Contents (Elt F))
    (w2 : (⟨S256x256, .f32⟩ : BufTy).Contents (Elt F)) (b2 : (⟨S256, .f32⟩ : BufTy).Contents (Elt F)) : (⟨S4096x256, .f32⟩ : BufTy).Contents (Elt F) :=
  Host.reduceAdd
    (maximumf
      (addf
        (Host.dotGeneral dot_S4096x3x256_S256x256_S4096x3x256_2_0_01_1_n_n none
          (maximumf
            (addf
              (Host.dotGeneral dot_S4096x3x6144_S6144x256_S4096x3x256_2_0_01_1_n_n none
                (maximumf
                  (shapeCast S4096x3x6144 (Host.gather gather_S4096x8x1024_S3x6x1_S4096x3x6x1024_03_1_n_n_1_2_409611024 x tab2)
                    shapeCasts_S4096x3x6x1024_S4096x3x6144)
                  (broadcastInDim S4096x3x6144 ![] bcast_S_S4096x3x6144 (constant S_ .f32 0x00000000#32)))
                w1)
              (broadcastInDim S4096x3x256 ![0, 1, 2] bcast_S1x1x256_S4096x3x256_0_1_2 (broadcastInDim S1x1x256 ![2] bcast_S256_S1x1x256_2 b1)))
            (broadcastInDim S4096x3x256 ![] bcast_S_S4096x3x256 (constant S_ .f32 0x00000000#32)))
          w2)
        (broadcastInDim S4096x3x256 ![0, 1, 2] bcast_S1x1x256_S4096x3x256_0_1_2 (broadcastInDim S1x1x256 ![2] bcast_S256_S1x1x256_2 b2)))
      (broadcastInDim S4096x3x256 ![] bcast_S_S4096x3x256 (constant S_ .f32 0x00000000#32)))
    (constant S_ .f32 0x00000000#32) reducesTo_S4096x3x256_S4096x256_d1 h_S_

/-- Scale 3: gather the frames of each relation, lay them side by side, rectify, two affine layers each followed by
    rectification, and the sum over the relations. -/
def fuse3 (x : (⟨S4096x8x1024, .f32⟩ : BufTy).Contents (Elt F)) (w1 : (⟨S5120x256, .f32⟩ : BufTy).Contents (Elt F)) (b1 : (⟨S256, .f32⟩ : BufTy).Contents (Elt F))
    (w2 : (⟨S256x256, .f32⟩ : BufTy).Contents (Elt F)) (b2 : (⟨S256, .f32⟩ : BufTy).Contents (Elt F)) : (⟨S4096x256, .f32⟩ : BufTy).Contents (Elt F) :=
  Host.reduceAdd
    (maximumf
      (addf
        (Host.dotGeneral dot_S4096x3x256_S256x256_S4096x3x256_2_0_01_1_n_n none
          (maximumf
            (addf
              (Host.dotGeneral dot_S4096x3x5120_S5120x256_S4096x3x256_2_0_01_1_n_n none
                (maximumf
                  (shapeCast S4096x3x5120 (Host.gather gather_S4096x8x1024_S3x5x1_S4096x3x5x1024_03_1_n_n_1_2_409611024 x tab3)
                    shapeCasts_S4096x3x5x1024_S4096x3x5120)
                  (broadcastInDim S4096x3x5120 ![] bcast_S_S4096x3x5120 (constant S_ .f32 0x00000000#32)))
                w1)
              (broadcastInDim S4096x3x256 ![0, 1, 2] bcast_S1x1x256_S4096x3x256_0_1_2 (broadcastInDim S1x1x256 ![2] bcast_S256_S1x1x256_2 b1)))
            (broadcastInDim S4096x3x256 ![] bcast_S_S4096x3x256 (constant S_ .f32 0x00000000#32)))
          w2)
        (broadcastInDim S4096x3x256 ![0, 1, 2] bcast_S1x1x256_S4096x3x256_0_1_2 (broadcastInDim S1x1x256 ![2] bcast_S256_S1x1x256_2 b2)))
      (broadcastInDim S4096x3x256 ![] bcast_S_S4096x3x256 (constant S_ .f32 0x00000000#32)))
    (constant S_ .f32 0x00000000#32) reducesTo_S4096x3x256_S4096x256_d1 h_S_

/-- Scale 4: gather the frames of each relation, lay them side by side, rectify, two affine layers each followed by
    rectification, and the sum over the relations. -/
def fuse4 (x : (⟨S4096x8x1024, .f32⟩ : BufTy).Contents (Elt F)) (w1 : (⟨S4096x256, .f32⟩ : BufTy).Contents (Elt F)) (b1 : (⟨S256, .f32⟩ : BufTy).Contents (Elt F))
    (w2 : (⟨S256x256, .f32⟩ : BufTy).Contents (Elt F)) (b2 : (⟨S256, .f32⟩ : BufTy).Contents (Elt F)) : (⟨S4096x256, .f32⟩ : BufTy).Contents (Elt F) :=
  Host.reduceAdd
    (maximumf
      (addf
        (Host.dotGeneral dot_S4096x3x256_S256x256_S4096x3x256_2_0_01_1_n_n none
          (maximumf
            (addf
              (Host.dotGeneral dot_S4096x3x4096_S4096x256_S4096x3x256_2_0_01_1_n_n none
                (maximumf
                  (shapeCast S4096x3x4096 (Host.gather gather_S4096x8x1024_S3x4x1_S4096x3x4x1024_03_1_n_n_1_2_409611024 x tab4)
                    shapeCasts_S4096x3x4x1024_S4096x3x4096)
                  (broadcastInDim S4096x3x4096 ![] bcast_S_S4096x3x4096 (constant S_ .f32 0x00000000#32)))
                w1)
              (broadcastInDim S4096x3x256 ![0, 1, 2] bcast_S1x1x256_S4096x3x256_0_1_2 (broadcastInDim S1x1x256 ![2] bcast_S256_S1x1x256_2 b1)))
            (broadcastInDim S4096x3x256 ![] bcast_S_S4096x3x256 (constant S_ .f32 0x00000000#32)))
          w2)
        (broadcastInDim S4096x3x256 ![0, 1, 2] bcast_S1x1x256_S4096x3x256_0_1_2 (broadcastInDim S1x1x256 ![2] bcast_S256_S1x1x256_2 b2)))
      (broadcastInDim S4096x3x256 ![] bcast_S_S4096x3x256 (constant S_ .f32 0x00000000#32)))
    (constant S_ .f32 0x00000000#32) reducesTo_S4096x3x256_S4096x256_d1 h_S_

/-- Scale 5: gather the frames of each relation, lay them side by side, rectify, two affine layers each followed by
    rectification, and the sum over the relations. -/
def fuse5 (x : (⟨S4096x8x1024, .f32⟩ : BufTy).Contents (Elt F)) (w1 : (⟨S3072x256, .f32⟩ : BufTy).Contents (Elt F)) (b1 : (⟨S256, .f32⟩ : BufTy).Contents (Elt F))
    (w2 : (⟨S256x256, .f32⟩ : BufTy).Contents (Elt F)) (b2 : (⟨S256, .f32⟩ : BufTy).Contents (Elt F)) : (⟨S4096x256, .f32⟩ : BufTy).Contents (Elt F) :=
  Host.reduceAdd
    (maximumf
      (addf
        (Host.dotGeneral dot_S4096x3x256_S256x256_S4096x3x256_2_0_01_1_n_n none
          (maximumf
            (addf
              (Host.dotGeneral dot_S4096x3x3072_S3072x256_S4096x3x256_2_0_01_1_n_n none
                (maximumf
                  (shapeCast S4096x3x3072 (Host.gather gather_S4096x8x1024_S3x3x1_S4096x3x3x1024_03_1_n_n_1_2_409611024 x tab5)
                    shapeCasts_S4096x3x3x1024_S4096x3x3072)
                  (broadcastInDim S4096x3x3072 ![] bcast_S_S4096x3x3072 (constant S_ .f32 0x00000000#32)))
                w1)
              (broadcastInDim S4096x3x256 ![0, 1, 2] bcast_S1x1x256_S4096x3x256_0_1_2 (broadcastInDim S1x1x256 ![2] bcast_S256_S1x1x256_2 b1)))
            (broadcastInDim S4096x3x256 ![] bcast_S_S4096x3x256 (constant S_ .f32 0x00000000#32)))
          w2)
        (broadcastInDim S4096x3x256 ![0, 1, 2] bcast_S1x1x256_S4096x3x256_0_1_2 (broadcastInDim S1x1x256 ![2] bcast_S256_S1x1x256_2 b2)))
      (broadcastInDim S4096x3x256 ![] bcast_S_S4096x3x256 (constant S_ .f32 0x00000000#32)))
    (constant S_ .f32 0x00000000#32) reducesTo_S4096x3x256_S4096x256_d1 h_S_

/-- Scale 6: gather the frames of each relation, lay them side by side, rectify, two affine layers each followed by
    rectification, and the sum over the relations. -/
def fuse6 (x : (⟨S4096x8x1024, .f32⟩ : BufTy).Contents (Elt F)) (w1 : (⟨S2048x256, .f32⟩ : BufTy).Contents (Elt F)) (b1 : (⟨S256, .f32⟩ : BufTy).Contents (Elt F))
    (w2 : (⟨S256x256, .f32⟩ : BufTy).Contents (Elt F)) (b2 : (⟨S256, .f32⟩ : BufTy).Contents (Elt F)) : (⟨S4096x256, .f32⟩ : BufTy).Contents (Elt F) :=
  Host.reduceAdd
    (maximumf
      (addf
        (Host.dotGeneral dot_S4096x3x256_S256x256_S4096x3x256_2_0_01_1_n_n none
          (maximumf
            (addf
              (Host.dotGeneral dot_S4096x3x2048_S2048x256_S4096x3x256_2_0_01_1_n_n none
                (maximumf
                  (shapeCast S4096x3x2048 (Host.gather gather_S4096x8x1024_S3x2x1_S4096x3x2x1024_03_1_n_n_1_2_409611024 x tab6)
                    shapeCasts_S4096x3x2x1024_S4096x3x2048)
                  (broadcastInDim S4096x3x2048 ![] bcast_S_S4096x3x2048 (constant S_ .f32 0x00000000#32)))
                w1)
              (broadcastInDim S4096x3x256 ![0, 1, 2] bcast_S1x1x256_S4096x3x256_0_1_2 (broadcastInDim S1x1x256 ![2] bcast_S256_S1x1x256_2 b1)))
            (broadcastInDim S4096x3x256 ![] bcast_S_S4096x3x256 (constant S_ .f32 0x00000000#32)))
          w2)
        (broadcastInDim S4096x3x256 ![0, 1, 2] bcast_S1x1x256_S4096x3x256_0_1_2 (broadcastInDim S1x1x256 ![2] bcast_S256_S1x1x256_2 b2)))
      (broadcastInDim S4096x3x256 ![] bcast_S_S4096x3x256 (constant S_ .f32 0x00000000#32)))
    (constant S_ .f32 0x00000000#32) reducesTo_S4096x3x256_S4096x256_d1 h_S_

/-- The 256 activations: the seven scales' sums added, scale 0 first (left-nested). -/
def acts (a0 : (⟨S4096x8x1024, .f32⟩ : BufTy).Contents (Elt F))
    (a1 : (⟨S8192x256, .f32⟩ : BufTy).Contents (Elt F)) (a2 : (⟨S256, .f32⟩ : BufTy).Contents (Elt F)) (a3 : (⟨S256x256, .f32⟩ : BufTy).Contents (Elt F)) (a4 : (⟨S256, .f32⟩ : BufTy).Contents (Elt F))
    (a5 : (⟨S7168x256, .f32⟩ : BufTy).Contents (Elt F)) (a6 : (⟨S256, .f32⟩ : BufTy).Contents (Elt F)) (a7 : (⟨S256x256, .f32⟩ : BufTy).Contents (Elt F)) (a8 : (⟨S256, .f32⟩ : BufTy).Contents (Elt F))
    (a9 : (⟨S6144x256, .f32⟩ : BufTy).Contents (Elt F)) (a10 : (⟨S256, .f32⟩ : BufTy).Contents (Elt F)) (a11 : (⟨S256x256, .f32⟩ : BufTy).Contents (Elt F)) (a12 : (⟨S256, .f32⟩ : BufTy).Contents (Elt F))
    (a13 : (⟨S5120x256, .f32⟩ : BufTy).Contents (Elt F)) (a14 : (⟨S256, .f32⟩ : BufTy).Contents (Elt F)) (a15 : (⟨S256x256, .f32⟩ : BufTy).Contents (Elt F)) (a16 : (⟨S256, .f32⟩ : BufTy).Contents (Elt F))
    (a17 : (⟨S4096x256, .f32⟩ : BufTy).Contents (Elt F)) (a18 : (⟨S256, .f32⟩ : BufTy).Contents (Elt F)) (a19 : (⟨S256x256, .f32⟩ : BufTy).Contents (Elt F)) (a20 : (⟨S256, .f32⟩ : BufTy).Contents (Elt F))
    (a21 : (⟨S3072x256, .f32⟩ : BufTy).Contents (Elt F)) (a22 : (⟨S256, .f32⟩ : BufTy).Contents (Elt F)) (a23 : (⟨S256x256, .f32⟩ : BufTy).Contents (Elt F)) (a24 : (⟨S256, .f32⟩ : BufTy).Contents (Elt F))
    (a25 : (⟨S2048x256, .f32⟩ : BufTy).Contents (Elt F)) (a26 : (⟨S256, .f32⟩ : BufTy).Contents (Elt F)) (a27 : (⟨S256x256, .f32⟩ : BufTy).Contents (Elt F)) (a28 : (⟨S256, .f32⟩ : BufTy).Contents (Elt F)) : (⟨S4096x256, .f32⟩ : BufTy).Contents (Elt F) :=
  addf (addf (addf (addf (addf (addf (fuse0 a0 a1 a2 a3 a4) (fuse1 a0 a5 a6 a7 a8)) (fuse2 a0 a9 a10 a11 a12)) (fuse3 a0 a13 a14 a15 a16)) (fuse4 a0 a17 a18 a19 a20)) (fuse5 a0 a21 a22 a23 a24)) (fuse6 a0 a25 a26 a27 a28)

/-- The reference's result as a function of its 31 argument arrays: the activations through the last affine layer,
    rectified. -/
def out (a0 : (⟨S4096x8x1024, .f32⟩ : BufTy).Contents (Elt F))
    (a1 : (⟨S8192x256, .f32⟩ : BufTy).Contents (Elt F)) (a2 : (⟨S256, .f32⟩ : BufTy).Contents (Elt F)) (a3 : (⟨S256x256, .f32⟩ : BufTy).Contents (Elt F)) (a4 : (⟨S256, .f32⟩ : BufTy).Contents (Elt F))
    (a5 : (⟨S7168x256, .f32⟩ : BufTy).Contents (Elt F)) (a6 : (⟨S256, .f32⟩ : BufTy).Contents (Elt F)) (a7 : (⟨S256x256, .f32⟩ : BufTy).Contents (Elt F)) (a8 : (⟨S256, .f32⟩ : BufTy).Contents (Elt F))
    (a9 : (⟨S6144x256, .f32⟩ : BufTy).Contents (Elt F)) (a10 : (⟨S256, .f32⟩ : BufTy).Contents (Elt F)) (a11 : (⟨S256x256, .f32⟩ : BufTy).Contents (Elt F)) (a12 : (⟨S256, .f32⟩ : BufTy).Contents (Elt F))
    (a13 : (⟨S5120x256, .f32⟩ : BufTy).Contents (Elt F)) (a14 : (⟨S256, .f32⟩ : BufTy).Contents (Elt F)) (a15 : (⟨S256x256, .f32⟩ : BufTy).Contents (Elt F)) (a16 : (⟨S256, .f32⟩ : BufTy).Contents (Elt F))
    (a17 : (⟨S4096x256, .f32⟩ : BufTy).Contents (Elt F)) (a18 : (⟨S256, .f32⟩ : BufTy).Contents (Elt F)) (a19 : (⟨S256x256, .f32⟩ : BufTy).Contents (Elt F)) (a20 : (⟨S256, .f32⟩ : BufTy).Contents (Elt F))
    (a21 : (⟨S3072x256, .f32⟩ : BufTy).Contents (Elt F)) (a22 : (⟨S256, .f32⟩ : BufTy).Contents (Elt F)) (a23 : (⟨S256x256, .f32⟩ : BufTy).Contents (Elt F)) (a24 : (⟨S256, .f32⟩ : BufTy).Contents (Elt F))
    (a25 : (⟨S2048x256, .f32⟩ : BufTy).Contents (Elt F)) (a26 : (⟨S256, .f32⟩ : BufTy).Contents (Elt F)) (a27 : (⟨S256x256, .f32⟩ : BufTy).Contents (Elt F)) (a28 : (⟨S256, .f32⟩ : BufTy).Contents (Elt F))
    (a29 : (⟨S256x400, .f32⟩ : BufTy).Contents (Elt F)) (a30 : (⟨S400, .f32⟩ : BufTy).Contents (Elt F)) : (⟨S4096x400, .f32⟩ : BufTy).Contents (Elt F) :=
  maximumf
    (addf
      (Host.dotGeneral dot_S4096x256_S256x400_S4096x400_1_0_0_1_n_n none
        (acts a0 a1 a2 a3 a4 a5 a6 a7 a8 a9 a10 a11 a12 a13 a14 a15 a16 a17 a18 a19 a20 a21 a22 a23 a24 a25 a26 a27 a28) a29)
      (broadcastInDim S4096x400 ![0, 1] bcast_S1x400_S4096x400_0_1 (broadcastInDim S1x400 ![1] bcast_S400_S1x400_1 a30)))
    (broadcastInDim S4096x400 ![] bcast_S_S4096x400 (constant S_ .f32 0x00000000#32))

end Cert.ReferenceIdeal.RefTerm

end
-- ==== Proof.RefValue.lean ====
/- The value the reference program leaves in its result buffer, read window by window: the fourteen constant
   tables, then per scale the chain from the gathered frames to the sum over the scale's relations added to the
   running sum, then the output layer. Each window is read from ANY contents before it; a buffer a window does not
   write keeps its contents through it. Composed, the result buffer holds the composed term of the 31 arguments'
   launch contents, and with the run of the operation list this is the reference's run. -/
import proofs.«106977_j18717467476122_2_alg».proof.Proof.RefRun
import proofs.«106977_j18717467476122_2_alg».proof.Proof.RefTerm
import Idealize.ShloMosaic.PureOps.Ideal

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.RefRun

variable {F : FTy → Type} [FloatOps F]

/-- The fourteen constant tables: per scale the frame indices and the (all-false) mask. (Operations 1 … 14 of 209.) -/
abbrev wC : List (HloOp τ sig (Elt F)) :=
  [ StableHlo.nullary main_c (fun i => lit0 (S1x8.rowMajor i)),
    StableHlo.nullary main_c_0 (constantI S1x8 1 0#1),
    StableHlo.nullary main_c_1 (fun i => lit1 (S3x7.rowMajor i)),
    StableHlo.nullary main_c_2 (constantI S3x7 1 0#1),
    StableHlo.nullary main_c_3 (fun i => lit2 (S3x6.rowMajor i)),
    StableHlo.nullary main_c_4 (constantI S3x6 1 0#1),
    StableHlo.nullary main_c_5 (fun i => lit3 (S3x5.rowMajor i)),
    StableHlo.nullary main_c_6 (constantI S3x5 1 0#1),
    StableHlo.nullary main_c_7 (fun i => lit4 (S3x4.rowMajor i)),
    StableHlo.nullary main_c_8 (constantI S3x4 1 0#1),
    StableHlo.nullary main_c_9 (fun i => lit5 (S3x3.rowMajor i)),
    StableHlo.nullary main_c_10 (constantI S3x3 1 0#1),
    StableHlo.nullary main_c_11 (fun i => lit6 (S3x2.rowMajor i)),
    StableHlo.nullary main_c_12 (constantI S3x2 1 0#1) ]

/-- Scale 0: from the shift constant to the sum over the scale's relations. (Operations 15 … 40 of 209.) -/
abbrev b0 : List (HloOp τ sig (Elt F)) :=
  [ StableHlo.nullary main_c_13 (constantI S_ 32 8#32),
    StableHlo.unary main_c_13 main_v0 (broadcastInDim S1x8 ![] bcast_S_S1x8 : (⟨S_, .i32⟩ : BufTy).Contents (Elt F) → (⟨S1x8, .i32⟩ : BufTy).Contents (Elt F)),
    StableHlo.binary main_c main_v0 main_v1 (addi : (⟨S1x8, .i32⟩ : BufTy).Contents (Elt F) → (⟨S1x8, .i32⟩ : BufTy).Contents (Elt F) → (⟨S1x8, .i32⟩ : BufTy).Contents (Elt F)),
    StableHlo.ternary main_c_0 main_v1 main_c main_v2 (select : (⟨S1x8, .i1⟩ : BufTy).Contents (Elt F) → (⟨S1x8, .i32⟩ : BufTy).Contents (Elt F) → (⟨S1x8, .i32⟩ : BufTy).Contents (Elt F) → (⟨S1x8, .i32⟩ : BufTy).Contents (Elt F)),
    StableHlo.unary main_v2 main_v3 (broadcastInDim S1x8x1 ![0, 1] bcast_S1x8_S1x8x1_0_1 : (⟨S1x8, .i32⟩ : BufTy).Contents (Elt F) → (⟨S1x8x1, .i32⟩ : BufTy).Contents (Elt F)),
    StableHlo.binary main_arg0 main_v3 main_v4 ((fun x i => Host.gather gather_S4096x8x1024_S1x8x1_S4096x1x8x1024_03_1_n_n_1_2_409611024 x i) : (⟨S4096x8x1024, .f32⟩ : BufTy).Contents (Elt F) → (⟨S1x8x1, .i32⟩ : BufTy).Contents (Elt F) → (⟨S4096x1x8x1024, .f32⟩ : BufTy).Contents (Elt F)),
    StableHlo.reshape main_v4 main_v5 rfl shapeCasts_S4096x1x8x1024_S4096x1x8192,
    StableHlo.TRef.nullary main_call0.cst (constant S_ .f32 0x00000000#32),
    StableHlo.TRef.unary main_call0.cst main_call0.v0 (broadcastInDim S4096x1x8192 ![] bcast_S_S4096x1x8192),
    StableHlo.TRef.binary (.of main_v5) main_call0.v0 main_call0.v1 maximumf,
    StableHlo.binary main_v6 main_arg1 main_v7 ((fun l r => Host.dotGeneral dot_S4096x1x8192_S8192x256_S4096x1x256_2_0_01_1_n_n none l r) : (⟨S4096x1x8192, .f32⟩ : BufTy).Contents (Elt F) → (⟨S8192x256, .f32⟩ : BufTy).Contents (Elt F) → (⟨S4096x1x256, .f32⟩ : BufTy).Contents (Elt F)),
    StableHlo.unary main_arg2 main_v8 (broadcastInDim S1x1x256 ![2] bcast_S256_S1x1x256_2 : (⟨S256, .f32⟩ : BufTy).Contents (Elt F) → (⟨S1x1x256, .f32⟩ : BufTy).Contents (Elt F)),
    StableHlo.unary main_v8 main_v9 (broadcastInDim S4096x1x256 ![0, 1, 2] bcast_S1x1x256_S4096x1x256_0_1_2 : (⟨S1x1x256, .f32⟩ : BufTy).Contents (Elt F) → (⟨S4096x1x256, .f32⟩ : BufTy).Contents (Elt F)),
    StableHlo.binary main_v7 main_v9 main_v10 (addf : (⟨S4096x1x256, .f32⟩ : BufTy).Contents (Elt F) → (⟨S4096x1x256, .f32⟩ : BufTy).Contents (Elt F) → (⟨S4096x1x256, .f32⟩ : BufTy).Contents (Elt F)),
    StableHlo.TRef.nullary main_call1.cst (constant S_ .f32 0x00000000#32),
    StableHlo.TRef.unary main_call1.cst main_call1.v0 (broadcastInDim S4096x1x256 ![] bcast_S_S4096x1x256),
    StableHlo.TRef.binary (.of main_v10) main_call1.v0 main_call1.v1 maximumf,
    StableHlo.binary main_v11 main_arg3 main_v12 ((fun l r => Host.dotGeneral dot_S4096x1x256_S256x256_S4096x1x256_2_0_01_1_n_n none l r) : (⟨S4096x1x256, .f32⟩ : BufTy).Contents (Elt F) → (⟨S256x256, .f32⟩ : BufTy).Contents (Elt F) → (⟨S4096x1x256, .f32⟩ : BufTy).Contents (Elt F)),
    StableHlo.unary main_arg4 main_v13 (broadcastInDim S1x1x256 ![2] bcast_S256_S1x1x256_2 : (⟨S256, .f32⟩ : BufTy).Contents (Elt F) → (⟨S1x1x256, .f32⟩ : BufTy).Contents (Elt F)),
    StableHlo.unary main_v13 main_v14 (broadcastInDim S4096x1x256 ![0, 1, 2] bcast_S1x1x256_S4096x1x256_0_1_2 : (⟨S1x1x256, .f32⟩ : BufTy).Contents (Elt F) → (⟨S4096x1x256, .f32⟩ : BufTy).Contents (Elt F)),
    StableHlo.binary main_v12 main_v14 main_v15 (addf : (⟨S4096x1x256, .f32⟩ : BufTy).Contents (Elt F) → (⟨S4096x1x256, .f32⟩ : BufTy).Contents (Elt F) → (⟨S4096x1x256, .f32⟩ : BufTy).Contents (Elt F)),
    StableHlo.TRef.nullary main_call2.cst (constant S_ .f32 0x00000000#32),
    StableHlo.TRef.unary main_call2.cst main_call2.v0 (broadcastInDim S4096x1x256 ![] bcast_S_S4096x1x256),
    StableHlo.TRef.binary (.of main_v15) main_call2.v0 main_call2.v1 maximumf,
    StableHlo.nullary main_cst (constant S_ .f32 0x00000000#32),
    StableHlo.binary main_v16 main_cst main_v17 ((fun x v => Host.reduceAdd x v reducesTo_S4096x1x256_S4096x256_d1 h_S_) : (⟨S4096x1x256, .f32⟩ : BufTy).Contents (Elt F) → (⟨S_, .f32⟩ : BufTy).Contents (Elt F) → (⟨S4096x256, .f32⟩ : BufTy).Contents (Elt F)) ]

/-- Scale 1: from the shift constant to the sum over the scale's relations added to the running sum. (Operations 41 … 67 of 209.) -/
abbrev b1 : List (HloOp τ sig (Elt F)) :=
  [ StableHlo.nullary main_c_14 (constantI S_ 32 8#32),
    StableHlo.unary main_c_14 main_v18 (broadcastInDim S3x7 ![] bcast_S_S3x7 : (⟨S_, .i32⟩ : BufTy).Contents (Elt F) → (⟨S3x7, .i32⟩ : BufTy).Contents (Elt F)),
    StableHlo.binary main_c_1 main_v18 main_v19 (addi : (⟨S3x7, .i32⟩ : BufTy).Contents (Elt F) → (⟨S3x7, .i32⟩ : BufTy).Contents (Elt F) → (⟨S3x7, .i32⟩ : BufTy).Contents (Elt F)),
    StableHlo.ternary main_c_2 main_v19 main_c_1 main_v20 (select : (⟨S3x7, .i1⟩ : BufTy).Contents (Elt F) → (⟨S3x7, .i32⟩ : BufTy).Contents (Elt F) → (⟨S3x7, .i32⟩ : BufTy).Contents (Elt F) → (⟨S3x7, .i32⟩ : BufTy).Contents (Elt F)),
    StableHlo.unary main_v20 main_v21 (broadcastInDim S3x7x1 ![0, 1] bcast_S3x7_S3x7x1_0_1 : (⟨S3x7, .i32⟩ : BufTy).Contents (Elt F) → (⟨S3x7x1, .i32⟩ : BufTy).Contents (Elt F)),
    StableHlo.binary main_arg0 main_v21 main_v22 ((fun x i => Host.gather gather_S4096x8x1024_S3x7x1_S4096x3x7x1024_03_1_n_n_1_2_409611024 x i) : (⟨S4096x8x1024, .f32⟩ : BufTy).Contents (Elt F) → (⟨S3x7x1, .i32⟩ : BufTy).Contents (Elt F) → (⟨S4096x3x7x1024, .f32⟩ : BufTy).Contents (Elt F)),
    StableHlo.reshape main_v22 main_v23 rfl shapeCasts_S4096x3x7x1024_S4096x3x7168,
    StableHlo.TRef.nullary main_call3.cst (constant S_ .f32 0x00000000#32),
    StableHlo.TRef.unary main_call3.cst main_call3.v0 (broadcastInDim S4096x3x7168 ![] bcast_S_S4096x3x7168),
    StableHlo.TRef.binary (.of main_v23) main_call3.v0 main_call3.v1 maximumf,
    StableHlo.binary main_v24 main_arg5 main_v25 ((fun l r => Host.dotGeneral dot_S4096x3x7168_S7168x256_S4096x3x256_2_0_01_1_n_n none l r) : (⟨S4096x3x7168, .f32⟩ : BufTy).Contents (Elt F) → (⟨S7168x256, .f32⟩ : BufTy).Contents (Elt F) → (⟨S4096x3x256, .f32⟩ : BufTy).Contents (Elt F)),
    StableHlo.unary main_arg6 main_v26 (broadcastInDim S1x1x256 ![2] bcast_S256_S1x1x256_2 : (⟨S256, .f32⟩ : BufTy).Contents (Elt F) → (⟨S1x1x256, .f32⟩ : BufTy).Contents (Elt F)),
    StableHlo.unary main_v26 main_v27 (broadcastInDim S4096x3x256 ![0, 1, 2] bcast_S1x1x256_S4096x3x256_0_1_2 : (⟨S1x1x256, .f32⟩ : BufTy).Contents (Elt F) → (⟨S4096x3x256, .f32⟩ : BufTy).Contents (Elt F)),
    StableHlo.binary main_v25 main_v27 main_v28 (addf : (⟨S4096x3x256, .f32⟩ : BufTy).Contents (Elt F) → (⟨S4096x3x256, .f32⟩ : BufTy).Contents (Elt F) → (⟨S4096x3x256, .f32⟩ : BufTy).Contents (Elt F)),
    StableHlo.TRef.nullary main_call4.cst (constant S_ .f32 0x00000000#32),
    StableHlo.TRef.unary main_call4.cst main_call4.v0 (broadcastInDim S4096x3x256 ![] bcast_S_S4096x3x256),
    StableHlo.TRef.binary (.of main_v28) main_call4.v0 main_call4.v1 maximumf,
    StableHlo.binary main_v29 main_arg7 main_v30 ((fun l r => Host.dotGeneral dot_S4096x3x256_S256x256_S4096x3x256_2_0_01_1_n_n none l r) : (⟨S4096x3x256, .f32⟩ : BufTy).Contents (Elt F) → (⟨S256x256, .f32⟩ : BufTy).Contents (Elt F) → (⟨S4096x3x256, .f32⟩ : BufTy).Contents (Elt F)),
    StableHlo.unary main_arg8 main_v31 (broadcastInDim S1x1x256 ![2] bcast_S256_S1x1x256_2 : (⟨S256, .f32⟩ : BufTy).Contents (Elt F) → (⟨S1x1x256, .f32⟩ : BufTy).Contents (Elt F)),
    StableHlo.unary main_v31 main_v32 (broadcastInDim S4096x3x256 ![0, 1, 2] bcast_S1x1x256_S4096x3x256_0_1_2 : (⟨S1x1x256, .f32⟩ : BufTy).Contents (Elt F) → (⟨S4096x3x256, .f32⟩ : BufTy).Contents (Elt F)),
    StableHlo.binary main_v30 main_v32 main_v33 (addf : (⟨S4096x3x256, .f32⟩ : BufTy).Contents (Elt F) → (⟨S4096x3x256, .f32⟩ : BufTy).Contents (Elt F) → (⟨S4096x3x256, .f32⟩ : BufTy).Contents (Elt F)),
    StableHlo.TRef.nullary main_call5.cst (constant S_ .f32 0x00000000#32),
    StableHlo.TRef.unary main_call5.cst main_call5.v0 (broadcastInDim S4096x3x256 ![] bcast_S_S4096x3x256),
    StableHlo.TRef.binary (.of main_v33) main_call5.v0 main_call5.v1 maximumf,
    StableHlo.nullary main_cst_15 (constant S_ .f32 0x00000000#32),
    StableHlo.binary main_v34 main_cst_15 main_v35 ((fun x v => Host.reduceAdd x v reducesTo_S4096x3x256_S4096x256_d1 h_S_) : (⟨S4096x3x256, .f32⟩ : BufTy).Contents (Elt F) → (⟨S_, .f32⟩ : BufTy).Contents (Elt F) → (⟨S4096x256, .f32⟩ : BufTy).Contents (Elt F)),
    StableHlo.binary main_v17 main_v35 main_v36 (addf : (⟨S4096x256, .f32⟩ : BufTy).Contents (Elt F) → (⟨S4096x256, .f32⟩ : BufTy).Contents (Elt F) → (⟨S4096x256, .f32⟩ : BufTy).Contents (Elt F)) ]

/-- Scale 2: from the shift constant to the sum over the scale's relations added to the running sum. (Operations 68 … 94 of 209.) -/
abbrev b2 : List (HloOp τ sig (Elt F)) :=
  [ StableHlo.nullary main_c_16 (constantI S_ 32 8#32),
    StableHlo.unary main_c_16 main_v37 (broadcastInDim S3x6 ![] bcast_S_S3x6 : (⟨S_, .i32⟩ : BufTy).Contents (Elt F) → (⟨S3x6, .i32⟩ : BufTy).Contents (Elt F)),
    StableHlo.binary main_c_3 main_v37 main_v38 (addi : (⟨S3x6, .i32⟩ : BufTy).Contents (Elt F) → (⟨S3x6, .i32⟩ : BufTy).Contents (Elt F) → (⟨S3x6, .i32⟩ : BufTy).Contents (Elt F)),
    StableHlo.ternary main_c_4 main_v38 main_c_3 main_v39 (select : (⟨S3x6, .i1⟩ : BufTy).Contents (Elt F) → (⟨S3x6, .i32⟩ : BufTy).Contents (Elt F) → (⟨S3x6, .i32⟩ : BufTy).Contents (Elt F) → (⟨S3x6, .i32⟩ : BufTy).Contents (Elt F)),
    StableHlo.unary main_v39 main_v40 (broadcastInDim S3x6x1 ![0, 1] bcast_S3x6_S3x6x1_0_1 : (⟨S3x6, .i32⟩ : BufTy).Contents (Elt F) → (⟨S3x6x1, .i32⟩ : BufTy).Contents (Elt F)),
    StableHlo.binary main_arg0 main_v40 main_v41 ((fun x i => Host.gather gather_S4096x8x1024_S3x6x1_S4096x3x6x1024_03_1_n_n_1_2_409611024 x i) : (⟨S4096x8x1024, .f32⟩ : BufTy).Contents (Elt F) → (⟨S3x6x1, .i32⟩ : BufTy).Contents (Elt F) → (⟨S4096x3x6x1024, .f32⟩ : BufTy).Contents (Elt F)),
    StableHlo.reshape main_v41 main_v42 rfl shapeCasts_S4096x3x6x1024_S4096x3x6144,
    StableHlo.TRef.nullary main_call6.cst (constant S_ .f32 0x00000000#32),
    StableHlo.TRef.unary main_call6.cst main_call6.v0 (broadcastInDim S4096x3x6144 ![] bcast_S_S4096x3x6144),
    StableHlo.TRef.binary (.of main_v42) main_call6.v0 main_call6.v1 maximumf,
    StableHlo.binary main_v43 main_arg9 main_v44 ((fun l r => Host.dotGeneral dot_S4096x3x6144_S6144x256_S4096x3x256_2_0_01_1_n_n none l r) : (⟨S4096x3x6144, .f32⟩ : BufTy).Contents (Elt F) → (⟨S6144x256, .f32⟩ : BufTy).Contents (Elt F) → (⟨S4096x3x256, .f32⟩ : BufTy).Contents (Elt F)),
    StableHlo.unary main_arg10 main_v45 (broadcastInDim S1x1x256 ![2] bcast_S256_S1x1x256_2 : (⟨S256, .f32⟩ : BufTy).Contents (Elt F) → (⟨S1x1x256, .f32⟩ : BufTy).Contents (Elt F)),
    StableHlo.unary main_v45 main_v46 (broadcastInDim S4096x3x256 ![0, 1, 2] bcast_S1x1x256_S4096x3x256_0_1_2 : (⟨S1x1x256, .f32⟩ : BufTy).Contents (Elt F) → (⟨S4096x3x256, .f32⟩ : BufTy).Contents (Elt F)),
    StableHlo.binary main_v44 main_v46 main_v47 (addf : (⟨S4096x3x256, .f32⟩ : BufTy).Contents (Elt F) → (⟨S4096x3x256, .f32⟩ : BufTy).Contents (Elt F) → (⟨S4096x3x256, .f32⟩ : BufTy).Contents (Elt F)),
    StableHlo.TRef.nullary main_call7.cst (constant S_ .f32 0x00000000#32),
    StableHlo.TRef.unary main_call7.cst main_call7.v0 (broadcastInDim S4096x3x256 ![] bcast_S_S4096x3x256),
    StableHlo.TRef.binary (.of main_v47) main_call7.v0 main_call7.v1 maximumf,
    StableHlo.binary main_v48 main_arg11 main_v49 ((fun l r => Host.dotGeneral dot_S4096x3x256_S256x256_S4096x3x256_2_0_01_1_n_n none l r) : (⟨S4096x3x256, .f32⟩ : BufTy).Contents (Elt F) → (⟨S256x256, .f32⟩ : BufTy).Contents (Elt F) → (⟨S4096x3x256, .f32⟩ : BufTy).Contents (Elt F)),
    StableHlo.unary main_arg12 main_v50 (broadcastInDim S1x1x256 ![2] bcast_S256_S1x1x256_2 : (⟨S256, .f32⟩ : BufTy).Contents (Elt F) → (⟨S1x1x256, .f32⟩ : BufTy).Contents (Elt F)),
    StableHlo.unary main_v50 main_v51 (broadcastInDim S4096x3x256 ![0, 1, 2] bcast_S1x1x256_S4096x3x256_0_1_2 : (⟨S1x1x256, .f32⟩ : BufTy).Contents (Elt F) → (⟨S4096x3x256, .f32⟩ : BufTy).Contents (Elt F)),
    StableHlo.binary main_v49 main_v51 main_v52 (addf : (⟨S4096x3x256, .f32⟩ : BufTy).Contents (Elt F) → (⟨S4096x3x256, .f32⟩ : BufTy).Contents (Elt F) → (⟨S4096x3x256, .f32⟩ : BufTy).Contents (Elt F)),
    StableHlo.TRef.nullary main_call8.cst (constant S_ .f32 0x00000000#32),
    StableHlo.TRef.unary main_call8.cst main_call8.v0 (broadcastInDim S4096x3x256 ![] bcast_S_S4096x3x256),
    StableHlo.TRef.binary (.of main_v52) main_call8.v0 main_call8.v1 maximumf,
    StableHlo.nullary main_cst_17 (constant S_ .f32 0x00000000#32),
    StableHlo.binary main_v53 main_cst_17 main_v54 ((fun x v => Host.reduceAdd x v reducesTo_S4096x3x256_S4096x256_d1 h_S_) : (⟨S4096x3x256, .f32⟩ : BufTy).Contents (Elt F) → (⟨S_, .f32⟩ : BufTy).Contents (Elt F) → (⟨S4096x256, .f32⟩ : BufTy).Contents (Elt F)),
    StableHlo.binary main_v36 main_v54 main_v55 (addf : (⟨S4096x256, .f32⟩ : BufTy).Contents (Elt F) → (⟨S4096x256, .f32⟩ : BufTy).Contents (Elt F) → (⟨S4096x256, .f32⟩ : BufTy).Contents (Elt F)) ]

/-- Scale 3: from the shift constant to the sum over the scale's relations added to the running sum. (Operations 95 … 121 of 209.) -/
abbrev b3 : List (HloOp τ sig (Elt F)) :=
  [ StableHlo.nullary main_c_18 (constantI S_ 32 8#32),
    StableHlo.unary main_c_18 main_v56 (broadcastInDim S3x5 ![] bcast_S_S3x5 : (⟨S_, .i32⟩ : BufTy).Contents (Elt F) → (⟨S3x5, .i32⟩ : BufTy).Contents (Elt F)),
    StableHlo.binary main_c_5 main_v56 main_v57 (addi : (⟨S3x5, .i32⟩ : BufTy).Contents (Elt F) → (⟨S3x5, .i32⟩ : BufTy).Contents (Elt F) → (⟨S3x5, .i32⟩ : BufTy).Contents (Elt F)),
    StableHlo.ternary main_c_6 main_v57 main_c_5 main_v58 (select : (⟨S3x5, .i1⟩ : BufTy).Contents (Elt F) → (⟨S3x5, .i32⟩ : BufTy).Contents (Elt F) → (⟨S3x5, .i32⟩ : BufTy).Contents (Elt F) → (⟨S3x5, .i32⟩ : BufTy).Contents (Elt F)),
    StableHlo.unary main_v58 main_v59 (broadcastInDim S3x5x1 ![0, 1] bcast_S3x5_S3x5x1_0_1 : (⟨S3x5, .i32⟩ : BufTy).Contents (Elt F) → (⟨S3x5x1, .i32⟩ : BufTy).Contents (Elt F)),
    StableHlo.binary main_arg0 main_v59 main_v60 ((fun x i => Host.gather gather_S4096x8x1024_S3x5x1_S4096x3x5x1024_03_1_n_n_1_2_409611024 x i) : (⟨S4096x8x1024, .f32⟩ : BufTy).Contents (Elt F) → (⟨S3x5x1, .i32⟩ : BufTy).Contents (Elt F) → (⟨S4096x3x5x1024, .f32⟩ : BufTy).Contents (Elt F)),
    StableHlo.reshape main_v60 main_v61 rfl shapeCasts_S4096x3x5x1024_S4096x3x5120,
    StableHlo.TRef.nullary main_call9.cst (constant S_ .f32 0x00000000#32),
    StableHlo.TRef.unary main_call9.cst main_call9.v0 (broadcastInDim S4096x3x5120 ![] bcast_S_S4096x3x5120),
    StableHlo.TRef.binary (.of main_v61) main_call9.v0 main_call9.v1 maximumf,
    StableHlo.binary main_v62 main_arg13 main_v63 ((fun l r => Host.dotGeneral dot_S4096x3x5120_S5120x256_S4096x3x256_2_0_01_1_n_n none l r) : (⟨S4096x3x5120, .f32⟩ : BufTy).Contents (Elt F) → (⟨S5120x256, .f32⟩ : BufTy).Contents (Elt F) → (⟨S4096x3x256, .f32⟩ : BufTy).Contents (Elt F)),
    StableHlo.unary main_arg14 main_v64 (broadcastInDim S1x1x256 ![2] bcast_S256_S1x1x256_2 : (⟨S256, .f32⟩ : BufTy).Contents (Elt F) → (⟨S1x1x256, .f32⟩ : BufTy).Contents (Elt F)),
    StableHlo.unary main_v64 main_v65 (broadcastInDim S4096x3x256 ![0, 1, 2] bcast_S1x1x256_S4096x3x256_0_1_2 : (⟨S1x1x256, .f32⟩ : BufTy).Contents (Elt F) → (⟨S4096x3x256, .f32⟩ : BufTy).Contents (Elt F)),
    StableHlo.binary main_v63 main_v65 main_v66 (addf : (⟨S4096x3x256, .f32⟩ : BufTy).Contents (Elt F) → (⟨S4096x3x256, .f32⟩ : BufTy).Contents (Elt F) → (⟨S4096x3x256, .f32⟩ : BufTy).Contents (Elt F)),
    StableHlo.TRef.nullary main_call10.cst (constant S_ .f32 0x00000000#32),
    StableHlo.TRef.unary main_call10.cst main_call10.v0 (broadcastInDim S4096x3x256 ![] bcast_S_S4096x3x256),
    StableHlo.TRef.binary (.of main_v66) main_call10.v0 main_call10.v1 maximumf,
    StableHlo.binary main_v67 main_arg15 main_v68 ((fun l r => Host.dotGeneral dot_S4096x3x256_S256x256_S4096x3x256_2_0_01_1_n_n none l r) : (⟨S4096x3x256, .f32⟩ : BufTy).Contents (Elt F) → (⟨S256x256, .f32⟩ : BufTy).Contents (Elt F) → (⟨S4096x3x256, .f32⟩ : BufTy).Contents (Elt F)),
    StableHlo.unary main_arg16 main_v69 (broadcastInDim S1x1x256 ![2] bcast_S256_S1x1x256_2 : (⟨S256, .f32⟩ : BufTy).Contents (Elt F) → (⟨S1x1x256, .f32⟩ : BufTy).Contents (Elt F)),
    StableHlo.unary main_v69 main_v70 (broadcastInDim S4096x3x256 ![0, 1, 2] bcast_S1x1x256_S4096x3x256_0_1_2 : (⟨S1x1x256, .f32⟩ : BufTy).Contents (Elt F) → (⟨S4096x3x256, .f32⟩ : BufTy).Contents (Elt F)),
    StableHlo.binary main_v68 main_v70 main_v71 (addf : (⟨S4096x3x256, .f32⟩ : BufTy).Contents (Elt F) → (⟨S4096x3x256, .f32⟩ : BufTy).Contents (Elt F) → (⟨S4096x3x256, .f32⟩ : BufTy).Contents (Elt F)),
    StableHlo.TRef.nullary main_call11.cst (constant S_ .f32 0x00000000#32),
    StableHlo.TRef.unary main_call11.cst main_call11.v0 (broadcastInDim S4096x3x256 ![] bcast_S_S4096x3x256),
    StableHlo.TRef.binary (.of main_v71) main_call11.v0 main_call11.v1 maximumf,
    StableHlo.nullary main_cst_19 (constant S_ .f32 0x00000000#32),
    StableHlo.binary main_v72 main_cst_19 main_v73 ((fun x v => Host.reduceAdd x v reducesTo_S4096x3x256_S4096x256_d1 h_S_) : (⟨S4096x3x256, .f32⟩ : BufTy).Contents (Elt F) → (⟨S_, .f32⟩ : BufTy).Contents (Elt F) → (⟨S4096x256, .f32⟩ : BufTy).Contents (Elt F)),
    StableHlo.binary main_v55 main_v73 main_v74 (addf : (⟨S4096x256, .f32⟩ : BufTy).Contents (Elt F) → (⟨S4096x256, .f32⟩ : BufTy).Contents (Elt F) → (⟨S4096x256, .f32⟩ : BufTy).Contents (Elt F)) ]

/-- Scale 4: from the shift constant to the sum over the scale's relations added to the running sum. (Operations 122 … 148 of 209.) -/
abbrev b4 : List (HloOp τ sig (Elt F)) :=
  [ StableHlo.nullary main_c_20 (constantI S_ 32 8#32),
    StableHlo.unary main_c_20 main_v75 (broadcastInDim S3x4 ![] bcast_S_S3x4 : (⟨S_, .i32⟩ : BufTy).Contents (Elt F) → (⟨S3x4, .i32⟩ : BufTy).Contents (Elt F)),
    StableHlo.binary main_c_7 main_v75 main_v76 (addi : (⟨S3x4, .i32⟩ : BufTy).Contents (Elt F) → (⟨S3x4, .i32⟩ : BufTy).Contents (Elt F) → (⟨S3x4, .i32⟩ : BufTy).Contents (Elt F)),
    StableHlo.ternary main_c_8 main_v76 main_c_7 main_v77 (select : (⟨S3x4, .i1⟩ : BufTy).Contents (Elt F) → (⟨S3x4, .i32⟩ : BufTy).Contents (Elt F) → (⟨S3x4, .i32⟩ : BufTy).Contents (Elt F) → (⟨S3x4, .i32⟩ : BufTy).Contents (Elt F)),
    StableHlo.unary main_v77 main_v78 (broadcastInDim S3x4x1 ![0, 1] bcast_S3x4_S3x4x1_0_1 : (⟨S3x4, .i32⟩ : BufTy).Contents (Elt F) → (⟨S3x4x1, .i32⟩ : BufTy).Contents (Elt F)),
    StableHlo.binary main_arg0 main_v78 main_v79 ((fun x i => Host.gather gather_S4096x8x1024_S3x4x1_S4096x3x4x1024_03_1_n_n_1_2_409611024 x i) : (⟨S4096x8x1024, .f32⟩ : BufTy).Contents (Elt F) → (⟨S3x4x1, .i32⟩ : BufTy).Contents (Elt F) → (⟨S4096x3x4x1024, .f32⟩ : BufTy).Contents (Elt F)),
    StableHlo.reshape main_v79 main_v80 rfl shapeCasts_S4096x3x4x1024_S4096x3x4096,
    StableHlo.TRef.nullary main_call12.cst (constant S_ .f32 0x00000000#32),
    StableHlo.TRef.unary main_call12.cst main_call12.v0 (broadcastInDim S4096x3x4096 ![] bcast_S_S4096x3x4096),
    StableHlo.TRef.binary (.of main_v80) main_call12.v0 main_call12.v1 maximumf,
    StableHlo.binary main_v81 main_arg17 main_v82 ((fun l r => Host.dotGeneral dot_S4096x3x4096_S4096x256_S4096x3x256_2_0_01_1_n_n none l r) : (⟨S4096x3x4096, .f32⟩ : BufTy).Contents (Elt F) → (⟨S4096x256, .f32⟩ : BufTy).Contents (Elt F) → (⟨S4096x3x256, .f32⟩ : BufTy).Contents (Elt F)),
    StableHlo.unary main_arg18 main_v83 (broadcastInDim S1x1x256 ![2] bcast_S256_S1x1x256_2 : (⟨S256, .f32⟩ : BufTy).Contents (Elt F) → (⟨S1x1x256, .f32⟩ : BufTy).Contents (Elt F)),
    StableHlo.unary main_v83 main_v84 (broadcastInDim S4096x3x256 ![0, 1, 2] bcast_S1x1x256_S4096x3x256_0_1_2 : (⟨S1x1x256, .f32⟩ : BufTy).Contents (Elt F) → (⟨S4096x3x256, .f32⟩ : BufTy).Contents (Elt F)),
    StableHlo.binary main_v82 main_v84 main_v85 (addf : (⟨S4096x3x256, .f32⟩ : BufTy).Contents (Elt F) → (⟨S4096x3x256, .f32⟩ : BufTy).Contents (Elt F) → (⟨S4096x3x256, .f32⟩ : BufTy).Contents (Elt F)),
    StableHlo.TRef.nullary main_call13.cst (constant S_ .f32 0x00000000#32),
    StableHlo.TRef.unary main_call13.cst main_call13.v0 (broadcastInDim S4096x3x256 ![] bcast_S_S4096x3x256),
    StableHlo.TRef.binary (.of main_v85) main_call13.v0 main_call13.v1 maximumf,
    StableHlo.binary main_v86 main_arg19 main_v87 ((fun l r => Host.dotGeneral dot_S4096x3x256_S256x256_S4096x3x256_2_0_01_1_n_n none l r) : (⟨S4096x3x256, .f32⟩ : BufTy).Contents (Elt F) → (⟨S256x256, .f32⟩ : BufTy).Contents (Elt F) → (⟨S4096x3x256, .f32⟩ : BufTy).Contents (Elt F)),
    StableHlo.unary main_arg20 main_v88 (broadcastInDim S1x1x256 ![2] bcast_S256_S1x1x256_2 : (⟨S256, .f32⟩ : BufTy).Contents (Elt F) → (⟨S1x1x256, .f32⟩ : BufTy).Contents (Elt F)),
    StableHlo.unary main_v88 main_v89 (broadcastInDim S4096x3x256 ![0, 1, 2] bcast_S1x1x256_S4096x3x256_0_1_2 : (⟨S1x1x256, .f32⟩ : BufTy).Contents (Elt F) → (⟨S4096x3x256, .f32⟩ : BufTy).Contents (Elt F)),
    StableHlo.binary main_v87 main_v89 main_v90 (addf : (⟨S4096x3x256, .f32⟩ : BufTy).Contents (Elt F) → (⟨S4096x3x256, .f32⟩ : BufTy).Contents (Elt F) → (⟨S4096x3x256, .f32⟩ : BufTy).Contents (Elt F)),
    StableHlo.TRef.nullary main_call14.cst (constant S_ .f32 0x00000000#32),
    StableHlo.TRef.unary main_call14.cst main_call14.v0 (broadcastInDim S4096x3x256 ![] bcast_S_S4096x3x256),
    StableHlo.TRef.binary (.of main_v90) main_call14.v0 main_call14.v1 maximumf,
    StableHlo.nullary main_cst_21 (constant S_ .f32 0x00000000#32),
    StableHlo.binary main_v91 main_cst_21 main_v92 ((fun x v => Host.reduceAdd x v reducesTo_S4096x3x256_S4096x256_d1 h_S_) : (⟨S4096x3x256, .f32⟩ : BufTy).Contents (Elt F) → (⟨S_, .f32⟩ : BufTy).Contents (Elt F) → (⟨S4096x256, .f32⟩ : BufTy).Contents (Elt F)),
    StableHlo.binary main_v74 main_v92 main_v93 (addf : (⟨S4096x256, .f32⟩ : BufTy).Contents (Elt F) → (⟨S4096x256, .f32⟩ : BufTy).Contents (Elt F) → (⟨S4096x256, .f32⟩ : BufTy).Contents (Elt F)) ]

/-- Scale 5: from the shift constant to the sum over the scale's relations added to the running sum. (Operations 149 … 175 of 209.) -/
abbrev b5 : List (HloOp τ sig (Elt F)) :=
  [ StableHlo.nullary main_c_22 (constantI S_ 32 8#32),
    StableHlo.unary main_c_22 main_v94 (broadcastInDim S3x3 ![] bcast_S_S3x3 : (⟨S_, .i32⟩ : BufTy).Contents (Elt F) → (⟨S3x3, .i32⟩ : BufTy).Contents (Elt F)),
    StableHlo.binary main_c_9 main_v94 main_v95 (addi : (⟨S3x3, .i32⟩ : BufTy).Contents (Elt F) → (⟨S3x3, .i32⟩ : BufTy).Contents (Elt F) → (⟨S3x3, .i32⟩ : BufTy).Contents (Elt F)),
    StableHlo.ternary main_c_10 main_v95 main_c_9 main_v96 (select : (⟨S3x3, .i1⟩ : BufTy).Contents (Elt F) → (⟨S3x3, .i32⟩ : BufTy).Contents (Elt F) → (⟨S3x3, .i32⟩ : BufTy).Contents (Elt F) → (⟨S3x3, .i32⟩ : BufTy).Contents (Elt F)),
    StableHlo.unary main_v96 main_v97 (broadcastInDim S3x3x1 ![0, 1] bcast_S3x3_S3x3x1_0_1 : (⟨S3x3, .i32⟩ : BufTy).Contents (Elt F) → (⟨S3x3x1, .i32⟩ : BufTy).Contents (Elt F)),
    StableHlo.binary main_arg0 main_v97 main_v98 ((fun x i => Host.gather gather_S4096x8x1024_S3x3x1_S4096x3x3x1024_03_1_n_n_1_2_409611024 x i) : (⟨S4096x8x1024, .f32⟩ : BufTy).Contents (Elt F) → (⟨S3x3x1, .i32⟩ : BufTy).Contents (Elt F) → (⟨S4096x3x3x1024, .f32⟩ : BufTy).Contents (Elt F)),
    StableHlo.reshape main_v98 main_v99 rfl shapeCasts_S4096x3x3x1024_S4096x3x3072,
    StableHlo.TRef.nullary main_call15.cst (constant S_ .f32 0x00000000#32),
    StableHlo.TRef.unary main_call15.cst main_call15.v0 (broadcastInDim S4096x3x3072 ![] bcast_S_S4096x3x3072),
    StableHlo.TRef.binary (.of main_v99) main_call15.v0 main_call15.v1 maximumf,
    StableHlo.binary main_v100 main_arg21 main_v101 ((fun l r => Host.dotGeneral dot_S4096x3x3072_S3072x256_S4096x3x256_2_0_01_1_n_n none l r) : (⟨S4096x3x3072, .f32⟩ : BufTy).Contents (Elt F) → (⟨S3072x256, .f32⟩ : BufTy).Contents (Elt F) → (⟨S4096x3x256, .f32⟩ : BufTy).Contents (Elt F)),
    StableHlo.unary main_arg22 main_v102 (broadcastInDim S1x1x256 ![2] bcast_S256_S1x1x256_2 : (⟨S256, .f32⟩ : BufTy).Contents (Elt F) → (⟨S1x1x256, .f32⟩ : BufTy).Contents (Elt F)),
    StableHlo.unary main_v102 main_v103 (broadcastInDim S4096x3x256 ![0, 1, 2] bcast_S1x1x256_S4096x3x256_0_1_2 : (⟨S1x1x256, .f32⟩ : BufTy).Contents (Elt F) → (⟨S4096x3x256, .f32⟩ : BufTy).Contents (Elt F)),
    StableHlo.binary main_v101 main_v103 main_v104 (addf : (⟨S4096x3x256, .f32⟩ : BufTy).Contents (Elt F) → (⟨S4096x3x256, .f32⟩ : BufTy).Contents (Elt F) → (⟨S4096x3x256, .f32⟩ : BufTy).Contents (Elt F)),
    StableHlo.TRef.nullary main_call16.cst (constant S_ .f32 0x00000000#32),
    StableHlo.TRef.unary main_call16.cst main_call16.v0 (broadcastInDim S4096x3x256 ![] bcast_S_S4096x3x256),
    StableHlo.TRef.binary (.of main_v104) main_call16.v0 main_call16.v1 maximumf,
    StableHlo.binary main_v105 main_arg23 main_v106 ((fun l r => Host.dotGeneral dot_S4096x3x256_S256x256_S4096x3x256_2_0_01_1_n_n none l r) : (⟨S4096x3x256, .f32⟩ : BufTy).Contents (Elt F) → (⟨S256x256, .f32⟩ : BufTy).Contents (Elt F) → (⟨S4096x3x256, .f32⟩ : BufTy).Contents (Elt F)),
    StableHlo.unary main_arg24 main_v107 (broadcastInDim S1x1x256 ![2] bcast_S256_S1x1x256_2 : (⟨S256, .f32⟩ : BufTy).Contents (Elt F) → (⟨S1x1x256, .f32⟩ : BufTy).Contents (Elt F)),
    StableHlo.unary main_v107 main_v108 (broadcastInDim S4096x3x256 ![0, 1, 2] bcast_S1x1x256_S4096x3x256_0_1_2 : (⟨S1x1x256, .f32⟩ : BufTy).Contents (Elt F) → (⟨S4096x3x256, .f32⟩ : BufTy).Contents (Elt F)),
    StableHlo.binary main_v106 main_v108 main_v109 (addf : (⟨S4096x3x256, .f32⟩ : BufTy).Contents (Elt F) → (⟨S4096x3x256, .f32⟩ : BufTy).Contents (Elt F) → (⟨S4096x3x256, .f32⟩ : BufTy).Contents (Elt F)),
    StableHlo.TRef.nullary main_call17.cst (constant S_ .f32 0x00000000#32),
    StableHlo.TRef.unary main_call17.cst main_call17.v0 (broadcastInDim S4096x3x256 ![] bcast_S_S4096x3x256),
    StableHlo.TRef.binary (.of main_v109) main_call17.v0 main_call17.v1 maximumf,
    StableHlo.nullary main_cst_23 (constant S_ .f32 0x00000000#32),
    StableHlo.binary main_v110 main_cst_23 main_v111 ((fun x v => Host.reduceAdd x v reducesTo_S4096x3x256_S4096x256_d1 h_S_) : (⟨S4096x3x256, .f32⟩ : BufTy).Contents (Elt F) → (⟨S_, .f32⟩ : BufTy).Contents (Elt F) → (⟨S4096x256, .f32⟩ : BufTy).Contents (Elt F)),
    StableHlo.binary main_v93 main_v111 main_v112 (addf : (⟨S4096x256, .f32⟩ : BufTy).Contents (Elt F) → (⟨S4096x256, .f32⟩ : BufTy).Contents (Elt F) → (⟨S4096x256, .f32⟩ : BufTy).Contents (Elt F)) ]

/-- Scale 6: from the shift constant to the sum over the scale's relations added to the running sum. (Operations 176 … 202 of 209.) -/
abbrev b6 : List (HloOp τ sig (Elt F)) :=
  [ StableHlo.nullary main_c_24 (constantI S_ 32 8#32),
    StableHlo.unary main_c_24 main_v113 (broadcastInDim S3x2 ![] bcast_S_S3x2 : (⟨S_, .i32⟩ : BufTy).Contents (Elt F) → (⟨S3x2, .i32⟩ : BufTy).Contents (Elt F)),
    StableHlo.binary main_c_11 main_v113 main_v114 (addi : (⟨S3x2, .i32⟩ : BufTy).Contents (Elt F) → (⟨S3x2, .i32⟩ : BufTy).Contents (Elt F) → (⟨S3x2, .i32⟩ : BufTy).Contents (Elt F)),
    StableHlo.ternary main_c_12 main_v114 main_c_11 main_v115 (select : (⟨S3x2, .i1⟩ : BufTy).Contents (Elt F) → (⟨S3x2, .i32⟩ : BufTy).Contents (Elt F) → (⟨S3x2, .i32⟩ : BufTy).Contents (Elt F) → (⟨S3x2, .i32⟩ : BufTy).Contents (Elt F)),
    StableHlo.unary main_v115 main_v116 (broadcastInDim S3x2x1 ![0, 1] bcast_S3x2_S3x2x1_0_1 : (⟨S3x2, .i32⟩ : BufTy).Contents (Elt F) → (⟨S3x2x1, .i32⟩ : BufTy).Contents (Elt F)),
    StableHlo.binary main_arg0 main_v116 main_v117 ((fun x i => Host.gather gather_S4096x8x1024_S3x2x1_S4096x3x2x1024_03_1_n_n_1_2_409611024 x i) : (⟨S4096x8x1024, .f32⟩ : BufTy).Contents (Elt F) → (⟨S3x2x1, .i32⟩ : BufTy).Contents (Elt F) → (⟨S4096x3x2x1024, .f32⟩ : BufTy).Contents (Elt F)),
    StableHlo.reshape main_v117 main_v118 rfl shapeCasts_S4096x3x2x1024_S4096x3x2048,
    StableHlo.TRef.nullary main_call18.cst (constant S_ .f32 0x00000000#32),
    StableHlo.TRef.unary main_call18.cst main_call18.v0 (broadcastInDim S4096x3x2048 ![] bcast_S_S4096x3x2048),
    StableHlo.TRef.binary (.of main_v118) main_call18.v0 main_call18.v1 maximumf,
    StableHlo.binary main_v119 main_arg25 main_v120 ((fun l r => Host.dotGeneral dot_S4096x3x2048_S2048x256_S4096x3x256_2_0_01_1_n_n none l r) : (⟨S4096x3x2048, .f32⟩ : BufTy).Contents (Elt F) → (⟨S2048x256, .f32⟩ : BufTy).Contents (Elt F) → (⟨S4096x3x256, .f32⟩ : BufTy).Contents (Elt F)),
    StableHlo.unary main_arg26 main_v121 (broadcastInDim S1x1x256 ![2] bcast_S256_S1x1x256_2 : (⟨S256, .f32⟩ : BufTy).Contents (Elt F) → (⟨S1x1x256, .f32⟩ : BufTy).Contents (Elt F)),
    StableHlo.unary main_v121 main_v122 (broadcastInDim S4096x3x256 ![0, 1, 2] bcast_S1x1x256_S4096x3x256_0_1_2 : (⟨S1x1x256, .f32⟩ : BufTy).Contents (Elt F) → (⟨S4096x3x256, .f32⟩ : BufTy).Contents (Elt F)),
    StableHlo.binary main_v120 main_v122 main_v123 (addf : (⟨S4096x3x256, .f32⟩ : BufTy).Contents (Elt F) → (⟨S4096x3x256, .f32⟩ : BufTy).Contents (Elt F) → (⟨S4096x3x256, .f32⟩ : BufTy).Contents (Elt F)),
    StableHlo.TRef.nullary main_call19.cst (constant S_ .f32 0x00000000#32),
    StableHlo.TRef.unary main_call19.cst main_call19.v0 (broadcastInDim S4096x3x256 ![] bcast_S_S4096x3x256),
    StableHlo.TRef.binary (.of main_v123) main_call19.v0 main_call19.v1 maximumf,
    StableHlo.binary main_v124 main_arg27 main_v125 ((fun l r => Host.dotGeneral dot_S4096x3x256_S256x256_S4096x3x256_2_0_01_1_n_n none l r) : (⟨S4096x3x256, .f32⟩ : BufTy).Contents (Elt F) → (⟨S256x256, .f32⟩ : BufTy).Contents (Elt F) → (⟨S4096x3x256, .f32⟩ : BufTy).Contents (Elt F)),
    StableHlo.unary main_arg28 main_v126 (broadcastInDim S1x1x256 ![2] bcast_S256_S1x1x256_2 : (⟨S256, .f32⟩ : BufTy).Contents (Elt F) → (⟨S1x1x256, .f32⟩ : BufTy).Contents (Elt F)),
    StableHlo.unary main_v126 main_v127 (broadcastInDim S4096x3x256 ![0, 1, 2] bcast_S1x1x256_S4096x3x256_0_1_2 : (⟨S1x1x256, .f32⟩ : BufTy).Contents (Elt F) → (⟨S4096x3x256, .f32⟩ : BufTy).Contents (Elt F)),
    StableHlo.binary main_v125 main_v127 main_v128 (addf : (⟨S4096x3x256, .f32⟩ : BufTy).Contents (Elt F) → (⟨S4096x3x256, .f32⟩ : BufTy).Contents (Elt F) → (⟨S4096x3x256, .f32⟩ : BufTy).Contents (Elt F)),
    StableHlo.TRef.nullary main_call20.cst (constant S_ .f32 0x00000000#32),
    StableHlo.TRef.unary main_call20.cst main_call20.v0 (broadcastInDim S4096x3x256 ![] bcast_S_S4096x3x256),
    StableHlo.TRef.binary (.of main_v128) main_call20.v0 main_call20.v1 maximumf,
    StableHlo.nullary main_cst_25 (constant S_ .f32 0x00000000#32),
    StableHlo.binary main_v129 main_cst_25 main_v130 ((fun x v => Host.reduceAdd x v reducesTo_S4096x3x256_S4096x256_d1 h_S_) : (⟨S4096x3x256, .f32⟩ : BufTy).Contents (Elt F) → (⟨S_, .f32⟩ : BufTy).Contents (Elt F) → (⟨S4096x256, .f32⟩ : BufTy).Contents (Elt F)),
    StableHlo.binary main_v112 main_v130 main_v131 (addf : (⟨S4096x256, .f32⟩ : BufTy).Contents (Elt F) → (⟨S4096x256, .f32⟩ : BufTy).Contents (Elt F) → (⟨S4096x256, .f32⟩ : BufTy).Contents (Elt F)) ]

/-- The output layer and its rectification. (Operations 203 … 209 of 209.) -/
abbrev fin : List (HloOp τ sig (Elt F)) :=
  [ StableHlo.binary main_v131 main_arg29 main_v132 ((fun l r => Host.dotGeneral dot_S4096x256_S256x400_S4096x400_1_0_0_1_n_n none l r) : (⟨S4096x256, .f32⟩ : BufTy).Contents (Elt F) → (⟨S256x400, .f32⟩ : BufTy).Contents (Elt F) → (⟨S4096x400, .f32⟩ : BufTy).Contents (Elt F)),
    StableHlo.unary main_arg30 main_v133 (broadcastInDim S1x400 ![1] bcast_S400_S1x400_1 : (⟨S400, .f32⟩ : BufTy).Contents (Elt F) → (⟨S1x400, .f32⟩ : BufTy).Contents (Elt F)),
    StableHlo.unary main_v133 main_v134 (broadcastInDim S4096x400 ![0, 1] bcast_S1x400_S4096x400_0_1 : (⟨S1x400, .f32⟩ : BufTy).Contents (Elt F) → (⟨S4096x400, .f32⟩ : BufTy).Contents (Elt F)),
    StableHlo.binary main_v132 main_v134 main_v135 (addf : (⟨S4096x400, .f32⟩ : BufTy).Contents (Elt F) → (⟨S4096x400, .f32⟩ : BufTy).Contents (Elt F) → (⟨S4096x400, .f32⟩ : BufTy).Contents (Elt F)),
    StableHlo.TRef.nullary main_call21.cst (constant S_ .f32 0x00000000#32),
    StableHlo.TRef.unary main_call21.cst main_call21.v0 (broadcastInDim S4096x400 ![] bcast_S_S4096x400),
    StableHlo.TRef.binary (.of main_v135) main_call21.v0 main_call21.v1 maximumf ]

/-- The buffers that window `wC` writes. -/
abbrev wC_W : List (Ref sig .tc) := [main_c, main_c_0, main_c_1, main_c_2, main_c_3, main_c_4, main_c_5, main_c_6, main_c_7, main_c_8, main_c_9, main_c_10, main_c_11, main_c_12]
set_option maxRecDepth 8192 in
theorem wC_writes : (wC : List (HloOp τ sig (Elt F))).Forall fun op => op.writes ⊆ (wC_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- The buffers that window `b0` writes. -/
abbrev b0_W : List (Ref sig .tc) := [main_c_13, main_v0, main_v1, main_v2, main_v3, main_v4, main_v5, main_call0_cst, main_call0_v0, main_v6, main_v7, main_v8, main_v9, main_v10, main_call1_cst, main_call1_v0, main_v11, main_v12, main_v13, main_v14, main_v15, main_call2_cst, main_call2_v0, main_v16, main_cst, main_v17]
set_option maxRecDepth 8192 in
theorem b0_writes : (b0 : List (HloOp τ sig (Elt F))).Forall fun op => op.writes ⊆ (b0_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- The buffers that window `b1` writes. -/
abbrev b1_W : List (Ref sig .tc) := [main_c_14, main_v18, main_v19, main_v20, main_v21, main_v22, main_v23, main_call3_cst, main_call3_v0, main_v24, main_v25, main_v26, main_v27, main_v28, main_call4_cst, main_call4_v0, main_v29, main_v30, main_v31, main_v32, main_v33, main_call5_cst, main_call5_v0, main_v34, main_cst_15, main_v35, main_v36]
set_option maxRecDepth 8192 in
theorem b1_writes : (b1 : List (HloOp τ sig (Elt F))).Forall fun op => op.writes ⊆ (b1_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- The buffers that window `b2` writes. -/
abbrev b2_W : List (Ref sig .tc) := [main_c_16, main_v37, main_v38, main_v39, main_v40, main_v41, main_v42, main_call6_cst, main_call6_v0, main_v43, main_v44, main_v45, main_v46, main_v47, main_call7_cst, main_call7_v0, main_v48, main_v49, main_v50, main_v51, main_v52, main_call8_cst, main_call8_v0, main_v53, main_cst_17, main_v54, main_v55]
set_option maxRecDepth 8192 in
theorem b2_writes : (b2 : List (HloOp τ sig (Elt F))).Forall fun op => op.writes ⊆ (b2_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- The buffers that window `b3` writes. -/
abbrev b3_W : List (Ref sig .tc) := [main_c_18, main_v56, main_v57, main_v58, main_v59, main_v60, main_v61, main_call9_cst, main_call9_v0, main_v62, main_v63, main_v64, main_v65, main_v66, main_call10_cst, main_call10_v0, main_v67, main_v68, main_v69, main_v70, main_v71, main_call11_cst, main_call11_v0, main_v72, main_cst_19, main_v73, main_v74]
set_option maxRecDepth 8192 in
theorem b3_writes : (b3 : List (HloOp τ sig (Elt F))).Forall fun op => op.writes ⊆ (b3_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- The buffers that window `b4` writes. -/
abbrev b4_W : List (Ref sig .tc) := [main_c_20, main_v75, main_v76, main_v77, main_v78, main_v79, main_v80, main_call12_cst, main_call12_v0, main_v81, main_v82, main_v83, main_v84, main_v85, main_call13_cst, main_call13_v0, main_v86, main_v87, main_v88, main_v89, main_v90, main_call14_cst, main_call14_v0, main_v91, main_cst_21, main_v92, main_v93]
set_option maxRecDepth 8192 in
theorem b4_writes : (b4 : List (HloOp τ sig (Elt F))).Forall fun op => op.writes ⊆ (b4_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- The buffers that window `b5` writes. -/
abbrev b5_W : List (Ref sig .tc) := [main_c_22, main_v94, main_v95, main_v96, main_v97, main_v98, main_v99, main_call15_cst, main_call15_v0, main_v100, main_v101, main_v102, main_v103, main_v104, main_call16_cst, main_call16_v0, main_v105, main_v106, main_v107, main_v108, main_v109, main_call17_cst, main_call17_v0, main_v110, main_cst_23, main_v111, main_v112]
set_option maxRecDepth 8192 in
theorem b5_writes : (b5 : List (HloOp τ sig (Elt F))).Forall fun op => op.writes ⊆ (b5_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

/-- The buffers that window `b6` writes. -/
abbrev b6_W : List (Ref sig .tc) := [main_c_24, main_v113, main_v114, main_v115, main_v116, main_v117, main_v118, main_call18_cst, main_call18_v0, main_v119, main_v120, main_v121, main_v122, main_v123, main_call19_cst, main_call19_v0, main_v124, main_v125, main_v126, main_v127, main_v128, main_call20_cst, main_call20_v0, main_v129, main_cst_25, main_v130, main_v131]
set_option maxRecDepth 8192 in
theorem b6_writes : (b6 : List (HloOp τ sig (Elt F))).Forall fun op => op.writes ⊆ (b6_W.map (Proc.devRef (τ := τ) .tc)).toFinset := by
  simp only [List.Forall]
  exact ⟨by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide),
    by simp only [nullary_writes, unary_writes, binary_writes, ternary_writes, reshape_writes, Finset.singleton_subset_iff, List.mem_toFinset]; exact List.mem_map_of_mem (by decide)⟩

set_option maxRecDepth 8192 in
set_option maxHeartbeats 2000000 in
/-- Scale 0's window from any contents holding the scale's table and mask: the scale's term of the arguments there. -/
theorem b0_acc (X : Valuation τ sig (Elt F))
    (hc : X (main_c : DevRef τ sig) = fun i => lit0 (S1x8.rowMajor i))
    (hm : X (main_c_0 : DevRef τ sig) = constantI S1x8 1 0#1) :
    after b0 X (main_v17 : DevRef τ sig) = RefTerm.fuse0 (X (main_arg0 : DevRef τ sig)) (X (main_arg1 : DevRef τ sig)) (X (main_arg2 : DevRef τ sig)) (X (main_arg3 : DevRef τ sig)) (X (main_arg4 : DevRef τ sig)) := by
  after_results_simp
  rw [hc, hm]
  rfl

set_option maxRecDepth 8192 in
set_option maxHeartbeats 2000000 in
/-- Scale 1's window from any contents holding the scale's table and mask: the running sum plus the scale's term of the arguments there. -/
theorem b1_acc (X : Valuation τ sig (Elt F))
    (hc : X (main_c_1 : DevRef τ sig) = fun i => lit1 (S3x7.rowMajor i))
    (hm : X (main_c_2 : DevRef τ sig) = constantI S3x7 1 0#1) :
    after b1 X (main_v36 : DevRef τ sig) = addf (X (main_v17 : DevRef τ sig)) (RefTerm.fuse1 (X (main_arg0 : DevRef τ sig)) (X (main_arg5 : DevRef τ sig)) (X (main_arg6 : DevRef τ sig)) (X (main_arg7 : DevRef τ sig)) (X (main_arg8 : DevRef τ sig))) := by
  after_results_simp
  rw [hc, hm]
  rfl

set_option maxRecDepth 8192 in
set_option maxHeartbeats 2000000 in
/-- Scale 2's window from any contents holding the scale's table and mask: the running sum plus the scale's term of the arguments there. -/
theorem b2_acc (X : Valuation τ sig (Elt F))
    (hc : X (main_c_3 : DevRef τ sig) = fun i => lit2 (S3x6.rowMajor i))
    (hm : X (main_c_4 : DevRef τ sig) = constantI S3x6 1 0#1) :
    after b2 X (main_v55 : DevRef τ sig) = addf (X (main_v36 : DevRef τ sig)) (RefTerm.fuse2 (X (main_arg0 : DevRef τ sig)) (X (main_arg9 : DevRef τ sig)) (X (main_arg10 : DevRef τ sig)) (X (main_arg11 : DevRef τ sig)) (X (main_arg12 : DevRef τ sig))) := by
  after_results_simp
  rw [hc, hm]
  rfl

set_option maxRecDepth 8192 in
set_option maxHeartbeats 2000000 in
/-- Scale 3's window from any contents holding the scale's table and mask: the running sum plus the scale's term of the arguments there. -/
theorem b3_acc (X : Valuation τ sig (Elt F))
    (hc : X (main_c_5 : DevRef τ sig) = fun i => lit3 (S3x5.rowMajor i))
    (hm : X (main_c_6 : DevRef τ sig) = constantI S3x5 1 0#1) :
    after b3 X (main_v74 : DevRef τ sig) = addf (X (main_v55 : DevRef τ sig)) (RefTerm.fuse3 (X (main_arg0 : DevRef τ sig)) (X (main_arg13 : DevRef τ sig)) (X (main_arg14 : DevRef τ sig)) (X (main_arg15 : DevRef τ sig)) (X (main_arg16 : DevRef τ sig))) := by
  after_results_simp
  rw [hc, hm]
  rfl

set_option maxRecDepth 8192 in
set_option maxHeartbeats 2000000 in
/-- Scale 4's window from any contents holding the scale's table and mask: the running sum plus the scale's term of the arguments there. -/
theorem b4_acc (X : Valuation τ sig (Elt F))
    (hc : X (main_c_7 : DevRef τ sig) = fun i => lit4 (S3x4.rowMajor i))
    (hm : X (main_c_8 : DevRef τ sig) = constantI S3x4 1 0#1) :
    after b4 X (main_v93 : DevRef τ sig) = addf (X (main_v74 : DevRef τ sig)) (RefTerm.fuse4 (X (main_arg0 : DevRef τ sig)) (X (main_arg17 : DevRef τ sig)) (X (main_arg18 : DevRef τ sig)) (X (main_arg19 : DevRef τ sig)) (X (main_arg20 : DevRef τ sig))) := by
  after_results_simp
  rw [hc, hm]
  rfl

set_option maxRecDepth 8192 in
set_option maxHeartbeats 2000000 in
/-- Scale 5's window from any contents holding the scale's table and mask: the running sum plus the scale's term of the arguments there. -/
theorem b5_acc (X : Valuation τ sig (Elt F))
    (hc : X (main_c_9 : DevRef τ sig) = fun i => lit5 (S3x3.rowMajor i))
    (hm : X (main_c_10 : DevRef τ sig) = constantI S3x3 1 0#1) :
    after b5 X (main_v112 : DevRef τ sig) = addf (X (main_v93 : DevRef τ sig)) (RefTerm.fuse5 (X (main_arg0 : DevRef τ sig)) (X (main_arg21 : DevRef τ sig)) (X (main_arg22 : DevRef τ sig)) (X (main_arg23 : DevRef τ sig)) (X (main_arg24 : DevRef τ sig))) := by
  after_results_simp
  rw [hc, hm]
  rfl

set_option maxRecDepth 8192 in
set_option maxHeartbeats 2000000 in
/-- Scale 6's window from any contents holding the scale's table and mask: the running sum plus the scale's term of the arguments there. -/
theorem b6_acc (X : Valuation τ sig (Elt F))
    (hc : X (main_c_11 : DevRef τ sig) = fun i => lit6 (S3x2.rowMajor i))
    (hm : X (main_c_12 : DevRef τ sig) = constantI S3x2 1 0#1) :
    after b6 X (main_v131 : DevRef τ sig) = addf (X (main_v112 : DevRef τ sig)) (RefTerm.fuse6 (X (main_arg0 : DevRef τ sig)) (X (main_arg25 : DevRef τ sig)) (X (main_arg26 : DevRef τ sig)) (X (main_arg27 : DevRef τ sig)) (X (main_arg28 : DevRef τ sig))) := by
  after_results_simp
  rw [hc, hm]
  rfl

set_option maxRecDepth 8192 in
/-- The last window from any contents: the output layer over the running sum there, rectified. -/
theorem fin_out (X : Valuation τ sig (Elt F)) :
    after fin X (main_v136 : DevRef τ sig)
      = maximumf (addf (Host.dotGeneral dot_S4096x256_S256x400_S4096x400_1_0_0_1_n_n none (X (main_v131 : DevRef τ sig)) (X (main_arg29 : DevRef τ sig)))
          (broadcastInDim S4096x400 ![0, 1] bcast_S1x400_S4096x400_0_1 (broadcastInDim S1x400 ![1] bcast_S400_S1x400_1 (X (main_arg30 : DevRef τ sig)))))
        (broadcastInDim S4096x400 ![] bcast_S_S4096x400 (constant S_ .f32 0x00000000#32)) := by
  after_results_simp
  rfl

/-- The contents after the constant tables. -/
def val0 (V : Valuation τ sig (Elt F)) : Valuation τ sig (Elt F) := after wC V
/-- The contents after scale 0's window. -/
def val1 (V : Valuation τ sig (Elt F)) : Valuation τ sig (Elt F) := after b0 (val0 V)
/-- The contents after scale 1's window. -/
def val2 (V : Valuation τ sig (Elt F)) : Valuation τ sig (Elt F) := after b1 (val1 V)
/-- The contents after scale 2's window. -/
def val3 (V : Valuation τ sig (Elt F)) : Valuation τ sig (Elt F) := after b2 (val2 V)
/-- The contents after scale 3's window. -/
def val4 (V : Valuation τ sig (Elt F)) : Valuation τ sig (Elt F) := after b3 (val3 V)
/-- The contents after scale 4's window. -/
def val5 (V : Valuation τ sig (Elt F)) : Valuation τ sig (Elt F) := after b4 (val4 V)
/-- The contents after scale 5's window. -/
def val6 (V : Valuation τ sig (Elt F)) : Valuation τ sig (Elt F) := after b5 (val5 V)
/-- The contents after scale 6's window. -/
def val7 (V : Valuation τ sig (Elt F)) : Valuation τ sig (Elt F) := after b6 (val6 V)

/-- A buffer a window does not write keeps its contents through it. -/
theorem val0_keep (V : Valuation τ sig (Elt F)) (r : Ref sig .tc) (h : r ∉ wC_W) :
    val0 V (no_index (Proc.devRef .tc r)) = V (Proc.devRef .tc r) :=
  after_of_writes_sub wC _ wC_writes h
theorem val1_keep (V : Valuation τ sig (Elt F)) (r : Ref sig .tc) (h : r ∉ b0_W) :
    val1 V (no_index (Proc.devRef .tc r)) = val0 V (Proc.devRef .tc r) :=
  after_of_writes_sub b0 _ b0_writes h
theorem val2_keep (V : Valuation τ sig (Elt F)) (r : Ref sig .tc) (h : r ∉ b1_W) :
    val2 V (no_index (Proc.devRef .tc r)) = val1 V (Proc.devRef .tc r) :=
  after_of_writes_sub b1 _ b1_writes h
theorem val3_keep (V : Valuation τ sig (Elt F)) (r : Ref sig .tc) (h : r ∉ b2_W) :
    val3 V (no_index (Proc.devRef .tc r)) = val2 V (Proc.devRef .tc r) :=
  after_of_writes_sub b2 _ b2_writes h
theorem val4_keep (V : Valuation τ sig (Elt F)) (r : Ref sig .tc) (h : r ∉ b3_W) :
    val4 V (no_index (Proc.devRef .tc r)) = val3 V (Proc.devRef .tc r) :=
  after_of_writes_sub b3 _ b3_writes h
theorem val5_keep (V : Valuation τ sig (Elt F)) (r : Ref sig .tc) (h : r ∉ b4_W) :
    val5 V (no_index (Proc.devRef .tc r)) = val4 V (Proc.devRef .tc r) :=
  after_of_writes_sub b4 _ b4_writes h
theorem val6_keep (V : Valuation τ sig (Elt F)) (r : Ref sig .tc) (h : r ∉ b5_W) :
    val6 V (no_index (Proc.devRef .tc r)) = val5 V (Proc.devRef .tc r) :=
  after_of_writes_sub b5 _ b5_writes h
theorem val7_keep (V : Valuation τ sig (Elt F)) (r : Ref sig .tc) (h : r ∉ b6_W) :
    val7 V (no_index (Proc.devRef .tc r)) = val6 V (Proc.devRef .tc r) :=
  after_of_writes_sub b6 _ b6_writes h

/-! The tables and masks after the first window, and at the window that reads them. -/
theorem val0_tab0 (V : Valuation τ sig (Elt F)) : val0 V (no_index (main_c : DevRef τ sig)) = fun i => lit0 (S1x8.rowMajor i) := by
  unfold val0
  after_results_simp
  rfl
theorem val0_mask0 (V : Valuation τ sig (Elt F)) : val0 V (no_index (main_c_0 : DevRef τ sig)) = constantI S1x8 1 0#1 := by
  unfold val0
  after_results_simp
theorem val0_tab1 (V : Valuation τ sig (Elt F)) : val0 V (no_index (main_c_1 : DevRef τ sig)) = fun i => lit1 (S3x7.rowMajor i) := by
  unfold val0
  after_results_simp
  rfl
theorem val0_mask1 (V : Valuation τ sig (Elt F)) : val0 V (no_index (main_c_2 : DevRef τ sig)) = constantI S3x7 1 0#1 := by
  unfold val0
  after_results_simp
theorem val0_tab2 (V : Valuation τ sig (Elt F)) : val0 V (no_index (main_c_3 : DevRef τ sig)) = fun i => lit2 (S3x6.rowMajor i) := by
  unfold val0
  after_results_simp
  rfl
theorem val0_mask2 (V : Valuation τ sig (Elt F)) : val0 V (no_index (main_c_4 : DevRef τ sig)) = constantI S3x6 1 0#1 := by
  unfold val0
  after_results_simp
theorem val0_tab3 (V : Valuation τ sig (Elt F)) : val0 V (no_index (main_c_5 : DevRef τ sig)) = fun i => lit3 (S3x5.rowMajor i) := by
  unfold val0
  after_results_simp
  rfl
theorem val0_mask3 (V : Valuation τ sig (Elt F)) : val0 V (no_index (main_c_6 : DevRef τ sig)) = constantI S3x5 1 0#1 := by
  unfold val0
  after_results_simp
theorem val0_tab4 (V : Valuation τ sig (Elt F)) : val0 V (no_index (main_c_7 : DevRef τ sig)) = fun i => lit4 (S3x4.rowMajor i) := by
  unfold val0
  after_results_simp
  rfl
theorem val0_mask4 (V : Valuation τ sig (Elt F)) : val0 V (no_index (main_c_8 : DevRef τ sig)) = constantI S3x4 1 0#1 := by
  unfold val0
  after_results_simp
theorem val0_tab5 (V : Valuation τ sig (Elt F)) : val0 V (no_index (main_c_9 : DevRef τ sig)) = fun i => lit5 (S3x3.rowMajor i) := by
  unfold val0
  after_results_simp
  rfl
theorem val0_mask5 (V : Valuation τ sig (Elt F)) : val0 V (no_index (main_c_10 : DevRef τ sig)) = constantI S3x3 1 0#1 := by
  unfold val0
  after_results_simp
theorem val0_tab6 (V : Valuation τ sig (Elt F)) : val0 V (no_index (main_c_11 : DevRef τ sig)) = fun i => lit6 (S3x2.rowMajor i) := by
  unfold val0
  after_results_simp
  rfl
theorem val0_mask6 (V : Valuation τ sig (Elt F)) : val0 V (no_index (main_c_12 : DevRef τ sig)) = constantI S3x2 1 0#1 := by
  unfold val0
  after_results_simp
theorem val1_tab1 (V : Valuation τ sig (Elt F)) : val1 V (no_index (main_c_1 : DevRef τ sig)) = fun i => lit1 (S3x7.rowMajor i) := by
  simp (disch := decide) only [val1_keep, val0_tab1]
theorem val1_mask1 (V : Valuation τ sig (Elt F)) : val1 V (no_index (main_c_2 : DevRef τ sig)) = constantI S3x7 1 0#1 := by
  simp (disch := decide) only [val1_keep, val0_mask1]
theorem val2_tab2 (V : Valuation τ sig (Elt F)) : val2 V (no_index (main_c_3 : DevRef τ sig)) = fun i => lit2 (S3x6.rowMajor i) := by
  simp (disch := decide) only [val2_keep, val1_keep, val0_tab2]
theorem val2_mask2 (V : Valuation τ sig (Elt F)) : val2 V (no_index (main_c_4 : DevRef τ sig)) = constantI S3x6 1 0#1 := by
  simp (disch := decide) only [val2_keep, val1_keep, val0_mask2]
theorem val3_tab3 (V : Valuation τ sig (Elt F)) : val3 V (no_index (main_c_5 : DevRef τ sig)) = fun i => lit3 (S3x5.rowMajor i) := by
  simp (disch := decide) only [val3_keep, val2_keep, val1_keep, val0_tab3]
theorem val3_mask3 (V : Valuation τ sig (Elt F)) : val3 V (no_index (main_c_6 : DevRef τ sig)) = constantI S3x5 1 0#1 := by
  simp (disch := decide) only [val3_keep, val2_keep, val1_keep, val0_mask3]
theorem val4_tab4 (V : Valuation τ sig (Elt F)) : val4 V (no_index (main_c_7 : DevRef τ sig)) = fun i => lit4 (S3x4.rowMajor i) := by
  simp (disch := decide) only [val4_keep, val3_keep, val2_keep, val1_keep, val0_tab4]
theorem val4_mask4 (V : Valuation τ sig (Elt F)) : val4 V (no_index (main_c_8 : DevRef τ sig)) = constantI S3x4 1 0#1 := by
  simp (disch := decide) only [val4_keep, val3_keep, val2_keep, val1_keep, val0_mask4]
theorem val5_tab5 (V : Valuation τ sig (Elt F)) : val5 V (no_index (main_c_9 : DevRef τ sig)) = fun i => lit5 (S3x3.rowMajor i) := by
  simp (disch := decide) only [val5_keep, val4_keep, val3_keep, val2_keep, val1_keep, val0_tab5]
theorem val5_mask5 (V : Valuation τ sig (Elt F)) : val5 V (no_index (main_c_10 : DevRef τ sig)) = constantI S3x3 1 0#1 := by
  simp (disch := decide) only [val5_keep, val4_keep, val3_keep, val2_keep, val1_keep, val0_mask5]
theorem val6_tab6 (V : Valuation τ sig (Elt F)) : val6 V (no_index (main_c_11 : DevRef τ sig)) = fun i => lit6 (S3x2.rowMajor i) := by
  simp (disch := decide) only [val6_keep, val5_keep, val4_keep, val3_keep, val2_keep, val1_keep, val0_tab6]
theorem val6_mask6 (V : Valuation τ sig (Elt F)) : val6 V (no_index (main_c_12 : DevRef τ sig)) = constantI S3x2 1 0#1 := by
  simp (disch := decide) only [val6_keep, val5_keep, val4_keep, val3_keep, val2_keep, val1_keep, val0_mask6]

/-! Each scale's window at the contents the run reaches it with. -/
theorem val1_acc (V : Valuation τ sig (Elt F)) : val1 V (no_index (main_v17 : DevRef τ sig)) = RefTerm.fuse0 (V (main_arg0 : DevRef τ sig)) (V (main_arg1 : DevRef τ sig)) (V (main_arg2 : DevRef τ sig)) (V (main_arg3 : DevRef τ sig)) (V (main_arg4 : DevRef τ sig)) := by
  unfold val1
  rw [b0_acc (val0 V) (val0_tab0 V) (val0_mask0 V)]
  simp (disch := decide) only [val0_keep]
theorem val2_acc (V : Valuation τ sig (Elt F)) : val2 V (no_index (main_v36 : DevRef τ sig)) = addf (val1 V (main_v17 : DevRef τ sig)) (RefTerm.fuse1 (V (main_arg0 : DevRef τ sig)) (V (main_arg5 : DevRef τ sig)) (V (main_arg6 : DevRef τ sig)) (V (main_arg7 : DevRef τ sig)) (V (main_arg8 : DevRef τ sig))) := by
  unfold val2
  rw [b1_acc (val1 V) (val1_tab1 V) (val1_mask1 V)]
  simp (disch := decide) only [val1_keep, val0_keep]
theorem val3_acc (V : Valuation τ sig (Elt F)) : val3 V (no_index (main_v55 : DevRef τ sig)) = addf (val2 V (main_v36 : DevRef τ sig)) (RefTerm.fuse2 (V (main_arg0 : DevRef τ sig)) (V (main_arg9 : DevRef τ sig)) (V (main_arg10 : DevRef τ sig)) (V (main_arg11 : DevRef τ sig)) (V (main_arg12 : DevRef τ sig))) := by
  unfold val3
  rw [b2_acc (val2 V) (val2_tab2 V) (val2_mask2 V)]
  simp (disch := decide) only [val2_keep, val1_keep, val0_keep]
theorem val4_acc (V : Valuation τ sig (Elt F)) : val4 V (no_index (main_v74 : DevRef τ sig)) = addf (val3 V (main_v55 : DevRef τ sig)) (RefTerm.fuse3 (V (main_arg0 : DevRef τ sig)) (V (main_arg13 : DevRef τ sig)) (V (main_arg14 : DevRef τ sig)) (V (main_arg15 : DevRef τ sig)) (V (main_arg16 : DevRef τ sig))) := by
  unfold val4
  rw [b3_acc (val3 V) (val3_tab3 V) (val3_mask3 V)]
  simp (disch := decide) only [val3_keep, val2_keep, val1_keep, val0_keep]
theorem val5_acc (V : Valuation τ sig (Elt F)) : val5 V (no_index (main_v93 : DevRef τ sig)) = addf (val4 V (main_v74 : DevRef τ sig)) (RefTerm.fuse4 (V (main_arg0 : DevRef τ sig)) (V (main_arg17 : DevRef τ sig)) (V (main_arg18 : DevRef τ sig)) (V (main_arg19 : DevRef τ sig)) (V (main_arg20 : DevRef τ sig))) := by
  unfold val5
  rw [b4_acc (val4 V) (val4_tab4 V) (val4_mask4 V)]
  simp (disch := decide) only [val4_keep, val3_keep, val2_keep, val1_keep, val0_keep]
theorem val6_acc (V : Valuation τ sig (Elt F)) : val6 V (no_index (main_v112 : DevRef τ sig)) = addf (val5 V (main_v93 : DevRef τ sig)) (RefTerm.fuse5 (V (main_arg0 : DevRef τ sig)) (V (main_arg21 : DevRef τ sig)) (V (main_arg22 : DevRef τ sig)) (V (main_arg23 : DevRef τ sig)) (V (main_arg24 : DevRef τ sig))) := by
  unfold val6
  rw [b5_acc (val5 V) (val5_tab5 V) (val5_mask5 V)]
  simp (disch := decide) only [val5_keep, val4_keep, val3_keep, val2_keep, val1_keep, val0_keep]
theorem val7_acc (V : Valuation τ sig (Elt F)) : val7 V (no_index (main_v131 : DevRef τ sig)) = addf (val6 V (main_v112 : DevRef τ sig)) (RefTerm.fuse6 (V (main_arg0 : DevRef τ sig)) (V (main_arg25 : DevRef τ sig)) (V (main_arg26 : DevRef τ sig)) (V (main_arg27 : DevRef τ sig)) (V (main_arg28 : DevRef τ sig))) := by
  unfold val7
  rw [b6_acc (val6 V) (val6_tab6 V) (val6_mask6 V)]
  simp (disch := decide) only [val6_keep, val5_keep, val4_keep, val3_keep, val2_keep, val1_keep, val0_keep]

/-- The last window at the contents the run reaches it with: the composed term of the arguments. -/
theorem fin_val7 (V : Valuation τ sig (Elt F)) :
    after fin (val7 V) (main_v136 : DevRef τ sig) = RefTerm.out (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) (V (main_arg18 : DevRef τ sig)) (V (main_arg19 : DevRef τ sig)) (V (main_arg20 : DevRef τ sig)) (V (main_arg21 : DevRef τ sig)) (V (main_arg22 : DevRef τ sig)) (V (main_arg23 : DevRef τ sig)) (V (main_arg24 : DevRef τ sig)) (V (main_arg25 : DevRef τ sig)) (V (main_arg26 : DevRef τ sig)) (V (main_arg27 : DevRef τ sig)) (V (main_arg28 : DevRef τ sig)) (V (main_arg29 : DevRef τ sig)) (V (main_arg30 : DevRef τ sig)) := by
  rw [fin_out]
  simp (disch := decide) only [val7_keep, val6_keep, val5_keep, val4_keep, val3_keep, val2_keep, val1_keep, val0_keep, val7_acc, val6_acc, val5_acc, val4_acc, val3_acc, val2_acc, val1_acc]
  rfl

set_option maxRecDepth 8192 in
/-- The operation list is the nine windows in order. -/
theorem ops_split : (ops : List (HloOp τ sig (Elt F))) = wC ++ (b0 ++ (b1 ++ (b2 ++ (b3 ++ (b4 ++ (b5 ++ (b6 ++ fin))))))) := rfl

/-- The contents after the whole list: the last window from the contents after the seventh scale. -/
theorem after_ops (V : Valuation τ sig (Elt F)) : after ops V = after fin (val7 V) := by
  rw [ops_split]
  simp only [after_app]
  rfl

/-- The result buffer after @main: the composed term of the 31 arguments' contents before it. -/
theorem value_eq (V : Valuation τ sig (Elt F)) :
    after ops V (main_v136 : DevRef τ sig) = RefTerm.out (V (main_arg0 : DevRef τ sig)) (V (main_arg1 : DevRef τ sig)) (V (main_arg2 : DevRef τ sig)) (V (main_arg3 : DevRef τ sig)) (V (main_arg4 : DevRef τ sig)) (V (main_arg5 : DevRef τ sig)) (V (main_arg6 : DevRef τ sig)) (V (main_arg7 : DevRef τ sig)) (V (main_arg8 : DevRef τ sig)) (V (main_arg9 : DevRef τ sig)) (V (main_arg10 : DevRef τ sig)) (V (main_arg11 : DevRef τ sig)) (V (main_arg12 : DevRef τ sig)) (V (main_arg13 : DevRef τ sig)) (V (main_arg14 : DevRef τ sig)) (V (main_arg15 : DevRef τ sig)) (V (main_arg16 : DevRef τ sig)) (V (main_arg17 : DevRef τ sig)) (V (main_arg18 : DevRef τ sig)) (V (main_arg19 : DevRef τ sig)) (V (main_arg20 : DevRef τ sig)) (V (main_arg21 : DevRef τ sig)) (V (main_arg22 : DevRef τ sig)) (V (main_arg23 : DevRef τ sig)) (V (main_arg24 : DevRef τ sig)) (V (main_arg25 : DevRef τ sig)) (V (main_arg26 : DevRef τ sig)) (V (main_arg27 : DevRef τ sig)) (V (main_arg28 : DevRef τ sig)) (V (main_arg29 : DevRef τ sig)) (V (main_arg30 : DevRef τ sig)) := by
  rw [after_ops, fin_val7]

/-- From any memory with zero counters, every weakly fair execution of the reference's @main terminates with the
    result buffer at the composed term of the arguments' launch contents and every argument unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v136) = RefTerm.out (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) (m ((c.tc : Thread nD τ).loc main_arg24)) (m ((c.tc : Thread nD τ).loc main_arg25)) (m ((c.tc : Thread nD τ).loc main_arg26)) (m ((c.tc : Thread nD τ).loc main_arg27)) (m ((c.tc : Thread nD τ).loc main_arg28)) (m ((c.tc : Thread nD τ).loc main_arg29)) (m ((c.tc : Thread nD τ).loc main_arg30))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30) :=
  (θ_run (defs (F := Ideal)) _ _).mono (fun _ h c => ⟨(h c main_v136).trans (value_eq (launchContents m c)),
      (h c main_arg0).trans (kept_main_arg0 (launchContents m c)),
      (h c main_arg1).trans (kept_main_arg1 (launchContents m c)),
      (h c main_arg2).trans (kept_main_arg2 (launchContents m c)),
      (h c main_arg3).trans (kept_main_arg3 (launchContents m c)),
      (h c main_arg4).trans (kept_main_arg4 (launchContents m c)),
      (h c main_arg5).trans (kept_main_arg5 (launchContents m c)),
      (h c main_arg6).trans (kept_main_arg6 (launchContents m c)),
      (h c main_arg7).trans (kept_main_arg7 (launchContents m c)),
      (h c main_arg8).trans (kept_main_arg8 (launchContents m c)),
      (h c main_arg9).trans (kept_main_arg9 (launchContents m c)),
      (h c main_arg10).trans (kept_main_arg10 (launchContents m c)),
      (h c main_arg11).trans (kept_main_arg11 (launchContents m c)),
      (h c main_arg12).trans (kept_main_arg12 (launchContents m c)),
      (h c main_arg13).trans (kept_main_arg13 (launchContents m c)),
      (h c main_arg14).trans (kept_main_arg14 (launchContents m c)),
      (h c main_arg15).trans (kept_main_arg15 (launchContents m c)),
      (h c main_arg16).trans (kept_main_arg16 (launchContents m c)),
      (h c main_arg17).trans (kept_main_arg17 (launchContents m c)),
      (h c main_arg18).trans (kept_main_arg18 (launchContents m c)),
      (h c main_arg19).trans (kept_main_arg19 (launchContents m c)),
      (h c main_arg20).trans (kept_main_arg20 (launchContents m c)),
      (h c main_arg21).trans (kept_main_arg21 (launchContents m c)),
      (h c main_arg22).trans (kept_main_arg22 (launchContents m c)),
      (h c main_arg23).trans (kept_main_arg23 (launchContents m c)),
      (h c main_arg24).trans (kept_main_arg24 (launchContents m c)),
      (h c main_arg25).trans (kept_main_arg25 (launchContents m c)),
      (h c main_arg26).trans (kept_main_arg26 (launchContents m c)),
      (h c main_arg27).trans (kept_main_arg27 (launchContents m c)),
      (h c main_arg28).trans (kept_main_arg28 (launchContents m c)),
      (h c main_arg29).trans (kept_main_arg29 (launchContents m c)),
      (h c main_arg30).trans (kept_main_arg30 (launchContents m c))⟩)
    (run_raw m ρ)

end Cert.ReferenceIdeal.RefValue

end
-- ==== Proof.LibTileSum.lean ====
/-
  Regrouping finite sums indexed by `Fin`: a sum over `T * B` indices as `T` consecutive tiles of `B`,
  dropping a tail on which the summand vanishes, and a sum over `Fin n` as a sum over `Finset.range n`.
  Everything holds in any additive commutative monoid.
-/
import Mathlib.Algebra.BigOperators.Fin
import Mathlib.Logic.Equiv.Fin.Basic
import Mathlib.Tactic.Ring

namespace TileSum

open Finset

/-- The `j`-th index of the `t`-th tile of width `B` lies below `T * B`. -/
theorem tile_lt {T B : ℕ} (t : Fin T) (j : Fin B) : t.val * B + j.val < T * B := by
  have h1 : t.val * B + j.val < (t.val + 1) * B := by
    have := j.isLt
    rw [Nat.add_mul, Nat.one_mul]; omega
  exact lt_of_lt_of_le h1 (Nat.mul_le_mul_right B t.isLt)

/-- A sum over `T * B` indices, regrouped into `T` consecutive tiles of `B` indices each. -/
theorem sum_tiles {M : Type*} [AddCommMonoid M] {T B : ℕ} (f : Fin (T * B) → M) :
    ∑ t : Fin T, ∑ j : Fin B, f ⟨t.val * B + j.val, tile_lt t j⟩ = ∑ i : Fin (T * B), f i := by
  rw [← Equiv.sum_comp (finProdFinEquiv (m := T) (n := B)) f, Fintype.sum_prod_type]
  refine Fintype.sum_congr _ _ fun t => Fintype.sum_congr _ _ fun j => ?_
  congr 1
  apply Fin.ext
  simp only [finProdFinEquiv_apply_val]
  rw [Nat.mul_comm, Nat.add_comm]

/-- A sum over `n + e` indices whose summand vanishes from index `n` on is the sum over the first `n`. -/
theorem sum_drop_zero_tail {M : Type*} [AddCommMonoid M] {n e : ℕ} (f : Fin (n + e) → M)
    (h0 : ∀ i : Fin (n + e), n ≤ i.val → f i = 0) :
    ∑ i : Fin (n + e), f i = ∑ i : Fin n, f (Fin.castAdd e i) := by
  rw [Fin.sum_univ_add]
  have hz : ∑ j : Fin e, f (Fin.natAdd n j) = 0 :=
    Finset.sum_eq_zero fun j _ => h0 _ (by simp [Fin.natAdd])
  rw [hz, add_zero]

/-- Fourteen tiles of `384` cover `5376 = 5324 + 52` indices: when the summand vanishes from index `5324` on,
the tiled sum is the sum over the first `5324` indices. -/
theorem sum_tiles_14_384 {M : Type*} [AddCommMonoid M] (f : Fin 5376 → M)
    (h0 : ∀ i : Fin 5376, 5324 ≤ i.val → f i = 0) :
    ∑ t : Fin 14, ∑ j : Fin 384, f ⟨384 * t.val + j.val, by have := t.isLt; have := j.isLt; omega⟩
      = ∑ i : Fin 5324, f ⟨i.val, by have := i.isLt; omega⟩ := by
  have h1 := sum_tiles (T := 14) (B := 384) (M := M) f
  have h2 := sum_drop_zero_tail (n := 5324) (e := 52) (M := M) f h0
  have e1 : ∑ t : Fin 14, ∑ j : Fin 384, f ⟨384 * t.val + j.val, by have := t.isLt; have := j.isLt; omega⟩
      = ∑ t : Fin 14, ∑ j : Fin 384, f ⟨t.val * 384 + j.val, tile_lt t j⟩ :=
    Fintype.sum_congr _ _ fun t => Fintype.sum_congr _ _ fun j => by
      congr 1; apply Fin.ext; show 384 * t.val + j.val = t.val * 384 + j.val; rw [Nat.mul_comm]
  rw [e1, h1]
  exact h2

/-- A sum over `Fin 14` of a function of the index's value is the sum over `Finset.range 14`. -/
theorem sum_fin14_eq_range {M : Type*} [AddCommMonoid M] (P : ℕ → M) :
    ∑ t : Fin 14, P t.val = (Finset.range 14).sum P :=
  Fin.sum_univ_eq_sum_range P 14

/-- A sum over `Fin n` of a function of the index's value is the sum over `Finset.range n`. -/
theorem sum_fin_eq_range {M : Type*} [AddCommMonoid M] (n : ℕ) (P : ℕ → M) :
    ∑ t : Fin n, P t.val = (Finset.range n).sum P :=
  Fin.sum_univ_eq_sum_range P n

end TileSum
-- ==== Proof.RefRead0.lean ====
/-
  Layout operations and contractions of the three- and four-axis arrays of a frame-relation network, read at an index at
  the exact extended-real instance: frames gathered along the second axis of a [4096, 8, 1024] array by a table of start
  indices; the gathered frames laid side by side; a batched product of a three-axis array with a matrix; a bias vector
  repeated over the two leading axes; the maximum with a spread zero; and the sum over the middle axis.
-/
import proofs.«106977_j18717467476122_2_alg».proof.Proof.Spec
import proofs.«106977_j18717467476122_2_alg».proof.Proof.LibTileSum
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws

noncomputable section

open scoped BigOperators

namespace Cert.RefRead

open Idealize.ShloMosaic Idealize.ShloMosaic.ValueIdx

variable {α : Type}

/-! ## The gather of frames -/

/-- The dimension numbers of a gather of whole frames: the operand [4096, 8, 1024] is read along its second axis at the
    start indices [n, s, 1], the result is [4096, n, s, 1024]. -/
abbrev frameDims (n s : ℕ)
    (wf : GatherDims.WF ⟨3, ![4096, 8, 1024]⟩ ⟨3, ![n, s, 1]⟩ ⟨4, ![4096, n, s, 1024]⟩ [0, 3] [1] [] [1] [] 2 ![4096, 1, 1024]) :
    GatherDims ⟨3, ![4096, 8, 1024]⟩ ⟨3, ![n, s, 1]⟩ ⟨4, ![4096, n, s, 1024]⟩ where
  offsetDims := [0, 3]
  collapsedSliceDims := [1]
  operandBatchingDims := []
  startIndicesBatchingDims := []
  startIndexMap := [1]
  indexVectorDim := 2
  sliceSizes := ![4096, 1, 1024]
  wf := wf

/-- The gather read at (b, r, j, d): the operand at batch row b, feature d, and the frame the table names at (r, j),
    read as a signed integer and clamped into [0, 7]. -/
theorem gather_frames_apply {n s w : ℕ}
    (wf : GatherDims.WF ⟨3, ![4096, 8, 1024]⟩ ⟨3, ![n, s, 1]⟩ ⟨4, ![4096, n, s, 1024]⟩ [0, 3] [1] [] [1] [] 2 ![4096, 1, 1024])
    (x : (⟨3, ![4096, 8, 1024]⟩ : Shape).Idx → α) (idx : IVec ⟨3, ![n, s, 1]⟩ w)
    (b : Fin 4096) (r : Fin n) (j : Fin s) (d : Fin 1024) :
    Host.gather (frameDims n s wf) x idx (ix4 b r j d)
      = x (ix3 b ⟨min (idx (ix3 r j (0 : Fin 1))).toInt.toNat 7, by omega⟩ d) := by
  have hsi : ∀ c, (frameDims n s wf).siIdx (ix4 b r j d) c = ix3 r j (0 : Fin 1) := by
    intro c
    funext e; refine Fin.ext ?_
    match e with
    | ⟨0, _⟩ => rfl
    | ⟨1, _⟩ => rfl
    | ⟨2, _⟩ =>
      have hc : c.val < 1 := c.isLt
      show c.val = 0
      omega
  unfold Host.gather
  congr 1
  funext a
  refine Fin.ext ?_
  show (frameDims n s wf).start (ix4 b r j d) idx a + (frameDims n s wf).batchCoord (ix4 b r j d) a
      + (frameDims n s wf).offCoord (ix4 b r j d) a = _
  rw [GatherDims.batchCoord_eq_zero _ _ _ List.not_mem_nil, Nat.add_zero]
  match a with
  | ⟨0, _⟩ =>
    unfold GatherDims.start
    rw [dif_neg (fun h => absurd (congrArg Fin.val (List.mem_singleton.mp h)) (show ¬ ((0 : ℕ) = 1) by decide)), Nat.zero_add]
    rfl
  | ⟨1, h1⟩ =>
    rw [GatherDims.offCoord_eq_zero _ _ _ (fun h => ((GatherDims.mem_sKept _ _).mp h).1 (List.mem_singleton.mpr rfl)),
      Nat.add_zero]
    unfold GatherDims.start
    rw [dif_pos (show (⟨1, h1⟩ : Fin (⟨3, ![4096, 8, 1024]⟩ : Shape).rank) ∈ (frameDims n s wf).startIndexMap from
      List.mem_singleton.mpr rfl), hsi]
    rfl
  | ⟨2, _⟩ =>
    unfold GatherDims.start
    rw [dif_neg (fun h => absurd (congrArg Fin.val (List.mem_singleton.mp h)) (show ¬ ((2 : ℕ) = 1) by decide)), Nat.zero_add]
    rfl

/-- An array [a, b] given a trailing unit axis reads, at (p, q, 0), the array at (p, q). -/
theorem broadcastInDim_ab_ab1_apply {a b : ℕ} (v : (⟨2, ![a, b]⟩ : Shape).Idx → α)
    (h : (⟨2, ![a, b]⟩ : Shape).BroadcastsInDim ⟨3, ![a, b, 1]⟩ ![0, 1]) (p : Fin a) (q : Fin b) (u : Fin 1) :
    broadcastInDim ⟨3, ![a, b, 1]⟩ ![0, 1] h v (ix3 p q u) = v (ix2 p q) := by
  refine broadcastInDim_apply ![0, 1] h v (ix3 p q u) (ix2 p q) fun ax => ?_
  match ax with
  | ⟨0, _⟩ =>
    show p.val = if a = 1 then 0 else p.val
    split
    · have := p.isLt; omega
    · rfl
  | ⟨1, _⟩ =>
    show q.val = if b = 1 then 0 else q.val
    split
    · have := q.isLt; omega
    · rfl

/-- The table of start indices as the reference builds it — a select, under a mask that holds nowhere, between a shifted
    table and the table, with a trailing unit axis — reads the table. -/
theorem table_apply {a b : ℕ} (lit alt : (⟨2, ![a, b]⟩ : Shape).Idx → BitVec 32)
    (h : (⟨2, ![a, b]⟩ : Shape).BroadcastsInDim ⟨3, ![a, b, 1]⟩ ![0, 1]) (p : Fin a) (q : Fin b) :
    broadcastInDim ⟨3, ![a, b, 1]⟩ ![0, 1] h (select (constantI ⟨2, ![a, b]⟩ 1 0#1) alt lit) (ix3 p q (0 : Fin 1))
      = lit (ix2 p q) := by
  rw [broadcastInDim_ab_ab1_apply]
  exact select_zero _ _

/-! ## The frames laid side by side -/

/-- The array [4096, n, s, 1024] laid out as [4096, n, s · 1024] reads, at column j · 1024 + d of (b, r), the source at
    (b, r, j, d). -/
theorem shapeCast_frames_apply {n s E : ℕ} (hE : s * 1024 = E) (x : (⟨4, ![4096, n, s, 1024]⟩ : Shape).Idx → α)
    (h : (⟨4, ![4096, n, s, 1024]⟩ : Shape).ShapeCasts ⟨3, ![4096, n, E]⟩) (b : Fin 4096) (r : Fin n) (j : Fin s) (d : Fin 1024) :
    shapeCast ⟨3, ![4096, n, E]⟩ x h (ix3 b r (Cert.Relations.slabRow hE j d)) = x (ix4 b r j d) :=
  shapeCast_apply x h _ _ (by
    rw [Shape.rowMajor_val_four, Shape.rowMajor_val_three]
    show ((b.val * n + r.val) * s + j.val) * 1024 + d.val = (b.val * n + r.val) * E + (j.val * 1024 + d.val)
    subst hE
    ring)

/-! ## A bias vector repeated over two leading axes -/

/-- A vector [N] laid out as [1, 1, N] reads the vector. -/
theorem broadcastInDim_c_11c_apply {N : ℕ} (v : (⟨1, ![N]⟩ : Shape).Idx → α)
    (h : (⟨1, ![N]⟩ : Shape).BroadcastsInDim ⟨3, ![1, 1, N]⟩ ![2]) (u u' : Fin 1) (k : Fin N) :
    broadcastInDim ⟨3, ![1, 1, N]⟩ ![2] h v (ix3 u u' k) = v (ix1 k) := by
  refine broadcastInDim_apply ![2] h v (ix3 u u' k) (ix1 k) fun ax => ?_
  match ax with
  | ⟨0, _⟩ =>
    show k.val = if N = 1 then 0 else k.val
    split
    · have := k.isLt; omega
    · rfl

/-- An array [1, 1, N] repeated over [B, n, N] reads, at (b, r, k), the array at (0, 0, k). -/
theorem broadcastInDim_11c_abc_apply {B n N : ℕ} (v : (⟨3, ![1, 1, N]⟩ : Shape).Idx → α)
    (h : (⟨3, ![1, 1, N]⟩ : Shape).BroadcastsInDim ⟨3, ![B, n, N]⟩ ![0, 1, 2]) (b : Fin B) (r : Fin n) (k : Fin N) :
    broadcastInDim ⟨3, ![B, n, N]⟩ ![0, 1, 2] h v (ix3 b r k) = v (ix3 (0 : Fin 1) (0 : Fin 1) k) := by
  refine broadcastInDim_apply ![0, 1, 2] h v (ix3 b r k) (ix3 (0 : Fin 1) (0 : Fin 1) k) fun ax => ?_
  match ax with
  | ⟨0, _⟩ => rfl
  | ⟨1, _⟩ => rfl
  | ⟨2, _⟩ =>
    show k.val = if N = 1 then 0 else k.val
    split
    · have := k.isLt; omega
    · rfl

/-- The bias as the reference spreads it: first to [1, 1, N], then over [B, n, N]. -/
theorem bias3_apply {B n N : ℕ} (v : (⟨1, ![N]⟩ : Shape).Idx → α)
    (h1 : (⟨1, ![N]⟩ : Shape).BroadcastsInDim ⟨3, ![1, 1, N]⟩ ![2])
    (h2 : (⟨3, ![1, 1, N]⟩ : Shape).BroadcastsInDim ⟨3, ![B, n, N]⟩ ![0, 1, 2]) (b : Fin B) (r : Fin n) (k : Fin N) :
    broadcastInDim ⟨3, ![B, n, N]⟩ ![0, 1, 2] h2 (broadcastInDim ⟨3, ![1, 1, N]⟩ ![2] h1 v) (ix3 b r k) = v (ix1 k) := by
  rw [broadcastInDim_11c_abc_apply, broadcastInDim_c_11c_apply]

/-- A vector [N] laid out as [1, N] reads the vector. -/
theorem broadcastInDim_c_1c_apply {N : ℕ} (v : (⟨1, ![N]⟩ : Shape).Idx → α)
    (h : (⟨1, ![N]⟩ : Shape).BroadcastsInDim ⟨2, ![1, N]⟩ ![1]) (u : Fin 1) (k : Fin N) :
    broadcastInDim ⟨2, ![1, N]⟩ ![1] h v (ix2 u k) = v (ix1 k) := by
  refine broadcastInDim_apply ![1] h v (ix2 u k) (ix1 k) fun ax => ?_
  match ax with
  | ⟨0, _⟩ =>
    show k.val = if N = 1 then 0 else k.val
    split
    · have := k.isLt; omega
    · rfl

/-- A row [1, N] repeated along B rows reads, at (b, k), the row at k. -/
theorem broadcastInDim_1c_bc_apply {B N : ℕ} (v : (⟨2, ![1, N]⟩ : Shape).Idx → α)
    (h : (⟨2, ![1, N]⟩ : Shape).BroadcastsInDim ⟨2, ![B, N]⟩ ![0, 1]) (b : Fin B) (k : Fin N) :
    broadcastInDim ⟨2, ![B, N]⟩ ![0, 1] h v (ix2 b k) = v (ix2 (0 : Fin 1) k) := by
  refine broadcastInDim_apply ![0, 1] h v (ix2 b k) (ix2 (0 : Fin 1) k) fun ax => ?_
  match ax with
  | ⟨0, _⟩ => rfl
  | ⟨1, _⟩ =>
    show k.val = if N = 1 then 0 else k.val
    split
    · have := k.isLt; omega
    · rfl

/-- The bias of the last layer as the reference spreads it: first to [1, N], then over [B, N]. -/
theorem bias2_apply {B N : ℕ} (v : (⟨1, ![N]⟩ : Shape).Idx → α)
    (h1 : (⟨1, ![N]⟩ : Shape).BroadcastsInDim ⟨2, ![1, N]⟩ ![1])
    (h2 : (⟨2, ![1, N]⟩ : Shape).BroadcastsInDim ⟨2, ![B, N]⟩ ![0, 1]) (b : Fin B) (k : Fin N) :
    broadcastInDim ⟨2, ![B, N]⟩ ![0, 1] h2 (broadcastInDim ⟨2, ![1, N]⟩ ![1] h1 v) (ix2 b k) = v (ix1 k) := by
  rw [broadcastInDim_1c_bc_apply, broadcastInDim_c_1c_apply]

/-! ## The maximum with a spread zero -/

/-- The host's rectification: the maximum with the zero constant spread over the array is, entry by entry, the maximum
    with zero. -/
theorem relu_apply {t : Shape} (x : FVec Ideal t .f32) (h : (⟨0, ![]⟩ : Shape).BroadcastsInDim t ![]) (i : t.Idx) :
    maximumf x (broadcastInDim t ![] h (constant (F := Ideal) ⟨0, ![]⟩ .f32 0x00000000#32)) i = max (x i) 0 := by
  show max (x i) (broadcastInDim t ![] h (constant (F := Ideal) ⟨0, ![]⟩ .f32 0x00000000#32) i) = _
  rw [broadcastInDim_scalar_apply]
  show max (x i) (Ideal.ofBits .f32 0x00000000#32) = _
  rw [Ideal.ofBits_zero_f32]

/-! ## A three-axis array times a matrix -/

/-- The six axis lists of a product that contracts the last axis of a three-axis array against the rows of a matrix,
    with no batch axis. -/
structure IsPlain3 {B n K N : ℕ} (D : DotDims ⟨3, ![B, n, K]⟩ ⟨2, ![K, N]⟩ ⟨3, ![B, n, N]⟩) : Prop where
  lc : D.lhsContracting = [2]
  rc : D.rhsContracting = [0]
  ln : D.lhsNonContracting = [0, 1]
  rn : D.rhsNonContracting = [1]
  lb : D.lhsBatch = []
  rb : D.rhsBatch = []

section Dot3
variable {B n K N : ℕ} (D : DotDims ⟨3, ![B, n, K]⟩ ⟨2, ![K, N]⟩ ⟨3, ![B, n, N]⟩) (hD : IsPlain3 D)

include hD in
theorem contr3_rank : D.contr.rank = 1 := by rw [D.rank_contr, hD.lc]; rfl

include hD in
theorem contr3_size : D.contr.size ⟨0, by rw [contr3_rank D hD]; exact Nat.one_pos⟩ = K := by
  have h := D.size_contr 0 (by rw [hD.lc]; exact Nat.one_pos)
  rw [h]
  simp only [hD.lc]
  rfl

include hD in
theorem lhs3_0 (j : (⟨3, ![B, n, N]⟩ : Shape).Idx) (q : D.contr.Idx) : (D.lhsIdx j q 0).val = (j 0).val := by
  unfold DotDims.lhsIdx
  rw [dif_neg (by rw [hD.lb]; exact List.not_mem_nil), dif_pos (by rw [hD.ln]; exact List.mem_cons_self)]
  simp only [Fin.val_cast]
  have key : ∀ (p p' : Nat) (hp : p < 3) (hp' : p' < 3), p = p' → (j ⟨p, hp⟩).val = (j ⟨p', hp'⟩).val :=
    fun p p' hp hp' h => by subst h; rfl
  exact key _ _ _ _ (by simp [hD.lb, hD.ln])

include hD in
theorem lhs3_1 (j : (⟨3, ![B, n, N]⟩ : Shape).Idx) (q : D.contr.Idx) : (D.lhsIdx j q 1).val = (j 1).val := by
  unfold DotDims.lhsIdx
  rw [dif_neg (by rw [hD.lb]; exact List.not_mem_nil),
    dif_pos (by rw [hD.ln]; exact List.mem_cons_of_mem _ List.mem_cons_self)]
  simp only [Fin.val_cast]
  have key : ∀ (p p' : Nat) (hp : p < 3) (hp' : p' < 3), p = p' → (j ⟨p, hp⟩).val = (j ⟨p', hp'⟩).val :=
    fun p p' hp hp' h => by subst h; rfl
  exact key _ _ _ _ (by simp [hD.lb, hD.ln])

include hD in
theorem rhs3_1 (j : (⟨3, ![B, n, N]⟩ : Shape).Idx) (q : D.contr.Idx) : (D.rhsIdx j q 1).val = (j 2).val := by
  unfold DotDims.rhsIdx
  rw [dif_neg (by rw [hD.rb]; exact List.not_mem_nil), dif_pos (by rw [hD.rn]; exact List.mem_singleton.mpr rfl)]
  simp only [Fin.val_cast]
  have key : ∀ (p p' : Nat) (hp : p < 3) (hp' : p' < 3), p = p' → (j ⟨p, hp⟩).val = (j ⟨p', hp'⟩).val :=
    fun p p' hp hp' h => by subst h; rfl
  exact key _ _ _ _ (by simp [hD.lb, hD.ln, hD.rn])

include hD in
/-- The contraction sum at (b, p, c) is the sum over k of the entry (b, p, k) times the entry (k, c). -/
theorem plain3_sum (l : (⟨3, ![B, n, K]⟩ : Shape).Idx → EReal) (r : (⟨2, ![K, N]⟩ : Shape).Idx → EReal)
    (b : Fin B) (p : Fin n) (c : Fin N) :
    ∑ q : D.contr.Idx, l (D.lhsIdx (ix3 b p c) q) * r (D.rhsIdx (ix3 b p c) q) = ∑ k : Fin K, l (ix3 b p k) * r (ix2 k c) := by
  rw [← Equiv.sum_comp (contrEquiv1 D K (contr3_rank D hD) (contr3_size D hD)).symm]
  refine Finset.sum_congr rfl fun k _ => ?_
  have hk := contrEquiv1_symm_val D K (contr3_rank D hD) (contr3_size D hD) k
  have el : D.lhsIdx (ix3 b p c) ((contrEquiv1 D K (contr3_rank D hD) (contr3_size D hD)).symm k) = ix3 b p k :=
    funext fun x => Fin.ext (by
      match x with
      | ⟨0, _⟩ => exact lhs3_0 D hD _ _
      | ⟨1, _⟩ => exact lhs3_1 D hD _ _
      | ⟨2, _⟩ => exact (D.lhsIdx_val_of_single hD.lc _ _).trans hk)
  have er : D.rhsIdx (ix3 b p c) ((contrEquiv1 D K (contr3_rank D hD) (contr3_size D hD)).symm k) = ix2 k c :=
    funext fun x => Fin.ext (by
      match x with
      | ⟨0, _⟩ => exact (D.rhsIdx_val_of_single hD.rc _ _).trans hk
      | ⟨1, _⟩ => exact rhs3_1 D hD _ _)
  rw [el, er]

include hD in
/-- The host's general dot product of a three-axis array with a matrix, at an entry. -/
theorem dot3_apply {φ₁ φ₂ : FTy} (prec : Option ContractPrecision)
    (l : FVec Ideal ⟨3, ![B, n, K]⟩ φ₁) (r : FVec Ideal ⟨2, ![K, N]⟩ φ₂) (b : Fin B) (p : Fin n) (c : Fin N) :
    Host.dotGeneral D prec l r (ix3 b p c) = ∑ k : Fin K, l (ix3 b p k) * r (ix2 k c) :=
  (Ideal.dotGeneral_apply D prec .single l r (ix3 b p c)).trans (plain3_sum D hD l r b p c)

end Dot3

/-! ## The sum over the middle axis -/

/-- The host's sum of a three-axis array over its middle axis, at (b, k): the initial value plus the sum over r of
    the entries (b, r, k). -/
theorem reduce_mid_apply {B n N : ℕ} (x : FVec Ideal ⟨3, ![B, n, N]⟩ .f32) (init : (⟨0, ![]⟩ : Shape).Idx → EReal)
    (h' : (⟨3, ![B, n, N]⟩ : Shape).ReducesTo [1] ⟨2, ![B, N]⟩) (h : (⟨3, ![B, n, N]⟩ : Shape).Reduces [1] ⟨2, ![B, N]⟩)
    (hu : 0 < (⟨0, ![]⟩ : Shape).numel) (b : Fin B) (k : Fin N) :
    Host.reduceAdd x init h' hu (ix2 b k) = init ix0 + ∑ r : Fin n, x (ix3 b r k) := by
  show Ideal.hostReduceAdd h' x (init (Shape.Idx.first hu)) (ix2 b k) = _
  rw [Ideal.hostReduceAdd_single h' h, eq_ix0 (Shape.Idx.first hu)]
  refine congrArg (init ix0 + ·) (Finset.sum_congr rfl fun r _ => congrArg x ?_)
  funext c
  refine Fin.ext ?_
  match c with
  | ⟨0, _⟩ => rfl
  | ⟨1, _⟩ => rfl
  | ⟨2, _⟩ => rfl

/-! ## One scale of the network, read at an entry -/

/-- The reference's chain for one scale — gather the frames of each relation, lay them side by side, rectify, two affine
    layers each followed by rectification, sum over the relations — read at batch row b and unit k: the specification's
    sum, over the scale's relations, of the two-layer perceptron of the relation's frames. The table of start indices
    enters through the frames it names once read signed and clamped. -/
theorem fuse_apply {n s E : ℕ} (hE : s * 1024 = E)
    (wf : GatherDims.WF ⟨3, ![4096, 8, 1024]⟩ ⟨3, ![n, s, 1]⟩ ⟨4, ![4096, n, s, 1024]⟩ [0, 3] [1] [] [1] [] 2 ![4096, 1, 1024])
    (hc : (⟨4, ![4096, n, s, 1024]⟩ : Shape).ShapeCasts ⟨3, ![4096, n, E]⟩)
    (hzR : (⟨0, ![]⟩ : Shape).BroadcastsInDim ⟨3, ![4096, n, E]⟩ ![])
    (D1 : DotDims ⟨3, ![4096, n, E]⟩ ⟨2, ![E, 256]⟩ ⟨3, ![4096, n, 256]⟩) (hD1 : IsPlain3 D1)
    (hb1 : (⟨1, ![256]⟩ : Shape).BroadcastsInDim ⟨3, ![1, 1, 256]⟩ ![2])
    (hb2 : (⟨3, ![1, 1, 256]⟩ : Shape).BroadcastsInDim ⟨3, ![4096, n, 256]⟩ ![0, 1, 2])
    (hzH : (⟨0, ![]⟩ : Shape).BroadcastsInDim ⟨3, ![4096, n, 256]⟩ ![])
    (D2 : DotDims ⟨3, ![4096, n, 256]⟩ ⟨2, ![256, 256]⟩ ⟨3, ![4096, n, 256]⟩) (hD2 : IsPlain3 D2)
    (hr' : (⟨3, ![4096, n, 256]⟩ : Shape).ReducesTo [1] ⟨2, ![4096, 256]⟩)
    (hr : (⟨3, ![4096, n, 256]⟩ : Shape).Reduces [1] ⟨2, ![4096, 256]⟩)
    (hu : 0 < (⟨0, ![]⟩ : Shape).numel)
    (tab : IVec ⟨3, ![n, s, 1]⟩ 32) (rel : Fin n → Fin s → Fin 8)
    (htab : ∀ r j, min (tab (ix3 r j (0 : Fin 1))).toInt.toNat 7 = (rel r j).val)
    (x : FVec Ideal ⟨3, ![4096, 8, 1024]⟩ .f32) (w1 : FVec Ideal ⟨2, ![E, 256]⟩ .f32) (b1 : FVec Ideal ⟨1, ![256]⟩ .f32)
    (w2 : FVec Ideal ⟨2, ![256, 256]⟩ .f32) (b2 : FVec Ideal ⟨1, ![256]⟩ .f32) (b : Fin 4096) (k : Fin 256) :
    Host.reduceAdd
      (maximumf
        (addf
          (Host.dotGeneral D2 none
            (maximumf
              (addf
                (Host.dotGeneral D1 none
                  (maximumf
                    (shapeCast ⟨3, ![4096, n, E]⟩ (Host.gather (frameDims n s wf) x tab) hc)
                    (broadcastInDim ⟨3, ![4096, n, E]⟩ ![] hzR (constant (F := Ideal) ⟨0, ![]⟩ .f32 0x00000000#32)))
                  w1)
                (broadcastInDim ⟨3, ![4096, n, 256]⟩ ![0, 1, 2] hb2 (broadcastInDim ⟨3, ![1, 1, 256]⟩ ![2] hb1 b1)))
              (broadcastInDim ⟨3, ![4096, n, 256]⟩ ![] hzH (constant (F := Ideal) ⟨0, ![]⟩ .f32 0x00000000#32)))
            w2)
          (broadcastInDim ⟨3, ![4096, n, 256]⟩ ![0, 1, 2] hb2 (broadcastInDim ⟨3, ![1, 1, 256]⟩ ![2] hb1 b2)))
        (broadcastInDim ⟨3, ![4096, n, 256]⟩ ![] hzH (constant (F := Ideal) ⟨0, ![]⟩ .f32 0x00000000#32)))
      (constant (F := Ideal) ⟨0, ![]⟩ .f32 0x00000000#32) hr' hu (ix2 b k)
      = Cert.Relations.fuse (Cert.Relations.rowOf x b) rel (Cert.Relations.mlpOf hE w1 b1 w2 b2) k := by
  subst hE
  rw [reduce_mid_apply _ _ hr' hr hu]
  rw [show constant (F := Ideal) ⟨0, ![]⟩ .f32 0x00000000#32 ix0 = 0 from Ideal.ofBits_zero_f32, zero_add]
  unfold Cert.Relations.fuse
  refine Finset.sum_congr rfl fun r _ => ?_
  rw [relu_apply, addf_apply, bias3_apply, dot3_apply D2 hD2]
  unfold Cert.Relations.bottleneck
  refine congrArg (max · 0) (congrArg (· + b2 (ix1 k)) (Finset.sum_congr rfl fun j _ => congrArg (· * w2 (ix2 j k)) ?_))
  rw [relu_apply, addf_apply, bias3_apply, dot3_apply D1 hD1]
  unfold Cert.Relations.hidden
  refine congrArg (max · 0) (congrArg (· + b1 (ix1 j)) ?_)
  refine (TileSum.sum_tiles (T := s) (B := 1024) _).symm.trans ?_
  refine Finset.sum_congr rfl fun p _ => Finset.sum_congr rfl fun d _ => ?_
  show maximumf _ _ (ix3 b r (Cert.Relations.slabRow rfl p d)) * w1 (ix2 (Cert.Relations.slabRow rfl p d) j) = _
  rw [relu_apply, shapeCast_frames_apply rfl, gather_frames_apply]
  have hf : (⟨min (tab (ix3 r p (0 : Fin 1))).toInt.toNat 7, by omega⟩ : Fin 8) = rel r p := Fin.ext (htab r p)
  rw [hf]
  rfl

end Cert.RefRead

end
-- ==== Proof.RefRead.lean ====
/-
  What the reference computes, read at an index. Each scale's table of start indices names, once read signed and clamped,
  the frames of the specification's relations; each scale's chain is the specification's sum over the relations of the
  two-layer perceptron of a relation's frames; and the reference's result is the specification's result.
-/
import proofs.«106977_j18717467476122_2_alg».proof.Proof.RefTerm
import proofs.«106977_j18717467476122_2_alg».proof.Proof.RefRead0
import proofs.«106977_j18717467476122_2_alg».proof.Proof.LibDot

noncomputable section

open scoped BigOperators

namespace Cert.ReferenceIdeal.RefRead

open Idealize.ShloMosaic Idealize.ShloMosaic.ValueIdx
open Cert.ReferenceIdeal Cert.ReferenceIdeal.Facts₀ Cert.ReferenceIdeal.Facts
open Cert.RefRead

/-! ## The literal tables name the relations' frames -/

theorem lit0_eq : ∀ (r : Fin 1) (j : Fin 8),
    min (lit0 (S1x8.rowMajor (ix2 r j))).toInt.toNat 7 = (Cert.Relations.rel0 r j).val := by
  decide

theorem lit1_eq : ∀ (r : Fin 3) (j : Fin 7),
    min (lit1 (S3x7.rowMajor (ix2 r j))).toInt.toNat 7 = (Cert.Relations.rel1 r j).val := by
  decide

theorem lit2_eq : ∀ (r : Fin 3) (j : Fin 6),
    min (lit2 (S3x6.rowMajor (ix2 r j))).toInt.toNat 7 = (Cert.Relations.rel2 r j).val := by
  decide

theorem lit3_eq : ∀ (r : Fin 3) (j : Fin 5),
    min (lit3 (S3x5.rowMajor (ix2 r j))).toInt.toNat 7 = (Cert.Relations.rel3 r j).val := by
  decide

theorem lit4_eq : ∀ (r : Fin 3) (j : Fin 4),
    min (lit4 (S3x4.rowMajor (ix2 r j))).toInt.toNat 7 = (Cert.Relations.rel4 r j).val := by
  decide

theorem lit5_eq : ∀ (r : Fin 3) (j : Fin 3),
    min (lit5 (S3x3.rowMajor (ix2 r j))).toInt.toNat 7 = (Cert.Relations.rel5 r j).val := by
  decide

theorem lit6_eq : ∀ (r : Fin 3) (j : Fin 2),
    min (lit6 (S3x2.rowMajor (ix2 r j))).toInt.toNat 7 = (Cert.Relations.rel6 r j).val := by
  decide

variable [Facts]

/-! ## The tables as the reference builds them -/

theorem tab0_eq (r : Fin 1) (j : Fin 8) :
    min (RefTerm.tab0 (ix3 r j (0 : Fin 1))).toInt.toNat 7 = (Cert.Relations.rel0 r j).val := by
  unfold RefTerm.tab0
  rw [table_apply]
  exact lit0_eq r j

theorem tab1_eq (r : Fin 3) (j : Fin 7) :
    min (RefTerm.tab1 (ix3 r j (0 : Fin 1))).toInt.toNat 7 = (Cert.Relations.rel1 r j).val := by
  unfold RefTerm.tab1
  rw [table_apply]
  exact lit1_eq r j

theorem tab2_eq (r : Fin 3) (j : Fin 6) :
    min (RefTerm.tab2 (ix3 r j (0 : Fin 1))).toInt.toNat 7 = (Cert.Relations.rel2 r j).val := by
  unfold RefTerm.tab2
  rw [table_apply]
  exact lit2_eq r j

theorem tab3_eq (r : Fin 3) (j : Fin 5) :
    min (RefTerm.tab3 (ix3 r j (0 : Fin 1))).toInt.toNat 7 = (Cert.Relations.rel3 r j).val := by
  unfold RefTerm.tab3
  rw [table_apply]
  exact lit3_eq r j

theorem tab4_eq (r : Fin 3) (j : Fin 4) :
    min (RefTerm.tab4 (ix3 r j (0 : Fin 1))).toInt.toNat 7 = (Cert.Relations.rel4 r j).val := by
  unfold RefTerm.tab4
  rw [table_apply]
  exact lit4_eq r j

theorem tab5_eq (r : Fin 3) (j : Fin 3) :
    min (RefTerm.tab5 (ix3 r j (0 : Fin 1))).toInt.toNat 7 = (Cert.Relations.rel5 r j).val := by
  unfold RefTerm.tab5
  rw [table_apply]
  exact lit5_eq r j

theorem tab6_eq (r : Fin 3) (j : Fin 2) :
    min (RefTerm.tab6 (ix3 r j (0 : Fin 1))).toInt.toNat 7 = (Cert.Relations.rel6 r j).val := by
  unfold RefTerm.tab6
  rw [table_apply]
  exact lit6_eq r j

/-! ## Each scale's chain is the specification's scale -/

theorem fuse0_apply (x : FVec Ideal S4096x8x1024 .f32) (w1 : FVec Ideal S8192x256 .f32) (b1 : FVec Ideal S256 .f32)
    (w2 : FVec Ideal S256x256 .f32) (b2 : FVec Ideal S256 .f32) (b : Fin 4096) (k : Fin 256) :
    RefTerm.fuse0 (F := Ideal) x w1 b1 w2 b2 (ix2 b k)
      = Cert.Relations.fuse (Cert.Relations.rowOf x b) Cert.Relations.rel0 (Cert.Relations.mlpOf (s := 8) rfl w1 b1 w2 b2) k := by
  unfold RefTerm.fuse0
  exact fuse_apply (n := 1) (s := 8) (E := 8192) rfl _ _ _ _ ⟨rfl, rfl, rfl, rfl, rfl, rfl⟩ _ _ _ _ ⟨rfl, rfl, rfl, rfl, rfl, rfl⟩
    reducesTo_S4096x1x256_S4096x256_d1 (by decide) h_S_ RefTerm.tab0 Cert.Relations.rel0 tab0_eq x w1 b1 w2 b2 b k

theorem fuse1_apply (x : FVec Ideal S4096x8x1024 .f32) (w1 : FVec Ideal S7168x256 .f32) (b1 : FVec Ideal S256 .f32)
    (w2 : FVec Ideal S256x256 .f32) (b2 : FVec Ideal S256 .f32) (b : Fin 4096) (k : Fin 256) :
    RefTerm.fuse1 (F := Ideal) x w1 b1 w2 b2 (ix2 b k)
      = Cert.Relations.fuse (Cert.Relations.rowOf x b) Cert.Relations.rel1 (Cert.Relations.mlpOf (s := 7) rfl w1 b1 w2 b2) k := by
  unfold RefTerm.fuse1
  exact fuse_apply (n := 3) (s := 7) (E := 7168) rfl _ _ _ _ ⟨rfl, rfl, rfl, rfl, rfl, rfl⟩ _ _ _ _ ⟨rfl, rfl, rfl, rfl, rfl, rfl⟩
    reducesTo_S4096x3x256_S4096x256_d1 (by decide) h_S_ RefTerm.tab1 Cert.Relations.rel1 tab1_eq x w1 b1 w2 b2 b k

theorem fuse2_apply (x : FVec Ideal S4096x8x1024 .f32) (w1 : FVec Ideal S6144x256 .f32) (b1 : FVec Ideal S256 .f32)
    (w2 : FVec Ideal S256x256 .f32) (b2 : FVec Ideal S256 .f32) (b : Fin 4096) (k : Fin 256) :
    RefTerm.fuse2 (F := Ideal) x w1 b1 w2 b2 (ix2 b k)
      = Cert.Relations.fuse (Cert.Relations.rowOf x b) Cert.Relations.rel2 (Cert.Relations.mlpOf (s := 6) rfl w1 b1 w2 b2) k := by
  unfold RefTerm.fuse2
  exact fuse_apply (n := 3) (s := 6) (E := 6144) rfl _ _ _ _ ⟨rfl, rfl, rfl, rfl, rfl, rfl⟩ _ _ _ _ ⟨rfl, rfl, rfl, rfl, rfl, rfl⟩
    reducesTo_S4096x3x256_S4096x256_d1 (by decide) h_S_ RefTerm.tab2 Cert.Relations.rel2 tab2_eq x w1 b1 w2 b2 b k

theorem fuse3_apply (x : FVec Ideal S4096x8x1024 .f32) (w1 : FVec Ideal S5120x256 .f32) (b1 : FVec Ideal S256 .f32)
    (w2 : FVec Ideal S256x256 .f32) (b2 : FVec Ideal S256 .f32) (b : Fin 4096) (k : Fin 256) :
    RefTerm.fuse3 (F := Ideal) x w1 b1 w2 b2 (ix2 b k)
      = Cert.Relations.fuse (Cert.Relations.rowOf x b) Cert.Relations.rel3 (Cert.Relations.mlpOf (s := 5) rfl w1 b1 w2 b2) k := by
  unfold RefTerm.fuse3
  exact fuse_apply (n := 3) (s := 5) (E := 5120) rfl _ _ _ _ ⟨rfl, rfl, rfl, rfl, rfl, rfl⟩ _ _ _ _ ⟨rfl, rfl, rfl, rfl, rfl, rfl⟩
    reducesTo_S4096x3x256_S4096x256_d1 (by decide) h_S_ RefTerm.tab3 Cert.Relations.rel3 tab3_eq x w1 b1 w2 b2 b k

theorem fuse4_apply (x : FVec Ideal S4096x8x1024 .f32) (w1 : FVec Ideal S4096x256 .f32) (b1 : FVec Ideal S256 .f32)
    (w2 : FVec Ideal S256x256 .f32) (b2 : FVec Ideal S256 .f32) (b : Fin 4096) (k : Fin 256) :
    RefTerm.fuse4 (F := Ideal) x w1 b1 w2 b2 (ix2 b k)
      = Cert.Relations.fuse (Cert.Relations.rowOf x b) Cert.Relations.rel4 (Cert.Relations.mlpOf (s := 4) rfl w1 b1 w2 b2) k := by
  unfold RefTerm.fuse4
  exact fuse_apply (n := 3) (s := 4) (E := 4096) rfl _ _ _ _ ⟨rfl, rfl, rfl, rfl, rfl, rfl⟩ _ _ _ _ ⟨rfl, rfl, rfl, rfl, rfl, rfl⟩
    reducesTo_S4096x3x256_S4096x256_d1 (by decide) h_S_ RefTerm.tab4 Cert.Relations.rel4 tab4_eq x w1 b1 w2 b2 b k

theorem fuse5_apply (x : FVec Ideal S4096x8x1024 .f32) (w1 : FVec Ideal S3072x256 .f32) (b1 : FVec Ideal S256 .f32)
    (w2 : FVec Ideal S256x256 .f32) (b2 : FVec Ideal S256 .f32) (b : Fin 4096) (k : Fin 256) :
    RefTerm.fuse5 (F := Ideal) x w1 b1 w2 b2 (ix2 b k)
      = Cert.Relations.fuse (Cert.Relations.rowOf x b) Cert.Relations.rel5 (Cert.Relations.mlpOf (s := 3) rfl w1 b1 w2 b2) k := by
  unfold RefTerm.fuse5
  exact fuse_apply (n := 3) (s := 3) (E := 3072) rfl _ _ _ _ ⟨rfl, rfl, rfl, rfl, rfl, rfl⟩ _ _ _ _ ⟨rfl, rfl, rfl, rfl, rfl, rfl⟩
    reducesTo_S4096x3x256_S4096x256_d1 (by decide) h_S_ RefTerm.tab5 Cert.Relations.rel5 tab5_eq x w1 b1 w2 b2 b k

theorem fuse6_apply (x : FVec Ideal S4096x8x1024 .f32) (w1 : FVec Ideal S2048x256 .f32) (b1 : FVec Ideal S256 .f32)
    (w2 : FVec Ideal S256x256 .f32) (b2 : FVec Ideal S256 .f32) (b : Fin 4096) (k : Fin 256) :
    RefTerm.fuse6 (F := Ideal) x w1 b1 w2 b2 (ix2 b k)
      = Cert.Relations.fuse (Cert.Relations.rowOf x b) Cert.Relations.rel6 (Cert.Relations.mlpOf (s := 2) rfl w1 b1 w2 b2) k := by
  unfold RefTerm.fuse6
  exact fuse_apply (n := 3) (s := 2) (E := 2048) rfl _ _ _ _ ⟨rfl, rfl, rfl, rfl, rfl, rfl⟩ _ _ _ _ ⟨rfl, rfl, rfl, rfl, rfl, rfl⟩
    reducesTo_S4096x3x256_S4096x256_d1 (by decide) h_S_ RefTerm.tab6 Cert.Relations.rel6 tab6_eq x w1 b1 w2 b2 b k

/-! ## The result -/

/-- The host's general dot product of two matrices, at an entry. -/
theorem dot2_apply {M K N : ℕ} (D : DotDims ⟨2, ![M, K]⟩ ⟨2, ![K, N]⟩ ⟨2, ![M, N]⟩) (hD : Cert.LibDot.IsPlain D)
    (prec : Option ContractPrecision) (l : FVec Ideal ⟨2, ![M, K]⟩ .f32) (r : FVec Ideal ⟨2, ![K, N]⟩ .f32) (a : Fin M) (b : Fin N) :
    Host.dotGeneral D prec l r (ix2 a b) = ∑ k : Fin K, l (ix2 a k) * r (ix2 k b) :=
  Cert.LibDot.dotGeneral_apply D hD prec .single l r a b

/-- The 256 activations of batch row b are the specification's: the seven scales added, largest scale first. -/
theorem acts_apply (a0 : FVec Ideal S4096x8x1024 .f32)
    (a1 : FVec Ideal S8192x256 .f32) (a2 : FVec Ideal S256 .f32) (a3 : FVec Ideal S256x256 .f32) (a4 : FVec Ideal S256 .f32)
    (a5 : FVec Ideal S7168x256 .f32) (a6 : FVec Ideal S256 .f32) (a7 : FVec Ideal S256x256 .f32) (a8 : FVec Ideal S256 .f32)
    (a9 : FVec Ideal S6144x256 .f32) (a10 : FVec Ideal S256 .f32) (a11 : FVec Ideal S256x256 .f32) (a12 : FVec Ideal S256 .f32)
    (a13 : FVec Ideal S5120x256 .f32) (a14 : FVec Ideal S256 .f32) (a15 : FVec Ideal S256x256 .f32) (a16 : FVec Ideal S256 .f32)
    (a17 : FVec Ideal S4096x256 .f32) (a18 : FVec Ideal S256 .f32) (a19 : FVec Ideal S256x256 .f32) (a20 : FVec Ideal S256 .f32)
    (a21 : FVec Ideal S3072x256 .f32) (a22 : FVec Ideal S256 .f32) (a23 : FVec Ideal S256x256 .f32) (a24 : FVec Ideal S256 .f32)
    (a25 : FVec Ideal S2048x256 .f32) (a26 : FVec Ideal S256 .f32) (a27 : FVec Ideal S256x256 .f32) (a28 : FVec Ideal S256 .f32) (b : Fin 4096) (k : Fin 256) :
    RefTerm.acts (F := Ideal) a0 a1 a2 a3 a4 a5 a6 a7 a8 a9 a10 a11 a12 a13 a14 a15 a16 a17 a18 a19 a20 a21 a22 a23 a24 a25 a26 a27 a28 (ix2 b k)
      = Cert.Relations.act (Cert.Relations.rowOf a0 b)
          { P0 := Cert.Relations.mlpOf (s := 8) rfl a1 a2 a3 a4, P1 := Cert.Relations.mlpOf (s := 7) rfl a5 a6 a7 a8,
            P2 := Cert.Relations.mlpOf (s := 6) rfl a9 a10 a11 a12, P3 := Cert.Relations.mlpOf (s := 5) rfl a13 a14 a15 a16,
            P4 := Cert.Relations.mlpOf (s := 4) rfl a17 a18 a19 a20, P5 := Cert.Relations.mlpOf (s := 3) rfl a21 a22 a23 a24,
            P6 := Cert.Relations.mlpOf (s := 2) rfl a25 a26 a27 a28 } k := by
  unfold RefTerm.acts Cert.Relations.act
  simp only [addf_apply]
  rw [fuse0_apply, fuse1_apply, fuse2_apply, fuse3_apply, fuse4_apply, fuse5_apply, fuse6_apply]

/-- The reference's result is the specification's result of the 31 argument arrays. -/
theorem out_eq (a0 : FVec Ideal S4096x8x1024 .f32)
    (a1 : FVec Ideal S8192x256 .f32) (a2 : FVec Ideal S256 .f32) (a3 : FVec Ideal S256x256 .f32) (a4 : FVec Ideal S256 .f32)
    (a5 : FVec Ideal S7168x256 .f32) (a6 : FVec Ideal S256 .f32) (a7 : FVec Ideal S256x256 .f32) (a8 : FVec Ideal S256 .f32)
    (a9 : FVec Ideal S6144x256 .f32) (a10 : FVec Ideal S256 .f32) (a11 : FVec Ideal S256x256 .f32) (a12 : FVec Ideal S256 .f32)
    (a13 : FVec Ideal S5120x256 .f32) (a14 : FVec Ideal S256 .f32) (a15 : FVec Ideal S256x256 .f32) (a16 : FVec Ideal S256 .f32)
    (a17 : FVec Ideal S4096x256 .f32) (a18 : FVec Ideal S256 .f32) (a19 : FVec Ideal S256x256 .f32) (a20 : FVec Ideal S256 .f32)
    (a21 : FVec Ideal S3072x256 .f32) (a22 : FVec Ideal S256 .f32) (a23 : FVec Ideal S256x256 .f32) (a24 : FVec Ideal S256 .f32)
    (a25 : FVec Ideal S2048x256 .f32) (a26 : FVec Ideal S256 .f32) (a27 : FVec Ideal S256x256 .f32) (a28 : FVec Ideal S256 .f32)
    (a29 : FVec Ideal S256x400 .f32) (a30 : FVec Ideal S400 .f32) :
    RefTerm.out (F := Ideal) a0 a1 a2 a3 a4 a5 a6 a7 a8 a9 a10 a11 a12 a13 a14 a15 a16 a17 a18 a19 a20 a21 a22 a23 a24 a25 a26 a27 a28 a29 a30
      = Cert.Relations.resultOf a0 a1 a2 a3 a4 a5 a6 a7 a8 a9 a10 a11 a12 a13 a14 a15 a16 a17 a18 a19 a20 a21 a22 a23 a24 a25 a26 a27 a28 a29 a30 := by
  funext i
  obtain ⟨b, c, rfl⟩ : ∃ (b : Fin 4096) (c : Fin 400), i = ix2 b c := ⟨i 0, i 1, eq_ix2 i⟩
  unfold RefTerm.out
  rw [relu_apply, addf_apply, bias2_apply,
    dot2_apply dot_S4096x256_S256x400_S4096x400_1_0_0_1_n_n ⟨rfl, rfl, rfl, rfl, rfl, rfl⟩]
  unfold Cert.Relations.resultOf
  rw [Cert.Relations.result_ix2]
  unfold Cert.Relations.logits
  refine congrArg (max · 0) (congrArg (· + a30 (ix1 c)) (Finset.sum_congr rfl fun k _ => congrArg (· * a29 (ix2 k c)) ?_))
  exact acts_apply a0 a1 a2 a3 a4 a5 a6 a7 a8 a9 a10 a11 a12 a13 a14 a15 a16 a17 a18 a19 a20 a21 a22 a23 a24 a25 a26 a27 a28 b k

end Cert.ReferenceIdeal.RefRead

end
-- ==== Proof.lean ====
/-
  The certificate of one kernel against its reference: a stack of temporal-relation perceptrons over 8 frames.

  Both programs compute, for every batch row, the same function of the 31 argument arrays (`Cert.Relations.resultOf`, Proof/Spec.lean):
  per scale s = 8, …, 2 and per relation (an increasing choice of s frames), the rectified frames laid side by side go through a
  two-layer perceptron; the relation outputs are added over relations and scales; a last affine layer with 400 columns follows,
  every layer ending in the maximum with zero.

  The reference gathers the chosen frames, flattens them to s·1024 features and contracts them with the first-layer weights in ONE
  sum; the kernel, on 128 rows at a time, contracts each frame with its 1024-row slab of the weights and adds the s partial products
  up from zero — the same sum, regrouped as s tiles of 1024.  The kernel adds the 19 relation outputs up from zero in one chain, the
  reference sums each scale's relations and then adds the scales: the same sum, re-associated.  The kernel pads the last layer to 512
  columns and cuts the result back to 400: the first 400 columns never see the padding.  Changes of float format are the identity at
  the ideal instance.  Only commutativity and associativity of addition on the extended reals are used, so the precondition is never
  opened.

  The three frames: the two kernel programs' frame certificates (Proof/FrameBits.lean, Proof/FrameIdeal.lean) and the reference's
  run (Proof/RefRun.lean, Proof/RefValue.lean) with the result dropped.  The ideal pass recorded no rewrite, so `preserves` is `True`.
-/
import proofs.«106977_j18717467476122_2_alg».proof.Defs
import proofs.«106977_j18717467476122_2_alg».proof.Proof.Gen.Kernel
import proofs.«106977_j18717467476122_2_alg».proof.Proof.Gen.KernelIdeal
import proofs.«106977_j18717467476122_2_alg».proof.Proof.Gen.ReferenceIdeal
import proofs.«106977_j18717467476122_2_alg».proof.Proof.Gen.Pre_finite_inputs
import proofs.«106977_j18717467476122_2_alg».proof.Proof.FrameBits
import proofs.«106977_j18717467476122_2_alg».proof.Proof.KerValue
import proofs.«106977_j18717467476122_2_alg».proof.Proof.RefValue
import proofs.«106977_j18717467476122_2_alg».proof.Proof.RefRead
import Idealize.ShloMosaic.Adequacy
import Idealize.ShloMosaic.Init

noncomputable section

namespace Cert.Proof

open Idealize.ShloMosaic Idealize.SL.Sem

theorem frame_kernel : Cert.frame_Kernel := fun m ρ _ => Cert.Kernel.GenP.frame m ρ

theorem frame_kernelIdeal : Cert.frame_KernelIdeal := fun m ρ _ => Cert.KernelIdeal.GenP.frame m ρ

/-- The reference's run with the result dropped. -/
theorem frame_reference : Cert.frame_ReferenceIdeal := fun m ρ _ =>
  (θ_run Cert.ReferenceIdeal.defs _ _).mono (fun _ h c => (h c).2) (Cert.ReferenceIdeal.RefValue.run m ρ)

theorem preserves : Cert.preserves_Kernel_KernelIdeal := trivial

set_option maxHeartbeats 4000000 in
/-- From memories that agree on the arguments both programs end with the specification's result of those arguments. -/
theorem algebraic : Cert.algebraic_KernelIdeal_ReferenceIdeal := by
  intro m ρ m' ρ' _ hagree
  refine ⟨fun c => Cert.Relations.resultOf (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30)),
    Cert.KernelIdeal.Value.run m ρ, ?_⟩
  refine (θ_run Cert.ReferenceIdeal.defs _ _).mono (fun _ h c => ⟨(h c).1.trans ?_, (h c).2⟩)
    (Cert.ReferenceIdeal.RefValue.run m' ρ')
  rw [Cert.ReferenceIdeal.RefRead.out_eq]
  obtain ⟨e0, e1, e2, e3, e4, e5, e6, e7, e8, e9, e10, e11, e12, e13, e14, e15, e16, e17, e18, e19, e20, e21, e22, e23, e24, e25, e26, e27, e28, e29, e30⟩ := hagree c
  rw [e0, e1, e2, e3, e4, e5, e6, e7, e8, e9, e10, e11, e12, e13, e14, e15, e16, e17, e18, e19, e20, e21, e22, e23, e24, e25, e26, e27, e28, e29, e30]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
